-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v136) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x32 : Shape := ⟨2, ![200000, 32]⟩
abbrev S2x200000 : Shape := ⟨2, ![2, 200000]⟩
abbrev S50000 : Shape := ⟨1, ![50000]⟩
abbrev S160x256 : Shape := ⟨2, ![160, 256]⟩
abbrev S256 : Shape := ⟨1, ![256]⟩
abbrev S256x256 : Shape := ⟨2, ![256, 256]⟩
abbrev S288x256 : Shape := ⟨2, ![288, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x32 : S_.BroadcastsInDim S200000x32 (![] : Fin 0 → Fin S200000x32.rank)
  reducesTo_S200000x32_S_d0_1 : S200000x32.ReducesTo [0, 1] S_
  bcast_S_S160x256 : S_.BroadcastsInDim S160x256 (![] : Fin 0 → Fin S160x256.rank)
  reducesTo_S160x256_S_d0_1 : S160x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S288x256 : S_.BroadcastsInDim S288x256 (![] : Fin 0 → Fin S288x256.rank)
  reducesTo_S288x256_S_d0_1 : S288x256.ReducesTo [0, 1] S_

variable [Facts]

def fn_part5 {F : FTy → Type} [FloatOps F] (main_arg21 : FVec F S256 .f32) (main_arg22 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg21
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg22
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg17 : FVec F S288x256 .f32) (main_arg18 : FVec F S256 .f32) (main_arg19 : FVec F S256x256 .f32) (main_arg20 : FVec F S256 .f32) (main_arg21 : FVec F S256 .f32) (main_arg22 : FVec F S256 .f32) (main_v63 : IVec S_ 1) (main_v67 : IVec S_ 1) : IVec S_ 1 :=
  let main_v68 : IVec S_ 1 := andi main_v63 main_v67
  let main_v69 : FVec F S288x256 .f32 := Host.absf main_arg17
  let main_cst_26 : FVec F S_ .f32 := constant S_ .f32 0x7F800000#32
  let main_v70 : FVec F S288x256 .f32 := broadcastInDim S288x256 ![] bcast_S_S288x256 main_cst_26
  let main_v71 : IVec S288x256 1 := cmpf .olt main_v69 main_v70
  let main_c_27 : IVec S_ 1 := constantI S_ 1 1#1
  let main_v72 : IVec S_ 1 := (fun x v => Host.reduce IntOp.andi x v reducesTo_S288x256_S_d0_1 h_S_) main_v71 main_c_27
  let main_v73 : IVec S_ 1 := andi main_v68 main_v72
  let main_v74 : FVec F S256 .f32 := Host.absf main_arg18
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg19
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S256 .f32) (main_arg15 : FVec F S256 .f32) (main_arg16 : FVec F S256 .f32) (main_arg17 : FVec F S288x256 .f32) (main_arg18 : FVec F S256 .f32) (main_arg19 : FVec F S256x256 .f32) (main_arg20 : FVec F S256 .f32) (main_arg21 : FVec F S256 .f32) (main_arg22 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg14
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg17 main_arg18 main_arg19 main_arg20 main_arg21 main_arg22 main_v63 main_v67

def fn_part2 {F : FTy → Type} [FloatOps F] (main_arg10 : FVec F S256 .f32) (main_arg11 : FVec F S288x256 .f32) (main_arg12 : FVec F S256 .f32) (main_arg13 : FVec F S256x256 .f32) (main_arg14 : FVec F S256 .f32) (main_arg15 : FVec F S256 .f32) (main_arg16 : FVec F S256 .f32) (main_arg17 : FVec F S288x256 .f32) (main_arg18 : FVec F S256 .f32) (main_arg19 : FVec F S256x256 .f32) (main_arg20 : FVec F S256 .f32) (main_arg21 : FVec F S256 .f32) (main_arg22 : FVec F S256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S288x256 .f32 := Host.absf main_arg11
  let main_cst_14 : FVec F S_ .f32 := constant S_ .f32 0x7F800000#32
  let main_v40 : FVec F S288x256 .f32 := broadcastInDim S288x256 ![] bcast_S_S288x256 main_cst_14
  let main_v41 : IVec S288x256 1 := cmpf .olt main_v39 main_v40
  let main_c_15 : IVec S_ 1 := constantI S_ 1 1#1
  let main_v42 : IVec S_ 1 := (fun x v => Host.reduce IntOp.andi x v reducesTo_S288x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg13
  let main_cst_18 : FVec F S_ .f32 := constant S_ .f32 0x7F800000#32
  let main_v50 : FVec F S256x256 .f32 := broadcastInDim S256x256 ![] bcast_S_S256x256 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S256x256 .f32) (main_arg8 : FVec F S256 .f32) (main_arg9 : FVec F S256 .f32) (main_arg10 : FVec F S256 .f32) (main_arg11 : FVec F S288x256 .f32) (main_arg12 : FVec F S256 .f32) (main_arg13 : FVec F S256x256 .f32) (main_arg14 : FVec F S256 .f32) (main_arg15 : FVec F S256 .f32) (main_arg16 : FVec F S256 .f32) (main_arg17 : FVec F S288x256 .f32) (main_arg18 : FVec F S256 .f32) (main_arg19 : FVec F S256x256 .f32) (main_arg20 : FVec F S256 .f32) (main_arg21 : FVec F S256 .f32) (main_arg22 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S200000x32 .f32) (main_arg2 : IVec S2x200000 32) (main_arg3 : IVec S50000 32) (main_arg4 : IVec S50000 32) (main_arg5 : FVec F S160x256 .f32) (main_arg6 : FVec F S256 .f32) (main_arg7 : FVec F S256x256 .f32) (main_arg8 : FVec F S256 .f32) (main_arg9 : FVec F S256 .f32) (main_arg10 : FVec F S256 .f32) (main_arg11 : FVec F S288x256 .f32) (main_arg12 : FVec F S256 .f32) (main_arg13 : FVec F S256x256 .f32) (main_arg14 : FVec F S256 .f32) (main_arg15 : FVec F S256 .f32) (main_arg16 : FVec F S256 .f32) (main_arg17 : FVec F S288x256 .f32) (main_arg18 : FVec F S256 .f32) (main_arg19 : FVec F S256x256 .f32) (main_arg20 : FVec F S256 .f32) (main_arg21 : FVec F S256 .f32) (main_arg22 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x32 .f32 := Host.absf main_arg1
  let main_cst_0 : FVec F S_ .f32 := constant S_ .f32 0x7F800000#32
  let main_v5 : FVec F S200000x32 .f32 := broadcastInDim S200000x32 ![] bcast_S_S200000x32 main_cst_0
  let main_v6 : IVec S200000x32 1 := cmpf .olt main_v4 main_v5
  let main_c_1 : IVec S_ 1 := constantI S_ 1 1#1
  let main_v7 : IVec S_ 1 := (fun x v => Host.reduce IntOp.andi x v reducesTo_S200000x32_S_d0_1 h_S_) main_v6 main_c_1
  let main_v8 : IVec S_ 1 := andi main_v3 main_v7
  let main_v9 : FVec F S160x256 .f32 := Host.absf main_arg5
  let main_cst_2 : FVec F S_ .f32 := constant S_ .f32 0x7F800000#32
  let main_v10 : FVec F S160x256 .f32 := broadcastInDim S160x256 ![] bcast_S_S160x256 main_cst_2
  let main_v11 : IVec S160x256 1 := cmpf .olt main_v9 main_v10
  let main_c_3 : IVec S_ 1 := constantI S_ 1 1#1
  let main_v12 : IVec S_ 1 := (fun x v => Host.reduce IntOp.andi x v reducesTo_S160x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S200000x32 : Shape := ⟨2, ![200000, 32]⟩
abbrev S2x200000 : Shape := ⟨2, ![2, 200000]⟩
abbrev S50000 : Shape := ⟨1, ![50000]⟩
abbrev S160x256 : Shape := ⟨2, ![160, 256]⟩
abbrev S256 : Shape := ⟨1, ![256]⟩
abbrev S256x256 : Shape := ⟨2, ![256, 256]⟩
abbrev S288x256 : Shape := ⟨2, ![288, 256]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x128 : Shape := ⟨2, ![200000, 128]⟩
abbrev S200000x160 : Shape := ⟨2, ![200000, 160]⟩
abbrev S50000x160 : Shape := ⟨2, ![50000, 160]⟩
abbrev S1 : Shape := ⟨1, ![1]⟩
abbrev S1x256 : Shape := ⟨2, ![1, 256]⟩
abbrev S50000x256 : Shape := ⟨2, ![50000, 256]⟩
abbrev S2000x160 : Shape := ⟨2, ![2000, 160]⟩
abbrev S2000x256 : Shape := ⟨2, ![2000, 256]⟩
abbrev S200000x256 : Shape := ⟨2, ![200000, 256]⟩
abbrev S200000x288 : Shape := ⟨2, ![200000, 288]⟩
abbrev S50000x288 : Shape := ⟨2, ![50000, 288]⟩
abbrev S2000x288 : Shape := ⟨2, ![2000, 288]⟩
abbrev S10000 : Shape := ⟨1, ![10000]⟩
abbrev S50000x1 : Shape := ⟨2, ![50000, 1]⟩
abbrev S10000x256 : Shape := ⟨2, ![10000, 256]⟩
abbrev S2000 : Shape := ⟨1, ![2000]⟩

abbrev nBuf : Space → Nat
  | .hbm => 208
  | .vmem => 54
  | .smem => 0
  | _ => 0

abbrev hbmTy0_0 (i : Nat) : BufTy := match i % 128 with
  | 0 => ⟨S50000x128, .f32⟩
  | 1 => ⟨S200000x32, .f32⟩
  | 2 => ⟨S2x200000, .i32⟩
  | 3 => ⟨S50000, .i32⟩
  | 4 => ⟨S50000, .i32⟩
  | 5 => ⟨S160x256, .f32⟩
  | 6 => ⟨S256, .f32⟩
  | 7 => ⟨S256x256, .f32⟩
  | 8 => ⟨S256, .f32⟩
  | 9 => ⟨S256, .f32⟩
  | 10 => ⟨S256, .f32⟩
  | 11 => ⟨S288x256, .f32⟩
  | 12 => ⟨S256, .f32⟩
  | 13 => ⟨S256x256, .f32⟩
  | 14 => ⟨S256, .f32⟩
  | 15 => ⟨S256, .f32⟩
  | 16 => ⟨S256, .f32⟩
  | 17 => ⟨S288x256, .f32⟩
  | 18 => ⟨S256, .f32⟩
  | 19 => ⟨S256x256, .f32⟩
  | 20 => ⟨S256, .f32⟩
  | 21 => ⟨S256, .f32⟩
  | 22 => ⟨S256, .f32⟩
  | 23 => ⟨S1x200000, .i32⟩
  | 24 => ⟨S200000, .i32⟩
  | 25 => ⟨S1x200000, .i32⟩
  | 26 => ⟨S200000, .i32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S200000x160, .f32⟩
  | 37 => ⟨S_, .f32⟩
  | 38 => ⟨S200000x160, .f32⟩
  | 39 => ⟨S200000x160, .f32⟩
  | 40 => ⟨S_, .f32⟩
  | 41 => ⟨S50000x160, .f32⟩
  | 42 => ⟨S200000x1, .i32⟩
  | 43 => ⟨S50000x160, .f32⟩
  | 44 => ⟨S_, .f32⟩
  | 45 => ⟨S50000x128, .f32⟩
  | 46 => ⟨S50000x128, .f32⟩
  | 47 => ⟨S_, .i32⟩
  | 48 => ⟨S1, .i32⟩
  | 49 => ⟨S50000x160, .f32⟩
  | 50 => ⟨S1x256, .f32⟩
  | 51 => ⟨S1x256, .f32⟩
  | 52 => ⟨S50000x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S50000x256, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x256, .f32⟩
  | 79 => ⟨S200000x288, .f32⟩
  | 80 => ⟨S_, .f32⟩
  | 81 => ⟨S200000x288, .f32⟩
  | 82 => ⟨S200000x288, .f32⟩
  | 83 => ⟨S_, .f32⟩
  | 84 => ⟨S50000x288, .f32⟩
  | 85 => ⟨S200000x1, .i32⟩
  | 86 => ⟨S50000x288, .f32⟩
  | 87 => ⟨S_, .f32⟩
  | 88 => ⟨S50000x256, .f32⟩
  | 89 => ⟨S50000x256, .f32⟩
  | 90 => ⟨S_, .i32⟩
  | 91 => ⟨S1, .i32⟩
  | 92 => ⟨S50000x288, .f32⟩
  | 93 => ⟨S1x256, .f32⟩
  | 94 => ⟨S1x256, .f32⟩
  | 95 => ⟨S50000x256, .f32⟩
  | 96 => ⟨S1x256, .f32⟩
  | 97 => ⟨S1x256, .f32⟩
  | 98 => ⟨S_, .f32⟩
  | 99 => ⟨S1x256, .f32⟩
  | 100 => ⟨S1x256, .f32⟩
  | 101 => ⟨S_, .f32⟩
  | 102 => ⟨S1x256, .f32⟩
  | 103 => ⟨S1x256, .f32⟩
  | 104 => ⟨S1x256, .f32⟩
  | 105 => ⟨S1x256, .f32⟩
  | 106 => ⟨S_, .f32⟩
  | 107 => ⟨S1x256, .f32⟩
  | 108 => ⟨S1x256, .f32⟩
  | 109 => ⟨S1x256, .f32⟩
  | 110 => ⟨S1x256, .f32⟩
  | 111 => ⟨S1x256, .f32⟩
  | 112 => ⟨S50000x256, .f32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x256, .f32⟩
  | 122 => ⟨S200000x288, .f32⟩
  | 123 => ⟨S_, .f32⟩
  | 124 => ⟨S200000x288, .f32⟩
  | 125 => ⟨S200000x288, .f32⟩
  | 126 => ⟨S_, .f32⟩
  | 127 => ⟨S50000x288, .f32⟩
  | _ => ⟨S50000x128, .f32⟩

abbrev hbmTy0_1 (i : Nat) : BufTy := match i % 128 with
  | 0 => ⟨S200000x1, .i32⟩
  | 1 => ⟨S50000x288, .f32⟩
  | 2 => ⟨S_, .f32⟩
  | 3 => ⟨S50000x256, .f32⟩
  | 4 => ⟨S50000x256, .f32⟩
  | 5 => ⟨S_, .i32⟩
  | 6 => ⟨S1, .i32⟩
  | 7 => ⟨S50000x288, .f32⟩
  | 8 => ⟨S1x256, .f32⟩
  | 9 => ⟨S1x256, .f32⟩
  | 10 => ⟨S50000x256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S_, .f32⟩
  | 17 => ⟨S1x256, .f32⟩
  | 18 => ⟨S1x256, .f32⟩
  | 19 => ⟨S1x256, .f32⟩
  | 20 => ⟨S1x256, .f32⟩
  | 21 => ⟨S_, .f32⟩
  | 22 => ⟨S1x256, .f32⟩
  | 23 => ⟨S1x256, .f32⟩
  | 24 => ⟨S1x256, .f32⟩
  | 25 => ⟨S1x256, .f32⟩
  | 26 => ⟨S1x256, .f32⟩
  | 27 => ⟨S50000x256, .f32⟩
  | 28 => ⟨S_, .f32⟩
  | 29 => ⟨S50000, .f32⟩
  | 30 => ⟨S_, .f32⟩
  | 31 => ⟨S10000, .f32⟩
  | 32 => ⟨S50000x1, .i32⟩
  | 33 => ⟨S10000, .f32⟩
  | 34 => ⟨S_, .f32⟩
  | 35 => ⟨S10000, .f32⟩
  | 36 => ⟨S10000, .f32⟩
  | 37 => ⟨S10000, .f32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S50000, .f32⟩
  | 47 => ⟨S50000x1, .f32⟩
  | 48 => ⟨S50000x256, .f32⟩
  | 49 => ⟨S50000x256, .f32⟩
  | 50 => ⟨S_, .f32⟩
  | 51 => ⟨S10000x256, .f32⟩
  | 52 => ⟨S50000x1, .i32⟩
  | 53 => ⟨S10000x256, .f32⟩
  | 54 => ⟨S_, .f32⟩
  | 55 => ⟨S50000, .f32⟩
  | 56 => ⟨S_, .f32⟩
  | 57 => ⟨S2000, .f32⟩
  | 58 => ⟨S50000x1, .i32⟩
  | 59 => ⟨S2000, .f32⟩
  | 60 => ⟨S_, .f32⟩
  | 61 => ⟨S2000, .f32⟩
  | 62 => ⟨S2000, .f32⟩
  | 63 => ⟨S2000, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000, .f32⟩
  | 73 => ⟨S50000x1, .f32⟩
  | 74 => ⟨S50000x256, .f32⟩
  | 75 => ⟨S50000x256, .f32⟩
  | 76 => ⟨S_, .f32⟩
  | 77 => ⟨S2000x256, .f32⟩
  | 78 => ⟨S50000x1, .i32⟩
  | 79 => ⟨S2000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x160, .f32⟩
  | .local _ .vmem, ⟨1, _⟩ => ⟨S2000x160, .f32⟩
  | .local _ .vmem, ⟨2, _⟩ => ⟨S160x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x288, .f32⟩
  | .local _ .vmem, ⟨19, _⟩ => ⟨S2000x288, .f32⟩
  | .local _ .vmem, ⟨20, _⟩ => ⟨S288x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x288, .f32⟩
  | .local _ .vmem, ⟨37, _⟩ => ⟨S2000x288, .f32⟩
  | .local _ .vmem, ⟨38, _⟩ => ⟨S288x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call0_cst : Ref sig .tc := ⟨.hbm, 37, rfl⟩
abbrev main_call0_v0 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22_0 : Ref sig .tc := ⟨.hbm, 52, rfl⟩
abbrev main_v22_1 : Ref sig .tc := ⟨.hbm, 53, rfl⟩
abbrev main_v22_2 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call1_cst : Ref sig .tc := ⟨.hbm, 80, rfl⟩
abbrev main_call1_v0 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_c_10 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53_0 : Ref sig .tc := ⟨.hbm, 95, rfl⟩
abbrev main_v53_1 : Ref sig .tc := ⟨.hbm, 96, rfl⟩
abbrev main_v53_2 : Ref sig .tc := ⟨.hbm, 97, rfl⟩
abbrev main_cst_11 : Ref sig .tc := ⟨.hbm, 98, rfl⟩
abbrev main_v54 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_13 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_14 : Ref sig .tc := ⟨.hbm, 113, rfl⟩
abbrev main_v66 : Ref sig .tc := ⟨.hbm, 114, rfl⟩
abbrev main_v67 : Ref sig .tc := ⟨.hbm, 115, rfl⟩
abbrev main_c_15 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_call2_cst : Ref sig .tc := ⟨.hbm, 123, rfl⟩
abbrev main_call2_v0 : Ref sig .tc := ⟨.hbm, 124, rfl⟩
abbrev main_v74 : Ref sig .tc := ⟨.hbm, 125, rfl⟩
abbrev main_cst_16 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_17 : Ref sig .tc := ⟨.hbm, 130, rfl⟩
abbrev main_v78 : Ref sig .tc := ⟨.hbm, 131, rfl⟩
abbrev main_v79 : Ref sig .tc := ⟨.hbm, 132, rfl⟩
abbrev main_c_18 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84_0 : Ref sig .tc := ⟨.hbm, 138, rfl⟩
abbrev main_v84_1 : Ref sig .tc := ⟨.hbm, 139, rfl⟩
abbrev main_v84_2 : Ref sig .tc := ⟨.hbm, 140, rfl⟩
abbrev main_cst_19 : Ref sig .tc := ⟨.hbm, 141, rfl⟩
abbrev main_v85 : Ref sig .tc := ⟨.hbm, 142, rfl⟩
abbrev main_v86 : Ref sig .tc := ⟨.hbm, 143, rfl⟩
abbrev main_cst_20 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_21 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_22 : Ref sig .tc := ⟨.hbm, 156, rfl⟩
abbrev main_v97 : Ref sig .tc := ⟨.hbm, 157, rfl⟩
abbrev main_cst_23 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_24 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_25 : Ref sig .tc := ⟨.hbm, 166, rfl⟩
abbrev main_v104 : Ref sig .tc := ⟨.hbm, 167, rfl⟩
abbrev main_v105 : Ref sig .tc := ⟨.hbm, 168, rfl⟩
abbrev main_c_26 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_27 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_28 : Ref sig .tc := ⟨.hbm, 182, rfl⟩
abbrev main_v117 : Ref sig .tc := ⟨.hbm, 183, rfl⟩
abbrev main_cst_29 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_30 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_c_31 : Ref sig .tc := ⟨.hbm, 192, rfl⟩
abbrev main_v124 : Ref sig .tc := ⟨.hbm, 193, rfl⟩
abbrev main_v125 : Ref sig .tc := ⟨.hbm, 194, rfl⟩
abbrev main_c_32 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_cst_33 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S288x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x288 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S288x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x32_S200000x160_d1 : Shape.Concatenates [S200000x128, S200000x32] S200000x160 1
  bcast_S_S200000x160 : S_.BroadcastsInDim S200000x160 (![] : Fin 0 → Fin S200000x160.rank)
  bcast_S_S50000x160 : S_.BroadcastsInDim S50000x160 (![] : Fin 0 → Fin S50000x160.rank)
  bcast_S_S50000x128 : S_.BroadcastsInDim S50000x128 (![] : Fin 0 → Fin S50000x128.rank)
  bcast_S_S1 : S_.BroadcastsInDim S1 (![] : Fin 0 → Fin S1.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x160_S2000x160_0_0 : ∀ a, (![0, 0] : Fin 2 → Nat) a + S2000x160.size a ≤ S2000x160.size a
  h_S2000x160 : 0 < S2000x160.numel
  shapeCasts_S2000x160_S2000x160 : S2000x160.ShapeCasts S2000x160
  bitsLt_bf16_f32 : FTy.bits .bf16 < FTy.bits .f32
  inb_S160x256_S160x256_0_0 : ∀ a, (![0, 0] : Fin 2 → Nat) a + S160x256.size a ≤ S160x256.size a
  h_S160x256 : 0 < S160x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S1x256 : S_.BroadcastsInDim S1x256 (![] : Fin 0 → Fin S1x256.rank)
  shapeCasts_S2000x256_S2000x256 : S2000x256.ShapeCasts S2000x256
  concatenates_S200000x256_S200000x32_S200000x288_d1 : Shape.Concatenates [S200000x256, S200000x32] S200000x288 1
  bcast_S_S200000x288 : S_.BroadcastsInDim S200000x288 (![] : Fin 0 → Fin S200000x288.rank)
  bcast_S_S50000x288 : S_.BroadcastsInDim S50000x288 (![] : Fin 0 → Fin S50000x288.rank)
  bcast_S_S50000x256 : S_.BroadcastsInDim S50000x256 (![] : Fin 0 → Fin S50000x256.rank)
  inb_S2000x288_S2000x288_0_0 : ∀ a, (![0, 0] : Fin 2 → Nat) a + S2000x288.size a ≤ S2000x288.size a
  h_S2000x288 : 0 < S2000x288.numel
  shapeCasts_S2000x288_S2000x288 : S2000x288.ShapeCasts S2000x288
  inb_S288x256_S288x256_0_0 : ∀ a, (![0, 0] : Fin 2 → Nat) a + S288x256.size a ≤ S288x256.size a
  h_S288x256 : 0 < S288x256.numel
  bcast_S_S50000 : S_.BroadcastsInDim S50000 (![] : Fin 0 → Fin S50000.rank)
  bcast_S_S10000 : S_.BroadcastsInDim S10000 (![] : Fin 0 → Fin S10000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S10000x256 : S_.BroadcastsInDim S10000x256 (![] : Fin 0 → Fin S10000x256.rank)
  bcast_S_S2000 : S_.BroadcastsInDim S2000 (![] : Fin 0 → Fin S2000.rank)
  bcast_S_S2000x256 : S_.BroadcastsInDim S2000x256 (![] : Fin 0 → Fin S2000x256.rank)
  gather_S50000x128_S200000x1_S200000x128_1_0_n_n_0_1_1128_wf : GatherDims.WF S50000x128 S200000x1 S200000x128 [1] [0] [] [0] [] 1 ![1, 128]
  scatter_S50000x160_S200000x1_S200000x160_1_0_0_1_wf : ScatterDims.WF S50000x160 S200000x1 S200000x160 [1] [0] [0] 1
  scatter_S50000x160_S1_S50000x128_01_n_1_0_wf : ScatterDims.WF S50000x160 S1 S50000x128 [0, 1] [] [1] 0
  dot_S2000x160_S160x256_S2000x256_1_0_0_1_n_n_wf : DotDims.WF S2000x160 S160x256 S2000x256 [1] [0] [0] [1] [] []
  dot_S2000x256_S256x256_S2000x256_1_0_0_1_n_n_wf : DotDims.WF S2000x256 S256x256 S2000x256 [1] [0] [0] [1] [] []
  gather_S50000x256_S200000x1_S200000x256_1_0_n_n_0_1_1256_wf : GatherDims.WF S50000x256 S200000x1 S200000x256 [1] [0] [] [0] [] 1 ![1, 256]
  scatter_S50000x288_S200000x1_S200000x288_1_0_0_1_wf : ScatterDims.WF S50000x288 S200000x1 S200000x288 [1] [0] [0] 1
  scatter_S50000x288_S1_S50000x256_01_n_1_0_wf : ScatterDims.WF S50000x288 S1 S50000x256 [0, 1] [] [1] 0
  dot_S2000x288_S288x256_S2000x256_1_0_0_1_n_n_wf : DotDims.WF S2000x288 S288x256 S2000x256 [1] [0] [0] [1] [] []
  scatter_S10000_S50000x1_S50000_n_0_0_1_wf : ScatterDims.WF S10000 S50000x1 S50000 [] [0] [0] 1
  gather_S10000_S50000x1_S50000_n_0_n_n_0_1_1_wf : GatherDims.WF S10000 S50000x1 S50000 [] [0] [] [0] [] 1 ![1]
  scatter_S10000x256_S50000x1_S50000x256_1_0_0_1_wf : ScatterDims.WF S10000x256 S50000x1 S50000x256 [1] [0] [0] 1
  scatter_S2000_S50000x1_S50000_n_0_0_1_wf : ScatterDims.WF S2000 S50000x1 S50000 [] [0] [0] 1
  gather_S2000_S50000x1_S50000_n_0_n_n_0_1_1_wf : GatherDims.WF S2000 S50000x1 S50000 [] [0] [] [0] [] 1 ![1]
  scatter_S2000x256_S50000x1_S50000x256_1_0_0_1_wf : ScatterDims.WF S2000x256 S50000x1 S50000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x160.size a ≤ S50000x160.size a
  hwx0_0 : ∀ i : grid0.Coords, EltTy.bits .f32 = 32 ∨ (Rect.block (s := S50000x160) S2000x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x256.size a ≤ S160x256.size a
  hwx0_1 : ∀ i : grid0.Coords, EltTy.bits .f32 = 32 ∨ (Rect.block (s := S160x256) S160x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x288.size a ≤ S50000x288.size a
  hwx2_0 : ∀ i : grid2.Coords, EltTy.bits .f32 = 32 ∨ (Rect.block (s := S50000x288) S2000x288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S288x256.size a ≤ S288x256.size a
  hwx2_1 : ∀ i : grid2.Coords, EltTy.bits .f32 = 32 ∨ (Rect.block (s := S288x256) S288x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x288.size a ≤ S50000x288.size a
  hwx4_0 : ∀ i : grid4.Coords, EltTy.bits .f32 = 32 ∨ (Rect.block (s := S50000x288) S2000x288.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S288x256.size a ≤ S288x256.size a
  hwx4_1 : ∀ i : grid4.Coords, EltTy.bits .f32 = 32 ∨ (Rect.block (s := S288x256) S288x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S50000x160_S200000x1_S200000x160_1_0_0_1 : ScatterDims S50000x160 S200000x1 S200000x160 where
  updateWindowDims := [1]
  insertedWindowDims := [0]
  scatterDimsToOperandDims := [0]
  indexVectorDim := 1
  wf := scatter_S50000x160_S200000x1_S200000x160_1_0_0_1_wf
def scatter_S50000x160_S1_S50000x128_01_n_1_0 : ScatterDims S50000x160 S1 S50000x128 where
  updateWindowDims := [0, 1]
  insertedWindowDims := []
  scatterDimsToOperandDims := [1]
  indexVectorDim := 0
  wf := scatter_S50000x160_S1_S50000x128_01_n_1_0_wf
def dot_S2000x160_S160x256_S2000x256_1_0_0_1_n_n : DotDims S2000x160 S160x256 S2000x256 where
  lhsContracting := [1]
  rhsContracting := [0]
  lhsNonContracting := [0]
  rhsNonContracting := [1]
  lhsBatch := []
  rhsBatch := []
  wf := dot_S2000x160_S160x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x288_S200000x1_S200000x288_1_0_0_1 : ScatterDims S50000x288 S200000x1 S200000x288 where
  updateWindowDims := [1]
  insertedWindowDims := [0]
  scatterDimsToOperandDims := [0]
  indexVectorDim := 1
  wf := scatter_S50000x288_S200000x1_S200000x288_1_0_0_1_wf
def scatter_S50000x288_S1_S50000x256_01_n_1_0 : ScatterDims S50000x288 S1 S50000x256 where
  updateWindowDims := [0, 1]
  insertedWindowDims := []
  scatterDimsToOperandDims := [1]
  indexVectorDim := 0
  wf := scatter_S50000x288_S1_S50000x256_01_n_1_0_wf
def dot_S2000x288_S288x256_S2000x256_1_0_0_1_n_n : DotDims S2000x288 S288x256 S2000x256 where
  lhsContracting := [1]
  rhsContracting := [0]
  lhsNonContracting := [0]
  rhsNonContracting := [1]
  lhsBatch := []
  rhsBatch := []
  wf := dot_S2000x288_S288x256_S2000x256_1_0_0_1_n_n_wf
def scatter_S10000_S50000x1_S50000_n_0_0_1 : ScatterDims S10000 S50000x1 S50000 where
  updateWindowDims := []
  insertedWindowDims := [0]
  scatterDimsToOperandDims := [0]
  indexVectorDim := 1
  wf := scatter_S10000_S50000x1_S50000_n_0_0_1_wf
def gather_S10000_S50000x1_S50000_n_0_n_n_0_1_1 : GatherDims S10000 S50000x1 S50000 where
  offsetDims := []
  collapsedSliceDims := [0]
  operandBatchingDims := []
  startIndicesBatchingDims := []
  startIndexMap := [0]
  indexVectorDim := 1
  sliceSizes := ![1]
  wf := gather_S10000_S50000x1_S50000_n_0_n_n_0_1_1_wf
def scatter_S10000x256_S50000x1_S50000x256_1_0_0_1 : ScatterDims S10000x256 S50000x1 S50000x256 where
  updateWindowDims := [1]
  insertedWindowDims := [0]
  scatterDimsToOperandDims := [0]
  indexVectorDim := 1
  wf := scatter_S10000x256_S50000x1_S50000x256_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def gather_S2000_S50000x1_S50000_n_0_n_n_0_1_1 : GatherDims S2000 S50000x1 S50000 where
  offsetDims := []
  collapsedSliceDims := [0]
  operandBatchingDims := []
  startIndicesBatchingDims := []
  startIndexMap := [0]
  indexVectorDim := 1
  sliceSizes := ![1]
  wf := gather_S2000_S50000x1_S50000_n_0_n_n_0_1_1_wf
def scatter_S2000x256_S50000x1_S50000x256_1_0_0_1 : ScatterDims S2000x256 S50000x1 S50000x256 where
  updateWindowDims := [1]
  insertedWindowDims := [0]
  scatterDimsToOperandDims := [0]
  indexVectorDim := 1
  wf := scatter_S2000x256_S50000x1_S50000x256_1_0_0_1_wf

abbrev win0_0 : Pipeline.Window sig grid0 :=
  Pipeline.Window.ofSpec (Memref.whole main_v19) S2000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S160x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S288x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v53_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S2000x288.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S288x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v84_1) S1x256.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84_2) S1x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v84_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S200000x32 : Shape := ⟨2, ![200000, 32]⟩
abbrev S2x200000 : Shape := ⟨2, ![2, 200000]⟩
abbrev S50000 : Shape := ⟨1, ![50000]⟩
abbrev S160x256 : Shape := ⟨2, ![160, 256]⟩
abbrev S256 : Shape := ⟨1, ![256]⟩
abbrev S256x256 : Shape := ⟨2, ![256, 256]⟩
abbrev S288x256 : Shape := ⟨2, ![288, 256]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x128 : Shape := ⟨2, ![200000, 128]⟩
abbrev S200000x160 : Shape := ⟨2, ![200000, 160]⟩
abbrev S50000x160 : Shape := ⟨2, ![50000, 160]⟩
abbrev S1 : Shape := ⟨1, ![1]⟩
abbrev S50000x256 : Shape := ⟨2, ![50000, 256]⟩
abbrev S1x256 : Shape := ⟨2, ![1, 256]⟩
abbrev S200000x256 : Shape := ⟨2, ![200000, 256]⟩
abbrev S200000x288 : Shape := ⟨2, ![200000, 288]⟩
abbrev S50000x288 : Shape := ⟨2, ![50000, 288]⟩
abbrev S10000 : Shape := ⟨1, ![10000]⟩
abbrev S50000x1 : Shape := ⟨2, ![50000, 1]⟩
abbrev S10000x256 : Shape := ⟨2, ![10000, 256]⟩
abbrev S2000 : Shape := ⟨1, ![2000]⟩
abbrev S2000x256 : Shape := ⟨2, ![2000, 256]⟩

abbrev nBuf : Space → Nat
  | .hbm => 322
  | .vmem => 0
  | .smem => 0
  | _ => 0

abbrev hbmTy0_0 (i : Nat) : BufTy := match i % 128 with
  | 0 => ⟨S50000x128, .f32⟩
  | 1 => ⟨S200000x32, .f32⟩
  | 2 => ⟨S2x200000, .i32⟩
  | 3 => ⟨S50000, .i32⟩
  | 4 => ⟨S50000, .i32⟩
  | 5 => ⟨S160x256, .f32⟩
  | 6 => ⟨S256, .f32⟩
  | 7 => ⟨S256x256, .f32⟩
  | 8 => ⟨S256, .f32⟩
  | 9 => ⟨S256, .f32⟩
  | 10 => ⟨S256, .f32⟩
  | 11 => ⟨S288x256, .f32⟩
  | 12 => ⟨S256, .f32⟩
  | 13 => ⟨S256x256, .f32⟩
  | 14 => ⟨S256, .f32⟩
  | 15 => ⟨S256, .f32⟩
  | 16 => ⟨S256, .f32⟩
  | 17 => ⟨S288x256, .f32⟩
  | 18 => ⟨S256, .f32⟩
  | 19 => ⟨S256x256, .f32⟩
  | 20 => ⟨S256, .f32⟩
  | 21 => ⟨S256, .f32⟩
  | 22 => ⟨S256, .f32⟩
  | 23 => ⟨S1x200000, .i32⟩
  | 24 => ⟨S200000, .i32⟩
  | 25 => ⟨S1x200000, .i32⟩
  | 26 => ⟨S200000, .i32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S200000x160, .f32⟩
  | 37 => ⟨S_, .f32⟩
  | 38 => ⟨S200000x160, .f32⟩
  | 39 => ⟨S200000x160, .f32⟩
  | 40 => ⟨S_, .f32⟩
  | 41 => ⟨S50000x160, .f32⟩
  | 42 => ⟨S200000x1, .i32⟩
  | 43 => ⟨S50000x160, .f32⟩
  | 44 => ⟨S_, .f32⟩
  | 45 => ⟨S50000x128, .f32⟩
  | 46 => ⟨S50000x128, .f32⟩
  | 47 => ⟨S_, .i32⟩
  | 48 => ⟨S1, .i32⟩
  | 49 => ⟨S50000x160, .f32⟩
  | 50 => ⟨S50000x256, .f32⟩
  | 51 => ⟨S1x256, .f32⟩
  | 52 => ⟨S50000x256, .f32⟩
  | 53 => ⟨S50000x256, .f32⟩
  | 54 => ⟨S_, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S256, .f32⟩
  | 66 => ⟨S_, .f32⟩
  | 67 => ⟨S256, .f32⟩
  | 68 => ⟨S256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S50000x256, .f32⟩
  | 77 => ⟨S50000x256, .f32⟩
  | 78 => ⟨S50000x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S256, .f32⟩
  | 100 => ⟨S256, .f32⟩
  | 101 => ⟨S256, .f32⟩
  | 102 => ⟨S1x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S200000x256, .f32⟩
  | 117 => ⟨S200000x288, .f32⟩
  | 118 => ⟨S_, .f32⟩
  | 119 => ⟨S200000x288, .f32⟩
  | 120 => ⟨S200000x288, .f32⟩
  | 121 => ⟨S_, .f32⟩
  | 122 => ⟨S50000x288, .f32⟩
  | 123 => ⟨S200000x1, .i32⟩
  | 124 => ⟨S50000x288, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S_, .i32⟩
  | 1 => ⟨S1, .i32⟩
  | 2 => ⟨S50000x288, .f32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S_, .f32⟩
  | 18 => ⟨S256, .f32⟩
  | 19 => ⟨S_, .f32⟩
  | 20 => ⟨S256, .f32⟩
  | 21 => ⟨S256, .f32⟩
  | 22 => ⟨S_, .i32⟩
  | 23 => ⟨S_, .f32⟩
  | 24 => ⟨S256, .f32⟩
  | 25 => ⟨S1x256, .f32⟩
  | 26 => ⟨S_, .f32⟩
  | 27 => ⟨S1x256, .f32⟩
  | 28 => ⟨S1x256, .f32⟩
  | 29 => ⟨S50000x256, .f32⟩
  | 30 => ⟨S50000x256, .f32⟩
  | 31 => ⟨S50000x256, .f32⟩
  | 32 => ⟨S_, .f32⟩
  | 33 => ⟨S_, .f32⟩
  | 34 => ⟨S_, .f32⟩
  | 35 => ⟨S_, .f32⟩
  | 36 => ⟨S256, .f32⟩
  | 37 => ⟨S256, .f32⟩
  | 38 => ⟨S256, .f32⟩
  | 39 => ⟨S_, .f32⟩
  | 40 => ⟨S_, .i1⟩
  | 41 => ⟨S_, .f32⟩
  | 42 => ⟨S_, .f32⟩
  | 43 => ⟨S256, .f32⟩
  | 44 => ⟨S256, .f32⟩
  | 45 => ⟨S1x256, .f32⟩
  | 46 => ⟨S50000x256, .f32⟩
  | 47 => ⟨S50000x256, .f32⟩
  | 48 => ⟨S1x256, .f32⟩
  | 49 => ⟨S50000x256, .f32⟩
  | 50 => ⟨S50000x256, .f32⟩
  | 51 => ⟨S_, .f32⟩
  | 52 => ⟨S256, .f32⟩
  | 53 => ⟨S256, .f32⟩
  | 54 => ⟨S256, .f32⟩
  | 55 => ⟨S1x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x256, .f32⟩
  | 70 => ⟨S200000x288, .f32⟩
  | 71 => ⟨S_, .f32⟩
  | 72 => ⟨S200000x288, .f32⟩
  | 73 => ⟨S200000x288, .f32⟩
  | 74 => ⟨S_, .f32⟩
  | 75 => ⟨S50000x288, .f32⟩
  | 76 => ⟨S200000x1, .i32⟩
  | 77 => ⟨S50000x288, .f32⟩
  | 78 => ⟨S_, .f32⟩
  | 79 => ⟨S50000x256, .f32⟩
  | 80 => ⟨S50000x256, .f32⟩
  | 81 => ⟨S_, .i32⟩
  | 82 => ⟨S1, .i32⟩
  | 83 => ⟨S50000x288, .f32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S50000x256, .f32⟩
  | _ => ⟨S50000x128, .f32⟩

abbrev hbmTy0_2 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S256, .f32⟩
  | 6 => ⟨S256, .f32⟩
  | 7 => ⟨S256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000, .f32⟩
  | 16 => ⟨S_, .f32⟩
  | 17 => ⟨S10000, .f32⟩
  | 18 => ⟨S50000x1, .i32⟩
  | 19 => ⟨S10000, .f32⟩
  | 20 => ⟨S_, .f32⟩
  | 21 => ⟨S10000, .f32⟩
  | 22 => ⟨S10000, .f32⟩
  | 23 => ⟨S10000, .f32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000, .f32⟩
  | 33 => ⟨S50000x1, .f32⟩
  | 34 => ⟨S50000x256, .f32⟩
  | 35 => ⟨S50000x256, .f32⟩
  | 36 => ⟨S_, .f32⟩
  | 37 => ⟨S10000x256, .f32⟩
  | 38 => ⟨S50000x1, .i32⟩
  | 39 => ⟨S10000x256, .f32⟩
  | 40 => ⟨S_, .f32⟩
  | 41 => ⟨S50000, .f32⟩
  | 42 => ⟨S_, .f32⟩
  | 43 => ⟨S2000, .f32⟩
  | 44 => ⟨S50000x1, .i32⟩
  | 45 => ⟨S2000, .f32⟩
  | 46 => ⟨S_, .f32⟩
  | 47 => ⟨S2000, .f32⟩
  | 48 => ⟨S2000, .f32⟩
  | 49 => ⟨S2000, .f32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S50000, .f32⟩
  | 59 => ⟨S50000x1, .f32⟩
  | 60 => ⟨S50000x256, .f32⟩
  | 61 => ⟨S50000x256, .f32⟩
  | 62 => ⟨S_, .f32⟩
  | 63 => ⟨S2000x256, .f32⟩
  | 64 => ⟨S50000x1, .i32⟩
  | 65 => ⟨S2000x256, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call0_cst : Ref sig .tc := ⟨.hbm, 37, rfl⟩
abbrev main_call0_v0 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_cst : Ref sig .tc := ⟨.hbm, 54, rfl⟩
abbrev main_call1_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call2_cst : Ref sig .tc := ⟨.hbm, 61, rfl⟩
abbrev main_call2_v0 : Ref sig .tc := ⟨.hbm, 62, rfl⟩
abbrev main_v29 : Ref sig .tc := ⟨.hbm, 63, rfl⟩
abbrev main_cst_3 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_call3_cst : Ref sig .tc := ⟨.hbm, 70, rfl⟩
abbrev main_call3_v0 : Ref sig .tc := ⟨.hbm, 71, rfl⟩
abbrev main_call3_v1 : Ref sig .tc := ⟨.hbm, 72, rfl⟩
abbrev main_call3_cst_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_cst_1 : Ref sig .tc := ⟨.hbm, 80, rfl⟩
abbrev main_call3_v8 : Ref sig .tc := ⟨.hbm, 81, rfl⟩
abbrev main_call3_cst_2 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_cst_3 : Ref sig .tc := ⟨.hbm, 86, rfl⟩
abbrev main_call3_v12 : Ref sig .tc := ⟨.hbm, 87, rfl⟩
abbrev main_call3_cst_4 : Ref sig .tc := ⟨.hbm, 88, rfl⟩
abbrev main_call3_call0_v0 : Ref sig .tc := ⟨.hbm, 89, rfl⟩
abbrev main_call3_call0_v1 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_6 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_c_7 : Ref sig .tc := ⟨.hbm, 108, rfl⟩
abbrev main_v49 : Ref sig .tc := ⟨.hbm, 109, rfl⟩
abbrev main_v50 : Ref sig .tc := ⟨.hbm, 110, rfl⟩
abbrev main_c_8 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_call4_cst : Ref sig .tc := ⟨.hbm, 118, rfl⟩
abbrev main_call4_v0 : Ref sig .tc := ⟨.hbm, 119, rfl⟩
abbrev main_v57 : Ref sig .tc := ⟨.hbm, 120, rfl⟩
abbrev main_cst_9 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_10 : Ref sig .tc := ⟨.hbm, 125, rfl⟩
abbrev main_v61 : Ref sig .tc := ⟨.hbm, 126, rfl⟩
abbrev main_v62 : Ref sig .tc := ⟨.hbm, 127, rfl⟩
abbrev main_c_11 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_call5_cst : Ref sig .tc := ⟨.hbm, 135, rfl⟩
abbrev main_call5_v0 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_call6_cst : Ref sig .tc := ⟨.hbm, 142, rfl⟩
abbrev main_call6_v0 : Ref sig .tc := ⟨.hbm, 143, rfl⟩
abbrev main_v74 : Ref sig .tc := ⟨.hbm, 144, rfl⟩
abbrev main_cst_12 : Ref sig .tc := ⟨.hbm, 145, rfl⟩
abbrev main_v75 : Ref sig .tc := ⟨.hbm, 146, rfl⟩
abbrev main_cst_13 : Ref sig .tc := ⟨.hbm, 147, rfl⟩
abbrev main_v76 : Ref sig .tc := ⟨.hbm, 148, rfl⟩
abbrev main_v77 : Ref sig .tc := ⟨.hbm, 149, rfl⟩
abbrev main_c_14 : Ref sig .tc := ⟨.hbm, 150, rfl⟩
abbrev main_call7_cst : Ref sig .tc := ⟨.hbm, 151, rfl⟩
abbrev main_call7_v0 : Ref sig .tc := ⟨.hbm, 152, rfl⟩
abbrev main_call7_v1 : Ref sig .tc := ⟨.hbm, 153, rfl⟩
abbrev main_call7_cst_0 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_call7_v5 : Ref sig .tc := ⟨.hbm, 158, rfl⟩
abbrev main_call7_v6 : Ref sig .tc := ⟨.hbm, 159, rfl⟩
abbrev main_call7_v7 : Ref sig .tc := ⟨.hbm, 160, rfl⟩
abbrev main_call7_cst_1 : Ref sig .tc := ⟨.hbm, 161, rfl⟩
abbrev main_call7_v8 : Ref sig .tc := ⟨.hbm, 162, rfl⟩
abbrev main_call7_cst_2 : Ref sig .tc := ⟨.hbm, 163, rfl⟩
abbrev main_call7_v9 : Ref sig .tc := ⟨.hbm, 164, rfl⟩
abbrev main_call7_v10 : Ref sig .tc := ⟨.hbm, 165, rfl⟩
abbrev main_call7_v11 : Ref sig .tc := ⟨.hbm, 166, rfl⟩
abbrev main_call7_cst_3 : Ref sig .tc := ⟨.hbm, 167, rfl⟩
abbrev main_call7_v12 : Ref sig .tc := ⟨.hbm, 168, rfl⟩
abbrev main_call7_cst_4 : Ref sig .tc := ⟨.hbm, 169, rfl⟩
abbrev main_call7_call0_v0 : Ref sig .tc := ⟨.hbm, 170, rfl⟩
abbrev main_call7_call0_v1 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_15 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_c_16 : Ref sig .tc := ⟨.hbm, 189, rfl⟩
abbrev main_v94 : Ref sig .tc := ⟨.hbm, 190, rfl⟩
abbrev main_v95 : Ref sig .tc := ⟨.hbm, 191, rfl⟩
abbrev main_c_17 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_call8_cst : Ref sig .tc := ⟨.hbm, 199, rfl⟩
abbrev main_call8_v0 : Ref sig .tc := ⟨.hbm, 200, rfl⟩
abbrev main_v102 : Ref sig .tc := ⟨.hbm, 201, rfl⟩
abbrev main_cst_18 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_cst_19 : Ref sig .tc := ⟨.hbm, 206, rfl⟩
abbrev main_v106 : Ref sig .tc := ⟨.hbm, 207, rfl⟩
abbrev main_v107 : Ref sig .tc := ⟨.hbm, 208, rfl⟩
abbrev main_c_20 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_call9_cst : Ref sig .tc := ⟨.hbm, 216, rfl⟩
abbrev main_call9_v0 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_call10_cst : Ref sig .tc := ⟨.hbm, 223, rfl⟩
abbrev main_call10_v0 : Ref sig .tc := ⟨.hbm, 224, rfl⟩
abbrev main_v119 : Ref sig .tc := ⟨.hbm, 225, rfl⟩
abbrev main_cst_21 : Ref sig .tc := ⟨.hbm, 226, rfl⟩
abbrev main_v120 : Ref sig .tc := ⟨.hbm, 227, rfl⟩
abbrev main_cst_22 : Ref sig .tc := ⟨.hbm, 228, rfl⟩
abbrev main_v121 : Ref sig .tc := ⟨.hbm, 229, rfl⟩
abbrev main_v122 : Ref sig .tc := ⟨.hbm, 230, rfl⟩
abbrev main_c_23 : Ref sig .tc := ⟨.hbm, 231, rfl⟩
abbrev main_call11_cst : Ref sig .tc := ⟨.hbm, 232, rfl⟩
abbrev main_call11_v0 : Ref sig .tc := ⟨.hbm, 233, rfl⟩
abbrev main_call11_v1 : Ref sig .tc := ⟨.hbm, 234, rfl⟩
abbrev main_call11_cst_0 : Ref sig .tc := ⟨.hbm, 235, rfl⟩
abbrev main_call11_v2 : Ref sig .tc := ⟨.hbm, 236, rfl⟩
abbrev main_call11_v3 : Ref sig .tc := ⟨.hbm, 237, rfl⟩
abbrev main_call11_v4 : Ref sig .tc := ⟨.hbm, 238, rfl⟩
abbrev main_call11_v5 : Ref sig .tc := ⟨.hbm, 239, rfl⟩
abbrev main_call11_v6 : Ref sig .tc := ⟨.hbm, 240, rfl⟩
abbrev main_call11_v7 : Ref sig .tc := ⟨.hbm, 241, rfl⟩
abbrev main_call11_cst_1 : Ref sig .tc := ⟨.hbm, 242, rfl⟩
abbrev main_call11_v8 : Ref sig .tc := ⟨.hbm, 243, rfl⟩
abbrev main_call11_cst_2 : Ref sig .tc := ⟨.hbm, 244, rfl⟩
abbrev main_call11_v9 : Ref sig .tc := ⟨.hbm, 245, rfl⟩
abbrev main_call11_v10 : Ref sig .tc := ⟨.hbm, 246, rfl⟩
abbrev main_call11_v11 : Ref sig .tc := ⟨.hbm, 247, rfl⟩
abbrev main_call11_cst_3 : Ref sig .tc := ⟨.hbm, 248, rfl⟩
abbrev main_call11_v12 : Ref sig .tc := ⟨.hbm, 249, rfl⟩
abbrev main_call11_cst_4 : Ref sig .tc := ⟨.hbm, 250, rfl⟩
abbrev main_call11_call0_v0 : Ref sig .tc := ⟨.hbm, 251, rfl⟩
abbrev main_call11_call0_v1 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_cst_24 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_cst_25 : Ref sig .tc := ⟨.hbm, 270, rfl⟩
abbrev main_v139 : Ref sig .tc := ⟨.hbm, 271, rfl⟩
abbrev main_cst_26 : Ref sig .tc := ⟨.hbm, 272, rfl⟩
abbrev main_v140 : Ref sig .tc := ⟨.hbm, 273, rfl⟩
abbrev main_v141 : Ref sig .tc := ⟨.hbm, 274, rfl⟩
abbrev main_v142 : Ref sig .tc := ⟨.hbm, 275, rfl⟩
abbrev main_cst_27 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_c_28 : Ref sig .tc := ⟨.hbm, 280, rfl⟩
abbrev main_v146 : Ref sig .tc := ⟨.hbm, 281, rfl⟩
abbrev main_v147 : Ref sig .tc := ⟨.hbm, 282, rfl⟩
abbrev main_c_29 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_cst_30 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_cst_31 : Ref sig .tc := ⟨.hbm, 296, rfl⟩
abbrev main_v159 : Ref sig .tc := ⟨.hbm, 297, rfl⟩
abbrev main_cst_32 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_cst_33 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_c_34 : Ref sig .tc := ⟨.hbm, 306, rfl⟩
abbrev main_v166 : Ref sig .tc := ⟨.hbm, 307, rfl⟩
abbrev main_v167 : Ref sig .tc := ⟨.hbm, 308, rfl⟩
abbrev main_c_35 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_cst_36 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x32_S200000x160_d1 : Shape.Concatenates [S200000x128, S200000x32] S200000x160 1
  bcast_S_S200000x160 : S_.BroadcastsInDim S200000x160 (![] : Fin 0 → Fin S200000x160.rank)
  bcast_S_S50000x160 : S_.BroadcastsInDim S50000x160 (![] : Fin 0 → Fin S50000x160.rank)
  bcast_S_S50000x128 : S_.BroadcastsInDim S50000x128 (![] : Fin 0 → Fin S50000x128.rank)
  bcast_S_S1 : S_.BroadcastsInDim S1 (![] : Fin 0 → Fin S1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  concatenates_S200000x256_S200000x32_S200000x288_d1 : Shape.Concatenates [S200000x256, S200000x32] S200000x288 1
  bcast_S_S200000x288 : S_.BroadcastsInDim S200000x288 (![] : Fin 0 → Fin S200000x288.rank)
  bcast_S_S50000x288 : S_.BroadcastsInDim S50000x288 (![] : Fin 0 → Fin S50000x288.rank)
  bcast_S_S50000 : S_.BroadcastsInDim S50000 (![] : Fin 0 → Fin S50000.rank)
  bcast_S_S10000 : S_.BroadcastsInDim S10000 (![] : Fin 0 → Fin S10000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S10000x256 : S_.BroadcastsInDim S10000x256 (![] : Fin 0 → Fin S10000x256.rank)
  bcast_S_S2000 : S_.BroadcastsInDim S2000 (![] : Fin 0 → Fin S2000.rank)
  bcast_S_S2000x256 : S_.BroadcastsInDim S2000x256 (![] : Fin 0 → Fin S2000x256.rank)
  gather_S50000x128_S200000x1_S200000x128_1_0_n_n_0_1_1128_wf : GatherDims.WF S50000x128 S200000x1 S200000x128 [1] [0] [] [0] [] 1 ![1, 128]
  scatter_S50000x160_S200000x1_S200000x160_1_0_0_1_wf : ScatterDims.WF S50000x160 S200000x1 S200000x160 [1] [0] [0] 1
  scatter_S50000x160_S1_S50000x128_01_n_1_0_wf : ScatterDims.WF S50000x160 S1 S50000x128 [0, 1] [] [1] 0
  dot_S50000x160_S160x256_S50000x256_1_0_0_1_n_n_wf : DotDims.WF S50000x160 S160x256 S50000x256 [1] [0] [0] [1] [] []
  dot_S50000x256_S256x256_S50000x256_1_0_0_1_n_n_wf : DotDims.WF S50000x256 S256x256 S50000x256 [1] [0] [0] [1] [] []
  gather_S50000x256_S200000x1_S200000x256_1_0_n_n_0_1_1256_wf : GatherDims.WF S50000x256 S200000x1 S200000x256 [1] [0] [] [0] [] 1 ![1, 256]
  scatter_S50000x288_S200000x1_S200000x288_1_0_0_1_wf : ScatterDims.WF S50000x288 S200000x1 S200000x288 [1] [0] [0] 1
  scatter_S50000x288_S1_S50000x256_01_n_1_0_wf : ScatterDims.WF S50000x288 S1 S50000x256 [0, 1] [] [1] 0
  dot_S50000x288_S288x256_S50000x256_1_0_0_1_n_n_wf : DotDims.WF S50000x288 S288x256 S50000x256 [1] [0] [0] [1] [] []
  scatter_S10000_S50000x1_S50000_n_0_0_1_wf : ScatterDims.WF S10000 S50000x1 S50000 [] [0] [0] 1
  gather_S10000_S50000x1_S50000_n_0_n_n_0_1_1_wf : GatherDims.WF S10000 S50000x1 S50000 [] [0] [] [0] [] 1 ![1]
  scatter_S10000x256_S50000x1_S50000x256_1_0_0_1_wf : ScatterDims.WF S10000x256 S50000x1 S50000x256 [1] [0] [0] 1
  scatter_S2000_S50000x1_S50000_n_0_0_1_wf : ScatterDims.WF S2000 S50000x1 S50000 [] [0] [0] 1
  gather_S2000_S50000x1_S50000_n_0_n_n_0_1_1_wf : GatherDims.WF S2000 S50000x1 S50000 [] [0] [] [0] [] 1 ![1]
  scatter_S2000x256_S50000x1_S50000x256_1_0_0_1_wf : ScatterDims.WF S2000x256 S50000x1 S50000x256 [1] [0] [0] 1

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S50000x160_S200000x1_S200000x160_1_0_0_1 : ScatterDims S50000x160 S200000x1 S200000x160 where
  updateWindowDims := [1]
  insertedWindowDims := [0]
  scatterDimsToOperandDims := [0]
  indexVectorDim := 1
  wf := scatter_S50000x160_S200000x1_S200000x160_1_0_0_1_wf
def scatter_S50000x160_S1_S50000x128_01_n_1_0 : ScatterDims S50000x160 S1 S50000x128 where
  updateWindowDims := [0, 1]
  insertedWindowDims := []
  scatterDimsToOperandDims := [1]
  indexVectorDim := 0
  wf := scatter_S50000x160_S1_S50000x128_01_n_1_0_wf
def dot_S50000x160_S160x256_S50000x256_1_0_0_1_n_n : DotDims S50000x160 S160x256 S50000x256 where
  lhsContracting := [1]
  rhsContracting := [0]
  lhsNonContracting := [0]
  rhsNonContracting := [1]
  lhsBatch := []
  rhsBatch := []
  wf := dot_S50000x160_S160x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x288_S200000x1_S200000x288_1_0_0_1 : ScatterDims S50000x288 S200000x1 S200000x288 where
  updateWindowDims := [1]
  insertedWindowDims := [0]
  scatterDimsToOperandDims := [0]
  indexVectorDim := 1
  wf := scatter_S50000x288_S200000x1_S200000x288_1_0_0_1_wf
def scatter_S50000x288_S1_S50000x256_01_n_1_0 : ScatterDims S50000x288 S1 S50000x256 where
  updateWindowDims := [0, 1]
  insertedWindowDims := []
  scatterDimsToOperandDims := [1]
  indexVectorDim := 0
  wf := scatter_S50000x288_S1_S50000x256_01_n_1_0_wf
def dot_S50000x288_S288x256_S50000x256_1_0_0_1_n_n : DotDims S50000x288 S288x256 S50000x256 where
  lhsContracting := [1]
  rhsContracting := [0]
  lhsNonContracting := [0]
  rhsNonContracting := [1]
  lhsBatch := []
  rhsBatch := []
  wf := dot_S50000x288_S288x256_S50000x256_1_0_0_1_n_n_wf
def scatter_S10000_S50000x1_S50000_n_0_0_1 : ScatterDims S10000 S50000x1 S50000 where
  updateWindowDims := []
  insertedWindowDims := [0]
  scatterDimsToOperandDims := [0]
  indexVectorDim := 1
  wf := scatter_S10000_S50000x1_S50000_n_0_0_1_wf
def gather_S10000_S50000x1_S50000_n_0_n_n_0_1_1 : GatherDims S10000 S50000x1 S50000 where
  offsetDims := []
  collapsedSliceDims := [0]
  operandBatchingDims := []
  startIndicesBatchingDims := []
  startIndexMap := [0]
  indexVectorDim := 1
  sliceSizes := ![1]
  wf := gather_S10000_S50000x1_S50000_n_0_n_n_0_1_1_wf
def scatter_S10000x256_S50000x1_S50000x256_1_0_0_1 : ScatterDims S10000x256 S50000x1 S50000x256 where
  updateWindowDims := [1]
  insertedWindowDims := [0]
  scatterDimsToOperandDims := [0]
  indexVectorDim := 1
  wf := scatter_S10000x256_S50000x1_S50000x256_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def gather_S2000_S50000x1_S50000_n_0_n_n_0_1_1 : GatherDims S2000 S50000x1 S50000 where
  offsetDims := []
  collapsedSliceDims := [0]
  operandBatchingDims := []
  startIndicesBatchingDims := []
  startIndexMap := [0]
  indexVectorDim := 1
  sliceSizes := ![1]
  wf := gather_S2000_S50000x1_S50000_n_0_n_n_0_1_1_wf
def scatter_S2000x256_S50000x1_S50000x256_1_0_0_1 : ScatterDims S2000x256 S50000x1 S50000x256 where
  updateWindowDims := [1]
  insertedWindowDims := [0]
  scatterDimsToOperandDims := [0]
  indexVectorDim := 1
  wf := scatter_S2000x256_S50000x1_S50000x256_1_0_0_1_wf

class Facts : Prop extends Facts₀ where

variable [Facts]
-- ==== Proof.KRun.lean ====
import proofs.«164030_j60206851555878_1_alg».proof.Proof.Gen.KernelIdeal.Frame

/-! The tiled program's run with both results named: every weakly fair execution of the entry
    function on the TensorCores terminates, and in every final state the two result buffers hold the
    last boundary's contents (the fold `Gen.W19`) and every argument buffer what it held at launch. -/

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the run terminates without fault; the final state has the two
    results at the last boundary's contents and the arguments as launched. -/
theorem run_vals : θ_run defs (onTc (τ := τ) (main (F := F))) ⟨m, fun _ => 0, ρ⟩ (fun r => ∀ c : Dev nD,
      r.2.mem ((c.tc : Thread nD τ).loc main_v116) = Gen.W19 m ρ c (Proc.devRef .tc main_v116)
      ∧ r.2.mem ((c.tc : Thread nD τ).loc main_v136) = Gen.W19 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v116 (by decide)),
       h c _ (mem_uc main_v136 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c),
       (h c _ (mem_uc main_arg21 (by decide))).trans (W19_main_arg21 m ρ c),
       (h c _ (mem_uc main_arg22 (by decide))).trans (W19_main_arg22 m ρ c)⟩)

end Cert.KernelIdeal.KValue

end
-- ==== Proof.KFoldKeep.lean ====
import proofs.«164030_j60206851555878_1_alg».proof.Proof.Gen.KernelIdeal.Launch

/-! What each stretch of host operations leaves alone: the list of the buffers the stretch writes,
    and that a buffer outside the list holds after the stretch what it held before it. -/

set_option maxRecDepth 16384

noncomputable section

namespace Cert.KernelIdeal.KValue

open Idealize.ShloMosaic Idealize.ShloMosaic.TcCoe
open Cert.KernelIdeal Cert.KernelIdeal.Gen

variable {F : FTy → Type} [FloatOps F]

/-- The buffers `hostOps0` writes, in order. -/
abbrev hostOps0_W : List (Ref sig .tc) := [main_v0, main_v1, main_v2, main_v3, main_c, main_v4, main_v5, main_c_0, main_v6, main_v7, main_v8, main_v9, main_v10, main_v11]
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps0` does not write keeps its contents across it. -/
theorem hostOps0_keep (V : Valuation τ sig (Elt F)) {r : Ref sig .tc} (h : r ∉ hostOps0_W) :
    StableHlo.after hostOps0 V (Proc.devRef .tc r) = V (Proc.devRef .tc r) :=
  StableHlo.after_of_writes_sub hostOps0 V hostOps0_writes h

/-- The buffers `hostOps0_1` writes, in order. -/
abbrev hostOps0_1_W : List (Ref sig .tc) := [main_call0_cst, main_call0_v0, main_v12]
theorem hostOps0_1_writes : (hostOps0_1 : List (HloOp τ sig (Elt F))).Forall fun op => op.writes ⊆ ((hostOps0_1_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps0_1` does not write keeps its contents across it. -/
theorem hostOps0_1_keep (V : Valuation τ sig (Elt F)) {r : Ref sig .tc} (h : r ∉ hostOps0_1_W) :
    StableHlo.after hostOps0_1 V (Proc.devRef .tc r) = V (Proc.devRef .tc r) :=
  StableHlo.after_of_writes_sub hostOps0_1 V hostOps0_1_writes h

/-- The buffers `hostOps0_2` writes, in order. -/
abbrev hostOps0_2_W : List (Ref sig .tc) := [main_cst, main_v13, main_v14, main_v15, main_cst_1, main_v16, main_v17, main_c_2, main_v18, main_v19, main_v20, main_v21]
theorem hostOps0_2_writes : (hostOps0_2 : List (HloOp τ sig (Elt F))).Forall fun op => op.writes ⊆ ((hostOps0_2_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps0_2` does not write keeps its contents across it. -/
theorem hostOps0_2_keep (V : Valuation τ sig (Elt F)) {r : Ref sig .tc} (h : r ∉ hostOps0_2_W) :
    StableHlo.after hostOps0_2 V (Proc.devRef .tc r) = V (Proc.devRef .tc r) :=
  StableHlo.after_of_writes_sub hostOps0_2 V hostOps0_2_writes h

/-- The buffers `hostOps1` writes, in order. -/
abbrev hostOps1_W : List (Ref sig .tc) := [main_cst_3, main_v23, main_v24, main_cst_4, main_v25, main_v26, main_v27, main_v28, main_cst_5, main_v29, main_v30, main_v31, main_v32, main_v33]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps1` does not write keeps its contents across it. -/
theorem hostOps1_keep (V : Valuation τ sig (Elt F)) {r : Ref sig .tc} (h : r ∉ hostOps1_W) :
    StableHlo.after hostOps1 V (Proc.devRef .tc r) = V (Proc.devRef .tc r) :=
  StableHlo.after_of_writes_sub hostOps1 V hostOps1_writes h

/-- The buffers `hostOps2` writes, in order. -/
abbrev hostOps2_W : List (Ref sig .tc) := [main_c_6, main_v35, main_v36, main_c_7, main_v37, main_v38, main_v39, main_v40, main_v41, main_v42]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps2` does not write keeps its contents across it. -/
theorem hostOps2_keep (V : Valuation τ sig (Elt F)) {r : Ref sig .tc} (h : r ∉ hostOps2_W) :
    StableHlo.after hostOps2 V (Proc.devRef .tc r) = V (Proc.devRef .tc r) :=
  StableHlo.after_of_writes_sub hostOps2 V hostOps2_writes h

/-- The buffers `hostOps2_1` writes, in order. -/
abbrev hostOps2_1_W : List (Ref sig .tc) := [main_call1_cst, main_call1_v0, main_v43]
theorem hostOps2_1_writes : (hostOps2_1 : List (HloOp τ sig (Elt F))).Forall fun op => op.writes ⊆ ((hostOps2_1_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps2_1` does not write keeps its contents across it. -/
theorem hostOps2_1_keep (V : Valuation τ sig (Elt F)) {r : Ref sig .tc} (h : r ∉ hostOps2_1_W) :
    StableHlo.after hostOps2_1 V (Proc.devRef .tc r) = V (Proc.devRef .tc r) :=
  StableHlo.after_of_writes_sub hostOps2_1 V hostOps2_1_writes h

/-- The buffers `hostOps2_2` writes, in order. -/
abbrev hostOps2_2_W : List (Ref sig .tc) := [main_cst_8, main_v44, main_v45, main_v46, main_cst_9, main_v47, main_v48, main_c_10, main_v49, main_v50, main_v51, main_v52]
theorem hostOps2_2_writes : (hostOps2_2 : List (HloOp τ sig (Elt F))).Forall fun op => op.writes ⊆ ((hostOps2_2_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps2_2` does not write keeps its contents across it. -/
theorem hostOps2_2_keep (V : Valuation τ sig (Elt F)) {r : Ref sig .tc} (h : r ∉ hostOps2_2_W) :
    StableHlo.after hostOps2_2 V (Proc.devRef .tc r) = V (Proc.devRef .tc r) :=
  StableHlo.after_of_writes_sub hostOps2_2 V hostOps2_2_writes h

/-- The buffers `hostOps3` writes, in order. -/
abbrev hostOps3_W : List (Ref sig .tc) := [main_cst_11, main_v54, main_v55, main_cst_12, main_v56, main_v57, main_v58, main_v59, main_cst_13, main_v60, main_v61, main_v62, main_v63, main_v64]
theorem hostOps3_writes : (hostOps3 : List (HloOp τ sig (Elt F))).Forall fun op => op.writes ⊆ ((hostOps3_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps3` does not write keeps its contents across it. -/
theorem hostOps3_keep (V : Valuation τ sig (Elt F)) {r : Ref sig .tc} (h : r ∉ hostOps3_W) :
    StableHlo.after hostOps3 V (Proc.devRef .tc r) = V (Proc.devRef .tc r) :=
  StableHlo.after_of_writes_sub hostOps3 V hostOps3_writes h

/-- The buffers `hostOps4` writes, in order. -/
abbrev hostOps4_W : List (Ref sig .tc) := [main_c_14, main_v66, main_v67, main_c_15, main_v68, main_v69, main_v70, main_v71, main_v72, main_v73]
theorem hostOps4_writes : (hostOps4 : List (HloOp τ sig (Elt F))).Forall fun op => op.writes ⊆ ((hostOps4_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps4` does not write keeps its contents across it. -/
theorem hostOps4_keep (V : Valuation τ sig (Elt F)) {r : Ref sig .tc} (h : r ∉ hostOps4_W) :
    StableHlo.after hostOps4 V (Proc.devRef .tc r) = V (Proc.devRef .tc r) :=
  StableHlo.after_of_writes_sub hostOps4 V hostOps4_writes h

/-- The buffers `hostOps4_1` writes, in order. -/
abbrev hostOps4_1_W : List (Ref sig .tc) := [main_call2_cst, main_call2_v0, main_v74]
theorem hostOps4_1_writes : (hostOps4_1 : List (HloOp τ sig (Elt F))).Forall fun op => op.writes ⊆ ((hostOps4_1_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps4_1` does not write keeps its contents across it. -/
theorem hostOps4_1_keep (V : Valuation τ sig (Elt F)) {r : Ref sig .tc} (h : r ∉ hostOps4_1_W) :
    StableHlo.after hostOps4_1 V (Proc.devRef .tc r) = V (Proc.devRef .tc r) :=
  StableHlo.after_of_writes_sub hostOps4_1 V hostOps4_1_writes h

/-- The buffers `hostOps4_2` writes, in order. -/
abbrev hostOps4_2_W : List (Ref sig .tc) := [main_cst_16, main_v75, main_v76, main_v77, main_cst_17, main_v78, main_v79, main_c_18, main_v80, main_v81, main_v82, main_v83]
theorem hostOps4_2_writes : (hostOps4_2 : List (HloOp τ sig (Elt F))).Forall fun op => op.writes ⊆ ((hostOps4_2_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps4_2` does not write keeps its contents across it. -/
theorem hostOps4_2_keep (V : Valuation τ sig (Elt F)) {r : Ref sig .tc} (h : r ∉ hostOps4_2_W) :
    StableHlo.after hostOps4_2 V (Proc.devRef .tc r) = V (Proc.devRef .tc r) :=
  StableHlo.after_of_writes_sub hostOps4_2 V hostOps4_2_writes h

/-- The buffers `hostOps5` writes, in order. -/
abbrev hostOps5_W : List (Ref sig .tc) := [main_cst_19, main_v85, main_v86, main_cst_20, main_v87, main_v88, main_v89, main_v90, main_cst_21, main_v91, main_v92, main_v93, main_v94, main_v95]
theorem hostOps5_writes : (hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps5` does not write keeps its contents across it. -/
theorem hostOps5_keep (V : Valuation τ sig (Elt F)) {r : Ref sig .tc} (h : r ∉ hostOps5_W) :
    StableHlo.after hostOps5 V (Proc.devRef .tc r) = V (Proc.devRef .tc r) :=
  StableHlo.after_of_writes_sub hostOps5 V hostOps5_writes h

/-- The buffers `hostOps6` writes, in order. -/
abbrev hostOps6_W : List (Ref sig .tc) := [main_cst_22, main_v97, main_cst_23, main_v98, main_v99, main_v100, main_cst_24, main_v101, main_v102, main_v103, main_c_25, main_v104, main_v105, main_c_26, main_v106, main_v107, main_v108, main_v109, main_v110, main_v111, main_v112, main_v113, main_cst_27, main_v114, main_v115, main_v116, main_cst_28, main_v117, main_cst_29, main_v118, main_v119, main_v120, main_cst_30, main_v121, main_v122, main_v123, main_c_31, main_v124, main_v125, main_c_32, main_v126, main_v127, main_v128, main_v129, main_v130, main_v131, main_v132, main_v133, main_cst_33, main_v134, main_v135, main_v136]
theorem hostOps6_writes : (hostOps6 : List (HloOp τ sig (Elt F))).Forall fun op => op.writes ⊆ ((hostOps6_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps6` does not write keeps its contents across it. -/
theorem hostOps6_keep (V : Valuation τ sig (Elt F)) {r : Ref sig .tc} (h : r ∉ hostOps6_W) :
    StableHlo.after hostOps6 V (Proc.devRef .tc r) = V (Proc.devRef .tc r) :=
  StableHlo.after_of_writes_sub hostOps6 V hostOps6_writes h

end Cert.KernelIdeal.KValue

end
-- ==== Proof.KFoldDefs.lean ====
import proofs.«164030_j60206851555878_1_alg».proof.Proof.Gen.KernelIdeal

/-! The host-side stretches of the tiled program as named pure functions of the arrays they read:
    the edge-index columns, the per-layer neighbour aggregate (gather, concatenate, rectify,
    scatter-add, add the node features back), the batch mean and inverse standard deviation from
    the two column sums, a vector read as a one-row matrix, and the two normalised segment-sum pools.
    Each is the plain composition of the operations' functions, in program order. -/

set_option maxRecDepth 16384

noncomputable section

namespace Cert.KernelIdeal.KValue

open Idealize.ShloMosaic Idealize.ShloMosaic.TcCoe
open Cert.KernelIdeal Cert.KernelIdeal.Gen

variable {F : FTy → Type} [FloatOps F]

/-- An array of shape `s` and element type `e`. -/
abbrev Arr (F : FTy → Type) (s : Shape) (e : EltTy) : Type := (⟨s, e⟩ : BufTy).Contents (Elt F)

/-! ## The edge index -/

/-- Row 0 of the edge index (the source node of each edge), as a vector. -/
def srcRow (ei : Arr F S2x200000 .i32) : Arr F S200000 .i32 :=
  fun i => shapeCast S200000 (extractStridedSlice S1x200000 ![0, 0] ei slices_S2x200000_S1x200000_0_0) shapeCasts_S1x200000_S200000 i
/-- Row 1 of the edge index (the destination node of each edge), as a vector. -/
def dstRow (ei : Arr F S2x200000 .i32) : Arr F S200000 .i32 :=
  fun i => shapeCast S200000 (extractStridedSlice S1x200000 ![1, 0] ei slices_S2x200000_S1x200000_1_0) shapeCasts_S1x200000_S200000 i
/-- A vector of node numbers, a negative one counted from the end (+50000), as a column. -/
def wrapCol (r : Arr F S200000 .i32) : Arr F S200000x1 .i32 :=
  broadcastInDim S200000x1 ![0] bcast_S200000_S200000x1_0
    (select (cmpi .slt r (broadcastInDim S200000 ![] bcast_S_S200000 (constantI S_ 32 0#32)))
      (addi r (broadcastInDim S200000 ![] bcast_S_S200000 (constantI S_ 32 50000#32))) r)
/-- The gather's index column: the source nodes. -/
def srcIdx (ei : Arr F S2x200000 .i32) : Arr F S200000x1 .i32 := wrapCol (srcRow ei)
/-- The scatter's index column: the destination nodes. -/
def dstCol (d : Arr F S200000 .i32) : Arr F S200000x1 .i32 := broadcastInDim S200000x1 ![0] bcast_S200000_S200000x1_0 d
def dstIdx (ei : Arr F S2x200000 .i32) : Arr F S200000x1 .i32 := dstCol (dstRow ei)

/-! ## Layer 0's aggregate, over 128 node features and 32 edge features -/

/-- Per edge: the source node's features beside the edge's own. -/
def edgeIn0 (x : Arr F S50000x128 .f32) (ea : Arr F S200000x32 .f32) (s : Arr F S200000x1 .i32) : Arr F S200000x160 .f32 :=
  concatenate S200000x160 1 [⟨S200000x128, Host.gather gather_S50000x128_S200000x1_S200000x128_1_0_n_n_0_1_1128 x s⟩, ⟨S200000x32, ea⟩]
    concatenates_S200000x128_S200000x32_S200000x160_d1
def relu0 (t : Arr F S200000x160 .f32) : Arr F S200000x160 .f32 :=
  maximumf t (broadcastInDim S200000x160 ![] bcast_S_S200000x160 (constant S_ .f32 0x00000000#32))
/-- Sum the edges' rows into their destination nodes, then add the node features into the first 128 columns. -/
def aggSum0 (d : Arr F S200000x1 .i32) (u : Arr F S200000x160 .f32) (x : Arr F S50000x128 .f32) : Arr F S50000x160 .f32 :=
  Host.scatter scatter_S50000x160_S1_S50000x128_01_n_1_0 FloatOps.addf
    (Host.scatterAdd scatter_S50000x160_S200000x1_S200000x160_1_0_0_1
      (broadcastInDim S50000x160 ![] bcast_S_S50000x160 (constant S_ .f32 0x00000000#32)) d u)
    (broadcastInDim S1 ![] bcast_S_S1 (constantI S_ 32 0#32))
    (mulf (broadcastInDim S50000x128 ![] bcast_S_S50000x128 (constant S_ .f32 0x3F800000#32)) x)
def agg0 (x : Arr F S50000x128 .f32) (ea : Arr F S200000x32 .f32) (ei : Arr F S2x200000 .i32) : Arr F S50000x160 .f32 :=
  aggSum0 (dstIdx ei) (relu0 (edgeIn0 x ea (srcIdx ei))) x

/-! ## Layers 1 and 2's aggregate, over 256 node features and 32 edge features -/

def edgeIn1 (h : Arr F S50000x256 .f32) (ea : Arr F S200000x32 .f32) (s : Arr F S200000x1 .i32) : Arr F S200000x288 .f32 :=
  concatenate S200000x288 1 [⟨S200000x256, Host.gather gather_S50000x256_S200000x1_S200000x256_1_0_n_n_0_1_1256 h s⟩, ⟨S200000x32, ea⟩]
    concatenates_S200000x256_S200000x32_S200000x288_d1
def relu1 (t : Arr F S200000x288 .f32) : Arr F S200000x288 .f32 :=
  maximumf t (broadcastInDim S200000x288 ![] bcast_S_S200000x288 (constant S_ .f32 0x00000000#32))
def aggSum1 (d : Arr F S200000x1 .i32) (u : Arr F S200000x288 .f32) (h : Arr F S50000x256 .f32) : Arr F S50000x288 .f32 :=
  Host.scatter scatter_S50000x288_S1_S50000x256_01_n_1_0 FloatOps.addf
    (Host.scatterAdd scatter_S50000x288_S200000x1_S200000x288_1_0_0_1
      (broadcastInDim S50000x288 ![] bcast_S_S50000x288 (constant S_ .f32 0x00000000#32)) d u)
    (broadcastInDim S1 ![] bcast_S_S1 (constantI S_ 32 0#32))
    (mulf (broadcastInDim S50000x256 ![] bcast_S_S50000x256 (constant S_ .f32 0x3F800000#32)) h)
def agg1 (h : Arr F S50000x256 .f32) (ea : Arr F S200000x32 .f32) (ei : Arr F S2x200000 .i32) : Arr F S50000x288 .f32 :=
  aggSum1 (dstIdx ei) (relu1 (edgeIn1 h ea (srcIdx ei))) h

/-! ## The batch statistics from the column sums -/

/-- 50000.0 in every column. -/
def nRows : Arr F S1x256 .f32 := broadcastInDim S1x256 ![] bcast_S_S1x256 (constant S_ .f32 0x47435000#32)
/-- The column means from the column sums. -/
def meanOf (s : Arr F S1x256 .f32) : Arr F S1x256 .f32 := Host.divf s nRows
/-- `1 / sqrt (E[h²] - mean² + 1e-5)` from the column sums and the column sums of squares. -/
def invOf (s ss : Arr F S1x256 .f32) : Arr F S1x256 .f32 :=
  Host.rsqrt (addf (subf (Host.divf ss nRows) (mulf (meanOf s) (meanOf s)))
    (broadcastInDim S1x256 ![] bcast_S_S1x256 (constant S_ .f32 0x3727C5AC#32)))
/-- A vector of 256 read as a one-row matrix. -/
def row (v : Arr F S256 .f32) : Arr F S1x256 .f32 := fun i => shapeCast S1x256 v shapeCasts_S256_S1x256 i

/-! ## The two pools: each segment's sum of rows over the square root of its size (at least 1) -/

def pool0 (h : Arr F S50000x256 .f32) (fb : Arr F S50000 .i32) : Arr F S10000x256 .f32 :=
  Host.scatterAdd scatter_S10000x256_S50000x1_S50000x256_1_0_0_1
    (broadcastInDim S10000x256 ![] bcast_S_S10000x256 (constant S_ .f32 0x00000000#32))
    (broadcastInDim S50000x1 ![0] bcast_S50000_S50000x1_0 fb)
    (mulf h (broadcastInDim S50000x256 ![0, 1] bcast_S50000x1_S50000x256_0_1
      (broadcastInDim S50000x1 ![0] bcast_S50000_S50000x1_0
        (Host.gather gather_S10000_S50000x1_S50000_n_0_n_n_0_1_1
          (Host.rsqrt (maximumf
            (Host.scatterAdd scatter_S10000_S50000x1_S50000_n_0_0_1
              (broadcastInDim S10000 ![] bcast_S_S10000 (constant S_ .f32 0x00000000#32))
              (broadcastInDim S50000x1 ![0] bcast_S50000_S50000x1_0 fb)
              (broadcastInDim S50000 ![] bcast_S_S50000 (constant S_ .f32 0x3F800000#32)))
            (broadcastInDim S10000 ![] bcast_S_S10000 (constant S_ .f32 0x3F800000#32))))
          (broadcastInDim S50000x1 ![0] bcast_S50000_S50000x1_0
            (select (cmpi .slt fb (broadcastInDim S50000 ![] bcast_S_S50000 (constantI S_ 32 0#32)))
              (addi fb (broadcastInDim S50000 ![] bcast_S_S50000 (constantI S_ 32 10000#32))) fb))))))
def pool1 (h : Arr F S50000x256 .f32) (gb : Arr F S50000 .i32) : Arr F S2000x256 .f32 :=
  Host.scatterAdd scatter_S2000x256_S50000x1_S50000x256_1_0_0_1
    (broadcastInDim S2000x256 ![] bcast_S_S2000x256 (constant S_ .f32 0x00000000#32))
    (broadcastInDim S50000x1 ![0] bcast_S50000_S50000x1_0 gb)
    (mulf h (broadcastInDim S50000x256 ![0, 1] bcast_S50000x1_S50000x256_0_1
      (broadcastInDim S50000x1 ![0] bcast_S50000_S50000x1_0
        (Host.gather gather_S2000_S50000x1_S50000_n_0_n_n_0_1_1
          (Host.rsqrt (maximumf
            (Host.scatterAdd scatter_S2000_S50000x1_S50000_n_0_0_1
              (broadcastInDim S2000 ![] bcast_S_S2000 (constant S_ .f32 0x00000000#32))
              (broadcastInDim S50000x1 ![0] bcast_S50000_S50000x1_0 gb)
              (broadcastInDim S50000 ![] bcast_S_S50000 (constant S_ .f32 0x3F800000#32)))
            (broadcastInDim S2000 ![] bcast_S_S2000 (constant S_ .f32 0x3F800000#32))))
          (broadcastInDim S50000x1 ![0] bcast_S50000_S50000x1_0
            (select (cmpi .slt gb (broadcastInDim S50000 ![] bcast_S_S50000 (constantI S_ 32 0#32)))
              (addi gb (broadcastInDim S50000 ![] bcast_S_S50000 (constantI S_ 32 2000#32))) gb))))))

end Cert.KernelIdeal.KValue

end
-- ==== Proof.KFoldStretch.lean ====
import proofs.«164030_j60206851555878_1_alg».proof.Proof.Gen.KernelIdeal.Launch
import proofs.«164030_j60206851555878_1_alg».proof.Proof.KFoldDefs

/-! Each stretch of host operations read at the buffers the pipelines (or the caller) take from it:
    from ANY contents `V` at the stretch's start, the buffer holds the named composition applied to
    `V` at the buffers the stretch reads. -/

set_option maxRecDepth 16384
set_option maxHeartbeats 1000000

noncomputable section

namespace Cert.KernelIdeal.KValue

open Idealize.ShloMosaic Idealize.ShloMosaic.TcCoe
open Cert.KernelIdeal Cert.KernelIdeal.Gen

variable {F : FTy → Type} [FloatOps F]

theorem hostOps0_v1 (V : Valuation τ sig (Elt F)) :
    StableHlo.after hostOps0 V (Proc.devRef .tc main_v1) = srcRow (V (Proc.devRef .tc main_arg2)) := by
  after_results; rfl

theorem hostOps0_v3 (V : Valuation τ sig (Elt F)) :
    StableHlo.after hostOps0 V (Proc.devRef .tc main_v3) = dstRow (V (Proc.devRef .tc main_arg2)) := by
  after_results; rfl

theorem hostOps0_v11 (V : Valuation τ sig (Elt F)) :
    StableHlo.after hostOps0 V (Proc.devRef .tc main_v11) = edgeIn0 (V (Proc.devRef .tc main_arg0)) (V (Proc.devRef .tc main_arg1)) (srcIdx (V (Proc.devRef .tc main_arg2))) := by
  after_results; rfl

theorem hostOps0_1_v12 (V : Valuation τ sig (Elt F)) :
    StableHlo.after hostOps0_1 V (Proc.devRef .tc main_v12) = relu0 (V (Proc.devRef .tc main_v11)) := by
  after_results; rfl

theorem hostOps0_2_v19 (V : Valuation τ sig (Elt F)) :
    StableHlo.after hostOps0_2 V (Proc.devRef .tc main_v19) = aggSum0 (dstCol (V (Proc.devRef .tc main_v3))) (V (Proc.devRef .tc main_v12)) (V (Proc.devRef .tc main_arg0)) := by
  after_results; rfl

theorem hostOps0_2_v20 (V : Valuation τ sig (Elt F)) :
    StableHlo.after hostOps0_2 V (Proc.devRef .tc main_v20) = row (V (Proc.devRef .tc main_arg6)) := by
  after_results; rfl

theorem hostOps0_2_v21 (V : Valuation τ sig (Elt F)) :
    StableHlo.after hostOps0_2 V (Proc.devRef .tc main_v21) = row (V (Proc.devRef .tc main_arg8)) := by
  after_results; rfl

theorem hostOps1_v24 (V : Valuation τ sig (Elt F)) :
    StableHlo.after hostOps1 V (Proc.devRef .tc main_v24) = meanOf (V (Proc.devRef .tc main_v22_1)) := by
  after_results; rfl

theorem hostOps1_v31 (V : Valuation τ sig (Elt F)) :
    StableHlo.after hostOps1 V (Proc.devRef .tc main_v31) = invOf (V (Proc.devRef .tc main_v22_1)) (V (Proc.devRef .tc main_v22_2)) := by
  after_results; rfl

theorem hostOps1_v32 (V : Valuation τ sig (Elt F)) :
    StableHlo.after hostOps1 V (Proc.devRef .tc main_v32) = row (V (Proc.devRef .tc main_arg9)) := by
  after_results; rfl

theorem hostOps1_v33 (V : Valuation τ sig (Elt F)) :
    StableHlo.after hostOps1 V (Proc.devRef .tc main_v33) = row (V (Proc.devRef .tc main_arg10)) := by
  after_results; rfl

theorem hostOps2_v42 (V : Valuation τ sig (Elt F)) :
    StableHlo.after hostOps2 V (Proc.devRef .tc main_v42) = edgeIn1 (V (Proc.devRef .tc main_v34)) (V (Proc.devRef .tc main_arg1)) (wrapCol (V (Proc.devRef .tc main_v1))) := by
  after_results; rfl

theorem hostOps2_1_v43 (V : Valuation τ sig (Elt F)) :
    StableHlo.after hostOps2_1 V (Proc.devRef .tc main_v43) = relu1 (V (Proc.devRef .tc main_v42)) := by
  after_results; rfl

theorem hostOps2_2_v50 (V : Valuation τ sig (Elt F)) :
    StableHlo.after hostOps2_2 V (Proc.devRef .tc main_v50) = aggSum1 (dstCol (V (Proc.devRef .tc main_v3))) (V (Proc.devRef .tc main_v43)) (V (Proc.devRef .tc main_v34)) := by
  after_results; rfl

theorem hostOps2_2_v51 (V : Valuation τ sig (Elt F)) :
    StableHlo.after hostOps2_2 V (Proc.devRef .tc main_v51) = row (V (Proc.devRef .tc main_arg12)) := by
  after_results; rfl

theorem hostOps2_2_v52 (V : Valuation τ sig (Elt F)) :
    StableHlo.after hostOps2_2 V (Proc.devRef .tc main_v52) = row (V (Proc.devRef .tc main_arg14)) := by
  after_results; rfl

theorem hostOps3_v55 (V : Valuation τ sig (Elt F)) :
    StableHlo.after hostOps3 V (Proc.devRef .tc main_v55) = meanOf (V (Proc.devRef .tc main_v53_1)) := by
  after_results; rfl

theorem hostOps3_v62 (V : Valuation τ sig (Elt F)) :
    StableHlo.after hostOps3 V (Proc.devRef .tc main_v62) = invOf (V (Proc.devRef .tc main_v53_1)) (V (Proc.devRef .tc main_v53_2)) := by
  after_results; rfl

theorem hostOps3_v63 (V : Valuation τ sig (Elt F)) :
    StableHlo.after hostOps3 V (Proc.devRef .tc main_v63) = row (V (Proc.devRef .tc main_arg15)) := by
  after_results; rfl

theorem hostOps3_v64 (V : Valuation τ sig (Elt F)) :
    StableHlo.after hostOps3 V (Proc.devRef .tc main_v64) = row (V (Proc.devRef .tc main_arg16)) := by
  after_results; rfl

theorem hostOps4_v73 (V : Valuation τ sig (Elt F)) :
    StableHlo.after hostOps4 V (Proc.devRef .tc main_v73) = edgeIn1 (V (Proc.devRef .tc main_v65)) (V (Proc.devRef .tc main_arg1)) (wrapCol (V (Proc.devRef .tc main_v1))) := by
  after_results; rfl

theorem hostOps4_1_v74 (V : Valuation τ sig (Elt F)) :
    StableHlo.after hostOps4_1 V (Proc.devRef .tc main_v74) = relu1 (V (Proc.devRef .tc main_v73)) := by
  after_results; rfl

theorem hostOps4_2_v81 (V : Valuation τ sig (Elt F)) :
    StableHlo.after hostOps4_2 V (Proc.devRef .tc main_v81) = aggSum1 (dstCol (V (Proc.devRef .tc main_v3))) (V (Proc.devRef .tc main_v74)) (V (Proc.devRef .tc main_v65)) := by
  after_results; rfl

theorem hostOps4_2_v82 (V : Valuation τ sig (Elt F)) :
    StableHlo.after hostOps4_2 V (Proc.devRef .tc main_v82) = row (V (Proc.devRef .tc main_arg18)) := by
  after_results; rfl

theorem hostOps4_2_v83 (V : Valuation τ sig (Elt F)) :
    StableHlo.after hostOps4_2 V (Proc.devRef .tc main_v83) = row (V (Proc.devRef .tc main_arg20)) := by
  after_results; rfl

theorem hostOps5_v86 (V : Valuation τ sig (Elt F)) :
    StableHlo.after hostOps5 V (Proc.devRef .tc main_v86) = meanOf (V (Proc.devRef .tc main_v84_1)) := by
  after_results; rfl

theorem hostOps5_v93 (V : Valuation τ sig (Elt F)) :
    StableHlo.after hostOps5 V (Proc.devRef .tc main_v93) = invOf (V (Proc.devRef .tc main_v84_1)) (V (Proc.devRef .tc main_v84_2)) := by
  after_results; rfl

theorem hostOps5_v94 (V : Valuation τ sig (Elt F)) :
    StableHlo.after hostOps5 V (Proc.devRef .tc main_v94) = row (V (Proc.devRef .tc main_arg21)) := by
  after_results; rfl

theorem hostOps5_v95 (V : Valuation τ sig (Elt F)) :
    StableHlo.after hostOps5 V (Proc.devRef .tc main_v95) = row (V (Proc.devRef .tc main_arg22)) := by
  after_results; rfl

theorem hostOps6_v116 (V : Valuation τ sig (Elt F)) :
    StableHlo.after hostOps6 V (Proc.devRef .tc main_v116) = pool0 (V (Proc.devRef .tc main_v96)) (V (Proc.devRef .tc main_arg3)) := by
  after_results_simp; rfl

theorem hostOps6_v136 (V : Valuation τ sig (Elt F)) :
    StableHlo.after hostOps6 V (Proc.devRef .tc main_v136) = pool1 (V (Proc.devRef .tc main_v96)) (V (Proc.devRef .tc main_arg4)) := by
  after_results_simp; rfl

end Cert.KernelIdeal.KValue

end
-- ==== Proof.KFold.lean ====
import proofs.«164030_j60206851555878_1_alg».proof.Proof.Gen.KernelIdeal.Frame
import proofs.«164030_j60206851555878_1_alg».proof.Proof.KFoldKeep
import proofs.«164030_j60206851555878_1_alg».proof.Proof.KFoldStretch

/-! The tiled program's buffer contents read back through its segments: what each pipeline finds in
    each of its input windows when it is entered, and what the two result buffers hold at the end,
    as the named compositions applied to the launch contents of the arguments and to the arrays the
    earlier pipelines leave. -/

set_option maxRecDepth 16384

noncomputable section

namespace Cert.KernelIdeal.KValue

open Idealize.ShloMosaic Idealize.ShloMosaic.TcCoe
open Cert.KernelIdeal Cert.KernelIdeal.Gen

variable {F : FTy → Type} [FloatOps F]

open Idealize.ShloMosaic.Pipeline (Dat Cfg Window BodyObligation cellOf)

set_option maxHeartbeats 1000000

variable (m : (ℓ : Loc nD τ sig) → Buf (Elt F) ℓ) (ρ : Dev nD → PrngReg) (c : Dev nD)

/-! ## A buffer a segment does not write, across the segment -/

theorem W0_eq (r : Ref sig .tc) : W0 m ρ c (Proc.devRef .tc r) = m ((c : Thread nD τ).loc r) := rfl
theorem W1_keep {r : Ref sig .tc} (h : r ∉ hostOps0_W) : W1 m ρ c (Proc.devRef .tc r) = W0 m ρ c (Proc.devRef .tc r) := hostOps0_keep _ h
theorem W2_keep {r : Ref sig .tc} (h : r ∉ hostOps0_1_W) : W2 m ρ c (Proc.devRef .tc r) = W1 m ρ c (Proc.devRef .tc r) := hostOps0_1_keep _ h
theorem W3_keep {r : Ref sig .tc} (h : r ∉ hostOps0_2_W) : W3 m ρ c (Proc.devRef .tc r) = W2 m ρ c (Proc.devRef .tc r) := hostOps0_2_keep _ h
theorem W4_keep {r : Ref sig .tc} (h : ∀ w, Pipeline.arrRef spec0 w ≠ r) : W4 m ρ c (Proc.devRef .tc r) = W3 m ρ c (Proc.devRef .tc r) := W4_of_ne m ρ c r h
theorem W5_keep {r : Ref sig .tc} (h : r ∉ hostOps1_W) : W5 m ρ c (Proc.devRef .tc r) = W4 m ρ c (Proc.devRef .tc r) := hostOps1_keep _ h
theorem W6_keep {r : Ref sig .tc} (h : ∀ w, Pipeline.arrRef spec1 w ≠ r) : W6 m ρ c (Proc.devRef .tc r) = W5 m ρ c (Proc.devRef .tc r) := W6_of_ne m ρ c r h
theorem W7_keep {r : Ref sig .tc} (h : r ∉ hostOps2_W) : W7 m ρ c (Proc.devRef .tc r) = W6 m ρ c (Proc.devRef .tc r) := hostOps2_keep _ h
theorem W8_keep {r : Ref sig .tc} (h : r ∉ hostOps2_1_W) : W8 m ρ c (Proc.devRef .tc r) = W7 m ρ c (Proc.devRef .tc r) := hostOps2_1_keep _ h
theorem W9_keep {r : Ref sig .tc} (h : r ∉ hostOps2_2_W) : W9 m ρ c (Proc.devRef .tc r) = W8 m ρ c (Proc.devRef .tc r) := hostOps2_2_keep _ h
theorem W10_keep {r : Ref sig .tc} (h : ∀ w, Pipeline.arrRef spec2 w ≠ r) : W10 m ρ c (Proc.devRef .tc r) = W9 m ρ c (Proc.devRef .tc r) := W10_of_ne m ρ c r h
theorem W11_keep {r : Ref sig .tc} (h : r ∉ hostOps3_W) : W11 m ρ c (Proc.devRef .tc r) = W10 m ρ c (Proc.devRef .tc r) := hostOps3_keep _ h
theorem W12_keep {r : Ref sig .tc} (h : ∀ w, Pipeline.arrRef spec3 w ≠ r) : W12 m ρ c (Proc.devRef .tc r) = W11 m ρ c (Proc.devRef .tc r) := W12_of_ne m ρ c r h
theorem W13_keep {r : Ref sig .tc} (h : r ∉ hostOps4_W) : W13 m ρ c (Proc.devRef .tc r) = W12 m ρ c (Proc.devRef .tc r) := hostOps4_keep _ h
theorem W14_keep {r : Ref sig .tc} (h : r ∉ hostOps4_1_W) : W14 m ρ c (Proc.devRef .tc r) = W13 m ρ c (Proc.devRef .tc r) := hostOps4_1_keep _ h
theorem W15_keep {r : Ref sig .tc} (h : r ∉ hostOps4_2_W) : W15 m ρ c (Proc.devRef .tc r) = W14 m ρ c (Proc.devRef .tc r) := hostOps4_2_keep _ h
theorem W16_keep {r : Ref sig .tc} (h : ∀ w, Pipeline.arrRef spec4 w ≠ r) : W16 m ρ c (Proc.devRef .tc r) = W15 m ρ c (Proc.devRef .tc r) := W16_of_ne m ρ c r h
theorem W17_keep {r : Ref sig .tc} (h : r ∉ hostOps5_W) : W17 m ρ c (Proc.devRef .tc r) = W16 m ρ c (Proc.devRef .tc r) := hostOps5_keep _ h
theorem W18_keep {r : Ref sig .tc} (h : ∀ w, Pipeline.arrRef spec5 w ≠ r) : W18 m ρ c (Proc.devRef .tc r) = W17 m ρ c (Proc.devRef .tc r) := W18_of_ne m ρ c r h
theorem W19_keep {r : Ref sig .tc} (h : r ∉ hostOps6_W) : W19 m ρ c (Proc.devRef .tc r) = W18 m ρ c (Proc.devRef .tc r) := hostOps6_keep _ h

/-! ## The argument buffers where the stretches read them: as launched -/

theorem W2_arg0 : W2 m ρ c (Proc.devRef .tc main_arg0) = (m ((c : Thread nD τ).loc main_arg0)) := ((W2_keep m ρ c (r := main_arg0) (by decide)).trans (W1_keep m ρ c (r := main_arg0) (by decide))).trans (W0_eq m ρ c _)
theorem W3_arg5 : W3 m ρ c (Proc.devRef .tc main_arg5) = (m ((c : Thread nD τ).loc main_arg5)) := ((W3_keep m ρ c (r := main_arg5) (by decide)).trans ((W2_keep m ρ c (r := main_arg5) (by decide)).trans (W1_keep m ρ c (r := main_arg5) (by decide)))).trans (W0_eq m ρ c _)
theorem W2_arg6 : W2 m ρ c (Proc.devRef .tc main_arg6) = (m ((c : Thread nD τ).loc main_arg6)) := ((W2_keep m ρ c (r := main_arg6) (by decide)).trans (W1_keep m ρ c (r := main_arg6) (by decide))).trans (W0_eq m ρ c _)
theorem W3_arg7 : W3 m ρ c (Proc.devRef .tc main_arg7) = (m ((c : Thread nD τ).loc main_arg7)) := ((W3_keep m ρ c (r := main_arg7) (by decide)).trans ((W2_keep m ρ c (r := main_arg7) (by decide)).trans (W1_keep m ρ c (r := main_arg7) (by decide)))).trans (W0_eq m ρ c _)
theorem W2_arg8 : W2 m ρ c (Proc.devRef .tc main_arg8) = (m ((c : Thread nD τ).loc main_arg8)) := ((W2_keep m ρ c (r := main_arg8) (by decide)).trans (W1_keep m ρ c (r := main_arg8) (by decide))).trans (W0_eq m ρ c _)
theorem W4_arg9 : W4 m ρ c (Proc.devRef .tc main_arg9) = (m ((c : Thread nD τ).loc main_arg9)) := ((W4_keep m ρ c (r := main_arg9) (by decide)).trans ((W3_keep m ρ c (r := main_arg9) (by decide)).trans ((W2_keep m ρ c (r := main_arg9) (by decide)).trans (W1_keep m ρ c (r := main_arg9) (by decide))))).trans (W0_eq m ρ c _)
theorem W4_arg10 : W4 m ρ c (Proc.devRef .tc main_arg10) = (m ((c : Thread nD τ).loc main_arg10)) := ((W4_keep m ρ c (r := main_arg10) (by decide)).trans ((W3_keep m ρ c (r := main_arg10) (by decide)).trans ((W2_keep m ρ c (r := main_arg10) (by decide)).trans (W1_keep m ρ c (r := main_arg10) (by decide))))).trans (W0_eq m ρ c _)
theorem W6_arg1 : W6 m ρ c (Proc.devRef .tc main_arg1) = (m ((c : Thread nD τ).loc main_arg1)) := ((W6_keep m ρ c (r := main_arg1) (by decide)).trans ((W5_keep m ρ c (r := main_arg1) (by decide)).trans ((W4_keep m ρ c (r := main_arg1) (by decide)).trans ((W3_keep m ρ c (r := main_arg1) (by decide)).trans ((W2_keep m ρ c (r := main_arg1) (by decide)).trans (W1_keep m ρ c (r := main_arg1) (by decide))))))).trans (W0_eq m ρ c _)
theorem W9_arg11 : W9 m ρ c (Proc.devRef .tc main_arg11) = (m ((c : Thread nD τ).loc main_arg11)) := ((W9_keep m ρ c (r := main_arg11) (by decide)).trans ((W8_keep m ρ c (r := main_arg11) (by decide)).trans ((W7_keep m ρ c (r := main_arg11) (by decide)).trans ((W6_keep m ρ c (r := main_arg11) (by decide)).trans ((W5_keep m ρ c (r := main_arg11) (by decide)).trans ((W4_keep m ρ c (r := main_arg11) (by decide)).trans ((W3_keep m ρ c (r := main_arg11) (by decide)).trans ((W2_keep m ρ c (r := main_arg11) (by decide)).trans (W1_keep m ρ c (r := main_arg11) (by decide)))))))))).trans (W0_eq m ρ c _)
theorem W8_arg12 : W8 m ρ c (Proc.devRef .tc main_arg12) = (m ((c : Thread nD τ).loc main_arg12)) := ((W8_keep m ρ c (r := main_arg12) (by decide)).trans ((W7_keep m ρ c (r := main_arg12) (by decide)).trans ((W6_keep m ρ c (r := main_arg12) (by decide)).trans ((W5_keep m ρ c (r := main_arg12) (by decide)).trans ((W4_keep m ρ c (r := main_arg12) (by decide)).trans ((W3_keep m ρ c (r := main_arg12) (by decide)).trans ((W2_keep m ρ c (r := main_arg12) (by decide)).trans (W1_keep m ρ c (r := main_arg12) (by decide))))))))).trans (W0_eq m ρ c _)
theorem W9_arg13 : W9 m ρ c (Proc.devRef .tc main_arg13) = (m ((c : Thread nD τ).loc main_arg13)) := ((W9_keep m ρ c (r := main_arg13) (by decide)).trans ((W8_keep m ρ c (r := main_arg13) (by decide)).trans ((W7_keep m ρ c (r := main_arg13) (by decide)).trans ((W6_keep m ρ c (r := main_arg13) (by decide)).trans ((W5_keep m ρ c (r := main_arg13) (by decide)).trans ((W4_keep m ρ c (r := main_arg13) (by decide)).trans ((W3_keep m ρ c (r := main_arg13) (by decide)).trans ((W2_keep m ρ c (r := main_arg13) (by decide)).trans (W1_keep m ρ c (r := main_arg13) (by decide)))))))))).trans (W0_eq m ρ c _)
theorem W8_arg14 : W8 m ρ c (Proc.devRef .tc main_arg14) = (m ((c : Thread nD τ).loc main_arg14)) := ((W8_keep m ρ c (r := main_arg14) (by decide)).trans ((W7_keep m ρ c (r := main_arg14) (by decide)).trans ((W6_keep m ρ c (r := main_arg14) (by decide)).trans ((W5_keep m ρ c (r := main_arg14) (by decide)).trans ((W4_keep m ρ c (r := main_arg14) (by decide)).trans ((W3_keep m ρ c (r := main_arg14) (by decide)).trans ((W2_keep m ρ c (r := main_arg14) (by decide)).trans (W1_keep m ρ c (r := main_arg14) (by decide))))))))).trans (W0_eq m ρ c _)
theorem W10_arg15 : W10 m ρ c (Proc.devRef .tc main_arg15) = (m ((c : Thread nD τ).loc main_arg15)) := ((W10_keep m ρ c (r := main_arg15) (by decide)).trans ((W9_keep m ρ c (r := main_arg15) (by decide)).trans ((W8_keep m ρ c (r := main_arg15) (by decide)).trans ((W7_keep m ρ c (r := main_arg15) (by decide)).trans ((W6_keep m ρ c (r := main_arg15) (by decide)).trans ((W5_keep m ρ c (r := main_arg15) (by decide)).trans ((W4_keep m ρ c (r := main_arg15) (by decide)).trans ((W3_keep m ρ c (r := main_arg15) (by decide)).trans ((W2_keep m ρ c (r := main_arg15) (by decide)).trans (W1_keep m ρ c (r := main_arg15) (by decide))))))))))).trans (W0_eq m ρ c _)
theorem W10_arg16 : W10 m ρ c (Proc.devRef .tc main_arg16) = (m ((c : Thread nD τ).loc main_arg16)) := ((W10_keep m ρ c (r := main_arg16) (by decide)).trans ((W9_keep m ρ c (r := main_arg16) (by decide)).trans ((W8_keep m ρ c (r := main_arg16) (by decide)).trans ((W7_keep m ρ c (r := main_arg16) (by decide)).trans ((W6_keep m ρ c (r := main_arg16) (by decide)).trans ((W5_keep m ρ c (r := main_arg16) (by decide)).trans ((W4_keep m ρ c (r := main_arg16) (by decide)).trans ((W3_keep m ρ c (r := main_arg16) (by decide)).trans ((W2_keep m ρ c (r := main_arg16) (by decide)).trans (W1_keep m ρ c (r := main_arg16) (by decide))))))))))).trans (W0_eq m ρ c _)
theorem W12_arg1 : W12 m ρ c (Proc.devRef .tc main_arg1) = (m ((c : Thread nD τ).loc main_arg1)) := ((W12_keep m ρ c (r := main_arg1) (by decide)).trans ((W11_keep m ρ c (r := main_arg1) (by decide)).trans ((W10_keep m ρ c (r := main_arg1) (by decide)).trans ((W9_keep m ρ c (r := main_arg1) (by decide)).trans ((W8_keep m ρ c (r := main_arg1) (by decide)).trans ((W7_keep m ρ c (r := main_arg1) (by decide)).trans ((W6_keep m ρ c (r := main_arg1) (by decide)).trans ((W5_keep m ρ c (r := main_arg1) (by decide)).trans ((W4_keep m ρ c (r := main_arg1) (by decide)).trans ((W3_keep m ρ c (r := main_arg1) (by decide)).trans ((W2_keep m ρ c (r := main_arg1) (by decide)).trans (W1_keep m ρ c (r := main_arg1) (by decide))))))))))))).trans (W0_eq m ρ c _)
theorem W15_arg17 : W15 m ρ c (Proc.devRef .tc main_arg17) = (m ((c : Thread nD τ).loc main_arg17)) := ((W15_keep m ρ c (r := main_arg17) (by decide)).trans ((W14_keep m ρ c (r := main_arg17) (by decide)).trans ((W13_keep m ρ c (r := main_arg17) (by decide)).trans ((W12_keep m ρ c (r := main_arg17) (by decide)).trans ((W11_keep m ρ c (r := main_arg17) (by decide)).trans ((W10_keep m ρ c (r := main_arg17) (by decide)).trans ((W9_keep m ρ c (r := main_arg17) (by decide)).trans ((W8_keep m ρ c (r := main_arg17) (by decide)).trans ((W7_keep m ρ c (r := main_arg17) (by decide)).trans ((W6_keep m ρ c (r := main_arg17) (by decide)).trans ((W5_keep m ρ c (r := main_arg17) (by decide)).trans ((W4_keep m ρ c (r := main_arg17) (by decide)).trans ((W3_keep m ρ c (r := main_arg17) (by decide)).trans ((W2_keep m ρ c (r := main_arg17) (by decide)).trans (W1_keep m ρ c (r := main_arg17) (by decide)))))))))))))))).trans (W0_eq m ρ c _)
theorem W14_arg18 : W14 m ρ c (Proc.devRef .tc main_arg18) = (m ((c : Thread nD τ).loc main_arg18)) := ((W14_keep m ρ c (r := main_arg18) (by decide)).trans ((W13_keep m ρ c (r := main_arg18) (by decide)).trans ((W12_keep m ρ c (r := main_arg18) (by decide)).trans ((W11_keep m ρ c (r := main_arg18) (by decide)).trans ((W10_keep m ρ c (r := main_arg18) (by decide)).trans ((W9_keep m ρ c (r := main_arg18) (by decide)).trans ((W8_keep m ρ c (r := main_arg18) (by decide)).trans ((W7_keep m ρ c (r := main_arg18) (by decide)).trans ((W6_keep m ρ c (r := main_arg18) (by decide)).trans ((W5_keep m ρ c (r := main_arg18) (by decide)).trans ((W4_keep m ρ c (r := main_arg18) (by decide)).trans ((W3_keep m ρ c (r := main_arg18) (by decide)).trans ((W2_keep m ρ c (r := main_arg18) (by decide)).trans (W1_keep m ρ c (r := main_arg18) (by decide))))))))))))))).trans (W0_eq m ρ c _)
theorem W15_arg19 : W15 m ρ c (Proc.devRef .tc main_arg19) = (m ((c : Thread nD τ).loc main_arg19)) := ((W15_keep m ρ c (r := main_arg19) (by decide)).trans ((W14_keep m ρ c (r := main_arg19) (by decide)).trans ((W13_keep m ρ c (r := main_arg19) (by decide)).trans ((W12_keep m ρ c (r := main_arg19) (by decide)).trans ((W11_keep m ρ c (r := main_arg19) (by decide)).trans ((W10_keep m ρ c (r := main_arg19) (by decide)).trans ((W9_keep m ρ c (r := main_arg19) (by decide)).trans ((W8_keep m ρ c (r := main_arg19) (by decide)).trans ((W7_keep m ρ c (r := main_arg19) (by decide)).trans ((W6_keep m ρ c (r := main_arg19) (by decide)).trans ((W5_keep m ρ c (r := main_arg19) (by decide)).trans ((W4_keep m ρ c (r := main_arg19) (by decide)).trans ((W3_keep m ρ c (r := main_arg19) (by decide)).trans ((W2_keep m ρ c (r := main_arg19) (by decide)).trans (W1_keep m ρ c (r := main_arg19) (by decide)))))))))))))))).trans (W0_eq m ρ c _)
theorem W14_arg20 : W14 m ρ c (Proc.devRef .tc main_arg20) = (m ((c : Thread nD τ).loc main_arg20)) := ((W14_keep m ρ c (r := main_arg20) (by decide)).trans ((W13_keep m ρ c (r := main_arg20) (by decide)).trans ((W12_keep m ρ c (r := main_arg20) (by decide)).trans ((W11_keep m ρ c (r := main_arg20) (by decide)).trans ((W10_keep m ρ c (r := main_arg20) (by decide)).trans ((W9_keep m ρ c (r := main_arg20) (by decide)).trans ((W8_keep m ρ c (r := main_arg20) (by decide)).trans ((W7_keep m ρ c (r := main_arg20) (by decide)).trans ((W6_keep m ρ c (r := main_arg20) (by decide)).trans ((W5_keep m ρ c (r := main_arg20) (by decide)).trans ((W4_keep m ρ c (r := main_arg20) (by decide)).trans ((W3_keep m ρ c (r := main_arg20) (by decide)).trans ((W2_keep m ρ c (r := main_arg20) (by decide)).trans (W1_keep m ρ c (r := main_arg20) (by decide))))))))))))))).trans (W0_eq m ρ c _)
theorem W16_arg21 : W16 m ρ c (Proc.devRef .tc main_arg21) = (m ((c : Thread nD τ).loc main_arg21)) := ((W16_keep m ρ c (r := main_arg21) (by decide)).trans ((W15_keep m ρ c (r := main_arg21) (by decide)).trans ((W14_keep m ρ c (r := main_arg21) (by decide)).trans ((W13_keep m ρ c (r := main_arg21) (by decide)).trans ((W12_keep m ρ c (r := main_arg21) (by decide)).trans ((W11_keep m ρ c (r := main_arg21) (by decide)).trans ((W10_keep m ρ c (r := main_arg21) (by decide)).trans ((W9_keep m ρ c (r := main_arg21) (by decide)).trans ((W8_keep m ρ c (r := main_arg21) (by decide)).trans ((W7_keep m ρ c (r := main_arg21) (by decide)).trans ((W6_keep m ρ c (r := main_arg21) (by decide)).trans ((W5_keep m ρ c (r := main_arg21) (by decide)).trans ((W4_keep m ρ c (r := main_arg21) (by decide)).trans ((W3_keep m ρ c (r := main_arg21) (by decide)).trans ((W2_keep m ρ c (r := main_arg21) (by decide)).trans (W1_keep m ρ c (r := main_arg21) (by decide))))))))))))))))).trans (W0_eq m ρ c _)
theorem W16_arg22 : W16 m ρ c (Proc.devRef .tc main_arg22) = (m ((c : Thread nD τ).loc main_arg22)) := ((W16_keep m ρ c (r := main_arg22) (by decide)).trans ((W15_keep m ρ c (r := main_arg22) (by decide)).trans ((W14_keep m ρ c (r := main_arg22) (by decide)).trans ((W13_keep m ρ c (r := main_arg22) (by decide)).trans ((W12_keep m ρ c (r := main_arg22) (by decide)).trans ((W11_keep m ρ c (r := main_arg22) (by decide)).trans ((W10_keep m ρ c (r := main_arg22) (by decide)).trans ((W9_keep m ρ c (r := main_arg22) (by decide)).trans ((W8_keep m ρ c (r := main_arg22) (by decide)).trans ((W7_keep m ρ c (r := main_arg22) (by decide)).trans ((W6_keep m ρ c (r := main_arg22) (by decide)).trans ((W5_keep m ρ c (r := main_arg22) (by decide)).trans ((W4_keep m ρ c (r := main_arg22) (by decide)).trans ((W3_keep m ρ c (r := main_arg22) (by decide)).trans ((W2_keep m ρ c (r := main_arg22) (by decide)).trans (W1_keep m ρ c (r := main_arg22) (by decide))))))))))))))))).trans (W0_eq m ρ c _)
theorem W18_arg3 : W18 m ρ c (Proc.devRef .tc main_arg3) = (m ((c : Thread nD τ).loc main_arg3)) := ((W18_keep m ρ c (r := main_arg3) (by decide)).trans ((W17_keep m ρ c (r := main_arg3) (by decide)).trans ((W16_keep m ρ c (r := main_arg3) (by decide)).trans ((W15_keep m ρ c (r := main_arg3) (by decide)).trans ((W14_keep m ρ c (r := main_arg3) (by decide)).trans ((W13_keep m ρ c (r := main_arg3) (by decide)).trans ((W12_keep m ρ c (r := main_arg3) (by decide)).trans ((W11_keep m ρ c (r := main_arg3) (by decide)).trans ((W10_keep m ρ c (r := main_arg3) (by decide)).trans ((W9_keep m ρ c (r := main_arg3) (by decide)).trans ((W8_keep m ρ c (r := main_arg3) (by decide)).trans ((W7_keep m ρ c (r := main_arg3) (by decide)).trans ((W6_keep m ρ c (r := main_arg3) (by decide)).trans ((W5_keep m ρ c (r := main_arg3) (by decide)).trans ((W4_keep m ρ c (r := main_arg3) (by decide)).trans ((W3_keep m ρ c (r := main_arg3) (by decide)).trans ((W2_keep m ρ c (r := main_arg3) (by decide)).trans (W1_keep m ρ c (r := main_arg3) (by decide))))))))))))))))))).trans (W0_eq m ρ c _)
theorem W18_arg4 : W18 m ρ c (Proc.devRef .tc main_arg4) = (m ((c : Thread nD τ).loc main_arg4)) := ((W18_keep m ρ c (r := main_arg4) (by decide)).trans ((W17_keep m ρ c (r := main_arg4) (by decide)).trans ((W16_keep m ρ c (r := main_arg4) (by decide)).trans ((W15_keep m ρ c (r := main_arg4) (by decide)).trans ((W14_keep m ρ c (r := main_arg4) (by decide)).trans ((W13_keep m ρ c (r := main_arg4) (by decide)).trans ((W12_keep m ρ c (r := main_arg4) (by decide)).trans ((W11_keep m ρ c (r := main_arg4) (by decide)).trans ((W10_keep m ρ c (r := main_arg4) (by decide)).trans ((W9_keep m ρ c (r := main_arg4) (by decide)).trans ((W8_keep m ρ c (r := main_arg4) (by decide)).trans ((W7_keep m ρ c (r := main_arg4) (by decide)).trans ((W6_keep m ρ c (r := main_arg4) (by decide)).trans ((W5_keep m ρ c (r := main_arg4) (by decide)).trans ((W4_keep m ρ c (r := main_arg4) (by decide)).trans ((W3_keep m ρ c (r := main_arg4) (by decide)).trans ((W2_keep m ρ c (r := main_arg4) (by decide)).trans (W1_keep m ρ c (r := main_arg4) (by decide))))))))))))))))))).trans (W0_eq m ρ c _)

/-! ## Region 0's windows: layer 0's aggregate and its weights -/

theorem W1_v1 : W1 m ρ c (Proc.devRef .tc main_v1) =
    srcRow (m ((c : Thread nD τ).loc main_arg2)) :=
  hostOps0_v1 _
theorem W1_v3 : W1 m ρ c (Proc.devRef .tc main_v3) =
    dstRow (m ((c : Thread nD τ).loc main_arg2)) :=
  hostOps0_v3 _
theorem W1_v11 : W1 m ρ c (Proc.devRef .tc main_v11) =
    edgeIn0 (m ((c : Thread nD τ).loc main_arg0)) (m ((c : Thread nD τ).loc main_arg1)) (srcIdx (m ((c : Thread nD τ).loc main_arg2))) :=
  hostOps0_v11 _
theorem W2_v12 : W2 m ρ c (Proc.devRef .tc main_v12) =
    relu0 (edgeIn0 (m ((c : Thread nD τ).loc main_arg0)) (m ((c : Thread nD τ).loc main_arg1)) (srcIdx (m ((c : Thread nD τ).loc main_arg2)))) :=
  (hostOps0_1_v12 (W1 m ρ c)).trans (congrArg relu0 (W1_v11 m ρ c))
theorem W2_v3 : W2 m ρ c (Proc.devRef .tc main_v3) =
    dstRow (m ((c : Thread nD τ).loc main_arg2)) :=
  (W2_keep m ρ c (r := main_v3) (by decide)).trans (W1_v3 m ρ c)
theorem W3_v19 : W3 m ρ c (Proc.devRef .tc main_v19) =
    agg0 (m ((c : Thread nD τ).loc main_arg0)) (m ((c : Thread nD τ).loc main_arg1)) (m ((c : Thread nD τ).loc main_arg2)) :=
  (hostOps0_2_v19 (W2 m ρ c)).trans (by rw [W2_v3 m ρ c, W2_v12 m ρ c, W2_arg0 m ρ c]; rfl)
theorem V3_win0 : V3 m ρ c (Pipeline.arrRef spec0 0) =
    agg0 (m ((c : Thread nD τ).loc main_arg0)) (m ((c : Thread nD τ).loc main_arg1)) (m ((c : Thread nD τ).loc main_arg2)) :=
  W3_v19 m ρ c
theorem V3_win1 : V3 m ρ c (Pipeline.arrRef spec0 1) =
    (m ((c : Thread nD τ).loc main_arg5)) :=
  W3_arg5 m ρ c
theorem V3_win2 : V3 m ρ c (Pipeline.arrRef spec0 2) =
    row (m ((c : Thread nD τ).loc main_arg6)) :=
  (hostOps0_2_v20 (W2 m ρ c)).trans (congrArg row (W2_arg6 m ρ c))
theorem V3_win3 : V3 m ρ c (Pipeline.arrRef spec0 3) =
    (m ((c : Thread nD τ).loc main_arg7)) :=
  W3_arg7 m ρ c
theorem V3_win4 : V3 m ρ c (Pipeline.arrRef spec0 4) =
    row (m ((c : Thread nD τ).loc main_arg8)) :=
  (hostOps0_2_v21 (W2 m ρ c)).trans (congrArg row (W2_arg8 m ρ c))

/-! ## Region 1's windows: layer 0's output tiles, mean, inverse deviation, scale and shift -/

theorem W4_out5 : W4 m ρ c (Proc.devRef .tc main_v22_0) =
    ((dat0 (V3 m ρ) c).arrAt 5 cfg0.N) :=
  W4_arr m ρ c 5
theorem W4_out6 : W4 m ρ c (Proc.devRef .tc main_v22_1) =
    ((dat0 (V3 m ρ) c).arrAt 6 cfg0.N) :=
  W4_arr m ρ c 6
theorem W4_out7 : W4 m ρ c (Proc.devRef .tc main_v22_2) =
    ((dat0 (V3 m ρ) c).arrAt 7 cfg0.N) :=
  W4_arr m ρ c 7
theorem V5_win0 : V5 m ρ c (Pipeline.arrRef spec1 0) =
    ((dat0 (V3 m ρ) c).arrAt 5 cfg0.N) :=
  (W5_keep m ρ c (r := main_v22_0) (by decide)).trans (W4_out5 m ρ c)
theorem V5_win1 : V5 m ρ c (Pipeline.arrRef spec1 1) =
    meanOf ((dat0 (V3 m ρ) c).arrAt 6 cfg0.N) :=
  (hostOps1_v24 (W4 m ρ c)).trans (congrArg meanOf (W4_out6 m ρ c))
theorem V5_win2 : V5 m ρ c (Pipeline.arrRef spec1 2) =
    invOf ((dat0 (V3 m ρ) c).arrAt 6 cfg0.N) ((dat0 (V3 m ρ) c).arrAt 7 cfg0.N) :=
  (hostOps1_v31 (W4 m ρ c)).trans (congrArg₂ invOf (W4_out6 m ρ c) (W4_out7 m ρ c))
theorem V5_win3 : V5 m ρ c (Pipeline.arrRef spec1 3) =
    row (m ((c : Thread nD τ).loc main_arg9)) :=
  (hostOps1_v32 (W4 m ρ c)).trans (congrArg row (W4_arg9 m ρ c))
theorem V5_win4 : V5 m ρ c (Pipeline.arrRef spec1 4) =
    row (m ((c : Thread nD τ).loc main_arg10)) :=
  (hostOps1_v33 (W4 m ρ c)).trans (congrArg row (W4_arg10 m ρ c))

/-! ## Region 2's windows: layer 1's aggregate of layer 0's output, and its weights -/

theorem W6_out5 : W6 m ρ c (Proc.devRef .tc main_v34) =
    ((dat1 (V5 m ρ) c).arrAt 5 cfg1.N) :=
  W6_arr m ρ c 5
theorem W6_v1 : W6 m ρ c (Proc.devRef .tc main_v1) =
    srcRow (m ((c : Thread nD τ).loc main_arg2)) :=
  ((W6_keep m ρ c (r := main_v1) (by decide)).trans ((W5_keep m ρ c (r := main_v1) (by decide)).trans ((W4_keep m ρ c (r := main_v1) (by decide)).trans ((W3_keep m ρ c (r := main_v1) (by decide)).trans (W2_keep m ρ c (r := main_v1) (by decide)))))).trans (W1_v1 m ρ c)
theorem W7_v42 : W7 m ρ c (Proc.devRef .tc main_v42) =
    edgeIn1 ((dat1 (V5 m ρ) c).arrAt 5 cfg1.N) (m ((c : Thread nD τ).loc main_arg1)) (srcIdx (m ((c : Thread nD τ).loc main_arg2))) :=
  (hostOps2_v42 (W6 m ρ c)).trans (by rw [W6_out5 m ρ c, W6_arg1 m ρ c, W6_v1 m ρ c]; rfl)
theorem W8_v43 : W8 m ρ c (Proc.devRef .tc main_v43) =
    relu1 (edgeIn1 ((dat1 (V5 m ρ) c).arrAt 5 cfg1.N) (m ((c : Thread nD τ).loc main_arg1)) (srcIdx (m ((c : Thread nD τ).loc main_arg2)))) :=
  (hostOps2_1_v43 (W7 m ρ c)).trans (congrArg relu1 (W7_v42 m ρ c))
theorem W8_v3 : W8 m ρ c (Proc.devRef .tc main_v3) =
    dstRow (m ((c : Thread nD τ).loc main_arg2)) :=
  ((W8_keep m ρ c (r := main_v3) (by decide)).trans ((W7_keep m ρ c (r := main_v3) (by decide)).trans ((W6_keep m ρ c (r := main_v3) (by decide)).trans ((W5_keep m ρ c (r := main_v3) (by decide)).trans ((W4_keep m ρ c (r := main_v3) (by decide)).trans ((W3_keep m ρ c (r := main_v3) (by decide)).trans (W2_keep m ρ c (r := main_v3) (by decide)))))))).trans (W1_v3 m ρ c)
theorem W8_y : W8 m ρ c (Proc.devRef .tc main_v34) =
    ((dat1 (V5 m ρ) c).arrAt 5 cfg1.N) :=
  ((W8_keep m ρ c (r := main_v34) (by decide)).trans (W7_keep m ρ c (r := main_v34) (by decide))).trans (W6_out5 m ρ c)
theorem W9_v50 : W9 m ρ c (Proc.devRef .tc main_v50) =
    agg1 ((dat1 (V5 m ρ) c).arrAt 5 cfg1.N) (m ((c : Thread nD τ).loc main_arg1)) (m ((c : Thread nD τ).loc main_arg2)) :=
  (hostOps2_2_v50 (W8 m ρ c)).trans (by rw [W8_v3 m ρ c, W8_v43 m ρ c, W8_y m ρ c]; rfl)
theorem V9_win0 : V9 m ρ c (Pipeline.arrRef spec2 0) =
    agg1 ((dat1 (V5 m ρ) c).arrAt 5 cfg1.N) (m ((c : Thread nD τ).loc main_arg1)) (m ((c : Thread nD τ).loc main_arg2)) :=
  W9_v50 m ρ c
theorem V9_win1 : V9 m ρ c (Pipeline.arrRef spec2 1) =
    (m ((c : Thread nD τ).loc main_arg11)) :=
  W9_arg11 m ρ c
theorem V9_win2 : V9 m ρ c (Pipeline.arrRef spec2 2) =
    row (m ((c : Thread nD τ).loc main_arg12)) :=
  (hostOps2_2_v51 (W8 m ρ c)).trans (congrArg row (W8_arg12 m ρ c))
theorem V9_win3 : V9 m ρ c (Pipeline.arrRef spec2 3) =
    (m ((c : Thread nD τ).loc main_arg13)) :=
  W9_arg13 m ρ c
theorem V9_win4 : V9 m ρ c (Pipeline.arrRef spec2 4) =
    row (m ((c : Thread nD τ).loc main_arg14)) :=
  (hostOps2_2_v52 (W8 m ρ c)).trans (congrArg row (W8_arg14 m ρ c))

/-! ## Region 3's windows: layer 1's output tiles, mean, inverse deviation, scale and shift -/

theorem W10_out5 : W10 m ρ c (Proc.devRef .tc main_v53_0) =
    ((dat2 (V9 m ρ) c).arrAt 5 cfg2.N) :=
  W10_arr m ρ c 5
theorem W10_out6 : W10 m ρ c (Proc.devRef .tc main_v53_1) =
    ((dat2 (V9 m ρ) c).arrAt 6 cfg2.N) :=
  W10_arr m ρ c 6
theorem W10_out7 : W10 m ρ c (Proc.devRef .tc main_v53_2) =
    ((dat2 (V9 m ρ) c).arrAt 7 cfg2.N) :=
  W10_arr m ρ c 7
theorem V11_win0 : V11 m ρ c (Pipeline.arrRef spec3 0) =
    ((dat2 (V9 m ρ) c).arrAt 5 cfg2.N) :=
  (W11_keep m ρ c (r := main_v53_0) (by decide)).trans (W10_out5 m ρ c)
theorem V11_win1 : V11 m ρ c (Pipeline.arrRef spec3 1) =
    meanOf ((dat2 (V9 m ρ) c).arrAt 6 cfg2.N) :=
  (hostOps3_v55 (W10 m ρ c)).trans (congrArg meanOf (W10_out6 m ρ c))
theorem V11_win2 : V11 m ρ c (Pipeline.arrRef spec3 2) =
    invOf ((dat2 (V9 m ρ) c).arrAt 6 cfg2.N) ((dat2 (V9 m ρ) c).arrAt 7 cfg2.N) :=
  (hostOps3_v62 (W10 m ρ c)).trans (congrArg₂ invOf (W10_out6 m ρ c) (W10_out7 m ρ c))
theorem V11_win3 : V11 m ρ c (Pipeline.arrRef spec3 3) =
    row (m ((c : Thread nD τ).loc main_arg15)) :=
  (hostOps3_v63 (W10 m ρ c)).trans (congrArg row (W10_arg15 m ρ c))
theorem V11_win4 : V11 m ρ c (Pipeline.arrRef spec3 4) =
    row (m ((c : Thread nD τ).loc main_arg16)) :=
  (hostOps3_v64 (W10 m ρ c)).trans (congrArg row (W10_arg16 m ρ c))

/-! ## Region 4's windows: layer 2's aggregate of layer 1's output, and its weights -/

theorem W12_out5 : W12 m ρ c (Proc.devRef .tc main_v65) =
    ((dat3 (V11 m ρ) c).arrAt 5 cfg3.N) :=
  W12_arr m ρ c 5
theorem W12_v1 : W12 m ρ c (Proc.devRef .tc main_v1) =
    srcRow (m ((c : Thread nD τ).loc main_arg2)) :=
  ((W12_keep m ρ c (r := main_v1) (by decide)).trans ((W11_keep m ρ c (r := main_v1) (by decide)).trans ((W10_keep m ρ c (r := main_v1) (by decide)).trans ((W9_keep m ρ c (r := main_v1) (by decide)).trans ((W8_keep m ρ c (r := main_v1) (by decide)).trans ((W7_keep m ρ c (r := main_v1) (by decide)).trans ((W6_keep m ρ c (r := main_v1) (by decide)).trans ((W5_keep m ρ c (r := main_v1) (by decide)).trans ((W4_keep m ρ c (r := main_v1) (by decide)).trans ((W3_keep m ρ c (r := main_v1) (by decide)).trans (W2_keep m ρ c (r := main_v1) (by decide)))))))))))).trans (W1_v1 m ρ c)
theorem W13_v73 : W13 m ρ c (Proc.devRef .tc main_v73) =
    edgeIn1 ((dat3 (V11 m ρ) c).arrAt 5 cfg3.N) (m ((c : Thread nD τ).loc main_arg1)) (srcIdx (m ((c : Thread nD τ).loc main_arg2))) :=
  (hostOps4_v73 (W12 m ρ c)).trans (by rw [W12_out5 m ρ c, W12_arg1 m ρ c, W12_v1 m ρ c]; rfl)
theorem W14_v74 : W14 m ρ c (Proc.devRef .tc main_v74) =
    relu1 (edgeIn1 ((dat3 (V11 m ρ) c).arrAt 5 cfg3.N) (m ((c : Thread nD τ).loc main_arg1)) (srcIdx (m ((c : Thread nD τ).loc main_arg2)))) :=
  (hostOps4_1_v74 (W13 m ρ c)).trans (congrArg relu1 (W13_v73 m ρ c))
theorem W14_v3 : W14 m ρ c (Proc.devRef .tc main_v3) =
    dstRow (m ((c : Thread nD τ).loc main_arg2)) :=
  ((W14_keep m ρ c (r := main_v3) (by decide)).trans ((W13_keep m ρ c (r := main_v3) (by decide)).trans ((W12_keep m ρ c (r := main_v3) (by decide)).trans ((W11_keep m ρ c (r := main_v3) (by decide)).trans ((W10_keep m ρ c (r := main_v3) (by decide)).trans ((W9_keep m ρ c (r := main_v3) (by decide)).trans ((W8_keep m ρ c (r := main_v3) (by decide)).trans ((W7_keep m ρ c (r := main_v3) (by decide)).trans ((W6_keep m ρ c (r := main_v3) (by decide)).trans ((W5_keep m ρ c (r := main_v3) (by decide)).trans ((W4_keep m ρ c (r := main_v3) (by decide)).trans ((W3_keep m ρ c (r := main_v3) (by decide)).trans (W2_keep m ρ c (r := main_v3) (by decide)))))))))))))).trans (W1_v3 m ρ c)
theorem W14_y : W14 m ρ c (Proc.devRef .tc main_v65) =
    ((dat3 (V11 m ρ) c).arrAt 5 cfg3.N) :=
  ((W14_keep m ρ c (r := main_v65) (by decide)).trans (W13_keep m ρ c (r := main_v65) (by decide))).trans (W12_out5 m ρ c)
theorem W15_v81 : W15 m ρ c (Proc.devRef .tc main_v81) =
    agg1 ((dat3 (V11 m ρ) c).arrAt 5 cfg3.N) (m ((c : Thread nD τ).loc main_arg1)) (m ((c : Thread nD τ).loc main_arg2)) :=
  (hostOps4_2_v81 (W14 m ρ c)).trans (by rw [W14_v3 m ρ c, W14_v74 m ρ c, W14_y m ρ c]; rfl)
theorem V15_win0 : V15 m ρ c (Pipeline.arrRef spec4 0) =
    agg1 ((dat3 (V11 m ρ) c).arrAt 5 cfg3.N) (m ((c : Thread nD τ).loc main_arg1)) (m ((c : Thread nD τ).loc main_arg2)) :=
  W15_v81 m ρ c
theorem V15_win1 : V15 m ρ c (Pipeline.arrRef spec4 1) =
    (m ((c : Thread nD τ).loc main_arg17)) :=
  W15_arg17 m ρ c
theorem V15_win2 : V15 m ρ c (Pipeline.arrRef spec4 2) =
    row (m ((c : Thread nD τ).loc main_arg18)) :=
  (hostOps4_2_v82 (W14 m ρ c)).trans (congrArg row (W14_arg18 m ρ c))
theorem V15_win3 : V15 m ρ c (Pipeline.arrRef spec4 3) =
    (m ((c : Thread nD τ).loc main_arg19)) :=
  W15_arg19 m ρ c
theorem V15_win4 : V15 m ρ c (Pipeline.arrRef spec4 4) =
    row (m ((c : Thread nD τ).loc main_arg20)) :=
  (hostOps4_2_v83 (W14 m ρ c)).trans (congrArg row (W14_arg20 m ρ c))

/-! ## Region 5's windows: layer 2's output tiles, mean, inverse deviation, scale and shift -/

theorem W16_out5 : W16 m ρ c (Proc.devRef .tc main_v84_0) =
    ((dat4 (V15 m ρ) c).arrAt 5 cfg4.N) :=
  W16_arr m ρ c 5
theorem W16_out6 : W16 m ρ c (Proc.devRef .tc main_v84_1) =
    ((dat4 (V15 m ρ) c).arrAt 6 cfg4.N) :=
  W16_arr m ρ c 6
theorem W16_out7 : W16 m ρ c (Proc.devRef .tc main_v84_2) =
    ((dat4 (V15 m ρ) c).arrAt 7 cfg4.N) :=
  W16_arr m ρ c 7
theorem V17_win0 : V17 m ρ c (Pipeline.arrRef spec5 0) =
    ((dat4 (V15 m ρ) c).arrAt 5 cfg4.N) :=
  (W17_keep m ρ c (r := main_v84_0) (by decide)).trans (W16_out5 m ρ c)
theorem V17_win1 : V17 m ρ c (Pipeline.arrRef spec5 1) =
    meanOf ((dat4 (V15 m ρ) c).arrAt 6 cfg4.N) :=
  (hostOps5_v86 (W16 m ρ c)).trans (congrArg meanOf (W16_out6 m ρ c))
theorem V17_win2 : V17 m ρ c (Pipeline.arrRef spec5 2) =
    invOf ((dat4 (V15 m ρ) c).arrAt 6 cfg4.N) ((dat4 (V15 m ρ) c).arrAt 7 cfg4.N) :=
  (hostOps5_v93 (W16 m ρ c)).trans (congrArg₂ invOf (W16_out6 m ρ c) (W16_out7 m ρ c))
theorem V17_win3 : V17 m ρ c (Pipeline.arrRef spec5 3) =
    row (m ((c : Thread nD τ).loc main_arg21)) :=
  (hostOps5_v94 (W16 m ρ c)).trans (congrArg row (W16_arg21 m ρ c))
theorem V17_win4 : V17 m ρ c (Pipeline.arrRef spec5 4) =
    row (m ((c : Thread nD τ).loc main_arg22)) :=
  (hostOps5_v95 (W16 m ρ c)).trans (congrArg row (W16_arg22 m ρ c))

/-! ## The two results: the pools of layer 2's normalised output -/

theorem W18_out5 : W18 m ρ c (Proc.devRef .tc main_v96) =
    ((dat5 (V17 m ρ) c).arrAt 5 cfg5.N) :=
  W18_arr m ρ c 5
theorem W19_v116 : W19 m ρ c (Proc.devRef .tc main_v116) =
    pool0 ((dat5 (V17 m ρ) c).arrAt 5 cfg5.N) (m ((c : Thread nD τ).loc main_arg3)) :=
  (hostOps6_v116 (W18 m ρ c)).trans (congrArg₂ pool0 (W18_out5 m ρ c) (W18_arg3 m ρ c))
theorem W19_v136 : W19 m ρ c (Proc.devRef .tc main_v136) =
    pool1 ((dat5 (V17 m ρ) c).arrAt 5 cfg5.N) (m ((c : Thread nD τ).loc main_arg4)) :=
  (hostOps6_v136 (W18 m ρ c)).trans (congrArg₂ pool1 (W18_out5 m ρ c) (W18_arg4 m ρ c))

end Cert.KernelIdeal.KValue

end
-- ==== Proof.RefReadOps.lean ====
/-
  The reference's array operations read at an index, at the extended reals: a matrix product is the sum
  over the contracted axis of the products of a row entry and a column entry; a column reduction is the
  initial value plus the sum over the rows; a broadcast of a row of 256 entries reads that row.
-/
import proofs.«164030_j60206851555878_1_alg».proof.ReferenceIdeal
import Idealize.ShloMosaic.PureOps.Ideal.Laws
import Idealize.ShloMosaic.Lib.ValueIdx

noncomputable section

namespace Cert.ReferenceIdeal.ReadOps

open Cert.ReferenceIdeal Idealize.ShloMosaic Idealize.ShloMosaic.ValueIdx
open scoped BigOperators

open Facts₀

variable [Facts₀]

/-- [50000,160] times [160,256] at (p, q). -/
theorem dot160_apply (l : FVec Ideal S50000x160 .f32) (r : FVec Ideal S160x256 .f32) (p : Fin 50000) (q : Fin 256) :
    Host.dotGeneral dot_S50000x160_S160x256_S50000x256_1_0_0_1_n_n none l r (ix2 p q)
      = ∑ a : Fin 160, l (ix2 p a) * r (ix2 a q) := by
  simp only [Host.dotGeneral]
  rw [Ideal.dotGeneral_apply,
    ← Equiv.sum_comp (contrEquiv1 dot_S50000x160_S160x256_S50000x256_1_0_0_1_n_n 160 rfl rfl).symm]
  refine Finset.sum_congr rfl fun a _ => ?_
  have hl : dot_S50000x160_S160x256_S50000x256_1_0_0_1_n_n.lhsIdx (ix2 p q)
      ((contrEquiv1 dot_S50000x160_S160x256_S50000x256_1_0_0_1_n_n 160 rfl rfl).symm a) = ix2 p a := by
    funext b
    match b with
    | ⟨0, _⟩ => rfl
    | ⟨1, _⟩ => exact Fin.ext ((DotDims.lhsIdx_val_of_single _ rfl _ _).trans (contrEquiv1_symm_val _ 160 rfl rfl a))
  have hr : dot_S50000x160_S160x256_S50000x256_1_0_0_1_n_n.rhsIdx (ix2 p q)
      ((contrEquiv1 dot_S50000x160_S160x256_S50000x256_1_0_0_1_n_n 160 rfl rfl).symm a) = ix2 a q := by
    funext b
    match b with
    | ⟨0, _⟩ => exact Fin.ext ((DotDims.rhsIdx_val_of_single _ rfl _ _).trans (contrEquiv1_symm_val _ 160 rfl rfl a))
    | ⟨1, _⟩ => rfl
  rw [hl, hr]

/-- [50000,256] times [256,256] at (p, q). -/
theorem dot256_apply (l : FVec Ideal S50000x256 .f32) (r : FVec Ideal S256x256 .f32) (p : Fin 50000) (q : Fin 256) :
    Host.dotGeneral dot_S50000x256_S256x256_S50000x256_1_0_0_1_n_n none l r (ix2 p q)
      = ∑ a : Fin 256, l (ix2 p a) * r (ix2 a q) := by
  simp only [Host.dotGeneral]
  rw [Ideal.dotGeneral_apply,
    ← Equiv.sum_comp (contrEquiv1 dot_S50000x256_S256x256_S50000x256_1_0_0_1_n_n 256 rfl rfl).symm]
  refine Finset.sum_congr rfl fun a _ => ?_
  have hl : dot_S50000x256_S256x256_S50000x256_1_0_0_1_n_n.lhsIdx (ix2 p q)
      ((contrEquiv1 dot_S50000x256_S256x256_S50000x256_1_0_0_1_n_n 256 rfl rfl).symm a) = ix2 p a := by
    funext b
    match b with
    | ⟨0, _⟩ => rfl
    | ⟨1, _⟩ => exact Fin.ext ((DotDims.lhsIdx_val_of_single _ rfl _ _).trans (contrEquiv1_symm_val _ 256 rfl rfl a))
  have hr : dot_S50000x256_S256x256_S50000x256_1_0_0_1_n_n.rhsIdx (ix2 p q)
      ((contrEquiv1 dot_S50000x256_S256x256_S50000x256_1_0_0_1_n_n 256 rfl rfl).symm a) = ix2 a q := by
    funext b
    match b with
    | ⟨0, _⟩ => exact Fin.ext ((DotDims.rhsIdx_val_of_single _ rfl _ _).trans (contrEquiv1_symm_val _ 256 rfl rfl a))
    | ⟨1, _⟩ => rfl
  rw [hl, hr]

/-- [50000,288] times [288,256] at (p, q). -/
theorem dot288_apply (l : FVec Ideal S50000x288 .f32) (r : FVec Ideal S288x256 .f32) (p : Fin 50000) (q : Fin 256) :
    Host.dotGeneral dot_S50000x288_S288x256_S50000x256_1_0_0_1_n_n none l r (ix2 p q)
      = ∑ a : Fin 288, l (ix2 p a) * r (ix2 a q) := by
  simp only [Host.dotGeneral]
  rw [Ideal.dotGeneral_apply,
    ← Equiv.sum_comp (contrEquiv1 dot_S50000x288_S288x256_S50000x256_1_0_0_1_n_n 288 rfl rfl).symm]
  refine Finset.sum_congr rfl fun a _ => ?_
  have hl : dot_S50000x288_S288x256_S50000x256_1_0_0_1_n_n.lhsIdx (ix2 p q)
      ((contrEquiv1 dot_S50000x288_S288x256_S50000x256_1_0_0_1_n_n 288 rfl rfl).symm a) = ix2 p a := by
    funext b
    match b with
    | ⟨0, _⟩ => rfl
    | ⟨1, _⟩ => exact Fin.ext ((DotDims.lhsIdx_val_of_single _ rfl _ _).trans (contrEquiv1_symm_val _ 288 rfl rfl a))
  have hr : dot_S50000x288_S288x256_S50000x256_1_0_0_1_n_n.rhsIdx (ix2 p q)
      ((contrEquiv1 dot_S50000x288_S288x256_S50000x256_1_0_0_1_n_n 288 rfl rfl).symm a) = ix2 a q := by
    funext b
    match b with
    | ⟨0, _⟩ => exact Fin.ext ((DotDims.rhsIdx_val_of_single _ rfl _ _).trans (contrEquiv1_symm_val _ 288 rfl rfl a))
    | ⟨1, _⟩ => rfl
  rw [hl, hr]

/-- The column reduction of a [50000,256] table at column j: the initial value plus the sum over the rows. -/
theorem colReduce_apply (x : FVec Ideal S50000x256 .f32) (v : FVec Ideal S_ .f32) (j : Fin 256) :
    Host.reduceAdd x v reducesTo_S50000x256_S256_d0 h_S_ (ix1 j) = v ix0 + ∑ r : Fin 50000, x (ix2 r j) := by
  have hR : S50000x256.Reduces [0] S256 := by decide
  show Ideal.hostReduceAdd reducesTo_S50000x256_S256_d0 x (v (Shape.Idx.first h_S_)) (ix1 j) = _
  rw [Ideal.hostReduceAdd_single _ hR, eq_ix0 (Shape.Idx.first h_S_)]
  refine congrArg (v ix0 + ·) (Finset.sum_congr rfl fun r _ => congrArg x ?_)
  funext b
  match b with
  | ⟨0, _⟩ => rfl
  | ⟨1, _⟩ => rfl

/-- A scalar read anywhere in a broadcast of it. -/
theorem bcast_scalar_apply {α : Type} {t : Shape} (dims : Fin S_.rank → Fin t.rank) (h : S_.BroadcastsInDim t dims)
    (x : S_.Idx → α) (j : t.Idx) : broadcastInDim t dims h x j = x ix0 :=
  congrArg x (eq_ix0 _)

/-- A vector of 256 entries laid as one row. -/
theorem bcast_row_apply {α : Type} (x : S256.Idx → α) (z : Fin 1) (j : Fin 256) :
    broadcastInDim S1x256 ![1] bcast_S256_S1x256_1 x (ix2 z j) = x (ix1 j) := by
  refine congrArg x ?_
  funext b
  match b with
  | ⟨0, _⟩ => rfl

/-- A row of 256 entries repeated down 50000 rows. -/
theorem bcast_rows_apply {α : Type} (x : S1x256.Idx → α) (r : Fin 50000) (j : Fin 256) :
    broadcastInDim S50000x256 ![0, 1] bcast_S1x256_S50000x256_0_1 x (ix2 r j) = x (ix2 0 j) := by
  refine congrArg x ?_
  funext b
  match b with
  | ⟨0, _⟩ => rfl
  | ⟨1, _⟩ => rfl

end Cert.ReferenceIdeal.ReadOps

end
-- ==== Proof.GineSpec.lean ====
/-
  The dense part of one layer, as plain functions of row and column over the extended reals.
  A row of the aggregated features goes through two affine maps, each followed by the rectifier
  x ↦ max x 0; the batch statistics are column sums over all rows.
-/
import Idealize.ShloMosaic.PureOps.Ideal

noncomputable section

namespace GineSpec

open scoped BigOperators

/-- Entry (r, j) of relu (relu (A · W1 + B1) · W2 + B2): the inner sum runs over the columns of A,
    the outer over the hidden width. -/
def h2 {n k d e : ℕ} (A : Fin n → Fin k → EReal) (W1 : Fin k → Fin d → EReal) (B1 : Fin d → EReal)
    (W2 : Fin d → Fin e → EReal) (B2 : Fin e → EReal) (r : Fin n) (j : Fin e) : EReal :=
  max ((∑ c : Fin d, max ((∑ a : Fin k, A r a * W1 a c) + B1 c) 0 * W2 c j) + B2 j) 0

/-- The column sums of a table. -/
def colSum {n e : ℕ} (H : Fin n → Fin e → EReal) (j : Fin e) : EReal := ∑ r : Fin n, H r j

/-- The column sums of the squares of a table. -/
def colSumSq {n e : ℕ} (H : Fin n → Fin e → EReal) (j : Fin e) : EReal := ∑ r : Fin n, H r j * H r j

/-- The affine normalisation of one entry: scale · (value − centre) · spread + shift. -/
def affine (g x mu s b : EReal) : EReal := g * (x - mu) * s + b

end GineSpec

end
-- ==== Proof.LibERealFinite.lean ====
/-
  Finiteness on the extended reals. An extended real is FINITE when it is the image of a real number.
  Sums, differences, products and maxima of finite values are finite; so is a quotient by a nonzero
  real, and the reciprocal square root of a positive real. These are what keeps a layer's values away
  from the infinities, where the extended reals' arithmetic stops being a ring.
-/
import Idealize.ShloMosaic.PureOps.Ideal

noncomputable section

namespace GineSpec

open Idealize.ShloMosaic
open scoped BigOperators

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, by simp⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.sub {x y : EReal} (hx : IsReal x) (hy : IsReal y) : IsReal (x - y) := by
  obtain ⟨a, rfl⟩ := hx; obtain ⟨b, rfl⟩ := hy; exact ⟨a - b, by rw [EReal.coe_sub]⟩

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.max {x y : EReal} (hx : IsReal x) (hy : IsReal y) : IsReal (max x y) := by
  rcases le_total x y with h | h
  · rw [max_eq_right h]; exact hy
  · rw [max_eq_left h]; exact hx

/-- A finite sum of finite values is finite. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient by a nonzero real is the product with its reciprocal, hence finite on finite values. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a real. -/
theorem isReal_rsqrt_pos {r : ℝ} (hr : 0 < r) : IsReal (Ideal.rsqrt (r : EReal)) := by
  rw [Ideal.rsqrt_coe, if_neg (not_lt.mpr hr.le), if_neg hr.ne']
  exact isReal_coe _

end GineSpec

end
-- ==== Proof.GineAlgebra.lean ====
/-
  The two spellings of a column's spread agree on finite values.
  For real numbers h_1 … h_n with mean mu = (∑ h) / n, the mean of the squares minus the squared mean,
  (∑ h²) / n − mu², equals the mean of the squared deviations, (∑ (h − mu)²) / n: expand the square,
  ∑ (h − mu)² = ∑ h² − 2 mu ∑ h + n mu², and use ∑ h = n mu. On the extended reals the identity needs every
  h finite, since it distributes a product over a sum. The common value is nonnegative, so adding a
  positive offset gives a positive real, whose reciprocal square root is a real.
-/
import proofs.«164030_j60206851555878_1_alg».proof.Proof.GineSpec
import proofs.«164030_j60206851555878_1_alg».proof.Proof.LibERealFinite

noncomputable section

namespace GineSpec

open Idealize.ShloMosaic
open scoped BigOperators

/-- The identity over the reals. -/
theorem real_spread (n : ℕ) (hn : (n : ℝ) ≠ 0) (h : Fin n → ℝ) :
    (∑ r, h r * h r) * (1 / (n : ℝ)) - ((∑ r, h r) * (1 / (n : ℝ))) * ((∑ r, h r) * (1 / (n : ℝ)))
      = (∑ r, (h r - (∑ r, h r) * (1 / (n : ℝ))) * (h r - (∑ r, h r) * (1 / (n : ℝ)))) * (1 / (n : ℝ)) := by
  set s := ∑ r, h r with hs
  set μ := s * (1 / (n : ℝ)) with hμ
  have e : ∑ r, (h r - μ) * (h r - μ) = (∑ r, h r * h r) - 2 * μ * s + n * (μ * μ) := by
    have : ∀ r, (h r - μ) * (h r - μ) = h r * h r - 2 * μ * h r + μ * μ := fun r => by ring
    simp only [this, Finset.sum_add_distrib, Finset.sum_sub_distrib, ← Finset.mul_sum, Finset.sum_const,
      Finset.card_univ, Fintype.card_fin, nsmul_eq_mul, ← hs]
    ring
  rw [e, hμ]; field_simp; ring

/-- The mean of the squared deviations is nonnegative. -/
theorem real_spread_nonneg (n : ℕ) (h : Fin n → ℝ) (μ : ℝ) :
    0 ≤ (∑ r, (h r - μ) * (h r - μ)) * (1 / (n : ℝ)) := by
  apply mul_nonneg
  · exact Finset.sum_nonneg fun r _ => mul_self_nonneg _
  · positivity

variable {n e : ℕ}

/-- A column's mean: its sum divided by the row count. -/
def colMean (N : EReal) (H : Fin n → Fin e → EReal) (j : Fin e) : EReal := Ideal.div (colSum H j) N

/-- The spread as mean of squares minus squared mean. -/
def spreadSq (N : EReal) (H : Fin n → Fin e → EReal) (j : Fin e) : EReal :=
  Ideal.div (colSumSq H j) N - colMean N H j * colMean N H j

/-- The spread as mean of squared deviations from the mean. -/
def spreadDev (N : EReal) (H : Fin n → Fin e → EReal) (j : Fin e) : EReal :=
  Ideal.div (∑ r : Fin n, (H r j - colMean N H j) * (H r j - colMean N H j)) N

/-- On a table of finite values the two spreads agree, when the divisor is the number of rows. -/
theorem spread_eq (hn : (n : ℝ) ≠ 0) (H : Fin n → Fin e → EReal) (hH : ∀ r j, IsReal (H r j)) (j : Fin e) :
    spreadSq ((n : ℝ) : EReal) H j = spreadDev ((n : ℝ) : EReal) H j := by
  choose h hh using hH
  have hcol : ∀ r, H r j = ((h r j : ℝ) : EReal) := fun r => hh r j
  unfold spreadSq spreadDev colMean colSum colSumSq
  simp only [hcol, Ideal.div_coe hn, ← EReal.coe_mul, ← coe_sum, ← EReal.coe_sub]
  exact congrArg _ (real_spread n hn fun r => h r j)

/-- On a table of finite values the spread is a nonnegative real. -/
theorem spreadDev_real (hn : (n : ℝ) ≠ 0) (H : Fin n → Fin e → EReal) (hH : ∀ r j, IsReal (H r j)) (j : Fin e) :
    ∃ v : ℝ, 0 ≤ v ∧ spreadDev ((n : ℝ) : EReal) H j = (v : EReal) := by
  choose h hh using hH
  have hcol : ∀ r, H r j = ((h r j : ℝ) : EReal) := fun r => hh r j
  refine ⟨(∑ r, (h r j - (∑ r, h r j) * (1 / (n : ℝ))) * (h r j - (∑ r, h r j) * (1 / (n : ℝ)))) * (1 / (n : ℝ)),
    real_spread_nonneg n _ _, ?_⟩
  unfold spreadDev colMean colSum
  simp only [hcol, Ideal.div_coe hn, ← EReal.coe_mul, ← coe_sum, ← EReal.coe_sub]

/-- The column mean of a finite table is finite. -/
theorem colMean_real (hn : (n : ℝ) ≠ 0) (H : Fin n → Fin e → EReal) (hH : ∀ r j, IsReal (H r j)) (j : Fin e) :
    IsReal (colMean ((n : ℝ) : EReal) H j) :=
  (isReal_sum _ _ fun r _ => hH r j).div_coe hn

/-- The reciprocal square root of spread plus a positive offset is finite. -/
theorem rsqrt_spread_real (hn : (n : ℝ) ≠ 0) (H : Fin n → Fin e → EReal) (hH : ∀ r j, IsReal (H r j)) (j : Fin e)
    {ε : ℝ} (hε : 0 < ε) : IsReal (Ideal.rsqrt (spreadDev ((n : ℝ) : EReal) H j + (ε : EReal))) := by
  obtain ⟨v, hv, e⟩ := spreadDev_real hn H hH j
  rw [e, ← EReal.coe_add]
  exact isReal_rsqrt_pos (by linarith)

/-- The rectified two-layer map of finite data is finite. -/
theorem h2_real {k d : ℕ} (A : Fin n → Fin k → EReal) (W1 : Fin k → Fin d → EReal) (B1 : Fin d → EReal)
    (W2 : Fin d → Fin e → EReal) (B2 : Fin e → EReal) (hA : ∀ r a, IsReal (A r a)) (hW1 : ∀ a c, IsReal (W1 a c))
    (hB1 : ∀ c, IsReal (B1 c)) (hW2 : ∀ c j, IsReal (W2 c j)) (hB2 : ∀ j, IsReal (B2 j)) (r : Fin n) (j : Fin e) :
    IsReal (h2 A W1 B1 W2 B2 r j) := by
  unfold h2
  refine IsReal.max (IsReal.add (isReal_sum _ _ fun c _ => IsReal.mul (IsReal.max (IsReal.add
    (isReal_sum _ _ fun a _ => (hA r a).mul (hW1 a c)) (hB1 c)) isReal_zero) (hW2 c j)) (hB2 j)) isReal_zero

/-- The affine normalisation of finite values is finite. -/
theorem affine_real {g x mu s b : EReal} (hg : IsReal g) (hx : IsReal x) (hmu : IsReal mu) (hs : IsReal s)
    (hb : IsReal b) : IsReal (affine g x mu s b) :=
  ((hg.mul (hx.sub hmu)).mul hs).add hb

end GineSpec

end
-- ==== Proof.GineConsts.lean ====
/-
  The four float words the two programs spell, as the extended reals they denote: zero, one, the row count
  fifty thousand, and the variance offset, a positive real just below one hundred-thousandth.
-/
import Idealize.ShloMosaic.PureOps.Ideal

noncomputable section

namespace GineConsts

open Idealize.ShloMosaic

/-- The zero word denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 50000.0 denotes the real 50000. -/
theorem ofBits_rows : Ideal.ofBits .f32 0x47435000#32 = ((50000 : ℝ) : EReal) := by
  simp [Ideal.ofBits, Ideal.ieee, -EReal.coe_mul]; norm_num

/-- The variance offset denotes the dyadic 2748779 / 2^38, a positive real. -/
theorem ofBits_eps : Ideal.ofBits .f32 0x3727C5AC#32 = ((2748779 / 274877906944 : ℝ) : EReal) := by
  simp [Ideal.ofBits, Ideal.ieee, -EReal.coe_mul]; norm_num

theorem eps_pos : (0 : ℝ) < 2748779 / 274877906944 := by norm_num

end GineConsts

end
-- ==== Proof.GineLayer.lean ====
/-
  One layer's normalised output, at the row count fifty thousand: with the spread spelled as mean of squares
  minus squared mean, or as mean of squared deviations, the output entry is the same extended real when the
  table is finite — and it is finite when scale, shift and table are.
-/
import proofs.«164030_j60206851555878_1_alg».proof.Proof.GineAlgebra
import proofs.«164030_j60206851555878_1_alg».proof.Proof.GineConsts

noncomputable section

namespace GineSpec

open Idealize.ShloMosaic
open scoped BigOperators

variable {e : ℕ}

/-- The row count as an extended real. -/
abbrev rows : EReal := ((50000 : ℝ) : EReal)

/-- The variance offset as an extended real. -/
abbrev eps : EReal := ((2748779 / 274877906944 : ℝ) : EReal)

theorem rows_cast : (((50000 : ℕ) : ℝ) : EReal) = rows := by norm_num

theorem rows_ne : ((50000 : ℕ) : ℝ) ≠ 0 := by norm_num

/-- An output entry with the spread as mean of squares minus squared mean. -/
def outSq (H : Fin 50000 → Fin e → EReal) (G B : Fin e → EReal) (r : Fin 50000) (j : Fin e) : EReal :=
  affine (G j) (H r j) (colMean rows H j) (Ideal.rsqrt (spreadSq rows H j + eps)) (B j)

/-- An output entry with the spread as mean of squared deviations. -/
def outDev (H : Fin 50000 → Fin e → EReal) (G B : Fin e → EReal) (r : Fin 50000) (j : Fin e) : EReal :=
  affine (G j) (H r j) (colMean rows H j) (Ideal.rsqrt (spreadDev rows H j + eps)) (B j)

theorem out_eq (H : Fin 50000 → Fin e → EReal) (hH : ∀ r j, IsReal (H r j)) (G B : Fin e → EReal) (r : Fin 50000)
    (j : Fin e) : outSq H G B r j = outDev H G B r j := by
  unfold outSq outDev
  have h := spread_eq (n := 50000) rows_ne H hH j
  rw [rows_cast] at h
  rw [h]

theorem outDev_real (H : Fin 50000 → Fin e → EReal) (hH : ∀ r j, IsReal (H r j)) (G B : Fin e → EReal)
    (hG : ∀ j, IsReal (G j)) (hB : ∀ j, IsReal (B j)) (r : Fin 50000) (j : Fin e) : IsReal (outDev H G B r j) := by
  unfold outDev
  have hm := colMean_real (n := 50000) rows_ne H hH j
  have hs := rsqrt_spread_real (n := 50000) rows_ne H hH j GineConsts.eps_pos
  rw [rows_cast] at hm hs
  exact affine_real (hG j) (hH r j) hm hs (hB j)

end GineSpec

end
-- ==== Proof.RefLayer.lean ====
/-
  The reference's dense part and normalisation of one layer, read entry by entry.
  Entry (r, j) of the dense part is the rectified two-layer map of row r; the column mean is the column
  sum over fifty thousand; the reference's variance is the mean of the squared deviations from that mean
  (its guard "row count minus zero is positive" holds, so the guarded branch is never the undefined one);
  the output entry is scale · (value − mean) · (variance + offset)^(-1/2) + shift.
-/
import proofs.«164030_j60206851555878_1_alg».proof.Proof.RefReadOps
import proofs.«164030_j60206851555878_1_alg».proof.Proof.GineLayer

noncomputable section

namespace Cert.ReferenceIdeal.ReadLayer

open Cert.ReferenceIdeal Cert.ReferenceIdeal.ReadOps Idealize.ShloMosaic Idealize.ShloMosaic.ValueIdx
open Facts₀
open scoped BigOperators

variable [Facts₀]

/-- The rectifier on a [50000,256] table: the maximum with a table of zeros. -/
def relu256 (x : FVec Ideal S50000x256 .f32) : FVec Ideal S50000x256 .f32 :=
  maximumf x (broadcastInDim S50000x256 ![] bcast_S_S50000x256 (constant S_ .f32 0x00000000#32))

theorem relu256_apply (x : FVec Ideal S50000x256 .f32) (r : Fin 50000) (j : Fin 256) :
    relu256 x (ix2 r j) = max (x (ix2 r j)) 0 := by
  unfold relu256
  rw [maximumf_apply, bcast_scalar_apply, constant_apply, GineConsts.ofBits_zero]

/-- A vector of 256 entries as a row, repeated down the 50000 rows. -/
def biasRows (b : FVec Ideal S256 .f32) : FVec Ideal S50000x256 .f32 :=
  broadcastInDim S50000x256 ![0, 1] bcast_S1x256_S50000x256_0_1 (broadcastInDim S1x256 ![1] bcast_S256_S1x256_1 b)

theorem biasRows_apply (b : FVec Ideal S256 .f32) (r : Fin 50000) (j : Fin 256) : biasRows b (ix2 r j) = b (ix1 j) := by
  unfold biasRows
  rw [bcast_rows_apply, bcast_row_apply]

/-- The reference's dense part on aggregated features of width 160: two matrix products, each followed by
    the bias row and the rectifier. -/
def h2R160 (agg : FVec Ideal S50000x160 .f32) (w1 : FVec Ideal S160x256 .f32) (b1 : FVec Ideal S256 .f32)
    (w2 : FVec Ideal S256x256 .f32) (b2 : FVec Ideal S256 .f32) : FVec Ideal S50000x256 .f32 :=
  relu256 (addf (Host.dotGeneral dot_S50000x256_S256x256_S50000x256_1_0_0_1_n_n none
    (relu256 (addf (Host.dotGeneral dot_S50000x160_S160x256_S50000x256_1_0_0_1_n_n none agg w1) (biasRows b1))) w2) (biasRows b2))

theorem h2R160_apply (agg : FVec Ideal S50000x160 .f32) (w1 : FVec Ideal S160x256 .f32) (b1 : FVec Ideal S256 .f32)
    (w2 : FVec Ideal S256x256 .f32) (b2 : FVec Ideal S256 .f32) (r : Fin 50000) (j : Fin 256) :
    h2R160 agg w1 b1 w2 b2 (ix2 r j)
      = GineSpec.h2 (fun r a => agg (ix2 r a)) (fun a c => w1 (ix2 a c)) (fun c => b1 (ix1 c))
          (fun c j => w2 (ix2 c j)) (fun j => b2 (ix1 j)) r j := by
  unfold h2R160 GineSpec.h2
  rw [relu256_apply, addf_apply, dot256_apply, biasRows_apply]
  simp only [relu256_apply, addf_apply, dot160_apply, biasRows_apply]

/-- The reference's dense part on aggregated features of width 288: two matrix products, each followed by
    the bias row and the rectifier. -/
def h2R288 (agg : FVec Ideal S50000x288 .f32) (w1 : FVec Ideal S288x256 .f32) (b1 : FVec Ideal S256 .f32)
    (w2 : FVec Ideal S256x256 .f32) (b2 : FVec Ideal S256 .f32) : FVec Ideal S50000x256 .f32 :=
  relu256 (addf (Host.dotGeneral dot_S50000x256_S256x256_S50000x256_1_0_0_1_n_n none
    (relu256 (addf (Host.dotGeneral dot_S50000x288_S288x256_S50000x256_1_0_0_1_n_n none agg w1) (biasRows b1))) w2) (biasRows b2))

theorem h2R288_apply (agg : FVec Ideal S50000x288 .f32) (w1 : FVec Ideal S288x256 .f32) (b1 : FVec Ideal S256 .f32)
    (w2 : FVec Ideal S256x256 .f32) (b2 : FVec Ideal S256 .f32) (r : Fin 50000) (j : Fin 256) :
    h2R288 agg w1 b1 w2 b2 (ix2 r j)
      = GineSpec.h2 (fun r a => agg (ix2 r a)) (fun a c => w1 (ix2 a c)) (fun c => b1 (ix1 c))
          (fun c j => w2 (ix2 c j)) (fun j => b2 (ix1 j)) r j := by
  unfold h2R288 GineSpec.h2
  rw [relu256_apply, addf_apply, dot256_apply, biasRows_apply]
  simp only [relu256_apply, addf_apply, dot288_apply, biasRows_apply]

/-- The reference's column mean: the column reduction from zero, divided by the row count. -/
def meanR (h : FVec Ideal S50000x256 .f32) : FVec Ideal S256 .f32 :=
  Host.divf (Host.reduceAdd h (constant S_ .f32 0x00000000#32) reducesTo_S50000x256_S256_d0 h_S_)
    (broadcastInDim S256 ![] bcast_S_S256 (constant S_ .f32 0x47435000#32))

theorem meanR_apply (h : FVec Ideal S50000x256 .f32) (j : Fin 256) :
    meanR h (ix1 j) = GineSpec.colMean GineSpec.rows (fun r j => h (ix2 r j)) j := by
  unfold meanR GineSpec.colMean GineSpec.colSum
  show Ideal.div _ _ = _
  rw [colReduce_apply, bcast_scalar_apply, constant_apply, constant_apply, GineConsts.ofBits_zero, zero_add,
    GineConsts.ofBits_rows]

/-- The row count minus the degrees-of-freedom correction zero, as the reference computes it. -/
def dofR : FVec Ideal S_ .f32 := subf (constant S_ .f32 0x47435000#32) (sitofp .f32 (constantI S_ 32 0#32))

theorem dofR_apply : dofR ix0 = GineSpec.rows := by
  unfold dofR
  rw [subf_apply, constant_apply, GineConsts.ofBits_rows]
  show GineSpec.rows - (((0#32 : BitVec 32).toInt : ℝ) : EReal) = _
  simp

/-- The deviation of each entry from its column's mean, the mean computed as a row of 256 entries. -/
def devR (h : FVec Ideal S50000x256 .f32) : FVec Ideal S50000x256 .f32 :=
  subf h (broadcastInDim S50000x256 ![0, 1] bcast_S1x256_S50000x256_0_1
    (Host.divf (broadcastInDim S1x256 ![1] bcast_S256_S1x256_1
        (Host.reduceAdd h (constant S_ .f32 0x00000000#32) reducesTo_S50000x256_S256_d0 h_S_))
      (broadcastInDim S1x256 ![] bcast_S_S1x256 (constant S_ .f32 0x47435000#32))))

theorem devR_apply (h : FVec Ideal S50000x256 .f32) (r : Fin 50000) (j : Fin 256) :
    devR h (ix2 r j) = h (ix2 r j) - GineSpec.colMean GineSpec.rows (fun r j => h (ix2 r j)) j := by
  unfold devR GineSpec.colMean GineSpec.colSum
  rw [subf_apply, bcast_rows_apply]
  show _ - Ideal.div _ _ = _
  rw [bcast_row_apply, colReduce_apply, bcast_scalar_apply, constant_apply, constant_apply, GineConsts.ofBits_zero,
    zero_add, GineConsts.ofBits_rows]

/-- The reference's variance: the mean over the rows of the squared deviation from the column mean, behind a
    guard that selects it when the divisor is positive. -/
def varR (h : FVec Ideal S50000x256 .f32) : FVec Ideal S256 .f32 :=
  select (broadcastInDim S256 ![] bcast_S_S256 (cmpf .ogt dofR (constant S_ .f32 0x00000000#32)))
    (Host.divf
      (Host.reduceAdd (mulf (devR h) (devR h)) (constant S_ .f32 0x00000000#32) reducesTo_S50000x256_S256_d0 h_S_)
      (broadcastInDim S256 ![] bcast_S_S256 dofR))
    (broadcastInDim S256 ![] bcast_S_S256 (id (constant S_ .f32 0x7FC00000#32)))

theorem varR_apply (h : FVec Ideal S50000x256 .f32) (j : Fin 256) :
    varR h (ix1 j) = GineSpec.spreadDev GineSpec.rows (fun r j => h (ix2 r j)) j := by
  have hg : (broadcastInDim S256 ![] bcast_S_S256 (cmpf .ogt dofR (constant S_ .f32 0x00000000#32)) : IVec S256 1) (ix1 j)
      = 1#1 := by
    rw [bcast_scalar_apply, cmpf_apply, dofR_apply, constant_apply, GineConsts.ofBits_zero, Ideal.cmpf_def]
    simp [Ideal.cmp]
  unfold varR GineSpec.spreadDev
  rw [select_apply, hg, select_one]
  show Ideal.div _ _ = _
  rw [colReduce_apply, bcast_scalar_apply, dofR_apply, constant_apply, GineConsts.ofBits_zero, zero_add]
  simp only [mulf_apply, devR_apply]

/-- The reference's normalised output: scale · (value − mean) · (variance + offset)^(-1/2) + shift. -/
def bnR (h : FVec Ideal S50000x256 .f32) (g beta : FVec Ideal S256 .f32) : FVec Ideal S50000x256 .f32 :=
  addf (mulf (mulf (biasRows g) (subf h (biasRows (meanR h))))
    (biasRows (Host.rsqrt (addf (varR h) (broadcastInDim S256 ![] bcast_S_S256 (constant S_ .f32 0x3727C5AC#32))))))
    (biasRows beta)

theorem bnR_apply (h : FVec Ideal S50000x256 .f32) (g beta : FVec Ideal S256 .f32) (r : Fin 50000) (j : Fin 256) :
    bnR h g beta (ix2 r j)
      = GineSpec.outDev (fun r j => h (ix2 r j)) (fun j => g (ix1 j)) (fun j => beta (ix1 j)) r j := by
  unfold bnR GineSpec.outDev GineSpec.affine
  rw [addf_apply, mulf_apply, mulf_apply, subf_apply, biasRows_apply, biasRows_apply, biasRows_apply, biasRows_apply,
    meanR_apply]
  show _ * _ * Ideal.rsqrt _ + _ = _
  rw [addf_apply, varR_apply, bcast_scalar_apply, constant_apply, GineConsts.ofBits_eps]

end Cert.ReferenceIdeal.ReadLayer

end
-- ==== Proof.KRead.lean ====
/-
  The host glue between the two kernels of a layer, read entry by entry: the column mean is the column sum over
  fifty thousand; the inverse deviation is the reciprocal square root of (mean of squares minus squared mean)
  plus the offset; a vector of 256 entries read as a one-row table has the same entries.
-/
import proofs.«164030_j60206851555878_1_alg».proof.Proof.KFoldDefs
import proofs.«164030_j60206851555878_1_alg».proof.Proof.GineLayer
import Idealize.ShloMosaic.Lib.ValueIdx
import Idealize.ShloMosaic.Lib.Pipeline.Value

noncomputable section

namespace Cert.KernelIdeal.KValue

open Cert.KernelIdeal Idealize.ShloMosaic Idealize.ShloMosaic.ValueIdx
open Facts₀

variable [Facts₀]

theorem nRows_apply (i : S1x256.Idx) : (nRows (F := Ideal)) i = GineSpec.rows := by
  unfold nRows
  show Ideal.ofBits .f32 0x47435000#32 = _
  exact GineConsts.ofBits_rows

theorem meanOf_apply (s : Arr Ideal S1x256 .f32) (i : S1x256.Idx) :
    meanOf s i = Ideal.div (s i) GineSpec.rows := by
  unfold meanOf
  show Ideal.div (s i) (nRows (F := Ideal) i) = _
  rw [nRows_apply]

theorem invOf_apply (s ss : Arr Ideal S1x256 .f32) (i : S1x256.Idx) :
    invOf s ss i = Ideal.rsqrt (Ideal.div (ss i) GineSpec.rows - Ideal.div (s i) GineSpec.rows * Ideal.div (s i) GineSpec.rows
      + GineSpec.eps) := by
  unfold invOf
  show Ideal.rsqrt (Ideal.div (ss i) (nRows (F := Ideal) i) - meanOf s i * meanOf s i + Ideal.ofBits .f32 0x3727C5AC#32) = _
  rw [nRows_apply, meanOf_apply, GineConsts.ofBits_eps]

theorem row_apply (v : Arr Ideal S256 .f32) (z : Fin 1) (j : Fin 256) : row v (ix2 z j) = v (ix1 j) := by
  unfold row
  refine (shapeCast_apply v _ (ix2 z j) (ix1 j) ?_)
  have hz : z = 0 := Subsingleton.elim _ _
  subst hz
  rw [Shape.rowMajor_val_one, Shape.rowMajor_val_two]
  simp

end Cert.KernelIdeal.KValue

end
-- ==== Proof.LibArrayFinite.lean ====
/-
  Finiteness through the array operations around the dense part of a layer.
  A gather, a broadcast, a reshape and a concatenation only re-index their operands, so their entries are
  entries of the operands. An accumulating scatter adds to each entry of its operand a finite sum of
  update entries; the one-index scatter is a left fold of single additions. Pointwise sums, products and
  maxima of finite arrays are finite. So an array built from finite arrays by these operations is finite.
-/
import proofs.«164030_j60206851555878_1_alg».proof.Proof.LibERealFinite
import Idealize.ShloMosaic.PureOps.Ideal

noncomputable section

namespace GineSpec

open Idealize.ShloMosaic
open scoped BigOperators

/-- Every entry of an array of extended reals is finite. -/
def AllReal {ι : Type*} (x : ι → EReal) : Prop := ∀ i, IsReal (x i)

variable {s t si u : Shape} {w : Nat}

theorem allReal_gather (d : GatherDims s si t) (x : s.Idx → EReal) (idx : IVec si w) (hx : AllReal x) :
    AllReal (Host.gather d x idx) := fun j => by
  unfold Host.gather; exact hx _

theorem allReal_broadcastInDim (dims : Fin s.rank → Fin t.rank) (h : s.BroadcastsInDim t dims) (x : s.Idx → EReal)
    (hx : AllReal x) : AllReal (broadcastInDim t dims h x) := fun j => by
  unfold broadcastInDim; exact hx _

theorem allReal_shapeCast (x : s.Idx → EReal) (h : s.ShapeCasts t) (hx : AllReal x) :
    AllReal (shapeCast t x h) := fun j => by
  unfold shapeCast; exact hx _

theorem allReal_concatenate (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

theorem allReal_scatterAdd (d : ScatterDims s si u) (x : s.Idx → EReal) (idx : IVec si w) (upd : u.Idx → EReal)
    (hx : AllReal x) (hu : AllReal upd) : AllReal (Ideal.hostScatterAdd d x idx upd) := fun i => by
  unfold Ideal.hostScatterAdd
  exact (hx i).add (isReal_sum _ _ fun j _ => hu j)

theorem allReal_scatter_add (d : ScatterDims s si u) (x : s.Idx → EReal) (idx : IVec si w) (upd : u.Idx → EReal)
    (hx : AllReal x) (hu : AllReal upd) : AllReal (Host.scatter d (fun a b : EReal => a + b) x idx upd) := by
  unfold Host.scatter
  generalize List.finRange u.numel = L
  induction L generalizing x with
  | nil => exact hx
  | cons n L ih =>
    rw [List.foldl_cons]
    apply ih
    intro i
    generalize d.resultIdx? (u.rowMajor.symm n) idx = o
    cases o with
    | none => exact hx i
    | some i0 =>
      dsimp only
      split_ifs
      · exact (hx _).add (hu _)
      · exact hx i

theorem allReal_add (x y : s.Idx → EReal) (hx : AllReal x) (hy : AllReal y) : AllReal (fun i => x i + y i) :=
  fun i => (hx i).add (hy i)

theorem allReal_mul (x y : s.Idx → EReal) (hx : AllReal x) (hy : AllReal y) : AllReal (fun i => x i * y i) :=
  fun i => (hx i).mul (hy i)

theorem allReal_max (x y : s.Idx → EReal) (hx : AllReal x) (hy : AllReal y) : AllReal (fun i => max (x i) (y i)) :=
  fun i => (hx i).max (hy i)

theorem allReal_const {ι : Type*} (r : ℝ) : AllReal (fun _ : ι => (r : EReal)) := fun _ => isReal_coe r

end GineSpec

end
-- ==== Proof.LayerBridge.lean ====
/-
  One layer of the tiled program against one layer of the reference, as arrays.
-/
import proofs.«164030_j60206851555878_1_alg».proof.Proof.RefLayer
import proofs.«164030_j60206851555878_1_alg».proof.Proof.KRead
import proofs.«164030_j60206851555878_1_alg».proof.Proof.LibArrayFinite

noncomputable section

namespace Cert.Bridge

open Cert.ReferenceIdeal Cert.ReferenceIdeal.ReadLayer Idealize.ShloMosaic Idealize.ShloMosaic.ValueIdx GineSpec
open Cert.KernelIdeal (KValue.meanOf KValue.invOf)
open scoped BigOperators

variable [Cert.KernelIdeal.Facts₀] [Cert.ReferenceIdeal.Facts₀]

/-- One layer over aggregated features of width 160. The tiled program's output array — each entry the affine
    normalisation of the dense part's entry with the mean and inverse deviation computed from the two
    accumulated column sums — is the reference's normalised dense part, when the aggregated features, the
    weights and the biases are finite; and it is then finite when scale and shift are. -/
theorem layer160 (A : FVec Ideal S50000x160 .f32) (w1 : FVec Ideal S160x256 .f32) (b1 : FVec Ideal S256 .f32)
    (w2 : FVec Ideal S256x256 .f32) (b2 g beta : FVec Ideal S256 .f32)
    (b1r b2r gr betar S SS : FVec Ideal S1x256 .f32) (hraw O : FVec Ideal S50000x256 .f32)
    (hb1 : ∀ j, b1r (ix2 0 j) = b1 (ix1 j)) (hb2 : ∀ j, b2r (ix2 0 j) = b2 (ix1 j))
    (hg : ∀ j, gr (ix2 0 j) = g (ix1 j)) (hbeta : ∀ j, betar (ix2 0 j) = beta (ix1 j))
    (hH : ∀ r j, hraw (ix2 r j) = GineSpec.h2 (fun r a => A (ix2 r a)) (fun a c => w1 (ix2 a c)) (fun c => b1r (ix2 0 c))
      (fun c j => w2 (ix2 c j)) (fun j => b2r (ix2 0 j)) r j)
    (hS : ∀ j, S (ix2 0 j) = ∑ r : Fin 50000, GineSpec.h2 (fun r a => A (ix2 r a)) (fun a c => w1 (ix2 a c))
      (fun c => b1r (ix2 0 c)) (fun c j => w2 (ix2 c j)) (fun j => b2r (ix2 0 j)) r j)
    (hSS : ∀ j, SS (ix2 0 j) = ∑ r : Fin 50000, GineSpec.h2 (fun r a => A (ix2 r a)) (fun a c => w1 (ix2 a c))
      (fun c => b1r (ix2 0 c)) (fun c j => w2 (ix2 c j)) (fun j => b2r (ix2 0 j)) r j
      * GineSpec.h2 (fun r a => A (ix2 r a)) (fun a c => w1 (ix2 a c))
      (fun c => b1r (ix2 0 c)) (fun c j => w2 (ix2 c j)) (fun j => b2r (ix2 0 j)) r j)
    (hO : ∀ r j, O (ix2 r j) = GineSpec.affine (gr (ix2 0 j)) (hraw (ix2 r j)) (KValue.meanOf (F := Ideal) S (ix2 0 j))
      (KValue.invOf (F := Ideal) S SS (ix2 0 j)) (betar (ix2 0 j)))
    (fA : AllReal A) (fw1 : AllReal w1) (fb1 : AllReal b1) (fw2 : AllReal w2) (fb2 : AllReal b2) :
    O = bnR (h2R160 A w1 b1 w2 b2) g beta
      ∧ (AllReal g → AllReal beta → AllReal (bnR (h2R160 A w1 b1 w2 b2) g beta)) := by
  have eb1 : (fun c => b1r (ix2 0 c)) = fun c => b1 (ix1 c) := funext hb1
  have eb2 : (fun j => b2r (ix2 0 j)) = fun j => b2 (ix1 j) := funext hb2
  rw [eb1, eb2] at hH hS hSS
  -- the dense part, as the reference spells it
  have eH : ∀ r j, GineSpec.h2 (fun r a => A (ix2 r a)) (fun a c => w1 (ix2 a c)) (fun c => b1 (ix1 c))
      (fun c j => w2 (ix2 c j)) (fun j => b2 (ix1 j)) r j = h2R160 A w1 b1 w2 b2 (ix2 r j) :=
    fun r j => (h2R160_apply A w1 b1 w2 b2 r j).symm
  simp only [eH] at hH hS hSS
  have fH : ∀ r j, IsReal (h2R160 A w1 b1 w2 b2 (ix2 r j)) := fun r j => by
    rw [h2R160_apply]
    exact GineSpec.h2_real _ _ _ _ _ (fun r a => fA _) (fun a c => fw1 _) (fun c => fb1 _) (fun c j => fw2 _)
      (fun j => fb2 _) r j
  refine ⟨?_, fun fg fbeta i => ?_⟩
  · funext i
    obtain ⟨p, q, rfl⟩ : ∃ (p : Fin 50000) (q : Fin 256), i = ix2 p q := ⟨i 0, i 1, eq_ix2 i⟩
    rw [hO, bnR_apply, ← GineSpec.out_eq _ fH]
    unfold GineSpec.outSq GineSpec.spreadSq GineSpec.colMean GineSpec.colSum GineSpec.colSumSq
    rw [hg, hbeta, hH, Cert.KernelIdeal.KValue.meanOf_apply, Cert.KernelIdeal.KValue.invOf_apply, hS, hSS]
  · obtain ⟨p, q, rfl⟩ : ∃ (p : Fin 50000) (q : Fin 256), i = ix2 p q := ⟨i 0, i 1, eq_ix2 i⟩
    rw [bnR_apply]
    exact GineSpec.outDev_real _ fH _ _ (fun j => fg _) (fun j => fbeta _) _ _

/-- One layer over aggregated features of width 288. The tiled program's output array — each entry the affine
    normalisation of the dense part's entry with the mean and inverse deviation computed from the two
    accumulated column sums — is the reference's normalised dense part, when the aggregated features, the
    weights and the biases are finite; and it is then finite when scale and shift are. -/
theorem layer288 (A : FVec Ideal S50000x288 .f32) (w1 : FVec Ideal S288x256 .f32) (b1 : FVec Ideal S256 .f32)
    (w2 : FVec Ideal S256x256 .f32) (b2 g beta : FVec Ideal S256 .f32)
    (b1r b2r gr betar S SS : FVec Ideal S1x256 .f32) (hraw O : FVec Ideal S50000x256 .f32)
    (hb1 : ∀ j, b1r (ix2 0 j) = b1 (ix1 j)) (hb2 : ∀ j, b2r (ix2 0 j) = b2 (ix1 j))
    (hg : ∀ j, gr (ix2 0 j) = g (ix1 j)) (hbeta : ∀ j, betar (ix2 0 j) = beta (ix1 j))
    (hH : ∀ r j, hraw (ix2 r j) = GineSpec.h2 (fun r a => A (ix2 r a)) (fun a c => w1 (ix2 a c)) (fun c => b1r (ix2 0 c))
      (fun c j => w2 (ix2 c j)) (fun j => b2r (ix2 0 j)) r j)
    (hS : ∀ j, S (ix2 0 j) = ∑ r : Fin 50000, GineSpec.h2 (fun r a => A (ix2 r a)) (fun a c => w1 (ix2 a c))
      (fun c => b1r (ix2 0 c)) (fun c j => w2 (ix2 c j)) (fun j => b2r (ix2 0 j)) r j)
    (hSS : ∀ j, SS (ix2 0 j) = ∑ r : Fin 50000, GineSpec.h2 (fun r a => A (ix2 r a)) (fun a c => w1 (ix2 a c))
      (fun c => b1r (ix2 0 c)) (fun c j => w2 (ix2 c j)) (fun j => b2r (ix2 0 j)) r j
      * GineSpec.h2 (fun r a => A (ix2 r a)) (fun a c => w1 (ix2 a c))
      (fun c => b1r (ix2 0 c)) (fun c j => w2 (ix2 c j)) (fun j => b2r (ix2 0 j)) r j)
    (hO : ∀ r j, O (ix2 r j) = GineSpec.affine (gr (ix2 0 j)) (hraw (ix2 r j)) (KValue.meanOf (F := Ideal) S (ix2 0 j))
      (KValue.invOf (F := Ideal) S SS (ix2 0 j)) (betar (ix2 0 j)))
    (fA : AllReal A) (fw1 : AllReal w1) (fb1 : AllReal b1) (fw2 : AllReal w2) (fb2 : AllReal b2) :
    O = bnR (h2R288 A w1 b1 w2 b2) g beta
      ∧ (AllReal g → AllReal beta → AllReal (bnR (h2R288 A w1 b1 w2 b2) g beta)) := by
  have eb1 : (fun c => b1r (ix2 0 c)) = fun c => b1 (ix1 c) := funext hb1
  have eb2 : (fun j => b2r (ix2 0 j)) = fun j => b2 (ix1 j) := funext hb2
  rw [eb1, eb2] at hH hS hSS
  -- the dense part, as the reference spells it
  have eH : ∀ r j, GineSpec.h2 (fun r a => A (ix2 r a)) (fun a c => w1 (ix2 a c)) (fun c => b1 (ix1 c))
      (fun c j => w2 (ix2 c j)) (fun j => b2 (ix1 j)) r j = h2R288 A w1 b1 w2 b2 (ix2 r j) :=
    fun r j => (h2R288_apply A w1 b1 w2 b2 r j).symm
  simp only [eH] at hH hS hSS
  have fH : ∀ r j, IsReal (h2R288 A w1 b1 w2 b2 (ix2 r j)) := fun r j => by
    rw [h2R288_apply]
    exact GineSpec.h2_real _ _ _ _ _ (fun r a => fA _) (fun a c => fw1 _) (fun c => fb1 _) (fun c j => fw2 _)
      (fun j => fb2 _) r j
  refine ⟨?_, fun fg fbeta i => ?_⟩
  · funext i
    obtain ⟨p, q, rfl⟩ : ∃ (p : Fin 50000) (q : Fin 256), i = ix2 p q := ⟨i 0, i 1, eq_ix2 i⟩
    rw [hO, bnR_apply, ← GineSpec.out_eq _ fH]
    unfold GineSpec.outSq GineSpec.spreadSq GineSpec.colMean GineSpec.colSum GineSpec.colSumSq
    rw [hg, hbeta, hH, Cert.KernelIdeal.KValue.meanOf_apply, Cert.KernelIdeal.KValue.invOf_apply, hS, hSS]
  · obtain ⟨p, q, rfl⟩ : ∃ (p : Fin 50000) (q : Fin 256), i = ix2 p q := ⟨i 0, i 1, eq_ix2 i⟩
    rw [bnR_apply]
    exact GineSpec.outDev_real _ fH _ _ (fun j => fg _) (fun j => fbeta _) _ _

end Cert.Bridge

end
-- ==== Proof.RefGlue.lean ====
/-
  The aggregation step keeps finite data finite: it only gathers, concatenates, rectifies, and adds finitely
  many finite entries into each entry.
-/
import proofs.«164030_j60206851555878_1_alg».proof.ReferenceIdeal
import proofs.«164030_j60206851555878_1_alg».proof.Proof.LibArrayFinite
import proofs.«164030_j60206851555878_1_alg».proof.Proof.GineConsts

noncomputable section

namespace Cert.ReferenceIdeal.ReadGlue

open Cert.ReferenceIdeal Idealize.ShloMosaic GineSpec
open Facts₀

variable [Facts₀]

theorem zero_real : IsReal (FloatOps.ofBits (F := Ideal) .f32 0x00000000#32) := by
  rw [Ideal.ofBits_def, GineConsts.ofBits_zero]; exact isReal_zero

theorem one_real : IsReal (FloatOps.ofBits (F := Ideal) .f32 0x3F800000#32) := by
  rw [Ideal.ofBits_def, GineConsts.ofBits_one]; exact isReal_coe 1

/-- The aggregation for node features of width 128: gather the source rows, append the 32 edge features,
    rectify, add each edge's row into its destination node's row, and add the node's own features into
    the first 128 columns. -/
def aggCore160 (h : FVec Ideal S50000x128 .f32) (ea : FVec Ideal S200000x32 .f32) (src dst : IVec S200000x1 32) :
    FVec Ideal S50000x160 .f32 :=
  Host.scatter scatter_S50000x160_S1_S50000x128_01_n_1_0 FloatOps.addf
    (Host.scatterAdd scatter_S50000x160_S200000x1_S200000x160_1_0_0_1
      (broadcastInDim S50000x160 ![] bcast_S_S50000x160 (constant S_ .f32 0x00000000#32)) dst
      (maximumf
        (concatenate S200000x160 1
          [⟨S200000x128, Host.gather gather_S50000x128_S200000x1_S200000x128_1_0_n_n_0_1_1128 h src⟩, ⟨S200000x32, ea⟩]
          concatenates_S200000x128_S200000x32_S200000x160_d1)
        (broadcastInDim S200000x160 ![] bcast_S_S200000x160 (constant S_ .f32 0x00000000#32))))
    (broadcastInDim S1 ![] bcast_S_S1 (constantI S_ 32 0#32))
    (mulf (broadcastInDim S50000x128 ![] bcast_S_S50000x128 (constant S_ .f32 0x3F800000#32)) h)

theorem aggCore160_real (h : FVec Ideal S50000x128 .f32) (ea : FVec Ideal S200000x32 .f32) (src dst : IVec S200000x1 32)
    (hh : AllReal h) (hea : AllReal ea) : AllReal (aggCore160 h ea src dst) := by
  unfold aggCore160
  refine allReal_scatter_add _ _ _ _ (allReal_scatterAdd _ _ _ _ (fun _ => zero_real) fun i => ?_) fun i => ?_
  · exact IsReal.max (allReal_concatenate _ _ _ (by
        intro p hp
        simp only [List.mem_cons, List.mem_nil_iff, or_false] at hp
        rcases hp with rfl | rfl
        · exact allReal_gather _ _ _ hh
        · exact hea) i) zero_real
  · exact IsReal.mul one_real (hh i)

/-- The aggregation for node features of width 256: gather the source rows, append the 32 edge features,
    rectify, add each edge's row into its destination node's row, and add the node's own features into
    the first 256 columns. -/
def aggCore288 (h : FVec Ideal S50000x256 .f32) (ea : FVec Ideal S200000x32 .f32) (src dst : IVec S200000x1 32) :
    FVec Ideal S50000x288 .f32 :=
  Host.scatter scatter_S50000x288_S1_S50000x256_01_n_1_0 FloatOps.addf
    (Host.scatterAdd scatter_S50000x288_S200000x1_S200000x288_1_0_0_1
      (broadcastInDim S50000x288 ![] bcast_S_S50000x288 (constant S_ .f32 0x00000000#32)) dst
      (maximumf
        (concatenate S200000x288 1
          [⟨S200000x256, Host.gather gather_S50000x256_S200000x1_S200000x256_1_0_n_n_0_1_1256 h src⟩, ⟨S200000x32, ea⟩]
          concatenates_S200000x256_S200000x32_S200000x288_d1)
        (broadcastInDim S200000x288 ![] bcast_S_S200000x288 (constant S_ .f32 0x00000000#32))))
    (broadcastInDim S1 ![] bcast_S_S1 (constantI S_ 32 0#32))
    (mulf (broadcastInDim S50000x256 ![] bcast_S_S50000x256 (constant S_ .f32 0x3F800000#32)) h)

theorem aggCore288_real (h : FVec Ideal S50000x256 .f32) (ea : FVec Ideal S200000x32 .f32) (src dst : IVec S200000x1 32)
    (hh : AllReal h) (hea : AllReal ea) : AllReal (aggCore288 h ea src dst) := by
  unfold aggCore288
  refine allReal_scatter_add _ _ _ _ (allReal_scatterAdd _ _ _ _ (fun _ => zero_real) fun i => ?_) fun i => ?_
  · exact IsReal.max (allReal_concatenate _ _ _ (by
        intro p hp
        simp only [List.mem_cons, List.mem_nil_iff, or_false] at hp
        rcases hp with rfl | rfl
        · exact allReal_gather _ _ _ hh
        · exact hea) i) zero_real
  · exact IsReal.mul one_real (hh i)

end Cert.ReferenceIdeal.ReadGlue

end
-- ==== Proof.KLayers.lean ====
import proofs.«164030_j60206851555878_1_alg».proof.Proof.KFold
import proofs.«164030_j60206851555878_1_alg».proof.Proof.LayerBridge
import proofs.«164030_j60206851555878_1_alg».proof.Proof.RefGlue
import proofs.«164030_j60206851555878_1_alg».proof.Proof.Gen.ReferenceIdeal

/-! The three layers of the tiled program, instantiated: from what each pipeline leaves in its output
    arrays in terms of what it finds in its windows, and from finite float arguments, the normalised
    output of each layer is the reference's layer applied to the arguments, and is finite; the two
    results are the pools of the last layer's output. -/

set_option maxRecDepth 16384
set_option maxHeartbeats 1000000

noncomputable section

namespace Cert.KernelIdeal.KLayers

open Idealize.ShloMosaic Idealize.ShloMosaic.TcCoe Idealize.ShloMosaic.ValueIdx GineSpec
open Idealize.ShloMosaic.Pipeline (Dat)
open Cert.KernelIdeal Cert.KernelIdeal.Gen Cert.KernelIdeal.KValue
open Cert.ReferenceIdeal.ReadLayer (bnR h2R160 h2R288)
open Cert.ReferenceIdeal.ReadGlue (aggCore160 aggCore288 aggCore160_real aggCore288_real)
open Cert.Bridge (layer160 layer288)
open scoped BigOperators

/-! ## The layers as functions of the arguments -/

section Layers
variable (a0 : FVec Ideal S50000x128 .f32) (a1 : FVec Ideal S200000x32 .f32) (a2 : IVec S2x200000 32) (a5 : FVec Ideal S160x256 .f32) (a6 : FVec Ideal S256 .f32) (a7 : FVec Ideal S256x256 .f32) (a8 : FVec Ideal S256 .f32) (a9 : FVec Ideal S256 .f32) (a10 : FVec Ideal S256 .f32) (a11 : FVec Ideal S288x256 .f32) (a12 : FVec Ideal S256 .f32) (a13 : FVec Ideal S256x256 .f32) (a14 : FVec Ideal S256 .f32) (a15 : FVec Ideal S256 .f32) (a16 : FVec Ideal S256 .f32) (a17 : FVec Ideal S288x256 .f32) (a18 : FVec Ideal S256 .f32) (a19 : FVec Ideal S256x256 .f32) (a20 : FVec Ideal S256 .f32) (a21 : FVec Ideal S256 .f32) (a22 : FVec Ideal S256 .f32)

/-- Layer 0's normalised output. -/
def L0 : FVec Ideal S50000x256 .f32 :=
  bnR (h2R160 (aggCore160 a0 a1 (srcIdx (F := Ideal) a2) (dstIdx (F := Ideal) a2)) a5 a6 a7 a8) a9 a10
/-- Layer 1's normalised output. -/
def L1 : FVec Ideal S50000x256 .f32 :=
  bnR (h2R288 (aggCore288 (L0 a0 a1 a2 a5 a6 a7 a8 a9 a10) a1 (srcIdx (F := Ideal) a2) (dstIdx (F := Ideal) a2)) a11 a12 a13 a14) a15 a16
/-- Layer 2's normalised output. -/
def L2 : FVec Ideal S50000x256 .f32 :=
  bnR (h2R288 (aggCore288 (L1 a0 a1 a2 a5 a6 a7 a8 a9 a10 a11 a12 a13 a14 a15 a16) a1 (srcIdx (F := Ideal) a2) (dstIdx (F := Ideal) a2)) a17 a18 a19 a20) a21 a22

/-- The tiled program's aggregate is the reference's, over the same index columns. -/
theorem agg0_eq : agg0 (F := Ideal) a0 a1 a2 = aggCore160 a0 a1 (srcIdx (F := Ideal) a2) (dstIdx (F := Ideal) a2) := rfl
theorem agg1_eq (h : FVec Ideal S50000x256 .f32) :
    agg1 (F := Ideal) h a1 a2 = aggCore288 h a1 (srcIdx (F := Ideal) a2) (dstIdx (F := Ideal) a2) := rfl

end Layers

/-! ## What the regions leave, as hypotheses -/

/-- What region 0 leaves in its three output arrays, entry by entry, from the five arrays it finds: the
    two-layer perceptron of the rows, its column sums, and the column sums of its squares. -/
abbrev Stage1_0 (V : (c : Dev nD) → (b : Ref sig .tc) → Buf (Elt Ideal) ((c : Thread nD τ).loc b)) (c : Dev nD) : Prop :=
  (∀ (r : Fin 50000) (j : Fin 256), ((dat0 V c).arrAt 5 cfg0.N : S50000x256.Idx → EReal) (ix2 r j)
      = GineSpec.h2 (fun r a => V c (Pipeline.arrRef spec0 0) (ix2 r a)) (fun a c' => V c (Pipeline.arrRef spec0 1) (ix2 a c'))
        (fun c' => V c (Pipeline.arrRef spec0 2) (ix2 (0 : Fin 1) c')) (fun c' j' => V c (Pipeline.arrRef spec0 3) (ix2 c' j'))
        (fun j' => V c (Pipeline.arrRef spec0 4) (ix2 (0 : Fin 1) j')) r j)
  ∧ (∀ j : Fin 256, ((dat0 V c).arrAt 6 cfg0.N : S1x256.Idx → EReal) (ix2 (0 : Fin 1) j)
      = ∑ r : Fin 50000, GineSpec.h2 (fun r a => V c (Pipeline.arrRef spec0 0) (ix2 r a)) (fun a c' => V c (Pipeline.arrRef spec0 1) (ix2 a c'))
        (fun c' => V c (Pipeline.arrRef spec0 2) (ix2 (0 : Fin 1) c')) (fun c' j' => V c (Pipeline.arrRef spec0 3) (ix2 c' j'))
        (fun j' => V c (Pipeline.arrRef spec0 4) (ix2 (0 : Fin 1) j')) r j)
  ∧ (∀ j : Fin 256, ((dat0 V c).arrAt 7 cfg0.N : S1x256.Idx → EReal) (ix2 (0 : Fin 1) j)
      = ∑ r : Fin 50000, GineSpec.h2 (fun r a => V c (Pipeline.arrRef spec0 0) (ix2 r a)) (fun a c' => V c (Pipeline.arrRef spec0 1) (ix2 a c'))
        (fun c' => V c (Pipeline.arrRef spec0 2) (ix2 (0 : Fin 1) c')) (fun c' j' => V c (Pipeline.arrRef spec0 3) (ix2 c' j'))
        (fun j' => V c (Pipeline.arrRef spec0 4) (ix2 (0 : Fin 1) j')) r j
        * GineSpec.h2 (fun r a => V c (Pipeline.arrRef spec0 0) (ix2 r a)) (fun a c' => V c (Pipeline.arrRef spec0 1) (ix2 a c'))
        (fun c' => V c (Pipeline.arrRef spec0 2) (ix2 (0 : Fin 1) c')) (fun c' j' => V c (Pipeline.arrRef spec0 3) (ix2 c' j'))
        (fun j' => V c (Pipeline.arrRef spec0 4) (ix2 (0 : Fin 1) j')) r j)
/-- What region 2 leaves in its three output arrays, entry by entry, from the five arrays it finds: the
    two-layer perceptron of the rows, its column sums, and the column sums of its squares. -/
abbrev Stage1_2 (V : (c : Dev nD) → (b : Ref sig .tc) → Buf (Elt Ideal) ((c : Thread nD τ).loc b)) (c : Dev nD) : Prop :=
  (∀ (r : Fin 50000) (j : Fin 256), ((dat2 V c).arrAt 5 cfg2.N : S50000x256.Idx → EReal) (ix2 r j)
      = GineSpec.h2 (fun r a => V c (Pipeline.arrRef spec2 0) (ix2 r a)) (fun a c' => V c (Pipeline.arrRef spec2 1) (ix2 a c'))
        (fun c' => V c (Pipeline.arrRef spec2 2) (ix2 (0 : Fin 1) c')) (fun c' j' => V c (Pipeline.arrRef spec2 3) (ix2 c' j'))
        (fun j' => V c (Pipeline.arrRef spec2 4) (ix2 (0 : Fin 1) j')) r j)
  ∧ (∀ j : Fin 256, ((dat2 V c).arrAt 6 cfg2.N : S1x256.Idx → EReal) (ix2 (0 : Fin 1) j)
      = ∑ r : Fin 50000, GineSpec.h2 (fun r a => V c (Pipeline.arrRef spec2 0) (ix2 r a)) (fun a c' => V c (Pipeline.arrRef spec2 1) (ix2 a c'))
        (fun c' => V c (Pipeline.arrRef spec2 2) (ix2 (0 : Fin 1) c')) (fun c' j' => V c (Pipeline.arrRef spec2 3) (ix2 c' j'))
        (fun j' => V c (Pipeline.arrRef spec2 4) (ix2 (0 : Fin 1) j')) r j)
  ∧ (∀ j : Fin 256, ((dat2 V c).arrAt 7 cfg2.N : S1x256.Idx → EReal) (ix2 (0 : Fin 1) j)
      = ∑ r : Fin 50000, GineSpec.h2 (fun r a => V c (Pipeline.arrRef spec2 0) (ix2 r a)) (fun a c' => V c (Pipeline.arrRef spec2 1) (ix2 a c'))
        (fun c' => V c (Pipeline.arrRef spec2 2) (ix2 (0 : Fin 1) c')) (fun c' j' => V c (Pipeline.arrRef spec2 3) (ix2 c' j'))
        (fun j' => V c (Pipeline.arrRef spec2 4) (ix2 (0 : Fin 1) j')) r j
        * GineSpec.h2 (fun r a => V c (Pipeline.arrRef spec2 0) (ix2 r a)) (fun a c' => V c (Pipeline.arrRef spec2 1) (ix2 a c'))
        (fun c' => V c (Pipeline.arrRef spec2 2) (ix2 (0 : Fin 1) c')) (fun c' j' => V c (Pipeline.arrRef spec2 3) (ix2 c' j'))
        (fun j' => V c (Pipeline.arrRef spec2 4) (ix2 (0 : Fin 1) j')) r j)
/-- What region 4 leaves in its three output arrays, entry by entry, from the five arrays it finds: the
    two-layer perceptron of the rows, its column sums, and the column sums of its squares. -/
abbrev Stage1_4 (V : (c : Dev nD) → (b : Ref sig .tc) → Buf (Elt Ideal) ((c : Thread nD τ).loc b)) (c : Dev nD) : Prop :=
  (∀ (r : Fin 50000) (j : Fin 256), ((dat4 V c).arrAt 5 cfg4.N : S50000x256.Idx → EReal) (ix2 r j)
      = GineSpec.h2 (fun r a => V c (Pipeline.arrRef spec4 0) (ix2 r a)) (fun a c' => V c (Pipeline.arrRef spec4 1) (ix2 a c'))
        (fun c' => V c (Pipeline.arrRef spec4 2) (ix2 (0 : Fin 1) c')) (fun c' j' => V c (Pipeline.arrRef spec4 3) (ix2 c' j'))
        (fun j' => V c (Pipeline.arrRef spec4 4) (ix2 (0 : Fin 1) j')) r j)
  ∧ (∀ j : Fin 256, ((dat4 V c).arrAt 6 cfg4.N : S1x256.Idx → EReal) (ix2 (0 : Fin 1) j)
      = ∑ r : Fin 50000, GineSpec.h2 (fun r a => V c (Pipeline.arrRef spec4 0) (ix2 r a)) (fun a c' => V c (Pipeline.arrRef spec4 1) (ix2 a c'))
        (fun c' => V c (Pipeline.arrRef spec4 2) (ix2 (0 : Fin 1) c')) (fun c' j' => V c (Pipeline.arrRef spec4 3) (ix2 c' j'))
        (fun j' => V c (Pipeline.arrRef spec4 4) (ix2 (0 : Fin 1) j')) r j)
  ∧ (∀ j : Fin 256, ((dat4 V c).arrAt 7 cfg4.N : S1x256.Idx → EReal) (ix2 (0 : Fin 1) j)
      = ∑ r : Fin 50000, GineSpec.h2 (fun r a => V c (Pipeline.arrRef spec4 0) (ix2 r a)) (fun a c' => V c (Pipeline.arrRef spec4 1) (ix2 a c'))
        (fun c' => V c (Pipeline.arrRef spec4 2) (ix2 (0 : Fin 1) c')) (fun c' j' => V c (Pipeline.arrRef spec4 3) (ix2 c' j'))
        (fun j' => V c (Pipeline.arrRef spec4 4) (ix2 (0 : Fin 1) j')) r j
        * GineSpec.h2 (fun r a => V c (Pipeline.arrRef spec4 0) (ix2 r a)) (fun a c' => V c (Pipeline.arrRef spec4 1) (ix2 a c'))
        (fun c' => V c (Pipeline.arrRef spec4 2) (ix2 (0 : Fin 1) c')) (fun c' j' => V c (Pipeline.arrRef spec4 3) (ix2 c' j'))
        (fun j' => V c (Pipeline.arrRef spec4 4) (ix2 (0 : Fin 1) j')) r j)
/-- What region 1 leaves in its output array, entry by entry, from the five arrays it finds:
    scale · (value − centre) · spread + shift. -/
abbrev Bn_1 (V : (c : Dev nD) → (b : Ref sig .tc) → Buf (Elt Ideal) ((c : Thread nD τ).loc b)) (c : Dev nD) : Prop :=
  ∀ (r : Fin 50000) (j : Fin 256), ((dat1 V c).arrAt 5 cfg1.N : S50000x256.Idx → EReal) (ix2 r j)
      = GineSpec.affine (V c (Pipeline.arrRef spec1 3) (ix2 (0 : Fin 1) j)) (V c (Pipeline.arrRef spec1 0) (ix2 r j))
          (V c (Pipeline.arrRef spec1 1) (ix2 (0 : Fin 1) j)) (V c (Pipeline.arrRef spec1 2) (ix2 (0 : Fin 1) j))
          (V c (Pipeline.arrRef spec1 4) (ix2 (0 : Fin 1) j))
/-- What region 3 leaves in its output array, entry by entry, from the five arrays it finds:
    scale · (value − centre) · spread + shift. -/
abbrev Bn_3 (V : (c : Dev nD) → (b : Ref sig .tc) → Buf (Elt Ideal) ((c : Thread nD τ).loc b)) (c : Dev nD) : Prop :=
  ∀ (r : Fin 50000) (j : Fin 256), ((dat3 V c).arrAt 5 cfg3.N : S50000x256.Idx → EReal) (ix2 r j)
      = GineSpec.affine (V c (Pipeline.arrRef spec3 3) (ix2 (0 : Fin 1) j)) (V c (Pipeline.arrRef spec3 0) (ix2 r j))
          (V c (Pipeline.arrRef spec3 1) (ix2 (0 : Fin 1) j)) (V c (Pipeline.arrRef spec3 2) (ix2 (0 : Fin 1) j))
          (V c (Pipeline.arrRef spec3 4) (ix2 (0 : Fin 1) j))
/-- What region 5 leaves in its output array, entry by entry, from the five arrays it finds:
    scale · (value − centre) · spread + shift. -/
abbrev Bn_5 (V : (c : Dev nD) → (b : Ref sig .tc) → Buf (Elt Ideal) ((c : Thread nD τ).loc b)) (c : Dev nD) : Prop :=
  ∀ (r : Fin 50000) (j : Fin 256), ((dat5 V c).arrAt 5 cfg5.N : S50000x256.Idx → EReal) (ix2 r j)
      = GineSpec.affine (V c (Pipeline.arrRef spec5 3) (ix2 (0 : Fin 1) j)) (V c (Pipeline.arrRef spec5 0) (ix2 r j))
          (V c (Pipeline.arrRef spec5 1) (ix2 (0 : Fin 1) j)) (V c (Pipeline.arrRef spec5 2) (ix2 (0 : Fin 1) j))
          (V c (Pipeline.arrRef spec5 4) (ix2 (0 : Fin 1) j))

variable (m : (ℓ : Loc nD τ sig) → Buf (Elt Ideal) ℓ) (ρ : Dev nD → PrngReg) (c : Dev nD)

/-- Every float argument is an array of real numbers. -/
abbrev FiniteArgs : Prop :=
  AllReal ((m ((c : Thread nD τ).loc main_arg0)) : FVec Ideal S50000x128 .f32)
    ∧ AllReal ((m ((c : Thread nD τ).loc main_arg1)) : FVec Ideal S200000x32 .f32)
    ∧ AllReal ((m ((c : Thread nD τ).loc main_arg5)) : FVec Ideal S160x256 .f32)
    ∧ AllReal ((m ((c : Thread nD τ).loc main_arg6)) : FVec Ideal S256 .f32)
    ∧ AllReal ((m ((c : Thread nD τ).loc main_arg7)) : FVec Ideal S256x256 .f32)
    ∧ AllReal ((m ((c : Thread nD τ).loc main_arg8)) : FVec Ideal S256 .f32)
    ∧ AllReal ((m ((c : Thread nD τ).loc main_arg9)) : FVec Ideal S256 .f32)
    ∧ AllReal ((m ((c : Thread nD τ).loc main_arg10)) : FVec Ideal S256 .f32)
    ∧ AllReal ((m ((c : Thread nD τ).loc main_arg11)) : FVec Ideal S288x256 .f32)
    ∧ AllReal ((m ((c : Thread nD τ).loc main_arg12)) : FVec Ideal S256 .f32)
    ∧ AllReal ((m ((c : Thread nD τ).loc main_arg13)) : FVec Ideal S256x256 .f32)
    ∧ AllReal ((m ((c : Thread nD τ).loc main_arg14)) : FVec Ideal S256 .f32)
    ∧ AllReal ((m ((c : Thread nD τ).loc main_arg15)) : FVec Ideal S256 .f32)
    ∧ AllReal ((m ((c : Thread nD τ).loc main_arg16)) : FVec Ideal S256 .f32)
    ∧ AllReal ((m ((c : Thread nD τ).loc main_arg17)) : FVec Ideal S288x256 .f32)
    ∧ AllReal ((m ((c : Thread nD τ).loc main_arg18)) : FVec Ideal S256 .f32)
    ∧ AllReal ((m ((c : Thread nD τ).loc main_arg19)) : FVec Ideal S256x256 .f32)
    ∧ AllReal ((m ((c : Thread nD τ).loc main_arg20)) : FVec Ideal S256 .f32)
    ∧ AllReal ((m ((c : Thread nD τ).loc main_arg21)) : FVec Ideal S256 .f32)
    ∧ AllReal ((m ((c : Thread nD τ).loc main_arg22)) : FVec Ideal S256 .f32)

/-! ## The layers' outputs -/

/-- Layer 0: region 1's output array is the reference's layer 0 of the arguments, and is finite. -/
theorem out1 (s0 : Stage1_0 (V3 m ρ) c) (n1 : Bn_1 (V5 m ρ) c) (hfin : FiniteArgs m c) :
    ((dat1 (V5 m ρ) c).arrAt 5 cfg1.N) = (L0 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    ∧ AllReal (L0 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  obtain ⟨f0, f1, f5, f6, f7, f8, f9, f10, f11, f12, f13, f14, f15, f16, f17, f18, f19, f20, f21, f22⟩ := hfin
  obtain ⟨eh, es, eq⟩ := s0
  rw [V3_win0 m ρ c, V3_win1 m ρ c, V3_win2 m ρ c, V3_win3 m ρ c, V3_win4 m ρ c] at eh es eq
  have en := n1
  unfold Bn_1 at en
  rw [V5_win0 m ρ c, V5_win1 m ρ c, V5_win2 m ρ c, V5_win3 m ρ c, V5_win4 m ρ c] at en
  rw [agg0_eq] at eh es eq
  have key := layer160 (aggCore160 (m ((c : Thread nD τ).loc main_arg0)) (m ((c : Thread nD τ).loc main_arg1)) (srcIdx (F := Ideal) (m ((c : Thread nD τ).loc main_arg2))) (dstIdx (F := Ideal) (m ((c : Thread nD τ).loc main_arg2)))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (row (m ((c : Thread nD τ).loc main_arg6))) (row (m ((c : Thread nD τ).loc main_arg8))) (row (m ((c : Thread nD τ).loc main_arg9))) (row (m ((c : Thread nD τ).loc main_arg10)))
    ((dat0 (V3 m ρ) c).arrAt 6 cfg0.N) ((dat0 (V3 m ρ) c).arrAt 7 cfg0.N) ((dat0 (V3 m ρ) c).arrAt 5 cfg0.N) ((dat1 (V5 m ρ) c).arrAt 5 cfg1.N)
    (fun j => row_apply _ 0 j) (fun j => row_apply _ 0 j) (fun j => row_apply _ 0 j) (fun j => row_apply _ 0 j)
    eh es eq en (aggCore160_real _ _ _ _ f0 f1) f5 f6 f7 f8
  exact ⟨key.1, key.2 f9 f10⟩

/-- Layer 1: region 3's output array is the reference's layer 1 of the arguments, and is finite. -/
theorem out3 (s0 : Stage1_0 (V3 m ρ) c) (n1 : Bn_1 (V5 m ρ) c)
    (s2 : Stage1_2 (V9 m ρ) c) (n3 : Bn_3 (V11 m ρ) c) (hfin : FiniteArgs m c) :
    ((dat3 (V11 m ρ) c).arrAt 5 cfg3.N) = (L1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
    ∧ AllReal (L1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  obtain ⟨e1, r1⟩ := out1 m ρ c s0 n1 hfin
  obtain ⟨f0, f1, f5, f6, f7, f8, f9, f10, f11, f12, f13, f14, f15, f16, f17, f18, f19, f20, f21, f22⟩ := hfin
  obtain ⟨eh, es, eq⟩ := s2
  rw [V9_win0 m ρ c, V9_win1 m ρ c, V9_win2 m ρ c, V9_win3 m ρ c, V9_win4 m ρ c] at eh es eq
  have en := n3
  unfold Bn_3 at en
  rw [V11_win0 m ρ c, V11_win1 m ρ c, V11_win2 m ρ c, V11_win3 m ρ c, V11_win4 m ρ c] at en
  rw [e1, agg1_eq] at eh es eq
  have key := layer288 (aggCore288 (L0 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (srcIdx (F := Ideal) (m ((c : Thread nD τ).loc main_arg2))) (dstIdx (F := Ideal) (m ((c : Thread nD τ).loc main_arg2)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (row (m ((c : Thread nD τ).loc main_arg12))) (row (m ((c : Thread nD τ).loc main_arg14))) (row (m ((c : Thread nD τ).loc main_arg15))) (row (m ((c : Thread nD τ).loc main_arg16)))
    ((dat2 (V9 m ρ) c).arrAt 6 cfg2.N) ((dat2 (V9 m ρ) c).arrAt 7 cfg2.N) ((dat2 (V9 m ρ) c).arrAt 5 cfg2.N) ((dat3 (V11 m ρ) c).arrAt 5 cfg3.N)
    (fun j => row_apply _ 0 j) (fun j => row_apply _ 0 j) (fun j => row_apply _ 0 j) (fun j => row_apply _ 0 j)
    eh es eq en (aggCore288_real _ _ _ _ r1 f1) f11 f12 f13 f14
  exact ⟨key.1, key.2 f15 f16⟩

/-- Layer 2: region 5's output array is the reference's layer 2 of the arguments. -/
theorem out5 (s0 : Stage1_0 (V3 m ρ) c) (n1 : Bn_1 (V5 m ρ) c)
    (s2 : Stage1_2 (V9 m ρ) c) (n3 : Bn_3 (V11 m ρ) c)
    (s4 : Stage1_4 (V15 m ρ) c) (n5 : Bn_5 (V17 m ρ) c) (hfin : FiniteArgs m c) :
    ((dat5 (V17 m ρ) c).arrAt 5 cfg5.N) = (L2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  obtain ⟨e3, r3⟩ := out3 m ρ c s0 n1 s2 n3 hfin
  obtain ⟨f0, f1, f5, f6, f7, f8, f9, f10, f11, f12, f13, f14, f15, f16, f17, f18, f19, f20, f21, f22⟩ := hfin
  obtain ⟨eh, es, eq⟩ := s4
  rw [V15_win0 m ρ c, V15_win1 m ρ c, V15_win2 m ρ c, V15_win3 m ρ c, V15_win4 m ρ c] at eh es eq
  have en := n5
  unfold Bn_5 at en
  rw [V17_win0 m ρ c, V17_win1 m ρ c, V17_win2 m ρ c, V17_win3 m ρ c, V17_win4 m ρ c] at en
  rw [e3, agg1_eq] at eh es eq
  have key := layer288 (aggCore288 (L1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg1)) (srcIdx (F := Ideal) (m ((c : Thread nD τ).loc main_arg2))) (dstIdx (F := Ideal) (m ((c : Thread nD τ).loc main_arg2)))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
    (row (m ((c : Thread nD τ).loc main_arg18))) (row (m ((c : Thread nD τ).loc main_arg20))) (row (m ((c : Thread nD τ).loc main_arg21))) (row (m ((c : Thread nD τ).loc main_arg22)))
    ((dat4 (V15 m ρ) c).arrAt 6 cfg4.N) ((dat4 (V15 m ρ) c).arrAt 7 cfg4.N) ((dat4 (V15 m ρ) c).arrAt 5 cfg4.N) ((dat5 (V17 m ρ) c).arrAt 5 cfg5.N)
    (fun j => row_apply _ 0 j) (fun j => row_apply _ 0 j) (fun j => row_apply _ 0 j) (fun j => row_apply _ 0 j)
    eh es eq en (aggCore288_real _ _ _ _ r3 f1) f17 f18 f19 f20
  exact key.1

/-- The two results: the pools of layer 2's output over the two segment maps. -/
theorem results_of (s0 : Stage1_0 (V3 m ρ) c) (n1 : Bn_1 (V5 m ρ) c)
    (s2 : Stage1_2 (V9 m ρ) c) (n3 : Bn_3 (V11 m ρ) c)
    (s4 : Stage1_4 (V15 m ρ) c) (n5 : Bn_5 (V17 m ρ) c) (hfin : FiniteArgs m c) :
    W19 m ρ c (Proc.devRef .tc main_v116) = pool0 (F := Ideal) (L2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (m ((c : Thread nD τ).loc main_arg3))
    ∧ W19 m ρ c (Proc.devRef .tc main_v136) = pool1 (F := Ideal) (L2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (m ((c : Thread nD τ).loc main_arg4)) := by
  have e5 := out5 m ρ c s0 n1 s2 n3 s4 n5 hfin
  exact ⟨(W19_v116 m ρ c).trans (congrArg (fun h => pool0 (F := Ideal) h (m ((c : Thread nD τ).loc main_arg3))) e5),
    (W19_v136 m ρ c).trans (congrArg (fun h => pool1 (F := Ideal) h (m ((c : Thread nD τ).loc main_arg4))) e5)⟩

end Cert.KernelIdeal.KLayers

end
-- ==== Proof.Region0Pieces.lean ====
import proofs.«164030_j60206851555878_1_alg».proof.Proof.Gen.KernelIdeal.Frame
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.Tactic
open Cert.KernelIdeal Cert.KernelIdeal.Gen

variable {F : FTy → Type} [FloatOps F]

theorem hz00_0 : (![0, 0] : Fin 2 → Nat) = fun _ => 0 := funext fun a => by fin_cases a <;> rfl

/-! What each case of the body leaves in the three output buffers, as the payloads of the tile and
    of the two running sums: at the first point the sums start from the zero rows, at the others
    from what the point before left. -/

theorem out0_A_5_eq (c : Dev nD) (i : grid0.Coords) (arg1 : Memref sig .tc .vmem S2000x160 .f32) (harg1 : arg1.IsWhole) (arg2 : Memref sig .tc .vmem S160x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond0_0 i) (x0 : Vec F S2000x160 .f32) (x1 : Vec F S160x256 .f32) (x2 : Vec F S1x256 .f32) (x3 : Vec F S256x256 .f32) (x4 : Vec F S1x256 .f32) :
    out0_A_5 (F := F) c i arg1 harg1 arg2 harg2 arg3 harg3 arg4 harg4 arg5 harg5 arg6 harg6 arg7 harg7 arg8 harg8 hc0 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz00_0]
  simp only [View.readAt_eq_ld, harg1.read_unread, harg2.read_unread, harg3.read_unread, harg4.read_unread, harg5.read_unread, harg7.read_unread, harg8.read_unread,
    View.ld_unit_zero (S := S2000x160) hz00_0, View.ld_unit_zero (S := S160x256) hz00_0, View.ld_unit_zero (S := S1x256) hz00_0, View.ld_unit_zero (S := S256x256) hz00_0]

theorem out0_A_6_eq (c : Dev nD) (i : grid0.Coords) (arg1 : Memref sig .tc .vmem S2000x160 .f32) (harg1 : arg1.IsWhole) (arg2 : Memref sig .tc .vmem S160x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond0_0 i) (x0 : Vec F S2000x160 .f32) (x1 : Vec F S160x256 .f32) (x2 : Vec F S1x256 .f32) (x3 : Vec F S256x256 .f32) (x4 : Vec F S1x256 .f32) :
    out0_A_6 (F := F) c i arg1 harg1 arg2 harg2 arg3 harg3 arg4 harg4 arg5 harg5 arg6 harg6 arg7 harg7 arg8 harg8 hc0 x0 x1 x2 x3 x4 = k0_pay5 x0 x1 x2 x3 x4 k0_pay2 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x256) hz00_0, View.readCov_unit_zero (S := S1x256) _ hz00_0]
  simp only [View.readAt_eq_ld, harg1.read_unread, harg2.read_unread, harg3.read_unread, harg4.read_unread, harg5.read_unread, harg7.read_unread, harg8.read_unread,
    View.ld_unit_zero (S := S2000x160) hz00_0, View.ld_unit_zero (S := S160x256) hz00_0, View.ld_unit_zero (S := S1x256) hz00_0, View.ld_unit_zero (S := S256x256) hz00_0]

theorem out0_A_7_eq (c : Dev nD) (i : grid0.Coords) (arg1 : Memref sig .tc .vmem S2000x160 .f32) (harg1 : arg1.IsWhole) (arg2 : Memref sig .tc .vmem S160x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond0_0 i) (x0 : Vec F S2000x160 .f32) (x1 : Vec F S160x256 .f32) (x2 : Vec F S1x256 .f32) (x3 : Vec F S256x256 .f32) (x4 : Vec F S1x256 .f32) :
    out0_A_7 (F := F) c i arg1 harg1 arg2 harg2 arg3 harg3 arg4 harg4 arg5 harg5 arg6 harg6 arg7 harg7 arg8 harg8 hc0 x0 x1 x2 x3 x4 = k0_pay1 (k0_pay4 x0 x1 x2 x3 x4) k0_pay3 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x256) hz00_0, View.readCov_unit_zero (S := S1x256) _ hz00_0]
  simp only [View.readAt_eq_ld, harg1.read_unread, harg2.read_unread, harg3.read_unread, harg4.read_unread, harg5.read_unread, harg7.read_unread, harg8.read_unread,
    View.ld_unit_zero (S := S2000x160) hz00_0, View.ld_unit_zero (S := S160x256) hz00_0, View.ld_unit_zero (S := S1x256) hz00_0, View.ld_unit_zero (S := S256x256) hz00_0]

theorem out0_B_5_eq (c : Dev nD) (i : grid0.Coords) (arg1 : Memref sig .tc .vmem S2000x160 .f32) (harg1 : arg1.IsWhole) (arg2 : Memref sig .tc .vmem S160x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (x0 : Vec F S2000x160 .f32) (x1 : Vec F S160x256 .f32) (x2 : Vec F S1x256 .f32) (x3 : Vec F S256x256 .f32) (x4 : Vec F S1x256 .f32) (xo6 : Vec F S1x256 .f32) (xo7 : Vec F S1x256 .f32) :
    out0_B_5 (F := F) c i arg1 harg1 arg2 harg2 arg3 harg3 arg4 harg4 arg5 harg5 arg6 harg6 arg7 harg7 arg8 harg8 hc0 x0 x1 x2 x3 x4 xo6 xo7 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz00_0]
  simp only [View.readAt_eq_ld, harg1.read_unread, harg2.read_unread, harg3.read_unread, harg4.read_unread, harg5.read_unread, harg7.read_unread, harg8.read_unread,
    View.ld_unit_zero (S := S2000x160) hz00_0, View.ld_unit_zero (S := S160x256) hz00_0, View.ld_unit_zero (S := S1x256) hz00_0, View.ld_unit_zero (S := S256x256) hz00_0]

theorem out0_B_6_eq (c : Dev nD) (i : grid0.Coords) (arg1 : Memref sig .tc .vmem S2000x160 .f32) (harg1 : arg1.IsWhole) (arg2 : Memref sig .tc .vmem S160x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (x0 : Vec F S2000x160 .f32) (x1 : Vec F S160x256 .f32) (x2 : Vec F S1x256 .f32) (x3 : Vec F S256x256 .f32) (x4 : Vec F S1x256 .f32) (xo6 : Vec F S1x256 .f32) (xo7 : Vec F S1x256 .f32) :
    out0_B_6 (F := F) c i arg1 harg1 arg2 harg2 arg3 harg3 arg4 harg4 arg5 harg5 arg6 harg6 arg7 harg7 arg8 harg8 hc0 x0 x1 x2 x3 x4 xo6 xo7 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz00_0]
  simp only [View.readAt_eq_ld, harg1.read_unread, harg2.read_unread, harg3.read_unread, harg4.read_unread, harg5.read_unread, harg7.read_unread, harg8.read_unread,
    View.ld_unit_zero (S := S2000x160) hz00_0, View.ld_unit_zero (S := S160x256) hz00_0, View.ld_unit_zero (S := S1x256) hz00_0, View.ld_unit_zero (S := S256x256) hz00_0]

theorem out0_B_7_eq (c : Dev nD) (i : grid0.Coords) (arg1 : Memref sig .tc .vmem S2000x160 .f32) (harg1 : arg1.IsWhole) (arg2 : Memref sig .tc .vmem S160x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (x0 : Vec F S2000x160 .f32) (x1 : Vec F S160x256 .f32) (x2 : Vec F S1x256 .f32) (x3 : Vec F S256x256 .f32) (x4 : Vec F S1x256 .f32) (xo6 : Vec F S1x256 .f32) (xo7 : Vec F S1x256 .f32) :
    out0_B_7 (F := F) c i arg1 harg1 arg2 harg2 arg3 harg3 arg4 harg4 arg5 harg5 arg6 harg6 arg7 harg7 arg8 harg8 hc0 x0 x1 x2 x3 x4 xo6 xo7 = k0_pay1 (k0_pay4 x0 x1 x2 x3 x4) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz00_0]
  simp only [View.readAt_eq_ld, harg1.read_unread, harg2.read_unread, harg3.read_unread, harg4.read_unread, harg5.read_unread, harg7.read_unread, harg8.read_unread,
    View.ld_unit_zero (S := S2000x160) hz00_0, View.ld_unit_zero (S := S160x256) hz00_0, View.ld_unit_zero (S := S1x256) hz00_0, View.ld_unit_zero (S := S256x256) hz00_0]

end Cert.KernelIdeal.RegionValue

end
-- ==== Proof.Stage1Lib.lean ====
import Idealize.ShloMosaic.PureOps.Ideal.Laws
import Idealize.ShloMosaic.Lib.Pipeline.Value
import Idealize.ShloMosaic.Lib.ValueIdx
import Idealize.ShloMosaic.Lib.ValueLayout
import proofs.«164030_j60206851555878_1_alg».proof.Proof.GineSpec

noncomputable section

namespace Cert.KernelIdeal.RegionValue

open Idealize.ShloMosaic
open Idealize.ShloMosaic.ValueIdx
open scoped BigOperators

/-- A product of an m×k by a k×n tile into the zero accumulator, read at (a, b): the sum over the
    contracted coordinate of the products of the entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum of a 2000×n tile over its rows, read at column q. -/
theorem colsum_tile_apply {n : ℕ} (src : FVec Ideal ⟨2, ![2000, n]⟩ .f32) (h : Shape.Reduces ⟨2, ![2000, n]⟩ [0] ⟨1, ![n]⟩)
    (hφ : FKind.Formats .f32) (hacc : (0x00000000#32 : BitVec 32) = FKind.add.neutral .f32 hφ) (q : Fin n) :
    multiReduction .add [0] ⟨1, ![n]⟩ src 0x00000000#32 h hφ hacc (ix1 q) = ∑ p : Fin 2000, src (ix2 p q) := by
  refine (Ideal.multiReduction_add_single src 0x00000000#32 h hφ hacc (ix1 q)).trans ?_
  refine Finset.sum_congr rfl fun p _ => congrArg src (funext fun ax => Fin.ext ?_)
  match ax with
  | ⟨0, _⟩ => rfl
  | ⟨1, _⟩ => rfl

/-- One affine map of a 2000×k tile followed by the rectifier, read at (r, c): the operands pass
    through a narrowing of format that is the identity on extended reals. -/
theorem dense_relu_apply {k : ℕ} (w : DotDims.WF ⟨2, ![2000, k]⟩ ⟨2, ![k, 256]⟩ ⟨2, ![2000, 256]⟩ [1] [0] [0] [1] [] [])
    (hb : (⟨2, ![1, 256]⟩ : Shape).Broadcasts ⟨2, ![2000, 256]⟩) (hlt : FTy.bits .bf16 < FTy.bits .f32)
    (A : FVec Ideal ⟨2, ![2000, k]⟩ .f32) (W : FVec Ideal ⟨2, ![k, 256]⟩ .f32) (B : FVec Ideal ⟨2, ![1, 256]⟩ .f32)
    (r : Fin 2000) (c : Fin 256) :
    maximumf (addf (matmul (⟨[1], [0], [0], [1], [], [], w⟩ : DotDims ⟨2, ![2000, k]⟩ ⟨2, ![k, 256]⟩ ⟨2, ![2000, 256]⟩) none
          (truncf .bf16 A hlt) (truncf .bf16 W hlt) (constant (F := Ideal) ⟨2, ![2000, 256]⟩ .f32 0x00000000#32))
        (broadcastTo ⟨2, ![2000, 256]⟩ B hb))
      (broadcast ⟨2, ![2000, 256]⟩ (Scalar.ofBits (F := Ideal) .f32 0x00000000#32)) (ix2 r c)
      = max ((∑ a : Fin k, A (ix2 r a) * W (ix2 a c)) + B (ix2 (0 : Fin 1) c)) 0 := by
  show max (matmul (⟨[1], [0], [0], [1], [], [], w⟩ : DotDims ⟨2, ![2000, k]⟩ ⟨2, ![k, 256]⟩ ⟨2, ![2000, 256]⟩) none
        (truncf .bf16 A hlt) (truncf .bf16 W hlt) (constant (F := Ideal) ⟨2, ![2000, 256]⟩ .f32 0x00000000#32) (ix2 r c)
      + broadcastTo ⟨2, ![2000, 256]⟩ B hb (ix2 r c)) (Ideal.ofBits .f32 0x00000000#32) = _
  rw [matmul_plain_zero_apply, broadcastTo_1b_ab_apply, Ideal.ofBits_zero_f32]
  rfl

/-- A row vector plus the column sums of a tile, read at column q. -/
theorem acc_colsum_apply (acc : FVec Ideal ⟨2, ![1, 256]⟩ .f32) (src : FVec Ideal ⟨2, ![2000, 256]⟩ .f32)
    (h : Shape.Reduces ⟨2, ![2000, 256]⟩ [0] ⟨1, ![256]⟩) (hc : (⟨1, ![256]⟩ : Shape).ShapeCasts ⟨2, ![1, 256]⟩)
    (hφ : FKind.Formats .f32) (hacc : (0x00000000#32 : BitVec 32) = FKind.add.neutral .f32 hφ) (q : Fin 256) :
    addf acc (shapeCast ⟨2, ![1, 256]⟩ (multiReduction .add [0] ⟨1, ![256]⟩ src 0x00000000#32 h hφ hacc) hc) (ix2 (0 : Fin 1) q)
      = acc (ix2 (0 : Fin 1) q) + ∑ p : Fin 2000, src (ix2 p q) := by
  show acc (ix2 (0 : Fin 1) q)
      + shapeCast ⟨2, ![1, 256]⟩ (multiReduction .add [0] ⟨1, ![256]⟩ src 0x00000000#32 h hφ hacc) hc (ix2 (0 : Fin 1) q) = _
  rw [shapeCast_a_1a_apply, colsum_tile_apply]

/-- The zero row vector, read anywhere. -/
theorem zero_row_apply (i : (⟨2, ![1, 256]⟩ : Shape).Idx) :
    broadcast ⟨2, ![1, 256]⟩ (Scalar.ofBits (F := Ideal) .f32 0x00000000#32) i = 0 :=
  Ideal.ofBits_zero_f32

end Cert.KernelIdeal.RegionValue

end
-- ==== Proof.Stage1Body0.lean ====
import proofs.«164030_j60206851555878_1_alg».proof.Proof.Gen.KernelIdeal.Skeleton
import proofs.«164030_j60206851555878_1_alg».proof.Proof.Stage1Lib

noncomputable section

namespace Cert.KernelIdeal.RegionValue

open Idealize.ShloMosaic
open Idealize.ShloMosaic.ValueIdx
open Cert.KernelIdeal Cert.KernelIdeal.Gen
open scoped BigOperators

/-- The tile of the two-layer perceptron at row p, column q, from a tile of rows of the aggregated
    features and the four parameter arrays. -/
theorem h2_tile_apply0 (A : Vec Ideal S2000x160 .f32) (W1 : Vec Ideal S160x256 .f32) (B1 : Vec Ideal S1x256 .f32)
    (W2 : Vec Ideal S256x256 .f32) (B2 : Vec Ideal S1x256 .f32) (p : Fin 2000) (q : Fin 256) :
    k0_pay4 (F := Ideal) A W1 B1 W2 B2 (ix2 p q)
      = GineSpec.h2 (fun r a => A (ix2 r a)) (fun a c => W1 (ix2 a c)) (fun c => B1 (ix2 (0 : Fin 1) c))
          (fun c j => W2 (ix2 c j)) (fun j => B2 (ix2 (0 : Fin 1) j)) p q := by
  unfold k0_pay4 GineSpec.h2 dot_S2000x160_S160x256_S2000x256_1_0_0_1_n_n dot_S2000x256_S256x256_S2000x256_1_0_0_1_n_n
  simp only [shapeCast_self]
  refine (dense_relu_apply _ _ _ _ W2 B2 p q).trans ?_
  refine congrArg (fun s => max (s + B2 (ix2 (0 : Fin 1) q)) 0) (Finset.sum_congr rfl fun c _ => ?_)
  exact congrArg (· * W2 (ix2 c q)) (dense_relu_apply _ _ _ A W1 B1 p c)

/-- The running column sums after a tile: what was there plus the tile's column sums. -/
theorem sum_tile_apply0 (A : Vec Ideal S2000x160 .f32) (W1 : Vec Ideal S160x256 .f32) (B1 : Vec Ideal S1x256 .f32)
    (W2 : Vec Ideal S256x256 .f32) (B2 : Vec Ideal S1x256 .f32) (acc : Vec Ideal S1x256 .f32) (q : Fin 256) :
    k0_pay5 (F := Ideal) A W1 B1 W2 B2 acc (ix2 (0 : Fin 1) q)
      = acc (ix2 (0 : Fin 1) q) + ∑ p : Fin 2000, k0_pay4 (F := Ideal) A W1 B1 W2 B2 (ix2 p q) := by
  unfold k0_pay5
  simp only [shapeCast_self]
  exact acc_colsum_apply acc (k0_pay4 (F := Ideal) A W1 B1 W2 B2) _ _ _ _ q

/-- The running column sums of squares after a tile. -/
theorem sumsq_tile_apply0 (H : FVec Ideal S2000x256 .f32) (acc : Vec Ideal S1x256 .f32) (q : Fin 256) :
    k0_pay1 (F := Ideal) H acc (ix2 (0 : Fin 1) q)
      = acc (ix2 (0 : Fin 1) q) + ∑ p : Fin 2000, H (ix2 p q) * H (ix2 p q) := by
  unfold k0_pay1
  simp only [shapeCast_self]
  exact acc_colsum_apply acc (mulf H H) _ _ _ _ q

/-- Both accumulators start at zero. -/
theorem zero_sum_apply0 (q : Fin 256) : k0_pay2 (F := Ideal) (ix2 (0 : Fin 1) q) = 0 := zero_row_apply (ix2 (0 : Fin 1) q)
theorem zero_sumsq_apply0 (q : Fin 256) : k0_pay3 (F := Ideal) (ix2 (0 : Fin 1) q) = 0 := zero_row_apply (ix2 (0 : Fin 1) q)

end Cert.KernelIdeal.RegionValue

end
-- ==== Proof.TileSum.lean ====
import Idealize.ShloMosaic.PureOps.Ideal

noncomputable section

namespace Cert.KernelIdeal.RegionValue

open scoped BigOperators

/-! ## Sums over 50000 rows, tile by tile -/

/-- The sum of a function of the row over the rows of tile n. -/
def tileSum (f : Fin 50000 → EReal) (n : ℕ) (hn : n < 25) : EReal :=
  ∑ p : Fin 2000, f ⟨n * 2000 + p.val, by have := p.isLt; omega⟩

/-- The running sum over tiles 0 … n. -/
def runSum (f : Fin 50000 → EReal) : (n : ℕ) → n < 25 → EReal
  | 0, h => tileSum f 0 h
  | n + 1, h => runSum f n (Nat.lt_of_succ_lt h) + tileSum f (n + 1) h

theorem runSum_eq_sum (f : Fin 50000 → EReal) : ∀ (n : ℕ) (h : n < 25),
    runSum f n h = ∑ s : Fin (n + 1), tileSum f s.val (by have := s.isLt; omega)
  | 0, h => by rw [Fin.sum_univ_one]; rfl
  | n + 1, h => by
    rw [Fin.sum_univ_castSucc]
    show runSum f n (Nat.lt_of_succ_lt h) + tileSum f (n + 1) h = _
    rw [runSum_eq_sum f n (Nat.lt_of_succ_lt h)]
    rfl

/-- After the last tile the running sum is the sum over all rows. -/
theorem runSum_last (f : Fin 50000 → EReal) (h : 24 < 25) : runSum f 24 h = ∑ r : Fin 50000, f r := by
  rw [runSum_eq_sum]
  have e := (Equiv.sum_comp (finProdFinEquiv : Fin 25 × Fin 2000 ≃ Fin (25 * 2000)) (fun r : Fin (25 * 2000) => f r)).symm
  refine Eq.trans ?_ e.symm
  rw [Fintype.sum_prod_type]
  refine Finset.sum_congr rfl fun s _ => Finset.sum_congr rfl fun p _ => congrArg f (Fin.ext ?_)
  show s.val * 2000 + p.val = p.val + 2000 * s.val
  omega

end Cert.KernelIdeal.RegionValue

end
-- ==== Proof.Region0.lean ====
import proofs.«164030_j60206851555878_1_alg».proof.Proof.Gen.KernelIdeal.Frame
import proofs.«164030_j60206851555878_1_alg».proof.Proof.GineSpec
import proofs.«164030_j60206851555878_1_alg».proof.Proof.Region0Pieces
import proofs.«164030_j60206851555878_1_alg».proof.Proof.Stage1Body0
import proofs.«164030_j60206851555878_1_alg».proof.Proof.TileSum
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

/-- Entry (r, j) of the two-layer perceptron of the rows, from the five arrays the region finds. -/
def h2At0 (c : Dev nD) (r : Fin 50000) (j : Fin 256) : EReal :=
  GineSpec.h2 (fun r a => V c (Pipeline.arrRef spec0 0) (ix2 r a)) (fun a c' => V c (Pipeline.arrRef spec0 1) (ix2 a c'))
      (fun c' => V c (Pipeline.arrRef spec0 2) (ix2 (0 : Fin 1) c')) (fun c' j' => V c (Pipeline.arrRef spec0 3) (ix2 c' j'))
      (fun j' => V c (Pipeline.arrRef spec0 4) (ix2 (0 : Fin 1) j')) r j

/-- The perceptron's entry depends on its row of the first operand only. -/
theorem h2_congr_row0 {n n' k d e : ℕ} (A : Fin n → Fin k → EReal) (A' : Fin n' → Fin k → EReal) (W1 : Fin k → Fin d → EReal)
    (B1 : Fin d → EReal) (W2 : Fin d → Fin e → EReal) (B2 : Fin e → EReal) (r : Fin n) (r' : Fin n') (j : Fin e)
    (h : ∀ a, A r a = A' r' a) : GineSpec.h2 A W1 B1 W2 B2 r j = GineSpec.h2 A' W1 B1 W2 B2 r' j := by
  unfold GineSpec.h2
  simp only [h]

/-- The block indices of the eight windows at every point: the two tables move one tile of rows per
    point, the four parameter arrays and the two accumulators stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem N25_0 : cfg0.N = 25 := N_0

/-- The features' tile at a point, read at (p, a): the array at row 2000 · t + p. -/
theorem iblk0_0_apply (c : Dev nD) (t : Fin cfg0.N) (p : Fin 2000) (a : Fin 160) (hr : t.val * 2000 + p.val < 50000) :
    (iblk0 V c 0 t : Vec Ideal S2000x160 .f32) (ix2 p a)
      = V c (Pipeline.arrRef spec0 0) (ix2 (⟨t.val * 2000 + p.val, hr⟩ : Fin 50000) a) := by
  have e := idx_facts0 t
  unfold iblk0
  rw [View.read_apply]
  show V c (Pipeline.arrRef spec0 0) (((cfg0.win 0).blk t).view.emb (ix2 p a)) = _
  refine congrArg (V c (Pipeline.arrRef spec0 0)) (funext fun ax => Fin.ext ?_)
  match ax with
  | ⟨0, _⟩ => show win0_0.index t (0 : Fin 2) * 2000 + 1 * p.val = t.val * 2000 + p.val; omega
  | ⟨1, _⟩ => show win0_0.index t (1 : Fin 2) * 160 + 1 * a.val = a.val; omega

/-- A parameter array's block is the whole array at every point. -/
theorem iblk0_1_eq (c : Dev nD) (t : Fin cfg0.N) :
    (iblk0 V c 1 t : Vec Ideal S160x256 .f32) = V c (Pipeline.arrRef spec0 1) := by
  have e := idx_facts0 t
  funext y
  obtain ⟨a, b, rfl⟩ : ∃ (a : Fin 160) (b : Fin 256), y = ix2 a b := ⟨y 0, y 1, eq_ix2 y⟩
  unfold iblk0
  rw [View.read_apply]
  show V c (Pipeline.arrRef spec0 1) (((cfg0.win 1).blk t).view.emb (ix2 a b)) = _
  refine congrArg (V c (Pipeline.arrRef spec0 1)) (funext fun ax => Fin.ext ?_)
  match ax with
  | ⟨0, _⟩ => show win0_1.index t (0 : Fin 2) * 160 + 1 * a.val = a.val; omega
  | ⟨1, _⟩ => show win0_1.index t (1 : Fin 2) * 256 + 1 * b.val = b.val; omega

theorem iblk0_2_eq (c : Dev nD) (t : Fin cfg0.N) :
    (iblk0 V c 2 t : Vec Ideal S1x256 .f32) = V c (Pipeline.arrRef spec0 2) := by
  have e := idx_facts0 t
  funext y
  obtain ⟨a, b, rfl⟩ : ∃ (a : Fin 1) (b : Fin 256), y = ix2 a b := ⟨y 0, y 1, eq_ix2 y⟩
  unfold iblk0
  rw [View.read_apply]
  show V c (Pipeline.arrRef spec0 2) (((cfg0.win 2).blk t).view.emb (ix2 a b)) = _
  refine congrArg (V c (Pipeline.arrRef spec0 2)) (funext fun ax => Fin.ext ?_)
  match ax with
  | ⟨0, _⟩ => show win0_2.index t (0 : Fin 2) * 1 + 1 * a.val = a.val; omega
  | ⟨1, _⟩ => show win0_2.index t (1 : Fin 2) * 256 + 1 * b.val = b.val; omega

theorem iblk0_3_eq (c : Dev nD) (t : Fin cfg0.N) :
    (iblk0 V c 3 t : Vec Ideal S256x256 .f32) = V c (Pipeline.arrRef spec0 3) := by
  have e := idx_facts0 t
  funext y
  obtain ⟨a, b, rfl⟩ : ∃ (a : Fin 256) (b : Fin 256), y = ix2 a b := ⟨y 0, y 1, eq_ix2 y⟩
  unfold iblk0
  rw [View.read_apply]
  show V c (Pipeline.arrRef spec0 3) (((cfg0.win 3).blk t).view.emb (ix2 a b)) = _
  refine congrArg (V c (Pipeline.arrRef spec0 3)) (funext fun ax => Fin.ext ?_)
  match ax with
  | ⟨0, _⟩ => show win0_3.index t (0 : Fin 2) * 256 + 1 * a.val = a.val; omega
  | ⟨1, _⟩ => show win0_3.index t (1 : Fin 2) * 256 + 1 * b.val = b.val; omega

theorem iblk0_4_eq (c : Dev nD) (t : Fin cfg0.N) :
    (iblk0 V c 4 t : Vec Ideal S1x256 .f32) = V c (Pipeline.arrRef spec0 4) := by
  have e := idx_facts0 t
  funext y
  obtain ⟨a, b, rfl⟩ : ∃ (a : Fin 1) (b : Fin 256), y = ix2 a b := ⟨y 0, y 1, eq_ix2 y⟩
  unfold iblk0
  rw [View.read_apply]
  show V c (Pipeline.arrRef spec0 4) (((cfg0.win 4).blk t).view.emb (ix2 a b)) = _
  refine congrArg (V c (Pipeline.arrRef spec0 4)) (funext fun ax => Fin.ext ?_)
  match ax with
  | ⟨0, _⟩ => show win0_4.index t (0 : Fin 2) * 1 + 1 * a.val = a.val; omega
  | ⟨1, _⟩ => show win0_4.index t (1 : Fin 2) * 256 + 1 * b.val = b.val; omega

/-- The tile a point computes, read at (p, q): the perceptron's entry at row 2000 · t + p. -/
theorem tile0_apply (c : Dev nD) (t : Fin cfg0.N) (p : Fin 2000) (q : Fin 256) (hr : t.val * 2000 + p.val < 50000) :
    k0_pay4 (F := Ideal) (iblk0 V c 0 t) (iblk0 V c 1 t) (iblk0 V c 2 t) (iblk0 V c 3 t) (iblk0 V c 4 t) (ix2 p q) = h2At0 V c ⟨t.val * 2000 + p.val, hr⟩ q := by
  refine (h2_tile_apply0 (iblk0 V c 0 t) (iblk0 V c 1 t) (iblk0 V c 2 t) (iblk0 V c 3 t) (iblk0 V c 4 t) p q).trans ?_
  rw [iblk0_1_eq V c t, iblk0_2_eq V c t, iblk0_3_eq V c t, iblk0_4_eq V c t]
  exact h2_congr_row0 _ _ _ _ _ _ p ⟨t.val * 2000 + p.val, hr⟩ q (fun a => iblk0_0_apply V c t p a hr)

/-- The three outputs after the first point, as payloads. -/
theorem outsAt0_first (c : Dev nD) (t : Fin cfg0.N) (h0 : t.val % 25 = 0) :
    outsAt0 V c t.val t.isLt = (k0_pay4 (iblk0 V c 0 t) (iblk0 V c 1 t) (iblk0 V c 2 t) (iblk0 V c 3 t) (iblk0 V c 4 t), k0_pay5 (iblk0 V c 0 t) (iblk0 V c 1 t) (iblk0 V c 2 t) (iblk0 V c 3 t) (iblk0 V c 4 t) (k0_pay2 (F := Ideal)), k0_pay1 (k0_pay4 (iblk0 V c 0 t) (iblk0 V c 1 t) (iblk0 V c 2 t) (iblk0 V c 3 t) (iblk0 V c 4 t)) (k0_pay3 (F := Ideal))) :=
  (outsAt0_A V c t h0).trans (congrArg₂ Prod.mk
    (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
    (congrArg₂ Prod.mk
      (out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))))

/-- The three outputs after a later point, as payloads over what the point before left. -/
theorem outsAt0_later (c : Dev nD) (t : Fin cfg0.N) (h0 : ¬t.val % 25 = 0) :
    outsAt0 V c t.val t.isLt = (k0_pay4 (iblk0 V c 0 t) (iblk0 V c 1 t) (iblk0 V c 2 t) (iblk0 V c 3 t) (iblk0 V c 4 t),
      k0_pay5 (iblk0 V c 0 t) (iblk0 V c 1 t) (iblk0 V c 2 t) (iblk0 V c 3 t) (iblk0 V c 4 t) (outsAt0 V c (t.val - 1) (Nat.lt_of_le_of_lt (Nat.sub_le _ _) t.isLt)).2.1,
      k0_pay1 (k0_pay4 (iblk0 V c 0 t) (iblk0 V c 1 t) (iblk0 V c 2 t) (iblk0 V c 3 t) (iblk0 V c 4 t)) (outsAt0 V c (t.val - 1) (Nat.lt_of_le_of_lt (Nat.sub_le _ _) t.isLt)).2.2) :=
  (outsAt0_B V c t h0).trans (congrArg₂ Prod.mk
    (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
        (outsAt0 V c (t.val - 1) (Nat.lt_of_le_of_lt (Nat.sub_le _ _) t.isLt)).2.1 (outsAt0 V c (t.val - 1) (Nat.lt_of_le_of_lt (Nat.sub_le _ _) t.isLt)).2.2)
      (out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
        (outsAt0 V c (t.val - 1) (Nat.lt_of_le_of_lt (Nat.sub_le _ _) t.isLt)).2.1 (outsAt0 V c (t.val - 1) (Nat.lt_of_le_of_lt (Nat.sub_le _ _) t.isLt)).2.2)))

/-- After point n the first output holds the perceptron's rows of tile n, the other two the running
    sums of the entries and of their squares over tiles 0 … n. -/
theorem outsAt0_inv (c : Dev nD) : ∀ (n : ℕ) (h : n < cfg0.N) (h25 : n < 25),
    (∀ (p : Fin 2000) (q : Fin 256) (hr : n * 2000 + p.val < 50000),
        (outsAt0 V c n h).1 (ix2 p q) = h2At0 V c ⟨n * 2000 + p.val, hr⟩ q)
    ∧ (∀ q : Fin 256, (outsAt0 V c n h).2.1 (ix2 (0 : Fin 1) q) = runSum (fun r => h2At0 V c r q) n h25)
    ∧ (∀ q : Fin 256, (outsAt0 V c n h).2.2 (ix2 (0 : Fin 1) q)
        = runSum (fun r => h2At0 V c r q * h2At0 V c r q) n h25)
  | 0, h, h25 => by
    rw [outsAt0_first V c ⟨0, h⟩ rfl]
    refine ⟨fun p q hr => tile0_apply V c ⟨0, h⟩ p q hr, fun q => ?_, fun q => ?_⟩
    · refine (sum_tile_apply0 (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) q).trans ?_
      rw [zero_sum_apply0, zero_add]
      refine Eq.trans (Finset.sum_congr rfl fun p _ => tile0_apply V c ⟨0, h⟩ p q
        (by have := p.isLt; show 0 * 2000 + p.val < 50000; omega)) ?_
      rfl
    · refine (sumsq_tile_apply0 (k0_pay4 (iblk0 V c 0 ⟨0, h⟩) (iblk0 V c 1 ⟨0, h⟩) (iblk0 V c 2 ⟨0, h⟩) (iblk0 V c 3 ⟨0, h⟩) (iblk0 V c 4 ⟨0, h⟩)) (k0_pay3 (F := Ideal)) q).trans ?_
      rw [zero_sumsq_apply0, zero_add]
      refine Eq.trans (Finset.sum_congr rfl fun p _ => congrArg₂ (· * ·)
        (tile0_apply V c ⟨0, h⟩ p q (by have := p.isLt; show 0 * 2000 + p.val < 50000; omega))
        (tile0_apply V c ⟨0, h⟩ p q (by have := p.isLt; show 0 * 2000 + p.val < 50000; omega))) ?_
      rfl
  | n + 1, h, h25 => by
    have hB : ¬(⟨n + 1, h⟩ : Fin cfg0.N).val % 25 = 0 := by show ¬(n + 1) % 25 = 0; omega
    obtain ⟨-, ih6, ih7⟩ := outsAt0_inv c n (Nat.lt_of_succ_lt h) (Nat.lt_of_succ_lt h25)
    rw [outsAt0_later V c ⟨n + 1, h⟩ hB]
    refine ⟨fun p q hr => tile0_apply V c ⟨n + 1, h⟩ p q hr, fun q => ?_, fun q => ?_⟩
    · refine (sum_tile_apply0 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c ((⟨n + 1, h⟩ : Fin cfg0.N).val - 1) (Nat.lt_of_le_of_lt (Nat.sub_le _ _) (⟨n + 1, h⟩ : Fin cfg0.N).isLt)).2.1 q).trans ?_
      refine Eq.trans (congrArg₂ (· + ·) (ih6 q) (Finset.sum_congr rfl fun p _ => tile0_apply V c ⟨n + 1, h⟩ p q
        (by have := p.isLt; show (n + 1) * 2000 + p.val < 50000; omega))) ?_
      rfl
    · refine (sumsq_tile_apply0 (k0_pay4 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)) (outsAt0 V c ((⟨n + 1, h⟩ : Fin cfg0.N).val - 1) (Nat.lt_of_le_of_lt (Nat.sub_le _ _) (⟨n + 1, h⟩ : Fin cfg0.N).isLt)).2.2 q).trans ?_
      refine Eq.trans (congrArg₂ (· + ·) (ih7 q) (Finset.sum_congr rfl fun p _ => congrArg₂ (· * ·)
        (tile0_apply V c ⟨n + 1, h⟩ p q (by have := p.isLt; show (n + 1) * 2000 + p.val < 50000; omega))
        (tile0_apply V c ⟨n + 1, h⟩ p q (by have := p.isLt; show (n + 1) * 2000 + p.val < 50000; omega)))) ?_
      rfl

/-! ## From the points to the three arrays -/

theorem runSum_at_last0 (f : Fin 50000 → EReal) (n : ℕ) (h : n < 25) (hn : n = 24) : runSum f n h = ∑ r : Fin 50000, f r := by
  subst hn; exact runSum_last f h

/-- The perceptron's table, its column sums and the column sums of its squares, as contents of the
    three output arrays. -/
def h2Arr0 (c : Dev nD) : Buf (Elt Ideal) ((cfg0.win 5).arr.view.loc (c.tc : Thread nD τ)) :=
  fun i => h2At0 V c (i 0) (i 1)
/-- The column sums of the perceptron's table and of its squares. -/
def colSumAt0 (c : Dev nD) (j : Fin 256) : EReal := ∑ r : Fin 50000, h2At0 V c r j
def colSumSqAt0 (c : Dev nD) (j : Fin 256) : EReal := ∑ r : Fin 50000, h2At0 V c r j * h2At0 V c r j
def sumArr0 (c : Dev nD) : Buf (Elt Ideal) ((cfg0.win 6).arr.view.loc (c.tc : Thread nD τ)) :=
  fun i => colSumAt0 V c (i 1)
def sumsqArr0 (c : Dev nD) : Buf (Elt Ideal) ((cfg0.win 7).arr.view.loc (c.tc : Thread nD τ)) :=
  fun i => colSumSqAt0 V c (i 1)

/-- The table's tile at a point, read at (p, q): the table at row 2000 · t + p. -/
theorem h2Arr0_blk_apply (c : Dev nD) (t : Fin cfg0.N) (p : Fin 2000) (q : Fin 256) (hr : t.val * 2000 + p.val < 50000) :
    (((cfg0.win 5).blk t).view.read (Elt Ideal) (h2Arr0 V c) : Vec Ideal S2000x256 .f32) (ix2 p q)
      = h2At0 V c (⟨t.val * 2000 + p.val, hr⟩ : Fin 50000) q := by
  have e := idx_facts0 t
  rw [View.read_apply]
  show h2At0 V c ((((cfg0.win 5).blk t).view.emb (ix2 p q)) 0) ((((cfg0.win 5).blk t).view.emb (ix2 p q)) 1) = _
  have h0 : ((((cfg0.win 5).blk t).view.emb (ix2 p q)) 0 : Fin 50000) = ⟨t.val * 2000 + p.val, hr⟩ :=
    Fin.ext (by show win0_5.index t (0 : Fin 2) * 2000 + 1 * p.val = t.val * 2000 + p.val; omega)
  have h1 : ((((cfg0.win 5).blk t).view.emb (ix2 p q)) 1 : Fin 256) = q :=
    Fin.ext (by show win0_5.index t (1 : Fin 2) * 256 + 1 * q.val = q.val; omega)
  exact (congrArg (fun r : Fin 50000 => h2At0 V c r _) h0).trans (congrArg (fun j : Fin 256 => h2At0 V c _ j) h1)

/-- What a point writes back of the table is its tile of the perceptron's table. -/
theorem flushed0_5_eq (c : Dev nD) (t : Fin cfg0.N) :
    (dat0 V c).flushed 5 t = ((cfg0.win 5).blk t).view.read (Elt Ideal) (h2Arr0 V c) := by
  have hN : cfg0.N = 25 := N_0
  show (cfg0.win 5).cut (grid0.coords t) ((dat0 V c).after 5 t) = _
  rw [after0_5]
  funext y
  obtain ⟨p, q, rfl⟩ : ∃ (p : Fin 2000) (q : Fin 256), y = ix2 p q := ⟨y 0, y 1, eq_ix2 y⟩
  have hr : t.val * 2000 + p.val < 50000 := by have := t.isLt; have := p.isLt; omega
  exact ((outsAt0_inv V c t.val t.isLt (by have := t.isLt; omega)).1 p q hr).trans (h2Arr0_blk_apply V c t p q hr).symm

theorem mem_blk0_5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v22_0).slice (win0_5.rect t)).set ↔ _
  rw [View.set_slice_whole, Rect.mem_set_unit]
  exact Iff.rfl

/-- Row r of the table is written back by point r / 2000. -/
theorem cover0_5_arr (i : S50000x256.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  have ht : (i 0).val / 2000 < cfg0.N := by omega
  refine ⟨⟨(i 0).val / 2000, ht⟩, flush0_5 _, ?_⟩
  rw [mem_blk0_5]
  have e := idx_facts0 ⟨(i 0).val / 2000, ht⟩
  have e10 : win0_5.index ⟨(i 0).val / 2000, ht⟩ (0 : Fin 2) = (i 0).val / 2000 := e.2.2.2.2.2.2.2.2.2.2.1
  have e11 : win0_5.index ⟨(i 0).val / 2000, ht⟩ (1 : Fin 2) = 0 := e.2.2.2.2.2.2.2.2.2.2.2.1
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e10]; omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e11]; omega

theorem arrAt0_5 (c : Dev nD) : (dat0 V c).arrAt 5 cfg0.N = h2Arr0 V c :=
  (dat0 V c).arrAt_eq_of_cover 5 (h2Arr0 V c) (fun t _ => flushed0_5_eq V c t) cover0_5_arr

attribute [local irreducible] colSumAt0 colSumSqAt0 in
/-- The column sums' block at a point, read at column q. -/
theorem sumArr0_blk_apply (c : Dev nD) (t : Fin cfg0.N) (q : Fin 256) :
    (((cfg0.win 6).blk t).view.read (Elt Ideal) (sumArr0 V c) : Vec Ideal S1x256 .f32) (ix2 (0 : Fin 1) q)
      = colSumAt0 V c q := by
  have e := idx_facts0 t
  rw [View.read_apply]
  show colSumAt0 V c ((((cfg0.win 6).blk t).view.emb (ix2 (0 : Fin 1) q)) 1) = _
  have h1 : ((((cfg0.win 6).blk t).view.emb (ix2 (0 : Fin 1) q)) 1 : Fin 256) = q :=
    Fin.ext (by show win0_6.index t (1 : Fin 2) * 256 + 1 * q.val = q.val; omega)
  exact congrArg (colSumAt0 V c) h1

/-- The one write-back of the column sums, after the last point, writes the sums over all rows. -/
theorem flushed0_6_eq (c : Dev nD) (t : Fin cfg0.N) (hf : (cfg0.win 6).flush t = true) :
    (dat0 V c).flushed 6 t = ((cfg0.win 6).blk t).view.read (Elt Ideal) (sumArr0 V c) := by
  have hN : cfg0.N = 25 := N_0
  have h24 : t.val = 24 := by have := (flush0_6 t).mp hf; have := t.isLt; omega
  show (cfg0.win 6).cut (grid0.coords t) ((dat0 V c).after 6 t) = _
  rw [after0_6]
  funext y
  obtain ⟨u, q, rfl⟩ : ∃ (u : Fin 1) (q : Fin 256), y = ix2 u q := ⟨y 0, y 1, eq_ix2 y⟩
  obtain rfl : u = 0 := Subsingleton.elim _ _
  refine Eq.trans ?_ (sumArr0_blk_apply V c t q).symm
  refine ((outsAt0_inv V c t.val t.isLt (by omega)).2.1 q).trans ?_
  exact runSum_at_last0 _ t.val _ h24

theorem mem_blk0_6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v22_1).slice (win0_6.rect t)).set ↔ _
  rw [View.set_slice_whole, Rect.mem_set_unit]
  exact Iff.rfl

/-- The last point's block is the whole row vector. -/
theorem cover0_6_arr (i : S1x256.Idx) :
    ∃ t : Fin cfg0.N, (cfg0.win 6).flush t = true ∧ i ∈ ((cfg0.win 6).blk t).view.set := by
  have hN : cfg0.N = 25 := N_0
  have hi0 : (i 0).val < 1 := (i 0).isLt
  have hi1 : (i 1).val < 256 := (i 1).isLt
  have ht : 24 < cfg0.N := by omega
  refine ⟨⟨24, ht⟩, (flush0_6 _).mpr rfl, ?_⟩
  rw [mem_blk0_6]
  have e := idx_facts0 ⟨24, ht⟩
  intro a
  match a with
  | ⟨0, _⟩ =>
    show win0_6.index ⟨24, ht⟩ (0 : Fin 2) * 1 ≤ (i 0).val ∧ (i 0).val < win0_6.index ⟨24, ht⟩ (0 : Fin 2) * 1 + 1
    omega
  | ⟨1, _⟩ =>
    show win0_6.index ⟨24, ht⟩ (1 : Fin 2) * 256 ≤ (i 1).val ∧ (i 1).val < win0_6.index ⟨24, ht⟩ (1 : Fin 2) * 256 + 256
    omega

theorem arrAt0_6 (c : Dev nD) : (dat0 V c).arrAt 6 cfg0.N = sumArr0 V c :=
  (dat0 V c).arrAt_eq_of_cover 6 (sumArr0 V c) (fun t hf => flushed0_6_eq V c t hf) cover0_6_arr

attribute [local irreducible] colSumAt0 colSumSqAt0 in
/-- The column sums of squares' block at a point, read at column q. -/
theorem sumsqArr0_blk_apply (c : Dev nD) (t : Fin cfg0.N) (q : Fin 256) :
    (((cfg0.win 7).blk t).view.read (Elt Ideal) (sumsqArr0 V c) : Vec Ideal S1x256 .f32) (ix2 (0 : Fin 1) q)
      = colSumSqAt0 V c q := by
  have e := idx_facts0 t
  rw [View.read_apply]
  show colSumSqAt0 V c ((((cfg0.win 7).blk t).view.emb (ix2 (0 : Fin 1) q)) 1) = _
  have h1 : ((((cfg0.win 7).blk t).view.emb (ix2 (0 : Fin 1) q)) 1 : Fin 256) = q :=
    Fin.ext (by show win0_7.index t (1 : Fin 2) * 256 + 1 * q.val = q.val; omega)
  exact congrArg (colSumSqAt0 V c) h1

/-- The one write-back of the column sums of squares, after the last point, writes the sums over all rows. -/
theorem flushed0_7_eq (c : Dev nD) (t : Fin cfg0.N) (hf : (cfg0.win 7).flush t = true) :
    (dat0 V c).flushed 7 t = ((cfg0.win 7).blk t).view.read (Elt Ideal) (sumsqArr0 V c) := by
  have hN : cfg0.N = 25 := N_0
  have h24 : t.val = 24 := by have := (flush0_7 t).mp hf; have := t.isLt; omega
  show (cfg0.win 7).cut (grid0.coords t) ((dat0 V c).after 7 t) = _
  rw [after0_7]
  funext y
  obtain ⟨u, q, rfl⟩ : ∃ (u : Fin 1) (q : Fin 256), y = ix2 u q := ⟨y 0, y 1, eq_ix2 y⟩
  obtain rfl : u = 0 := Subsingleton.elim _ _
  refine Eq.trans ?_ (sumsqArr0_blk_apply V c t q).symm
  refine ((outsAt0_inv V c t.val t.isLt (by omega)).2.2 q).trans ?_
  exact runSum_at_last0 _ t.val _ h24

theorem mem_blk0_7 (t : Fin cfg0.N) (i : S1x256.Idx) :
    i ∈ ((cfg0.win 7).blk t).view.set ↔ ∀ a : Fin 2, win0_7.index t a * S1x256.size a ≤ (i a).val
      ∧ (i a).val < win0_7.index t a * S1x256.size a + S1x256.size a := by
  show i ∈ ((View.whole main_v22_2).slice (win0_7.rect t)).set ↔ _
  rw [View.set_slice_whole, Rect.mem_set_unit]
  exact Iff.rfl

/-- The last point's block is the whole row vector. -/
theorem cover0_7_arr (i : S1x256.Idx) :
    ∃ t : Fin cfg0.N, (cfg0.win 7).flush t = true ∧ i ∈ ((cfg0.win 7).blk t).view.set := by
  have hN : cfg0.N = 25 := N_0
  have hi0 : (i 0).val < 1 := (i 0).isLt
  have hi1 : (i 1).val < 256 := (i 1).isLt
  have ht : 24 < cfg0.N := by omega
  refine ⟨⟨24, ht⟩, (flush0_7 _).mpr rfl, ?_⟩
  rw [mem_blk0_7]
  have e := idx_facts0 ⟨24, ht⟩
  intro a
  match a with
  | ⟨0, _⟩ =>
    show win0_7.index ⟨24, ht⟩ (0 : Fin 2) * 1 ≤ (i 0).val ∧ (i 0).val < win0_7.index ⟨24, ht⟩ (0 : Fin 2) * 1 + 1
    omega
  | ⟨1, _⟩ =>
    show win0_7.index ⟨24, ht⟩ (1 : Fin 2) * 256 ≤ (i 1).val ∧ (i 1).val < win0_7.index ⟨24, ht⟩ (1 : Fin 2) * 256 + 256
    omega

theorem arrAt0_7 (c : Dev nD) : (dat0 V c).arrAt 7 cfg0.N = sumsqArr0 V c :=
  (dat0 V c).arrAt_eq_of_cover 7 (sumsqArr0 V c) (fun t hf => flushed0_7_eq V c t hf) cover0_7_arr

/-! ## The three arrays after the region, entry by entry -/

/-- The table after the region: the two-layer perceptron of the rows of the features. -/
theorem stage1_0_h (c : Dev nD) (r : Fin 50000) (j : Fin 256) :
    ((dat0 V c).arrAt 5 cfg0.N : S50000x256.Idx → EReal) (ix2 r j)
      = GineSpec.h2 (fun r a => V c (Pipeline.arrRef spec0 0) (ix2 r a)) (fun a c' => V c (Pipeline.arrRef spec0 1) (ix2 a c'))
          (fun c' => V c (Pipeline.arrRef spec0 2) (ix2 (0 : Fin 1) c')) (fun c' j' => V c (Pipeline.arrRef spec0 3) (ix2 c' j'))
          (fun j' => V c (Pipeline.arrRef spec0 4) (ix2 (0 : Fin 1) j')) r j := by
  rw [arrAt0_5]
  rfl

/-- The first row vector after the region: the column sums of that table. -/
theorem stage1_0_sum (c : Dev nD) (j : Fin 256) :
    ((dat0 V c).arrAt 6 cfg0.N : S1x256.Idx → EReal) (ix2 (0 : Fin 1) j)
      = ∑ r : Fin 50000, GineSpec.h2 (fun r a => V c (Pipeline.arrRef spec0 0) (ix2 r a)) (fun a c' => V c (Pipeline.arrRef spec0 1) (ix2 a c'))
          (fun c' => V c (Pipeline.arrRef spec0 2) (ix2 (0 : Fin 1) c')) (fun c' j' => V c (Pipeline.arrRef spec0 3) (ix2 c' j'))
          (fun j' => V c (Pipeline.arrRef spec0 4) (ix2 (0 : Fin 1) j')) r j := by
  rw [arrAt0_6]
  rfl

/-- The second row vector after the region: the column sums of the squares of that table. -/
theorem stage1_0_sumsq (c : Dev nD) (j : Fin 256) :
    ((dat0 V c).arrAt 7 cfg0.N : S1x256.Idx → EReal) (ix2 (0 : Fin 1) j)
      = ∑ r : Fin 50000, GineSpec.h2 (fun r a => V c (Pipeline.arrRef spec0 0) (ix2 r a)) (fun a c' => V c (Pipeline.arrRef spec0 1) (ix2 a c'))
          (fun c' => V c (Pipeline.arrRef spec0 2) (ix2 (0 : Fin 1) c')) (fun c' j' => V c (Pipeline.arrRef spec0 3) (ix2 c' j'))
          (fun j' => V c (Pipeline.arrRef spec0 4) (ix2 (0 : Fin 1) j')) r j
        * GineSpec.h2 (fun r a => V c (Pipeline.arrRef spec0 0) (ix2 r a)) (fun a c' => V c (Pipeline.arrRef spec0 1) (ix2 a c'))
          (fun c' => V c (Pipeline.arrRef spec0 2) (ix2 (0 : Fin 1) c')) (fun c' j' => V c (Pipeline.arrRef spec0 3) (ix2 c' j'))
          (fun j' => V c (Pipeline.arrRef spec0 4) (ix2 (0 : Fin 1) j')) r j := by
  rw [arrAt0_7]
  rfl

end Cert.KernelIdeal.RegionValue

end
-- ==== Proof.Region1.lean ====
import proofs.«164030_j60206851555878_1_alg».proof.Proof.Gen.KernelIdeal.Frame
import proofs.«164030_j60206851555878_1_alg».proof.Proof.GineSpec
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen

/-- The normalisation tile at row p, column q: scale · (value − centre) · spread + shift, the four
    row vectors read at column q. -/
theorem bn_tile_apply (x : Vec Ideal S2000x256 .f32) (g mu s b : Vec Ideal S1x256 .f32) (p : Fin 2000) (q : Fin 256) :
    k1_pay1 (F := Ideal) x g mu s b (ix2 p q)
      = GineSpec.affine (g (ix2 (0 : Fin 1) q)) (x (ix2 p q)) (mu (ix2 (0 : Fin 1) q)) (s (ix2 (0 : Fin 1) q)) (b (ix2 (0 : Fin 1) q)) := by
  unfold k1_pay1 GineSpec.affine
  simp only [shapeCast_self]
  show (broadcastTo S2000x256 g broadcasts_S1x256_S2000x256 (ix2 p q) * (x (ix2 p q) - broadcastTo S2000x256 mu broadcasts_S1x256_S2000x256 (ix2 p q))) * broadcastTo S2000x256 s broadcasts_S1x256_S2000x256 (ix2 p q) + broadcastTo S2000x256 b broadcasts_S1x256_S2000x256 (ix2 p q) = _
  rw [broadcastTo_1b_ab_apply, broadcastTo_1b_ab_apply, broadcastTo_1b_ab_apply, broadcastTo_1b_ab_apply]

variable (V : (c : Dev nD) → (b : Ref sig .tc) → Buf (Elt Ideal) ((c : Thread nD τ).loc b))

theorem hz2 : (![0, 0] : Fin 2 → Nat) = fun _ => 0 := funext fun a => by fin_cases a <;> rfl

/-- Entry (r, j) of the normalised table, from the five arrays the region finds. -/
def bnAt (c : Dev nD) (r : Fin 50000) (j : Fin 256) : EReal :=
  GineSpec.affine (V c (Pipeline.arrRef spec1 3) (ix2 (0 : Fin 1) j)) (V c (Pipeline.arrRef spec1 0) (ix2 r j))
    (V c (Pipeline.arrRef spec1 1) (ix2 (0 : Fin 1) j)) (V c (Pipeline.arrRef spec1 2) (ix2 (0 : Fin 1) j))
    (V c (Pipeline.arrRef spec1 4) (ix2 (0 : Fin 1) j))

/-- The normalised table as contents of the output array. -/
def bnArr (c : Dev nD) : Buf (Elt Ideal) ((cfg1.win 5).arr.view.loc (c.tc : Thread nD τ)) :=
  fun i => bnAt V c (i 0) (i 1)

/-- The block indices of the six windows at every point: the two tables move one tile of rows per
    point, the four row vectors stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of the table lies in tile r / 2000. -/
theorem tile_row_lt (t : Fin cfg1.N) (p : Fin 2000) : t.val * 2000 + p.val < 50000 := by
  have hN : cfg1.N = 25 := N_1
  have := t.isLt; have := p.isLt; omega

/-- The table's tile at a point, read at (p, q): the array at row 2000 · t + p. -/
theorem iblk1_0_apply (c : Dev nD) (t : Fin cfg1.N) (p : Fin 2000) (q : Fin 256) :
    (iblk1 V c 0 t : Vec Ideal S2000x256 .f32) (ix2 p q)
      = V c (Pipeline.arrRef spec1 0) (ix2 (⟨t.val * 2000 + p.val, tile_row_lt t p⟩ : Fin 50000) q) := by
  obtain ⟨e0, e1, -⟩ := idx_facts1 t
  unfold iblk1
  rw [View.read_apply]
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * q.val = q.val; rw [e1]; omega

/-- A row vector's block is the whole vector at every point. -/
theorem iblk1_1_apply (c : Dev nD) (t : Fin cfg1.N) (q : Fin 256) :
    (iblk1 V c 1 t : Vec Ideal S1x256 .f32) (ix2 (0 : Fin 1) q) = V c (Pipeline.arrRef spec1 1) (ix2 (0 : Fin 1) q) := by
  have e := idx_facts1 t
  unfold iblk1
  rw [View.read_apply]
  show V c (Pipeline.arrRef spec1 1) (((cfg1.win 1).blk t).view.emb (ix2 (0 : Fin 1) q)) = _
  refine congrArg (V c (Pipeline.arrRef spec1 1)) (funext fun a => Fin.ext ?_)
  match a with
  | ⟨0, _⟩ => show win1_1.index t (0 : Fin 2) * 1 + 1 * 0 = 0; omega
  | ⟨1, _⟩ => show win1_1.index t (1 : Fin 2) * 256 + 1 * q.val = q.val; omega

theorem iblk1_2_apply (c : Dev nD) (t : Fin cfg1.N) (q : Fin 256) :
    (iblk1 V c 2 t : Vec Ideal S1x256 .f32) (ix2 (0 : Fin 1) q) = V c (Pipeline.arrRef spec1 2) (ix2 (0 : Fin 1) q) := by
  have e := idx_facts1 t
  unfold iblk1
  rw [View.read_apply]
  show V c (Pipeline.arrRef spec1 2) (((cfg1.win 2).blk t).view.emb (ix2 (0 : Fin 1) q)) = _
  refine congrArg (V c (Pipeline.arrRef spec1 2)) (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

theorem iblk1_3_apply (c : Dev nD) (t : Fin cfg1.N) (q : Fin 256) :
    (iblk1 V c 3 t : Vec Ideal S1x256 .f32) (ix2 (0 : Fin 1) q) = V c (Pipeline.arrRef spec1 3) (ix2 (0 : Fin 1) q) := by
  have e := idx_facts1 t
  unfold iblk1
  rw [View.read_apply]
  show V c (Pipeline.arrRef spec1 3) (((cfg1.win 3).blk t).view.emb (ix2 (0 : Fin 1) q)) = _
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

theorem iblk1_4_apply (c : Dev nD) (t : Fin cfg1.N) (q : Fin 256) :
    (iblk1 V c 4 t : Vec Ideal S1x256 .f32) (ix2 (0 : Fin 1) q) = V c (Pipeline.arrRef spec1 4) (ix2 (0 : Fin 1) q) := by
  have e := idx_facts1 t
  unfold iblk1
  rw [View.read_apply]
  show V c (Pipeline.arrRef spec1 4) (((cfg1.win 4).blk t).view.emb (ix2 (0 : Fin 1) q)) = _
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- The normalised table's tile at a point, read at (p, q): the table at row 2000 · t + p. -/
theorem bnArr_blk_apply (c : Dev nD) (t : Fin cfg1.N) (p : Fin 2000) (q : Fin 256) :
    (((cfg1.win 5).blk t).view.read (Elt Ideal) (bnArr V c) : Vec Ideal S2000x256 .f32) (ix2 p q)
      = bnAt V c (⟨t.val * 2000 + p.val, tile_row_lt t p⟩ : Fin 50000) q := by
  have e := idx_facts1 t
  rw [View.read_apply]
  show bnAt V c ((((cfg1.win 5).blk t).view.emb (ix2 p q)) 0) ((((cfg1.win 5).blk t).view.emb (ix2 p q)) 1) = _
  have h0 : ((((cfg1.win 5).blk t).view.emb (ix2 p q)) 0 : Fin 50000) = ⟨t.val * 2000 + p.val, tile_row_lt t p⟩ :=
    Fin.ext (by show win1_5.index t (0 : Fin 2) * 2000 + 1 * p.val = t.val * 2000 + p.val; omega)
  have h1 : ((((cfg1.win 5).blk t).view.emb (ix2 p q)) 1 : Fin 256) = q :=
    Fin.ext (by show win1_5.index t (1 : Fin 2) * 256 + 1 * q.val = q.val; omega)
  exact (congrArg (fun r : Fin 50000 => bnAt V c r _) h0).trans (congrArg (fun j : Fin 256 => bnAt V c _ j) h1)

/-- What a point writes back is its tile of the normalised table. -/
theorem flushed1_eq (c : Dev nD) (t : Fin cfg1.N) :
    (dat1 V c).flushed 5 t = ((cfg1.win 5).blk t).view.read (Elt Ideal) (bnArr V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S1x256) hz2]
  funext y
  obtain ⟨p, q, rfl⟩ : ∃ (p : Fin 2000) (q : Fin 256), y = ix2 p q := ⟨y 0, y 1, eq_ix2 y⟩
  refine (bn_tile_apply (iblk1 V c 0 t) (iblk1 V c 3 t) (iblk1 V c 1 t) (iblk1 V c 2 t) (iblk1 V c 4 t) p q).trans ?_
  refine Eq.trans ?_ (bnArr_blk_apply V c t p q).symm
  unfold bnAt
  rw [iblk1_0_apply V c t p q, iblk1_1_apply V c t q, iblk1_2_apply V c t q, iblk1_3_apply V c t q, iblk1_4_apply V c t q]

/-- An index of the output array is in a point's block iff each coordinate is in the block's range. -/
theorem mem_blk1_5 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v34).slice (win1_5.rect t)).set ↔ _
  rw [View.set_slice_whole, Rect.mem_set_unit]
  exact Iff.rfl

/-- Row r of the output is written back by point r / 2000. -/
theorem cover1_5_arr (i : S50000x256.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  have ht : (i 0).val / 2000 < cfg1.N := by omega
  refine ⟨⟨(i 0).val / 2000, ht⟩, flush1_5 _, ?_⟩
  rw [mem_blk1_5]
  have e := idx_facts1 ⟨(i 0).val / 2000, ht⟩
  have e10 : win1_5.index ⟨(i 0).val / 2000, ht⟩ (0 : Fin 2) = (i 0).val / 2000 := e.2.2.2.2.2.2.2.2.2.2.1
  have e11 : win1_5.index ⟨(i 0).val / 2000, ht⟩ (1 : Fin 2) = 0 := e.2.2.2.2.2.2.2.2.2.2.2
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e10]; omega
  | ⟨1, _⟩ =>
    show win1_5.index ⟨(i 0).val / 2000, ht⟩ (1 : Fin 2) * 256 ≤ (i 1).val
      ∧ (i 1).val < win1_5.index ⟨(i 0).val / 2000, ht⟩ (1 : Fin 2) * 256 + 256
    rw [e11]; omega

/-- The output array after the region is the normalised table. -/
theorem arrAt1_5 (c : Dev nD) : (dat1 V c).arrAt 5 cfg1.N = bnArr V c :=
  (dat1 V c).arrAt_eq_of_cover 5 (bnArr V c) (fun t _ => flushed1_eq V c t) cover1_5_arr

/-- Entry (r, j) of the output array after the region: scale · (value − centre) · spread + shift of
    the five arrays the region finds (window 0 the table, 1 the centres, 2 the spreads, 3 the scales,
    4 the shifts). -/
theorem bn_1 (c : Dev nD) (r : Fin 50000) (j : Fin 256) :
    ((dat1 V c).arrAt 5 cfg1.N : S50000x256.Idx → EReal) (ix2 r j)
      = GineSpec.affine (V c (Pipeline.arrRef spec1 3) (ix2 (0 : Fin 1) j)) (V c (Pipeline.arrRef spec1 0) (ix2 r j))
          (V c (Pipeline.arrRef spec1 1) (ix2 (0 : Fin 1) j)) (V c (Pipeline.arrRef spec1 2) (ix2 (0 : Fin 1) j))
          (V c (Pipeline.arrRef spec1 4) (ix2 (0 : Fin 1) j)) := by
  rw [arrAt1_5]
  rfl

end Cert.KernelIdeal.RegionValue

end
-- ==== Proof.Region2Pieces.lean ====
import proofs.«164030_j60206851555878_1_alg».proof.Proof.Gen.KernelIdeal.Frame
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.Tactic
open Cert.KernelIdeal Cert.KernelIdeal.Gen

variable {F : FTy → Type} [FloatOps F]

theorem hz00_2 : (![0, 0] : Fin 2 → Nat) = fun _ => 0 := funext fun a => by fin_cases a <;> rfl

/-! What each case of the body leaves in the three output buffers, as the payloads of the tile and
    of the two running sums: at the first point the sums start from the zero rows, at the others
    from what the point before left. -/

theorem out2_A_5_eq (c : Dev nD) (i : grid2.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond2_0 i) (x0 : Vec F S2000x288 .f32) (x1 : Vec F S288x256 .f32) (x2 : Vec F S1x256 .f32) (x3 : Vec F S256x256 .f32) (x4 : Vec F S1x256 .f32) :
    out2_A_5 (F := F) c i arg1 harg1 arg2 harg2 arg3 harg3 arg4 harg4 arg5 harg5 arg6 harg6 arg7 harg7 arg8 harg8 hc0 x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_unit_zero hz00_2]
  simp only [View.readAt_eq_ld, harg1.read_unread, harg2.read_unread, harg3.read_unread, harg4.read_unread, harg5.read_unread, harg7.read_unread, harg8.read_unread,
    View.ld_unit_zero (S := S2000x288) hz00_2, View.ld_unit_zero (S := S288x256) hz00_2, View.ld_unit_zero (S := S1x256) hz00_2, View.ld_unit_zero (S := S256x256) hz00_2]

theorem out2_A_6_eq (c : Dev nD) (i : grid2.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond2_0 i) (x0 : Vec F S2000x288 .f32) (x1 : Vec F S288x256 .f32) (x2 : Vec F S1x256 .f32) (x3 : Vec F S256x256 .f32) (x4 : Vec F S1x256 .f32) :
    out2_A_6 (F := F) c i arg1 harg1 arg2 harg2 arg3 harg3 arg4 harg4 arg5 harg5 arg6 harg6 arg7 harg7 arg8 harg8 hc0 x0 x1 x2 x3 x4 = k2_pay5 x0 x1 x2 x3 x4 k2_pay2 := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x256) hz00_2, View.readCov_unit_zero (S := S1x256) _ hz00_2]
  simp only [View.readAt_eq_ld, harg1.read_unread, harg2.read_unread, harg3.read_unread, harg4.read_unread, harg5.read_unread, harg7.read_unread, harg8.read_unread,
    View.ld_unit_zero (S := S2000x288) hz00_2, View.ld_unit_zero (S := S288x256) hz00_2, View.ld_unit_zero (S := S1x256) hz00_2, View.ld_unit_zero (S := S256x256) hz00_2]

theorem out2_A_7_eq (c : Dev nD) (i : grid2.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond2_0 i) (x0 : Vec F S2000x288 .f32) (x1 : Vec F S288x256 .f32) (x2 : Vec F S1x256 .f32) (x3 : Vec F S256x256 .f32) (x4 : Vec F S1x256 .f32) :
    out2_A_7 (F := F) c i arg1 harg1 arg2 harg2 arg3 harg3 arg4 harg4 arg5 harg5 arg6 harg6 arg7 harg7 arg8 harg8 hc0 x0 x1 x2 x3 x4 = k2_pay1 (k2_pay4 x0 x1 x2 x3 x4) k2_pay3 := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x256) hz00_2, View.readCov_unit_zero (S := S1x256) _ hz00_2]
  simp only [View.readAt_eq_ld, harg1.read_unread, harg2.read_unread, harg3.read_unread, harg4.read_unread, harg5.read_unread, harg7.read_unread, harg8.read_unread,
    View.ld_unit_zero (S := S2000x288) hz00_2, View.ld_unit_zero (S := S288x256) hz00_2, View.ld_unit_zero (S := S1x256) hz00_2, View.ld_unit_zero (S := S256x256) hz00_2]

theorem out2_B_5_eq (c : Dev nD) (i : grid2.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond2_0 i) (x0 : Vec F S2000x288 .f32) (x1 : Vec F S288x256 .f32) (x2 : Vec F S1x256 .f32) (x3 : Vec F S256x256 .f32) (x4 : Vec F S1x256 .f32) (xo6 : Vec F S1x256 .f32) (xo7 : Vec F S1x256 .f32) :
    out2_B_5 (F := F) c i arg1 harg1 arg2 harg2 arg3 harg3 arg4 harg4 arg5 harg5 arg6 harg6 arg7 harg7 arg8 harg8 hc0 x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz00_2]
  simp only [View.readAt_eq_ld, harg1.read_unread, harg2.read_unread, harg3.read_unread, harg4.read_unread, harg5.read_unread, harg7.read_unread, harg8.read_unread,
    View.ld_unit_zero (S := S2000x288) hz00_2, View.ld_unit_zero (S := S288x256) hz00_2, View.ld_unit_zero (S := S1x256) hz00_2, View.ld_unit_zero (S := S256x256) hz00_2]

theorem out2_B_6_eq (c : Dev nD) (i : grid2.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond2_0 i) (x0 : Vec F S2000x288 .f32) (x1 : Vec F S288x256 .f32) (x2 : Vec F S1x256 .f32) (x3 : Vec F S256x256 .f32) (x4 : Vec F S1x256 .f32) (xo6 : Vec F S1x256 .f32) (xo7 : Vec F S1x256 .f32) :
    out2_B_6 (F := F) c i arg1 harg1 arg2 harg2 arg3 harg3 arg4 harg4 arg5 harg5 arg6 harg6 arg7 harg7 arg8 harg8 hc0 x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz00_2]
  simp only [View.readAt_eq_ld, harg1.read_unread, harg2.read_unread, harg3.read_unread, harg4.read_unread, harg5.read_unread, harg7.read_unread, harg8.read_unread,
    View.ld_unit_zero (S := S2000x288) hz00_2, View.ld_unit_zero (S := S288x256) hz00_2, View.ld_unit_zero (S := S1x256) hz00_2, View.ld_unit_zero (S := S256x256) hz00_2]

theorem out2_B_7_eq (c : Dev nD) (i : grid2.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond2_0 i) (x0 : Vec F S2000x288 .f32) (x1 : Vec F S288x256 .f32) (x2 : Vec F S1x256 .f32) (x3 : Vec F S256x256 .f32) (x4 : Vec F S1x256 .f32) (xo6 : Vec F S1x256 .f32) (xo7 : Vec F S1x256 .f32) :
    out2_B_7 (F := F) c i arg1 harg1 arg2 harg2 arg3 harg3 arg4 harg4 arg5 harg5 arg6 harg6 arg7 harg7 arg8 harg8 hc0 x0 x1 x2 x3 x4 xo6 xo7 = k2_pay1 (k2_pay4 x0 x1 x2 x3 x4) xo7 := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz00_2]
  simp only [View.readAt_eq_ld, harg1.read_unread, harg2.read_unread, harg3.read_unread, harg4.read_unread, harg5.read_unread, harg7.read_unread, harg8.read_unread,
    View.ld_unit_zero (S := S2000x288) hz00_2, View.ld_unit_zero (S := S288x256) hz00_2, View.ld_unit_zero (S := S1x256) hz00_2, View.ld_unit_zero (S := S256x256) hz00_2]

end Cert.KernelIdeal.RegionValue

end
-- ==== Proof.Stage1Body2.lean ====
import proofs.«164030_j60206851555878_1_alg».proof.Proof.Gen.KernelIdeal.Skeleton
import proofs.«164030_j60206851555878_1_alg».proof.Proof.Stage1Lib

noncomputable section

namespace Cert.KernelIdeal.RegionValue

open Idealize.ShloMosaic
open Idealize.ShloMosaic.ValueIdx
open Cert.KernelIdeal Cert.KernelIdeal.Gen
open scoped BigOperators

/-- The tile of the two-layer perceptron at row p, column q, from a tile of rows of the aggregated
    features and the four parameter arrays. -/
theorem h2_tile_apply2 (A : Vec Ideal S2000x288 .f32) (W1 : Vec Ideal S288x256 .f32) (B1 : Vec Ideal S1x256 .f32)
    (W2 : Vec Ideal S256x256 .f32) (B2 : Vec Ideal S1x256 .f32) (p : Fin 2000) (q : Fin 256) :
    k2_pay4 (F := Ideal) A W1 B1 W2 B2 (ix2 p q)
      = GineSpec.h2 (fun r a => A (ix2 r a)) (fun a c => W1 (ix2 a c)) (fun c => B1 (ix2 (0 : Fin 1) c))
          (fun c j => W2 (ix2 c j)) (fun j => B2 (ix2 (0 : Fin 1) j)) p q := by
  unfold k2_pay4 GineSpec.h2 dot_S2000x288_S288x256_S2000x256_1_0_0_1_n_n dot_S2000x256_S256x256_S2000x256_1_0_0_1_n_n
  simp only [shapeCast_self]
  refine (dense_relu_apply _ _ _ _ W2 B2 p q).trans ?_
  refine congrArg (fun s => max (s + B2 (ix2 (0 : Fin 1) q)) 0) (Finset.sum_congr rfl fun c _ => ?_)
  exact congrArg (· * W2 (ix2 c q)) (dense_relu_apply _ _ _ A W1 B1 p c)

/-- The running column sums after a tile: what was there plus the tile's column sums. -/
theorem sum_tile_apply2 (A : Vec Ideal S2000x288 .f32) (W1 : Vec Ideal S288x256 .f32) (B1 : Vec Ideal S1x256 .f32)
    (W2 : Vec Ideal S256x256 .f32) (B2 : Vec Ideal S1x256 .f32) (acc : Vec Ideal S1x256 .f32) (q : Fin 256) :
    k2_pay5 (F := Ideal) A W1 B1 W2 B2 acc (ix2 (0 : Fin 1) q)
      = acc (ix2 (0 : Fin 1) q) + ∑ p : Fin 2000, k2_pay4 (F := Ideal) A W1 B1 W2 B2 (ix2 p q) := by
  unfold k2_pay5
  simp only [shapeCast_self]
  exact acc_colsum_apply acc (k2_pay4 (F := Ideal) A W1 B1 W2 B2) _ _ _ _ q

/-- The running column sums of squares after a tile. -/
theorem sumsq_tile_apply2 (H : FVec Ideal S2000x256 .f32) (acc : Vec Ideal S1x256 .f32) (q : Fin 256) :
    k2_pay1 (F := Ideal) H acc (ix2 (0 : Fin 1) q)
      = acc (ix2 (0 : Fin 1) q) + ∑ p : Fin 2000, H (ix2 p q) * H (ix2 p q) := by
  unfold k2_pay1
  simp only [shapeCast_self]
  exact acc_colsum_apply acc (mulf H H) _ _ _ _ q

/-- Both accumulators start at zero. -/
theorem zero_sum_apply2 (q : Fin 256) : k2_pay2 (F := Ideal) (ix2 (0 : Fin 1) q) = 0 := zero_row_apply (ix2 (0 : Fin 1) q)
theorem zero_sumsq_apply2 (q : Fin 256) : k2_pay3 (F := Ideal) (ix2 (0 : Fin 1) q) = 0 := zero_row_apply (ix2 (0 : Fin 1) q)

end Cert.KernelIdeal.RegionValue

end
-- ==== Proof.Region2.lean ====
import proofs.«164030_j60206851555878_1_alg».proof.Proof.Gen.KernelIdeal.Frame
import proofs.«164030_j60206851555878_1_alg».proof.Proof.GineSpec
import proofs.«164030_j60206851555878_1_alg».proof.Proof.Region2Pieces
import proofs.«164030_j60206851555878_1_alg».proof.Proof.Stage1Body2
import proofs.«164030_j60206851555878_1_alg».proof.Proof.TileSum
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

/-- Entry (r, j) of the two-layer perceptron of the rows, from the five arrays the region finds. -/
def h2At2 (c : Dev nD) (r : Fin 50000) (j : Fin 256) : EReal :=
  GineSpec.h2 (fun r a => V c (Pipeline.arrRef spec2 0) (ix2 r a)) (fun a c' => V c (Pipeline.arrRef spec2 1) (ix2 a c'))
      (fun c' => V c (Pipeline.arrRef spec2 2) (ix2 (0 : Fin 1) c')) (fun c' j' => V c (Pipeline.arrRef spec2 3) (ix2 c' j'))
      (fun j' => V c (Pipeline.arrRef spec2 4) (ix2 (0 : Fin 1) j')) r j

/-- The perceptron's entry depends on its row of the first operand only. -/
theorem h2_congr_row2 {n n' k d e : ℕ} (A : Fin n → Fin k → EReal) (A' : Fin n' → Fin k → EReal) (W1 : Fin k → Fin d → EReal)
    (B1 : Fin d → EReal) (W2 : Fin d → Fin e → EReal) (B2 : Fin e → EReal) (r : Fin n) (r' : Fin n') (j : Fin e)
    (h : ∀ a, A r a = A' r' a) : GineSpec.h2 A W1 B1 W2 B2 r j = GineSpec.h2 A' W1 B1 W2 B2 r' j := by
  unfold GineSpec.h2
  simp only [h]

/-- The block indices of the eight windows at every point: the two tables move one tile of rows per
    point, the four parameter arrays and the two accumulators stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem N25_2 : cfg2.N = 25 := N_2

/-- The features' tile at a point, read at (p, a): the array at row 2000 · t + p. -/
theorem iblk2_0_apply (c : Dev nD) (t : Fin cfg2.N) (p : Fin 2000) (a : Fin 288) (hr : t.val * 2000 + p.val < 50000) :
    (iblk2 V c 0 t : Vec Ideal S2000x288 .f32) (ix2 p a)
      = V c (Pipeline.arrRef spec2 0) (ix2 (⟨t.val * 2000 + p.val, hr⟩ : Fin 50000) a) := by
  have e := idx_facts2 t
  unfold iblk2
  rw [View.read_apply]
  show V c (Pipeline.arrRef spec2 0) (((cfg2.win 0).blk t).view.emb (ix2 p a)) = _
  refine congrArg (V c (Pipeline.arrRef spec2 0)) (funext fun ax => Fin.ext ?_)
  match ax with
  | ⟨0, _⟩ => show win2_0.index t (0 : Fin 2) * 2000 + 1 * p.val = t.val * 2000 + p.val; omega
  | ⟨1, _⟩ => show win2_0.index t (1 : Fin 2) * 288 + 1 * a.val = a.val; omega

/-- A parameter array's block is the whole array at every point. -/
theorem iblk2_1_eq (c : Dev nD) (t : Fin cfg2.N) :
    (iblk2 V c 1 t : Vec Ideal S288x256 .f32) = V c (Pipeline.arrRef spec2 1) := by
  have e := idx_facts2 t
  funext y
  obtain ⟨a, b, rfl⟩ : ∃ (a : Fin 288) (b : Fin 256), y = ix2 a b := ⟨y 0, y 1, eq_ix2 y⟩
  unfold iblk2
  rw [View.read_apply]
  show V c (Pipeline.arrRef spec2 1) (((cfg2.win 1).blk t).view.emb (ix2 a b)) = _
  refine congrArg (V c (Pipeline.arrRef spec2 1)) (funext fun ax => Fin.ext ?_)
  match ax with
  | ⟨0, _⟩ => show win2_1.index t (0 : Fin 2) * 288 + 1 * a.val = a.val; omega
  | ⟨1, _⟩ => show win2_1.index t (1 : Fin 2) * 256 + 1 * b.val = b.val; omega

theorem iblk2_2_eq (c : Dev nD) (t : Fin cfg2.N) :
    (iblk2 V c 2 t : Vec Ideal S1x256 .f32) = V c (Pipeline.arrRef spec2 2) := by
  have e := idx_facts2 t
  funext y
  obtain ⟨a, b, rfl⟩ : ∃ (a : Fin 1) (b : Fin 256), y = ix2 a b := ⟨y 0, y 1, eq_ix2 y⟩
  unfold iblk2
  rw [View.read_apply]
  show V c (Pipeline.arrRef spec2 2) (((cfg2.win 2).blk t).view.emb (ix2 a b)) = _
  refine congrArg (V c (Pipeline.arrRef spec2 2)) (funext fun ax => Fin.ext ?_)
  match ax with
  | ⟨0, _⟩ => show win2_2.index t (0 : Fin 2) * 1 + 1 * a.val = a.val; omega
  | ⟨1, _⟩ => show win2_2.index t (1 : Fin 2) * 256 + 1 * b.val = b.val; omega

theorem iblk2_3_eq (c : Dev nD) (t : Fin cfg2.N) :
    (iblk2 V c 3 t : Vec Ideal S256x256 .f32) = V c (Pipeline.arrRef spec2 3) := by
  have e := idx_facts2 t
  funext y
  obtain ⟨a, b, rfl⟩ : ∃ (a : Fin 256) (b : Fin 256), y = ix2 a b := ⟨y 0, y 1, eq_ix2 y⟩
  unfold iblk2
  rw [View.read_apply]
  show V c (Pipeline.arrRef spec2 3) (((cfg2.win 3).blk t).view.emb (ix2 a b)) = _
  refine congrArg (V c (Pipeline.arrRef spec2 3)) (funext fun ax => Fin.ext ?_)
  match ax with
  | ⟨0, _⟩ => show win2_3.index t (0 : Fin 2) * 256 + 1 * a.val = a.val; omega
  | ⟨1, _⟩ => show win2_3.index t (1 : Fin 2) * 256 + 1 * b.val = b.val; omega

theorem iblk2_4_eq (c : Dev nD) (t : Fin cfg2.N) :
    (iblk2 V c 4 t : Vec Ideal S1x256 .f32) = V c (Pipeline.arrRef spec2 4) := by
  have e := idx_facts2 t
  funext y
  obtain ⟨a, b, rfl⟩ : ∃ (a : Fin 1) (b : Fin 256), y = ix2 a b := ⟨y 0, y 1, eq_ix2 y⟩
  unfold iblk2
  rw [View.read_apply]
  show V c (Pipeline.arrRef spec2 4) (((cfg2.win 4).blk t).view.emb (ix2 a b)) = _
  refine congrArg (V c (Pipeline.arrRef spec2 4)) (funext fun ax => Fin.ext ?_)
  match ax with
  | ⟨0, _⟩ => show win2_4.index t (0 : Fin 2) * 1 + 1 * a.val = a.val; omega
  | ⟨1, _⟩ => show win2_4.index t (1 : Fin 2) * 256 + 1 * b.val = b.val; omega

/-- The tile a point computes, read at (p, q): the perceptron's entry at row 2000 · t + p. -/
theorem tile2_apply (c : Dev nD) (t : Fin cfg2.N) (p : Fin 2000) (q : Fin 256) (hr : t.val * 2000 + p.val < 50000) :
    k2_pay4 (F := Ideal) (iblk2 V c 0 t) (iblk2 V c 1 t) (iblk2 V c 2 t) (iblk2 V c 3 t) (iblk2 V c 4 t) (ix2 p q) = h2At2 V c ⟨t.val * 2000 + p.val, hr⟩ q := by
  refine (h2_tile_apply2 (iblk2 V c 0 t) (iblk2 V c 1 t) (iblk2 V c 2 t) (iblk2 V c 3 t) (iblk2 V c 4 t) p q).trans ?_
  rw [iblk2_1_eq V c t, iblk2_2_eq V c t, iblk2_3_eq V c t, iblk2_4_eq V c t]
  exact h2_congr_row2 _ _ _ _ _ _ p ⟨t.val * 2000 + p.val, hr⟩ q (fun a => iblk2_0_apply V c t p a hr)

/-- The three outputs after the first point, as payloads. -/
theorem outsAt2_first (c : Dev nD) (t : Fin cfg2.N) (h0 : t.val % 25 = 0) :
    outsAt2 V c t.val t.isLt = (k2_pay4 (iblk2 V c 0 t) (iblk2 V c 1 t) (iblk2 V c 2 t) (iblk2 V c 3 t) (iblk2 V c 4 t), k2_pay5 (iblk2 V c 0 t) (iblk2 V c 1 t) (iblk2 V c 2 t) (iblk2 V c 3 t) (iblk2 V c 4 t) (k2_pay2 (F := Ideal)), k2_pay1 (k2_pay4 (iblk2 V c 0 t) (iblk2 V c 1 t) (iblk2 V c 2 t) (iblk2 V c 3 t) (iblk2 V c 4 t)) (k2_pay3 (F := Ideal))) :=
  (outsAt2_A V c t h0).trans (congrArg₂ Prod.mk
    (out2_A_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
    (congrArg₂ Prod.mk
      (out2_A_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
      (out2_A_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))))

/-- The three outputs after a later point, as payloads over what the point before left. -/
theorem outsAt2_later (c : Dev nD) (t : Fin cfg2.N) (h0 : ¬t.val % 25 = 0) :
    outsAt2 V c t.val t.isLt = (k2_pay4 (iblk2 V c 0 t) (iblk2 V c 1 t) (iblk2 V c 2 t) (iblk2 V c 3 t) (iblk2 V c 4 t),
      k2_pay5 (iblk2 V c 0 t) (iblk2 V c 1 t) (iblk2 V c 2 t) (iblk2 V c 3 t) (iblk2 V c 4 t) (outsAt2 V c (t.val - 1) (Nat.lt_of_le_of_lt (Nat.sub_le _ _) t.isLt)).2.1,
      k2_pay1 (k2_pay4 (iblk2 V c 0 t) (iblk2 V c 1 t) (iblk2 V c 2 t) (iblk2 V c 3 t) (iblk2 V c 4 t)) (outsAt2 V c (t.val - 1) (Nat.lt_of_le_of_lt (Nat.sub_le _ _) t.isLt)).2.2) :=
  (outsAt2_B V c t h0).trans (congrArg₂ Prod.mk
    (out2_B_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t)
      (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (out2_B_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t)
        (outsAt2 V c (t.val - 1) (Nat.lt_of_le_of_lt (Nat.sub_le _ _) t.isLt)).2.1 (outsAt2 V c (t.val - 1) (Nat.lt_of_le_of_lt (Nat.sub_le _ _) t.isLt)).2.2)
      (out2_B_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t)
        (outsAt2 V c (t.val - 1) (Nat.lt_of_le_of_lt (Nat.sub_le _ _) t.isLt)).2.1 (outsAt2 V c (t.val - 1) (Nat.lt_of_le_of_lt (Nat.sub_le _ _) t.isLt)).2.2)))

/-- After point n the first output holds the perceptron's rows of tile n, the other two the running
    sums of the entries and of their squares over tiles 0 … n. -/
theorem outsAt2_inv (c : Dev nD) : ∀ (n : ℕ) (h : n < cfg2.N) (h25 : n < 25),
    (∀ (p : Fin 2000) (q : Fin 256) (hr : n * 2000 + p.val < 50000),
        (outsAt2 V c n h).1 (ix2 p q) = h2At2 V c ⟨n * 2000 + p.val, hr⟩ q)
    ∧ (∀ q : Fin 256, (outsAt2 V c n h).2.1 (ix2 (0 : Fin 1) q) = runSum (fun r => h2At2 V c r q) n h25)
    ∧ (∀ q : Fin 256, (outsAt2 V c n h).2.2 (ix2 (0 : Fin 1) q)
        = runSum (fun r => h2At2 V c r q * h2At2 V c r q) n h25)
  | 0, h, h25 => by
    rw [outsAt2_first V c ⟨0, h⟩ rfl]
    refine ⟨fun p q hr => tile2_apply V c ⟨0, h⟩ p q hr, fun q => ?_, fun q => ?_⟩
    · refine (sum_tile_apply2 (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) q).trans ?_
      rw [zero_sum_apply2, zero_add]
      refine Eq.trans (Finset.sum_congr rfl fun p _ => tile2_apply V c ⟨0, h⟩ p q
        (by have := p.isLt; show 0 * 2000 + p.val < 50000; omega)) ?_
      rfl
    · refine (sumsq_tile_apply2 (k2_pay4 (iblk2 V c 0 ⟨0, h⟩) (iblk2 V c 1 ⟨0, h⟩) (iblk2 V c 2 ⟨0, h⟩) (iblk2 V c 3 ⟨0, h⟩) (iblk2 V c 4 ⟨0, h⟩)) (k2_pay3 (F := Ideal)) q).trans ?_
      rw [zero_sumsq_apply2, zero_add]
      refine Eq.trans (Finset.sum_congr rfl fun p _ => congrArg₂ (· * ·)
        (tile2_apply V c ⟨0, h⟩ p q (by have := p.isLt; show 0 * 2000 + p.val < 50000; omega))
        (tile2_apply V c ⟨0, h⟩ p q (by have := p.isLt; show 0 * 2000 + p.val < 50000; omega))) ?_
      rfl
  | n + 1, h, h25 => by
    have hB : ¬(⟨n + 1, h⟩ : Fin cfg2.N).val % 25 = 0 := by show ¬(n + 1) % 25 = 0; omega
    obtain ⟨-, ih6, ih7⟩ := outsAt2_inv c n (Nat.lt_of_succ_lt h) (Nat.lt_of_succ_lt h25)
    rw [outsAt2_later V c ⟨n + 1, h⟩ hB]
    refine ⟨fun p q hr => tile2_apply V c ⟨n + 1, h⟩ p q hr, fun q => ?_, fun q => ?_⟩
    · refine (sum_tile_apply2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c ((⟨n + 1, h⟩ : Fin cfg2.N).val - 1) (Nat.lt_of_le_of_lt (Nat.sub_le _ _) (⟨n + 1, h⟩ : Fin cfg2.N).isLt)).2.1 q).trans ?_
      refine Eq.trans (congrArg₂ (· + ·) (ih6 q) (Finset.sum_congr rfl fun p _ => tile2_apply V c ⟨n + 1, h⟩ p q
        (by have := p.isLt; show (n + 1) * 2000 + p.val < 50000; omega))) ?_
      rfl
    · refine (sumsq_tile_apply2 (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)) (outsAt2 V c ((⟨n + 1, h⟩ : Fin cfg2.N).val - 1) (Nat.lt_of_le_of_lt (Nat.sub_le _ _) (⟨n + 1, h⟩ : Fin cfg2.N).isLt)).2.2 q).trans ?_
      refine Eq.trans (congrArg₂ (· + ·) (ih7 q) (Finset.sum_congr rfl fun p _ => congrArg₂ (· * ·)
        (tile2_apply V c ⟨n + 1, h⟩ p q (by have := p.isLt; show (n + 1) * 2000 + p.val < 50000; omega))
        (tile2_apply V c ⟨n + 1, h⟩ p q (by have := p.isLt; show (n + 1) * 2000 + p.val < 50000; omega)))) ?_
      rfl

/-! ## From the points to the three arrays -/

theorem runSum_at_last2 (f : Fin 50000 → EReal) (n : ℕ) (h : n < 25) (hn : n = 24) : runSum f n h = ∑ r : Fin 50000, f r := by
  subst hn; exact runSum_last f h

/-- The perceptron's table, its column sums and the column sums of its squares, as contents of the
    three output arrays. -/
def h2Arr2 (c : Dev nD) : Buf (Elt Ideal) ((cfg2.win 5).arr.view.loc (c.tc : Thread nD τ)) :=
  fun i => h2At2 V c (i 0) (i 1)
/-- The column sums of the perceptron's table and of its squares. -/
def colSumAt2 (c : Dev nD) (j : Fin 256) : EReal := ∑ r : Fin 50000, h2At2 V c r j
def colSumSqAt2 (c : Dev nD) (j : Fin 256) : EReal := ∑ r : Fin 50000, h2At2 V c r j * h2At2 V c r j
def sumArr2 (c : Dev nD) : Buf (Elt Ideal) ((cfg2.win 6).arr.view.loc (c.tc : Thread nD τ)) :=
  fun i => colSumAt2 V c (i 1)
def sumsqArr2 (c : Dev nD) : Buf (Elt Ideal) ((cfg2.win 7).arr.view.loc (c.tc : Thread nD τ)) :=
  fun i => colSumSqAt2 V c (i 1)

/-- The table's tile at a point, read at (p, q): the table at row 2000 · t + p. -/
theorem h2Arr2_blk_apply (c : Dev nD) (t : Fin cfg2.N) (p : Fin 2000) (q : Fin 256) (hr : t.val * 2000 + p.val < 50000) :
    (((cfg2.win 5).blk t).view.read (Elt Ideal) (h2Arr2 V c) : Vec Ideal S2000x256 .f32) (ix2 p q)
      = h2At2 V c (⟨t.val * 2000 + p.val, hr⟩ : Fin 50000) q := by
  have e := idx_facts2 t
  rw [View.read_apply]
  show h2At2 V c ((((cfg2.win 5).blk t).view.emb (ix2 p q)) 0) ((((cfg2.win 5).blk t).view.emb (ix2 p q)) 1) = _
  have h0 : ((((cfg2.win 5).blk t).view.emb (ix2 p q)) 0 : Fin 50000) = ⟨t.val * 2000 + p.val, hr⟩ :=
    Fin.ext (by show win2_5.index t (0 : Fin 2) * 2000 + 1 * p.val = t.val * 2000 + p.val; omega)
  have h1 : ((((cfg2.win 5).blk t).view.emb (ix2 p q)) 1 : Fin 256) = q :=
    Fin.ext (by show win2_5.index t (1 : Fin 2) * 256 + 1 * q.val = q.val; omega)
  exact (congrArg (fun r : Fin 50000 => h2At2 V c r _) h0).trans (congrArg (fun j : Fin 256 => h2At2 V c _ j) h1)

/-- What a point writes back of the table is its tile of the perceptron's table. -/
theorem flushed2_5_eq (c : Dev nD) (t : Fin cfg2.N) :
    (dat2 V c).flushed 5 t = ((cfg2.win 5).blk t).view.read (Elt Ideal) (h2Arr2 V c) := by
  have hN : cfg2.N = 25 := N_2
  show (cfg2.win 5).cut (grid2.coords t) ((dat2 V c).after 5 t) = _
  rw [after2_5]
  funext y
  obtain ⟨p, q, rfl⟩ : ∃ (p : Fin 2000) (q : Fin 256), y = ix2 p q := ⟨y 0, y 1, eq_ix2 y⟩
  have hr : t.val * 2000 + p.val < 50000 := by have := t.isLt; have := p.isLt; omega
  exact ((outsAt2_inv V c t.val t.isLt (by have := t.isLt; omega)).1 p q hr).trans (h2Arr2_blk_apply V c t p q hr).symm

theorem mem_blk2_5 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v53_0).slice (win2_5.rect t)).set ↔ _
  rw [View.set_slice_whole, Rect.mem_set_unit]
  exact Iff.rfl

/-- Row r of the table is written back by point r / 2000. -/
theorem cover2_5_arr (i : S50000x256.Idx) :
    ∃ t : Fin cfg2.N, (cfg2.win 5).flush t = true ∧ i ∈ ((cfg2.win 5).blk t).view.set := by
  have hN : cfg2.N = 25 := N_2
  have hi0 : (i 0).val < 50000 := (i 0).isLt
  have hi1 : (i 1).val < 256 := (i 1).isLt
  have ht : (i 0).val / 2000 < cfg2.N := by omega
  refine ⟨⟨(i 0).val / 2000, ht⟩, flush2_5 _, ?_⟩
  rw [mem_blk2_5]
  have e := idx_facts2 ⟨(i 0).val / 2000, ht⟩
  have e10 : win2_5.index ⟨(i 0).val / 2000, ht⟩ (0 : Fin 2) = (i 0).val / 2000 := e.2.2.2.2.2.2.2.2.2.2.1
  have e11 : win2_5.index ⟨(i 0).val / 2000, ht⟩ (1 : Fin 2) = 0 := e.2.2.2.2.2.2.2.2.2.2.2.1
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e10]; omega
  | ⟨1, _⟩ =>
    show win2_5.index ⟨(i 0).val / 2000, ht⟩ (1 : Fin 2) * 256 ≤ (i 1).val
      ∧ (i 1).val < win2_5.index ⟨(i 0).val / 2000, ht⟩ (1 : Fin 2) * 256 + 256
    rw [e11]; omega

theorem arrAt2_5 (c : Dev nD) : (dat2 V c).arrAt 5 cfg2.N = h2Arr2 V c :=
  (dat2 V c).arrAt_eq_of_cover 5 (h2Arr2 V c) (fun t _ => flushed2_5_eq V c t) cover2_5_arr

attribute [local irreducible] colSumAt2 colSumSqAt2 in
/-- The column sums' block at a point, read at column q. -/
theorem sumArr2_blk_apply (c : Dev nD) (t : Fin cfg2.N) (q : Fin 256) :
    (((cfg2.win 6).blk t).view.read (Elt Ideal) (sumArr2 V c) : Vec Ideal S1x256 .f32) (ix2 (0 : Fin 1) q)
      = colSumAt2 V c q := by
  have e := idx_facts2 t
  rw [View.read_apply]
  show colSumAt2 V c ((((cfg2.win 6).blk t).view.emb (ix2 (0 : Fin 1) q)) 1) = _
  have h1 : ((((cfg2.win 6).blk t).view.emb (ix2 (0 : Fin 1) q)) 1 : Fin 256) = q :=
    Fin.ext (by show win2_6.index t (1 : Fin 2) * 256 + 1 * q.val = q.val; omega)
  exact congrArg (colSumAt2 V c) h1

/-- The one write-back of the column sums, after the last point, writes the sums over all rows. -/
theorem flushed2_6_eq (c : Dev nD) (t : Fin cfg2.N) (hf : (cfg2.win 6).flush t = true) :
    (dat2 V c).flushed 6 t = ((cfg2.win 6).blk t).view.read (Elt Ideal) (sumArr2 V c) := by
  have hN : cfg2.N = 25 := N_2
  have h24 : t.val = 24 := by have := (flush2_6 t).mp hf; have := t.isLt; omega
  show (cfg2.win 6).cut (grid2.coords t) ((dat2 V c).after 6 t) = _
  rw [after2_6]
  funext y
  obtain ⟨u, q, rfl⟩ : ∃ (u : Fin 1) (q : Fin 256), y = ix2 u q := ⟨y 0, y 1, eq_ix2 y⟩
  obtain rfl : u = 0 := Subsingleton.elim _ _
  refine Eq.trans ?_ (sumArr2_blk_apply V c t q).symm
  refine ((outsAt2_inv V c t.val t.isLt (by omega)).2.1 q).trans ?_
  exact runSum_at_last2 _ t.val _ h24

theorem mem_blk2_6 (t : Fin cfg2.N) (i : S1x256.Idx) :
    i ∈ ((cfg2.win 6).blk t).view.set ↔ ∀ a : Fin 2, win2_6.index t a * S1x256.size a ≤ (i a).val
      ∧ (i a).val < win2_6.index t a * S1x256.size a + S1x256.size a := by
  show i ∈ ((View.whole main_v53_1).slice (win2_6.rect t)).set ↔ _
  rw [View.set_slice_whole, Rect.mem_set_unit]
  exact Iff.rfl

/-- The last point's block is the whole row vector. -/
theorem cover2_6_arr (i : S1x256.Idx) :
    ∃ t : Fin cfg2.N, (cfg2.win 6).flush t = true ∧ i ∈ ((cfg2.win 6).blk t).view.set := by
  have hN : cfg2.N = 25 := N_2
  have hi0 : (i 0).val < 1 := (i 0).isLt
  have hi1 : (i 1).val < 256 := (i 1).isLt
  have ht : 24 < cfg2.N := by omega
  refine ⟨⟨24, ht⟩, (flush2_6 _).mpr rfl, ?_⟩
  rw [mem_blk2_6]
  have e := idx_facts2 ⟨24, ht⟩
  intro a
  match a with
  | ⟨0, _⟩ =>
    show win2_6.index ⟨24, ht⟩ (0 : Fin 2) * 1 ≤ (i 0).val ∧ (i 0).val < win2_6.index ⟨24, ht⟩ (0 : Fin 2) * 1 + 1
    omega
  | ⟨1, _⟩ =>
    show win2_6.index ⟨24, ht⟩ (1 : Fin 2) * 256 ≤ (i 1).val ∧ (i 1).val < win2_6.index ⟨24, ht⟩ (1 : Fin 2) * 256 + 256
    omega

theorem arrAt2_6 (c : Dev nD) : (dat2 V c).arrAt 6 cfg2.N = sumArr2 V c :=
  (dat2 V c).arrAt_eq_of_cover 6 (sumArr2 V c) (fun t hf => flushed2_6_eq V c t hf) cover2_6_arr

attribute [local irreducible] colSumAt2 colSumSqAt2 in
/-- The column sums of squares' block at a point, read at column q. -/
theorem sumsqArr2_blk_apply (c : Dev nD) (t : Fin cfg2.N) (q : Fin 256) :
    (((cfg2.win 7).blk t).view.read (Elt Ideal) (sumsqArr2 V c) : Vec Ideal S1x256 .f32) (ix2 (0 : Fin 1) q)
      = colSumSqAt2 V c q := by
  have e := idx_facts2 t
  rw [View.read_apply]
  show colSumSqAt2 V c ((((cfg2.win 7).blk t).view.emb (ix2 (0 : Fin 1) q)) 1) = _
  have h1 : ((((cfg2.win 7).blk t).view.emb (ix2 (0 : Fin 1) q)) 1 : Fin 256) = q :=
    Fin.ext (by show win2_7.index t (1 : Fin 2) * 256 + 1 * q.val = q.val; omega)
  exact congrArg (colSumSqAt2 V c) h1

/-- The one write-back of the column sums of squares, after the last point, writes the sums over all rows. -/
theorem flushed2_7_eq (c : Dev nD) (t : Fin cfg2.N) (hf : (cfg2.win 7).flush t = true) :
    (dat2 V c).flushed 7 t = ((cfg2.win 7).blk t).view.read (Elt Ideal) (sumsqArr2 V c) := by
  have hN : cfg2.N = 25 := N_2
  have h24 : t.val = 24 := by have := (flush2_7 t).mp hf; have := t.isLt; omega
  show (cfg2.win 7).cut (grid2.coords t) ((dat2 V c).after 7 t) = _
  rw [after2_7]
  funext y
  obtain ⟨u, q, rfl⟩ : ∃ (u : Fin 1) (q : Fin 256), y = ix2 u q := ⟨y 0, y 1, eq_ix2 y⟩
  obtain rfl : u = 0 := Subsingleton.elim _ _
  refine Eq.trans ?_ (sumsqArr2_blk_apply V c t q).symm
  refine ((outsAt2_inv V c t.val t.isLt (by omega)).2.2 q).trans ?_
  exact runSum_at_last2 _ t.val _ h24

theorem mem_blk2_7 (t : Fin cfg2.N) (i : S1x256.Idx) :
    i ∈ ((cfg2.win 7).blk t).view.set ↔ ∀ a : Fin 2, win2_7.index t a * S1x256.size a ≤ (i a).val
      ∧ (i a).val < win2_7.index t a * S1x256.size a + S1x256.size a := by
  show i ∈ ((View.whole main_v53_2).slice (win2_7.rect t)).set ↔ _
  rw [View.set_slice_whole, Rect.mem_set_unit]
  exact Iff.rfl

/-- The last point's block is the whole row vector. -/
theorem cover2_7_arr (i : S1x256.Idx) :
    ∃ t : Fin cfg2.N, (cfg2.win 7).flush t = true ∧ i ∈ ((cfg2.win 7).blk t).view.set := by
  have hN : cfg2.N = 25 := N_2
  have hi0 : (i 0).val < 1 := (i 0).isLt
  have hi1 : (i 1).val < 256 := (i 1).isLt
  have ht : 24 < cfg2.N := by omega
  refine ⟨⟨24, ht⟩, (flush2_7 _).mpr rfl, ?_⟩
  rw [mem_blk2_7]
  have e := idx_facts2 ⟨24, ht⟩
  intro a
  match a with
  | ⟨0, _⟩ =>
    show win2_7.index ⟨24, ht⟩ (0 : Fin 2) * 1 ≤ (i 0).val ∧ (i 0).val < win2_7.index ⟨24, ht⟩ (0 : Fin 2) * 1 + 1
    omega
  | ⟨1, _⟩ =>
    show win2_7.index ⟨24, ht⟩ (1 : Fin 2) * 256 ≤ (i 1).val ∧ (i 1).val < win2_7.index ⟨24, ht⟩ (1 : Fin 2) * 256 + 256
    omega

theorem arrAt2_7 (c : Dev nD) : (dat2 V c).arrAt 7 cfg2.N = sumsqArr2 V c :=
  (dat2 V c).arrAt_eq_of_cover 7 (sumsqArr2 V c) (fun t hf => flushed2_7_eq V c t hf) cover2_7_arr

/-! ## The three arrays after the region, entry by entry -/

/-- The table after the region: the two-layer perceptron of the rows of the features. -/
theorem stage1_2_h (c : Dev nD) (r : Fin 50000) (j : Fin 256) :
    ((dat2 V c).arrAt 5 cfg2.N : S50000x256.Idx → EReal) (ix2 r j)
      = GineSpec.h2 (fun r a => V c (Pipeline.arrRef spec2 0) (ix2 r a)) (fun a c' => V c (Pipeline.arrRef spec2 1) (ix2 a c'))
          (fun c' => V c (Pipeline.arrRef spec2 2) (ix2 (0 : Fin 1) c')) (fun c' j' => V c (Pipeline.arrRef spec2 3) (ix2 c' j'))
          (fun j' => V c (Pipeline.arrRef spec2 4) (ix2 (0 : Fin 1) j')) r j := by
  rw [arrAt2_5]
  rfl

/-- The first row vector after the region: the column sums of that table. -/
theorem stage1_2_sum (c : Dev nD) (j : Fin 256) :
    ((dat2 V c).arrAt 6 cfg2.N : S1x256.Idx → EReal) (ix2 (0 : Fin 1) j)
      = ∑ r : Fin 50000, GineSpec.h2 (fun r a => V c (Pipeline.arrRef spec2 0) (ix2 r a)) (fun a c' => V c (Pipeline.arrRef spec2 1) (ix2 a c'))
          (fun c' => V c (Pipeline.arrRef spec2 2) (ix2 (0 : Fin 1) c')) (fun c' j' => V c (Pipeline.arrRef spec2 3) (ix2 c' j'))
          (fun j' => V c (Pipeline.arrRef spec2 4) (ix2 (0 : Fin 1) j')) r j := by
  rw [arrAt2_6]
  rfl

/-- The second row vector after the region: the column sums of the squares of that table. -/
theorem stage1_2_sumsq (c : Dev nD) (j : Fin 256) :
    ((dat2 V c).arrAt 7 cfg2.N : S1x256.Idx → EReal) (ix2 (0 : Fin 1) j)
      = ∑ r : Fin 50000, GineSpec.h2 (fun r a => V c (Pipeline.arrRef spec2 0) (ix2 r a)) (fun a c' => V c (Pipeline.arrRef spec2 1) (ix2 a c'))
          (fun c' => V c (Pipeline.arrRef spec2 2) (ix2 (0 : Fin 1) c')) (fun c' j' => V c (Pipeline.arrRef spec2 3) (ix2 c' j'))
          (fun j' => V c (Pipeline.arrRef spec2 4) (ix2 (0 : Fin 1) j')) r j
        * GineSpec.h2 (fun r a => V c (Pipeline.arrRef spec2 0) (ix2 r a)) (fun a c' => V c (Pipeline.arrRef spec2 1) (ix2 a c'))
          (fun c' => V c (Pipeline.arrRef spec2 2) (ix2 (0 : Fin 1) c')) (fun c' j' => V c (Pipeline.arrRef spec2 3) (ix2 c' j'))
          (fun j' => V c (Pipeline.arrRef spec2 4) (ix2 (0 : Fin 1) j')) r j := by
  rw [arrAt2_7]
  rfl

end Cert.KernelIdeal.RegionValue

end
-- ==== Proof.Region3.lean ====
import proofs.«164030_j60206851555878_1_alg».proof.Proof.Gen.KernelIdeal.Frame
import proofs.«164030_j60206851555878_1_alg».proof.Proof.GineSpec
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen

/-- The normalisation tile at row p, column q: scale · (value − centre) · spread + shift, the four
    row vectors read at column q. -/
theorem bn_tile_apply3 (x : Vec Ideal S2000x256 .f32) (g mu s b : Vec Ideal S1x256 .f32) (p : Fin 2000) (q : Fin 256) :
    k3_pay1 (F := Ideal) x g mu s b (ix2 p q)
      = GineSpec.affine (g (ix2 (0 : Fin 1) q)) (x (ix2 p q)) (mu (ix2 (0 : Fin 1) q)) (s (ix2 (0 : Fin 1) q)) (b (ix2 (0 : Fin 1) q)) := by
  unfold k3_pay1 GineSpec.affine
  simp only [shapeCast_self]
  show (broadcastTo S2000x256 g broadcasts_S1x256_S2000x256 (ix2 p q) * (x (ix2 p q) - broadcastTo S2000x256 mu broadcasts_S1x256_S2000x256 (ix2 p q))) * broadcastTo S2000x256 s broadcasts_S1x256_S2000x256 (ix2 p q) + broadcastTo S2000x256 b broadcasts_S1x256_S2000x256 (ix2 p q) = _
  rw [broadcastTo_1b_ab_apply, broadcastTo_1b_ab_apply, broadcastTo_1b_ab_apply, broadcastTo_1b_ab_apply]

variable (V : (c : Dev nD) → (b : Ref sig .tc) → Buf (Elt Ideal) ((c : Thread nD τ).loc b))

theorem hz2_3 : (![0, 0] : Fin 2 → Nat) = fun _ => 0 := funext fun a => by fin_cases a <;> rfl

/-- Entry (r, j) of the normalised table, from the five arrays the region finds. -/
def bnAt3 (c : Dev nD) (r : Fin 50000) (j : Fin 256) : EReal :=
  GineSpec.affine (V c (Pipeline.arrRef spec3 3) (ix2 (0 : Fin 1) j)) (V c (Pipeline.arrRef spec3 0) (ix2 r j))
    (V c (Pipeline.arrRef spec3 1) (ix2 (0 : Fin 1) j)) (V c (Pipeline.arrRef spec3 2) (ix2 (0 : Fin 1) j))
    (V c (Pipeline.arrRef spec3 4) (ix2 (0 : Fin 1) j))

/-- The normalised table as contents of the output array. -/
def bnArr3 (c : Dev nD) : Buf (Elt Ideal) ((cfg3.win 5).arr.view.loc (c.tc : Thread nD τ)) :=
  fun i => bnAt3 V c (i 0) (i 1)

/-- The block indices of the six windows at every point: the two tables move one tile of rows per
    point, the four row vectors stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of the table lies in tile r / 2000. -/
theorem tile_row_lt3 (t : Fin cfg3.N) (p : Fin 2000) : t.val * 2000 + p.val < 50000 := by
  have hN : cfg3.N = 25 := N_3
  have := t.isLt; have := p.isLt; omega

/-- The table's tile at a point, read at (p, q): the array at row 2000 · t + p. -/
theorem iblk3_0_apply (c : Dev nD) (t : Fin cfg3.N) (p : Fin 2000) (q : Fin 256) :
    (iblk3 V c 0 t : Vec Ideal S2000x256 .f32) (ix2 p q)
      = V c (Pipeline.arrRef spec3 0) (ix2 (⟨t.val * 2000 + p.val, tile_row_lt3 t p⟩ : Fin 50000) q) := by
  obtain ⟨e0, e1, -⟩ := idx_facts3 t
  unfold iblk3
  rw [View.read_apply]
  show V c (Pipeline.arrRef spec3 0) (((cfg3.win 0).blk t).view.emb (ix2 p q)) = _
  refine congrArg (V c (Pipeline.arrRef spec3 0)) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 256 + 1 * q.val = q.val; rw [e1]; omega

/-- A row vector's block is the whole vector at every point. -/
theorem iblk3_1_apply (c : Dev nD) (t : Fin cfg3.N) (q : Fin 256) :
    (iblk3 V c 1 t : Vec Ideal S1x256 .f32) (ix2 (0 : Fin 1) q) = V c (Pipeline.arrRef spec3 1) (ix2 (0 : Fin 1) q) := by
  have e := idx_facts3 t
  unfold iblk3
  rw [View.read_apply]
  show V c (Pipeline.arrRef spec3 1) (((cfg3.win 1).blk t).view.emb (ix2 (0 : Fin 1) q)) = _
  refine congrArg (V c (Pipeline.arrRef spec3 1)) (funext fun a => Fin.ext ?_)
  match a with
  | ⟨0, _⟩ => show win3_1.index t (0 : Fin 2) * 1 + 1 * 0 = 0; omega
  | ⟨1, _⟩ => show win3_1.index t (1 : Fin 2) * 256 + 1 * q.val = q.val; omega

theorem iblk3_2_apply (c : Dev nD) (t : Fin cfg3.N) (q : Fin 256) :
    (iblk3 V c 2 t : Vec Ideal S1x256 .f32) (ix2 (0 : Fin 1) q) = V c (Pipeline.arrRef spec3 2) (ix2 (0 : Fin 1) q) := by
  have e := idx_facts3 t
  unfold iblk3
  rw [View.read_apply]
  show V c (Pipeline.arrRef spec3 2) (((cfg3.win 2).blk t).view.emb (ix2 (0 : Fin 1) q)) = _
  refine congrArg (V c (Pipeline.arrRef spec3 2)) (funext fun a => Fin.ext ?_)
  match a with
  | ⟨0, _⟩ => show win3_2.index t (0 : Fin 2) * 1 + 1 * 0 = 0; omega
  | ⟨1, _⟩ => show win3_2.index t (1 : Fin 2) * 256 + 1 * q.val = q.val; omega

theorem iblk3_3_apply (c : Dev nD) (t : Fin cfg3.N) (q : Fin 256) :
    (iblk3 V c 3 t : Vec Ideal S1x256 .f32) (ix2 (0 : Fin 1) q) = V c (Pipeline.arrRef spec3 3) (ix2 (0 : Fin 1) q) := by
  have e := idx_facts3 t
  unfold iblk3
  rw [View.read_apply]
  show V c (Pipeline.arrRef spec3 3) (((cfg3.win 3).blk t).view.emb (ix2 (0 : Fin 1) q)) = _
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 256 + 1 * q.val = q.val; omega

theorem iblk3_4_apply (c : Dev nD) (t : Fin cfg3.N) (q : Fin 256) :
    (iblk3 V c 4 t : Vec Ideal S1x256 .f32) (ix2 (0 : Fin 1) q) = V c (Pipeline.arrRef spec3 4) (ix2 (0 : Fin 1) q) := by
  have e := idx_facts3 t
  unfold iblk3
  rw [View.read_apply]
  show V c (Pipeline.arrRef spec3 4) (((cfg3.win 4).blk t).view.emb (ix2 (0 : Fin 1) q)) = _
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 256 + 1 * q.val = q.val; omega

/-- The normalised table's tile at a point, read at (p, q): the table at row 2000 · t + p. -/
theorem bnArr3_blk_apply (c : Dev nD) (t : Fin cfg3.N) (p : Fin 2000) (q : Fin 256) :
    (((cfg3.win 5).blk t).view.read (Elt Ideal) (bnArr3 V c) : Vec Ideal S2000x256 .f32) (ix2 p q)
      = bnAt3 V c (⟨t.val * 2000 + p.val, tile_row_lt3 t p⟩ : Fin 50000) q := by
  have e := idx_facts3 t
  rw [View.read_apply]
  show bnAt3 V c ((((cfg3.win 5).blk t).view.emb (ix2 p q)) 0) ((((cfg3.win 5).blk t).view.emb (ix2 p q)) 1) = _
  have h0 : ((((cfg3.win 5).blk t).view.emb (ix2 p q)) 0 : Fin 50000) = ⟨t.val * 2000 + p.val, tile_row_lt3 t p⟩ :=
    Fin.ext (by show win3_5.index t (0 : Fin 2) * 2000 + 1 * p.val = t.val * 2000 + p.val; omega)
  have h1 : ((((cfg3.win 5).blk t).view.emb (ix2 p q)) 1 : Fin 256) = q :=
    Fin.ext (by show win3_5.index t (1 : Fin 2) * 256 + 1 * q.val = q.val; omega)
  exact (congrArg (fun r : Fin 50000 => bnAt3 V c r _) h0).trans (congrArg (fun j : Fin 256 => bnAt3 V c _ j) h1)

/-- What a point writes back is its tile of the normalised table. -/
theorem flushed3_eq (c : Dev nD) (t : Fin cfg3.N) :
    (dat3 V c).flushed 5 t = ((cfg3.win 5).blk t).view.read (Elt Ideal) (bnArr3 V c) := by
  show (cfg3.win 5).cut (grid3.coords t) ((dat3 V c).after 5 t) = _
  rw [after3_5]
  unfold out3_5
  rw [View.canon_unit_zero hz2_3]
  simp only [View.ld_unit_zero (S := S2000x256) hz2_3, View.ld_unit_zero (S := S1x256) hz2_3]
  funext y
  obtain ⟨p, q, rfl⟩ : ∃ (p : Fin 2000) (q : Fin 256), y = ix2 p q := ⟨y 0, y 1, eq_ix2 y⟩
  refine (bn_tile_apply3 (iblk3 V c 0 t) (iblk3 V c 3 t) (iblk3 V c 1 t) (iblk3 V c 2 t) (iblk3 V c 4 t) p q).trans ?_
  refine Eq.trans ?_ (bnArr3_blk_apply V c t p q).symm
  unfold bnAt3
  rw [iblk3_0_apply V c t p q, iblk3_1_apply V c t q, iblk3_2_apply V c t q, iblk3_3_apply V c t q, iblk3_4_apply V c t q]

/-- An index of the output array is in a point's block iff each coordinate is in the block's range. -/
theorem mem_blk3_5 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v65).slice (win3_5.rect t)).set ↔ _
  rw [View.set_slice_whole, Rect.mem_set_unit]
  exact Iff.rfl

/-- Row r of the output is written back by point r / 2000. -/
theorem cover3_5_arr (i : S50000x256.Idx) :
    ∃ t : Fin cfg3.N, (cfg3.win 5).flush t = true ∧ i ∈ ((cfg3.win 5).blk t).view.set := by
  have hN : cfg3.N = 25 := N_3
  have hi0 : (i 0).val < 50000 := (i 0).isLt
  have hi1 : (i 1).val < 256 := (i 1).isLt
  have ht : (i 0).val / 2000 < cfg3.N := by omega
  refine ⟨⟨(i 0).val / 2000, ht⟩, flush3_5 _, ?_⟩
  rw [mem_blk3_5]
  have e := idx_facts3 ⟨(i 0).val / 2000, ht⟩
  have e10 : win3_5.index ⟨(i 0).val / 2000, ht⟩ (0 : Fin 2) = (i 0).val / 2000 := e.2.2.2.2.2.2.2.2.2.2.1
  have e11 : win3_5.index ⟨(i 0).val / 2000, ht⟩ (1 : Fin 2) = 0 := e.2.2.2.2.2.2.2.2.2.2.2
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e10]; omega
  | ⟨1, _⟩ =>
    show win3_5.index ⟨(i 0).val / 2000, ht⟩ (1 : Fin 2) * 256 ≤ (i 1).val
      ∧ (i 1).val < win3_5.index ⟨(i 0).val / 2000, ht⟩ (1 : Fin 2) * 256 + 256
    rw [e11]; omega

/-- The output array after the region is the normalised table. -/
theorem arrAt3_5 (c : Dev nD) : (dat3 V c).arrAt 5 cfg3.N = bnArr3 V c :=
  (dat3 V c).arrAt_eq_of_cover 5 (bnArr3 V c) (fun t _ => flushed3_eq V c t) cover3_5_arr

/-- Entry (r, j) of the output array after the region: scale · (value − centre) · spread + shift of
    the five arrays the region finds (window 0 the table, 1 the centres, 2 the spreads, 3 the scales,
    4 the shifts). -/
theorem bn_3 (c : Dev nD) (r : Fin 50000) (j : Fin 256) :
    ((dat3 V c).arrAt 5 cfg3.N : S50000x256.Idx → EReal) (ix2 r j)
      = GineSpec.affine (V c (Pipeline.arrRef spec3 3) (ix2 (0 : Fin 1) j)) (V c (Pipeline.arrRef spec3 0) (ix2 r j))
          (V c (Pipeline.arrRef spec3 1) (ix2 (0 : Fin 1) j)) (V c (Pipeline.arrRef spec3 2) (ix2 (0 : Fin 1) j))
          (V c (Pipeline.arrRef spec3 4) (ix2 (0 : Fin 1) j)) := by
  rw [arrAt3_5]
  rfl

end Cert.KernelIdeal.RegionValue

end
-- ==== Proof.Region4Pieces.lean ====
import proofs.«164030_j60206851555878_1_alg».proof.Proof.Gen.KernelIdeal.Frame
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.Tactic
open Cert.KernelIdeal Cert.KernelIdeal.Gen

variable {F : FTy → Type} [FloatOps F]

theorem hz00_4 : (![0, 0] : Fin 2 → Nat) = fun _ => 0 := funext fun a => by fin_cases a <;> rfl

/-! What each case of the body leaves in the three output buffers, as the payloads of the tile and
    of the two running sums: at the first point the sums start from the zero rows, at the others
    from what the point before left. -/

theorem out4_A_5_eq (c : Dev nD) (i : grid4.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond4_0 i) (x0 : Vec F S2000x288 .f32) (x1 : Vec F S288x256 .f32) (x2 : Vec F S1x256 .f32) (x3 : Vec F S256x256 .f32) (x4 : Vec F S1x256 .f32) :
    out4_A_5 (F := F) c i arg1 harg1 arg2 harg2 arg3 harg3 arg4 harg4 arg5 harg5 arg6 harg6 arg7 harg7 arg8 harg8 hc0 x0 x1 x2 x3 x4 = k4_pay4 x0 x1 x2 x3 x4 := by
  unfold out4_A_5
  rw [View.read_writes_eq_canon _ _ _ (cover4_A_5 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_unit_zero hz00_4]
  simp only [View.readAt_eq_ld, harg1.read_unread, harg2.read_unread, harg3.read_unread, harg4.read_unread, harg5.read_unread, harg7.read_unread, harg8.read_unread,
    View.ld_unit_zero (S := S2000x288) hz00_4, View.ld_unit_zero (S := S288x256) hz00_4, View.ld_unit_zero (S := S1x256) hz00_4, View.ld_unit_zero (S := S256x256) hz00_4]

theorem out4_A_6_eq (c : Dev nD) (i : grid4.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond4_0 i) (x0 : Vec F S2000x288 .f32) (x1 : Vec F S288x256 .f32) (x2 : Vec F S1x256 .f32) (x3 : Vec F S256x256 .f32) (x4 : Vec F S1x256 .f32) :
    out4_A_6 (F := F) c i arg1 harg1 arg2 harg2 arg3 harg3 arg4 harg4 arg5 harg5 arg6 harg6 arg7 harg7 arg8 harg8 hc0 x0 x1 x2 x3 x4 = k4_pay5 x0 x1 x2 x3 x4 k4_pay2 := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x256) hz00_4, View.readCov_unit_zero (S := S1x256) _ hz00_4]
  simp only [View.readAt_eq_ld, harg1.read_unread, harg2.read_unread, harg3.read_unread, harg4.read_unread, harg5.read_unread, harg7.read_unread, harg8.read_unread,
    View.ld_unit_zero (S := S2000x288) hz00_4, View.ld_unit_zero (S := S288x256) hz00_4, View.ld_unit_zero (S := S1x256) hz00_4, View.ld_unit_zero (S := S256x256) hz00_4]

theorem out4_A_7_eq (c : Dev nD) (i : grid4.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond4_0 i) (x0 : Vec F S2000x288 .f32) (x1 : Vec F S288x256 .f32) (x2 : Vec F S1x256 .f32) (x3 : Vec F S256x256 .f32) (x4 : Vec F S1x256 .f32) :
    out4_A_7 (F := F) c i arg1 harg1 arg2 harg2 arg3 harg3 arg4 harg4 arg5 harg5 arg6 harg6 arg7 harg7 arg8 harg8 hc0 x0 x1 x2 x3 x4 = k4_pay1 (k4_pay4 x0 x1 x2 x3 x4) k4_pay3 := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x256) hz00_4, View.readCov_unit_zero (S := S1x256) _ hz00_4]
  simp only [View.readAt_eq_ld, harg1.read_unread, harg2.read_unread, harg3.read_unread, harg4.read_unread, harg5.read_unread, harg7.read_unread, harg8.read_unread,
    View.ld_unit_zero (S := S2000x288) hz00_4, View.ld_unit_zero (S := S288x256) hz00_4, View.ld_unit_zero (S := S1x256) hz00_4, View.ld_unit_zero (S := S256x256) hz00_4]

theorem out4_B_5_eq (c : Dev nD) (i : grid4.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond4_0 i) (x0 : Vec F S2000x288 .f32) (x1 : Vec F S288x256 .f32) (x2 : Vec F S1x256 .f32) (x3 : Vec F S256x256 .f32) (x4 : Vec F S1x256 .f32) (xo6 : Vec F S1x256 .f32) (xo7 : Vec F S1x256 .f32) :
    out4_B_5 (F := F) c i arg1 harg1 arg2 harg2 arg3 harg3 arg4 harg4 arg5 harg5 arg6 harg6 arg7 harg7 arg8 harg8 hc0 x0 x1 x2 x3 x4 xo6 xo7 = k4_pay4 x0 x1 x2 x3 x4 := by
  unfold out4_B_5
  rw [View.read_writes_eq_canon _ _ _ (cover4_B_5 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz00_4]
  simp only [View.readAt_eq_ld, harg1.read_unread, harg2.read_unread, harg3.read_unread, harg4.read_unread, harg5.read_unread, harg7.read_unread, harg8.read_unread,
    View.ld_unit_zero (S := S2000x288) hz00_4, View.ld_unit_zero (S := S288x256) hz00_4, View.ld_unit_zero (S := S1x256) hz00_4, View.ld_unit_zero (S := S256x256) hz00_4]

theorem out4_B_6_eq (c : Dev nD) (i : grid4.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond4_0 i) (x0 : Vec F S2000x288 .f32) (x1 : Vec F S288x256 .f32) (x2 : Vec F S1x256 .f32) (x3 : Vec F S256x256 .f32) (x4 : Vec F S1x256 .f32) (xo6 : Vec F S1x256 .f32) (xo7 : Vec F S1x256 .f32) :
    out4_B_6 (F := F) c i arg1 harg1 arg2 harg2 arg3 harg3 arg4 harg4 arg5 harg5 arg6 harg6 arg7 harg7 arg8 harg8 hc0 x0 x1 x2 x3 x4 xo6 xo7 = k4_pay5 x0 x1 x2 x3 x4 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz00_4]
  simp only [View.readAt_eq_ld, harg1.read_unread, harg2.read_unread, harg3.read_unread, harg4.read_unread, harg5.read_unread, harg7.read_unread, harg8.read_unread,
    View.ld_unit_zero (S := S2000x288) hz00_4, View.ld_unit_zero (S := S288x256) hz00_4, View.ld_unit_zero (S := S1x256) hz00_4, View.ld_unit_zero (S := S256x256) hz00_4]

theorem out4_B_7_eq (c : Dev nD) (i : grid4.Coords) (arg1 : Memref sig .tc .vmem S2000x288 .f32) (harg1 : arg1.IsWhole) (arg2 : Memref sig .tc .vmem S288x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond4_0 i) (x0 : Vec F S2000x288 .f32) (x1 : Vec F S288x256 .f32) (x2 : Vec F S1x256 .f32) (x3 : Vec F S256x256 .f32) (x4 : Vec F S1x256 .f32) (xo6 : Vec F S1x256 .f32) (xo7 : Vec F S1x256 .f32) :
    out4_B_7 (F := F) c i arg1 harg1 arg2 harg2 arg3 harg3 arg4 harg4 arg5 harg5 arg6 harg6 arg7 harg7 arg8 harg8 hc0 x0 x1 x2 x3 x4 xo6 xo7 = k4_pay1 (k4_pay4 x0 x1 x2 x3 x4) xo7 := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz00_4]
  simp only [View.readAt_eq_ld, harg1.read_unread, harg2.read_unread, harg3.read_unread, harg4.read_unread, harg5.read_unread, harg7.read_unread, harg8.read_unread,
    View.ld_unit_zero (S := S2000x288) hz00_4, View.ld_unit_zero (S := S288x256) hz00_4, View.ld_unit_zero (S := S1x256) hz00_4, View.ld_unit_zero (S := S256x256) hz00_4]

end Cert.KernelIdeal.RegionValue

end
-- ==== Proof.Stage1Body4.lean ====
import proofs.«164030_j60206851555878_1_alg».proof.Proof.Gen.KernelIdeal.Skeleton
import proofs.«164030_j60206851555878_1_alg».proof.Proof.Stage1Lib

noncomputable section

namespace Cert.KernelIdeal.RegionValue

open Idealize.ShloMosaic
open Idealize.ShloMosaic.ValueIdx
open Cert.KernelIdeal Cert.KernelIdeal.Gen
open scoped BigOperators

/-- The tile of the two-layer perceptron at row p, column q, from a tile of rows of the aggregated
    features and the four parameter arrays. -/
theorem h2_tile_apply4 (A : Vec Ideal S2000x288 .f32) (W1 : Vec Ideal S288x256 .f32) (B1 : Vec Ideal S1x256 .f32)
    (W2 : Vec Ideal S256x256 .f32) (B2 : Vec Ideal S1x256 .f32) (p : Fin 2000) (q : Fin 256) :
    k4_pay4 (F := Ideal) A W1 B1 W2 B2 (ix2 p q)
      = GineSpec.h2 (fun r a => A (ix2 r a)) (fun a c => W1 (ix2 a c)) (fun c => B1 (ix2 (0 : Fin 1) c))
          (fun c j => W2 (ix2 c j)) (fun j => B2 (ix2 (0 : Fin 1) j)) p q := by
  unfold k4_pay4 GineSpec.h2 dot_S2000x288_S288x256_S2000x256_1_0_0_1_n_n dot_S2000x256_S256x256_S2000x256_1_0_0_1_n_n
  simp only [shapeCast_self]
  refine (dense_relu_apply _ _ _ _ W2 B2 p q).trans ?_
  refine congrArg (fun s => max (s + B2 (ix2 (0 : Fin 1) q)) 0) (Finset.sum_congr rfl fun c _ => ?_)
  exact congrArg (· * W2 (ix2 c q)) (dense_relu_apply _ _ _ A W1 B1 p c)

/-- The running column sums after a tile: what was there plus the tile's column sums. -/
theorem sum_tile_apply4 (A : Vec Ideal S2000x288 .f32) (W1 : Vec Ideal S288x256 .f32) (B1 : Vec Ideal S1x256 .f32)
    (W2 : Vec Ideal S256x256 .f32) (B2 : Vec Ideal S1x256 .f32) (acc : Vec Ideal S1x256 .f32) (q : Fin 256) :
    k4_pay5 (F := Ideal) A W1 B1 W2 B2 acc (ix2 (0 : Fin 1) q)
      = acc (ix2 (0 : Fin 1) q) + ∑ p : Fin 2000, k4_pay4 (F := Ideal) A W1 B1 W2 B2 (ix2 p q) := by
  unfold k4_pay5
  simp only [shapeCast_self]
  exact acc_colsum_apply acc (k4_pay4 (F := Ideal) A W1 B1 W2 B2) _ _ _ _ q

/-- The running column sums of squares after a tile. -/
theorem sumsq_tile_apply4 (H : FVec Ideal S2000x256 .f32) (acc : Vec Ideal S1x256 .f32) (q : Fin 256) :
    k4_pay1 (F := Ideal) H acc (ix2 (0 : Fin 1) q)
      = acc (ix2 (0 : Fin 1) q) + ∑ p : Fin 2000, H (ix2 p q) * H (ix2 p q) := by
  unfold k4_pay1
  simp only [shapeCast_self]
  exact acc_colsum_apply acc (mulf H H) _ _ _ _ q

/-- Both accumulators start at zero. -/
theorem zero_sum_apply4 (q : Fin 256) : k4_pay2 (F := Ideal) (ix2 (0 : Fin 1) q) = 0 := zero_row_apply (ix2 (0 : Fin 1) q)
theorem zero_sumsq_apply4 (q : Fin 256) : k4_pay3 (F := Ideal) (ix2 (0 : Fin 1) q) = 0 := zero_row_apply (ix2 (0 : Fin 1) q)

end Cert.KernelIdeal.RegionValue

end
-- ==== Proof.Region4.lean ====
import proofs.«164030_j60206851555878_1_alg».proof.Proof.Gen.KernelIdeal.Frame
import proofs.«164030_j60206851555878_1_alg».proof.Proof.GineSpec
import proofs.«164030_j60206851555878_1_alg».proof.Proof.Region4Pieces
import proofs.«164030_j60206851555878_1_alg».proof.Proof.Stage1Body4
import proofs.«164030_j60206851555878_1_alg».proof.Proof.TileSum
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

/-- Entry (r, j) of the two-layer perceptron of the rows, from the five arrays the region finds. -/
def h2At4 (c : Dev nD) (r : Fin 50000) (j : Fin 256) : EReal :=
  GineSpec.h2 (fun r a => V c (Pipeline.arrRef spec4 0) (ix2 r a)) (fun a c' => V c (Pipeline.arrRef spec4 1) (ix2 a c'))
      (fun c' => V c (Pipeline.arrRef spec4 2) (ix2 (0 : Fin 1) c')) (fun c' j' => V c (Pipeline.arrRef spec4 3) (ix2 c' j'))
      (fun j' => V c (Pipeline.arrRef spec4 4) (ix2 (0 : Fin 1) j')) r j

/-- The perceptron's entry depends on its row of the first operand only. -/
theorem h2_congr_row4 {n n' k d e : ℕ} (A : Fin n → Fin k → EReal) (A' : Fin n' → Fin k → EReal) (W1 : Fin k → Fin d → EReal)
    (B1 : Fin d → EReal) (W2 : Fin d → Fin e → EReal) (B2 : Fin e → EReal) (r : Fin n) (r' : Fin n') (j : Fin e)
    (h : ∀ a, A r a = A' r' a) : GineSpec.h2 A W1 B1 W2 B2 r j = GineSpec.h2 A' W1 B1 W2 B2 r' j := by
  unfold GineSpec.h2
  simp only [h]

/-- The block indices of the eight windows at every point: the two tables move one tile of rows per
    point, the four parameter arrays and the two accumulators stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem N25_4 : cfg4.N = 25 := N_4

/-- The features' tile at a point, read at (p, a): the array at row 2000 · t + p. -/
theorem iblk4_0_apply (c : Dev nD) (t : Fin cfg4.N) (p : Fin 2000) (a : Fin 288) (hr : t.val * 2000 + p.val < 50000) :
    (iblk4 V c 0 t : Vec Ideal S2000x288 .f32) (ix2 p a)
      = V c (Pipeline.arrRef spec4 0) (ix2 (⟨t.val * 2000 + p.val, hr⟩ : Fin 50000) a) := by
  have e := idx_facts4 t
  unfold iblk4
  rw [View.read_apply]
  show V c (Pipeline.arrRef spec4 0) (((cfg4.win 0).blk t).view.emb (ix2 p a)) = _
  refine congrArg (V c (Pipeline.arrRef spec4 0)) (funext fun ax => Fin.ext ?_)
  match ax with
  | ⟨0, _⟩ => show win4_0.index t (0 : Fin 2) * 2000 + 1 * p.val = t.val * 2000 + p.val; omega
  | ⟨1, _⟩ => show win4_0.index t (1 : Fin 2) * 288 + 1 * a.val = a.val; omega

/-- A parameter array's block is the whole array at every point. -/
theorem iblk4_1_eq (c : Dev nD) (t : Fin cfg4.N) :
    (iblk4 V c 1 t : Vec Ideal S288x256 .f32) = V c (Pipeline.arrRef spec4 1) := by
  have e := idx_facts4 t
  funext y
  obtain ⟨a, b, rfl⟩ : ∃ (a : Fin 288) (b : Fin 256), y = ix2 a b := ⟨y 0, y 1, eq_ix2 y⟩
  unfold iblk4
  rw [View.read_apply]
  show V c (Pipeline.arrRef spec4 1) (((cfg4.win 1).blk t).view.emb (ix2 a b)) = _
  refine congrArg (V c (Pipeline.arrRef spec4 1)) (funext fun ax => Fin.ext ?_)
  match ax with
  | ⟨0, _⟩ => show win4_1.index t (0 : Fin 2) * 288 + 1 * a.val = a.val; omega
  | ⟨1, _⟩ => show win4_1.index t (1 : Fin 2) * 256 + 1 * b.val = b.val; omega

theorem iblk4_2_eq (c : Dev nD) (t : Fin cfg4.N) :
    (iblk4 V c 2 t : Vec Ideal S1x256 .f32) = V c (Pipeline.arrRef spec4 2) := by
  have e := idx_facts4 t
  funext y
  obtain ⟨a, b, rfl⟩ : ∃ (a : Fin 1) (b : Fin 256), y = ix2 a b := ⟨y 0, y 1, eq_ix2 y⟩
  unfold iblk4
  rw [View.read_apply]
  show V c (Pipeline.arrRef spec4 2) (((cfg4.win 2).blk t).view.emb (ix2 a b)) = _
  refine congrArg (V c (Pipeline.arrRef spec4 2)) (funext fun ax => Fin.ext ?_)
  match ax with
  | ⟨0, _⟩ => show win4_2.index t (0 : Fin 2) * 1 + 1 * a.val = a.val; omega
  | ⟨1, _⟩ => show win4_2.index t (1 : Fin 2) * 256 + 1 * b.val = b.val; omega

theorem iblk4_3_eq (c : Dev nD) (t : Fin cfg4.N) :
    (iblk4 V c 3 t : Vec Ideal S256x256 .f32) = V c (Pipeline.arrRef spec4 3) := by
  have e := idx_facts4 t
  funext y
  obtain ⟨a, b, rfl⟩ : ∃ (a : Fin 256) (b : Fin 256), y = ix2 a b := ⟨y 0, y 1, eq_ix2 y⟩
  unfold iblk4
  rw [View.read_apply]
  show V c (Pipeline.arrRef spec4 3) (((cfg4.win 3).blk t).view.emb (ix2 a b)) = _
  refine congrArg (V c (Pipeline.arrRef spec4 3)) (funext fun ax => Fin.ext ?_)
  match ax with
  | ⟨0, _⟩ => show win4_3.index t (0 : Fin 2) * 256 + 1 * a.val = a.val; omega
  | ⟨1, _⟩ => show win4_3.index t (1 : Fin 2) * 256 + 1 * b.val = b.val; omega

theorem iblk4_4_eq (c : Dev nD) (t : Fin cfg4.N) :
    (iblk4 V c 4 t : Vec Ideal S1x256 .f32) = V c (Pipeline.arrRef spec4 4) := by
  have e := idx_facts4 t
  funext y
  obtain ⟨a, b, rfl⟩ : ∃ (a : Fin 1) (b : Fin 256), y = ix2 a b := ⟨y 0, y 1, eq_ix2 y⟩
  unfold iblk4
  rw [View.read_apply]
  show V c (Pipeline.arrRef spec4 4) (((cfg4.win 4).blk t).view.emb (ix2 a b)) = _
  refine congrArg (V c (Pipeline.arrRef spec4 4)) (funext fun ax => Fin.ext ?_)
  match ax with
  | ⟨0, _⟩ => show win4_4.index t (0 : Fin 2) * 1 + 1 * a.val = a.val; omega
  | ⟨1, _⟩ => show win4_4.index t (1 : Fin 2) * 256 + 1 * b.val = b.val; omega

/-- The tile a point computes, read at (p, q): the perceptron's entry at row 2000 · t + p. -/
theorem tile4_apply (c : Dev nD) (t : Fin cfg4.N) (p : Fin 2000) (q : Fin 256) (hr : t.val * 2000 + p.val < 50000) :
    k4_pay4 (F := Ideal) (iblk4 V c 0 t) (iblk4 V c 1 t) (iblk4 V c 2 t) (iblk4 V c 3 t) (iblk4 V c 4 t) (ix2 p q) = h2At4 V c ⟨t.val * 2000 + p.val, hr⟩ q := by
  refine (h2_tile_apply4 (iblk4 V c 0 t) (iblk4 V c 1 t) (iblk4 V c 2 t) (iblk4 V c 3 t) (iblk4 V c 4 t) p q).trans ?_
  rw [iblk4_1_eq V c t, iblk4_2_eq V c t, iblk4_3_eq V c t, iblk4_4_eq V c t]
  exact h2_congr_row4 _ _ _ _ _ _ p ⟨t.val * 2000 + p.val, hr⟩ q (fun a => iblk4_0_apply V c t p a hr)

/-- The three outputs after the first point, as payloads. -/
theorem outsAt4_first (c : Dev nD) (t : Fin cfg4.N) (h0 : t.val % 25 = 0) :
    outsAt4 V c t.val t.isLt = (k4_pay4 (iblk4 V c 0 t) (iblk4 V c 1 t) (iblk4 V c 2 t) (iblk4 V c 3 t) (iblk4 V c 4 t), k4_pay5 (iblk4 V c 0 t) (iblk4 V c 1 t) (iblk4 V c 2 t) (iblk4 V c 3 t) (iblk4 V c 4 t) (k4_pay2 (F := Ideal)), k4_pay1 (k4_pay4 (iblk4 V c 0 t) (iblk4 V c 1 t) (iblk4 V c 2 t) (iblk4 V c 3 t) (iblk4 V c 4 t)) (k4_pay3 (F := Ideal))) :=
  (outsAt4_A V c t h0).trans (congrArg₂ Prod.mk
    (out4_A_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
    (congrArg₂ Prod.mk
      (out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
      (out4_A_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))))

/-- The three outputs after a later point, as payloads over what the point before left. -/
theorem outsAt4_later (c : Dev nD) (t : Fin cfg4.N) (h0 : ¬t.val % 25 = 0) :
    outsAt4 V c t.val t.isLt = (k4_pay4 (iblk4 V c 0 t) (iblk4 V c 1 t) (iblk4 V c 2 t) (iblk4 V c 3 t) (iblk4 V c 4 t),
      k4_pay5 (iblk4 V c 0 t) (iblk4 V c 1 t) (iblk4 V c 2 t) (iblk4 V c 3 t) (iblk4 V c 4 t) (outsAt4 V c (t.val - 1) (Nat.lt_of_le_of_lt (Nat.sub_le _ _) t.isLt)).2.1,
      k4_pay1 (k4_pay4 (iblk4 V c 0 t) (iblk4 V c 1 t) (iblk4 V c 2 t) (iblk4 V c 3 t) (iblk4 V c 4 t)) (outsAt4 V c (t.val - 1) (Nat.lt_of_le_of_lt (Nat.sub_le _ _) t.isLt)).2.2) :=
  (outsAt4_B V c t h0).trans (congrArg₂ Prod.mk
    (out4_B_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t)
      (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t)
        (outsAt4 V c (t.val - 1) (Nat.lt_of_le_of_lt (Nat.sub_le _ _) t.isLt)).2.1 (outsAt4 V c (t.val - 1) (Nat.lt_of_le_of_lt (Nat.sub_le _ _) t.isLt)).2.2)
      (out4_B_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t)
        (outsAt4 V c (t.val - 1) (Nat.lt_of_le_of_lt (Nat.sub_le _ _) t.isLt)).2.1 (outsAt4 V c (t.val - 1) (Nat.lt_of_le_of_lt (Nat.sub_le _ _) t.isLt)).2.2)))

/-- After point n the first output holds the perceptron's rows of tile n, the other two the running
    sums of the entries and of their squares over tiles 0 … n. -/
theorem outsAt4_inv (c : Dev nD) : ∀ (n : ℕ) (h : n < cfg4.N) (h25 : n < 25),
    (∀ (p : Fin 2000) (q : Fin 256) (hr : n * 2000 + p.val < 50000),
        (outsAt4 V c n h).1 (ix2 p q) = h2At4 V c ⟨n * 2000 + p.val, hr⟩ q)
    ∧ (∀ q : Fin 256, (outsAt4 V c n h).2.1 (ix2 (0 : Fin 1) q) = runSum (fun r => h2At4 V c r q) n h25)
    ∧ (∀ q : Fin 256, (outsAt4 V c n h).2.2 (ix2 (0 : Fin 1) q)
        = runSum (fun r => h2At4 V c r q * h2At4 V c r q) n h25)
  | 0, h, h25 => by
    rw [outsAt4_first V c ⟨0, h⟩ rfl]
    refine ⟨fun p q hr => tile4_apply V c ⟨0, h⟩ p q hr, fun q => ?_, fun q => ?_⟩
    · refine (sum_tile_apply4 (iblk4 V c 0 ⟨0, h⟩) (iblk4 V c 1 ⟨0, h⟩) (iblk4 V c 2 ⟨0, h⟩) (iblk4 V c 3 ⟨0, h⟩) (iblk4 V c 4 ⟨0, h⟩) (k4_pay2 (F := Ideal)) q).trans ?_
      rw [zero_sum_apply4, zero_add]
      refine Eq.trans (Finset.sum_congr rfl fun p _ => tile4_apply V c ⟨0, h⟩ p q
        (by have := p.isLt; show 0 * 2000 + p.val < 50000; omega)) ?_
      rfl
    · refine (sumsq_tile_apply4 (k4_pay4 (iblk4 V c 0 ⟨0, h⟩) (iblk4 V c 1 ⟨0, h⟩) (iblk4 V c 2 ⟨0, h⟩) (iblk4 V c 3 ⟨0, h⟩) (iblk4 V c 4 ⟨0, h⟩)) (k4_pay3 (F := Ideal)) q).trans ?_
      rw [zero_sumsq_apply4, zero_add]
      refine Eq.trans (Finset.sum_congr rfl fun p _ => congrArg₂ (· * ·)
        (tile4_apply V c ⟨0, h⟩ p q (by have := p.isLt; show 0 * 2000 + p.val < 50000; omega))
        (tile4_apply V c ⟨0, h⟩ p q (by have := p.isLt; show 0 * 2000 + p.val < 50000; omega))) ?_
      rfl
  | n + 1, h, h25 => by
    have hB : ¬(⟨n + 1, h⟩ : Fin cfg4.N).val % 25 = 0 := by show ¬(n + 1) % 25 = 0; omega
    obtain ⟨-, ih6, ih7⟩ := outsAt4_inv c n (Nat.lt_of_succ_lt h) (Nat.lt_of_succ_lt h25)
    rw [outsAt4_later V c ⟨n + 1, h⟩ hB]
    refine ⟨fun p q hr => tile4_apply V c ⟨n + 1, h⟩ p q hr, fun q => ?_, fun q => ?_⟩
    · refine (sum_tile_apply4 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (outsAt4 V c ((⟨n + 1, h⟩ : Fin cfg4.N).val - 1) (Nat.lt_of_le_of_lt (Nat.sub_le _ _) (⟨n + 1, h⟩ : Fin cfg4.N).isLt)).2.1 q).trans ?_
      refine Eq.trans (congrArg₂ (· + ·) (ih6 q) (Finset.sum_congr rfl fun p _ => tile4_apply V c ⟨n + 1, h⟩ p q
        (by have := p.isLt; show (n + 1) * 2000 + p.val < 50000; omega))) ?_
      rfl
    · refine (sumsq_tile_apply4 (k4_pay4 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩)) (outsAt4 V c ((⟨n + 1, h⟩ : Fin cfg4.N).val - 1) (Nat.lt_of_le_of_lt (Nat.sub_le _ _) (⟨n + 1, h⟩ : Fin cfg4.N).isLt)).2.2 q).trans ?_
      refine Eq.trans (congrArg₂ (· + ·) (ih7 q) (Finset.sum_congr rfl fun p _ => congrArg₂ (· * ·)
        (tile4_apply V c ⟨n + 1, h⟩ p q (by have := p.isLt; show (n + 1) * 2000 + p.val < 50000; omega))
        (tile4_apply V c ⟨n + 1, h⟩ p q (by have := p.isLt; show (n + 1) * 2000 + p.val < 50000; omega)))) ?_
      rfl

/-! ## From the points to the three arrays -/

theorem runSum_at_last4 (f : Fin 50000 → EReal) (n : ℕ) (h : n < 25) (hn : n = 24) : runSum f n h = ∑ r : Fin 50000, f r := by
  subst hn; exact runSum_last f h

/-- The perceptron's table, its column sums and the column sums of its squares, as contents of the
    three output arrays. -/
def h2Arr4 (c : Dev nD) : Buf (Elt Ideal) ((cfg4.win 5).arr.view.loc (c.tc : Thread nD τ)) :=
  fun i => h2At4 V c (i 0) (i 1)
/-- The column sums of the perceptron's table and of its squares. -/
def colSumAt4 (c : Dev nD) (j : Fin 256) : EReal := ∑ r : Fin 50000, h2At4 V c r j
def colSumSqAt4 (c : Dev nD) (j : Fin 256) : EReal := ∑ r : Fin 50000, h2At4 V c r j * h2At4 V c r j
def sumArr4 (c : Dev nD) : Buf (Elt Ideal) ((cfg4.win 6).arr.view.loc (c.tc : Thread nD τ)) :=
  fun i => colSumAt4 V c (i 1)
def sumsqArr4 (c : Dev nD) : Buf (Elt Ideal) ((cfg4.win 7).arr.view.loc (c.tc : Thread nD τ)) :=
  fun i => colSumSqAt4 V c (i 1)

/-- The table's tile at a point, read at (p, q): the table at row 2000 · t + p. -/
theorem h2Arr4_blk_apply (c : Dev nD) (t : Fin cfg4.N) (p : Fin 2000) (q : Fin 256) (hr : t.val * 2000 + p.val < 50000) :
    (((cfg4.win 5).blk t).view.read (Elt Ideal) (h2Arr4 V c) : Vec Ideal S2000x256 .f32) (ix2 p q)
      = h2At4 V c (⟨t.val * 2000 + p.val, hr⟩ : Fin 50000) q := by
  have e := idx_facts4 t
  rw [View.read_apply]
  show h2At4 V c ((((cfg4.win 5).blk t).view.emb (ix2 p q)) 0) ((((cfg4.win 5).blk t).view.emb (ix2 p q)) 1) = _
  have h0 : ((((cfg4.win 5).blk t).view.emb (ix2 p q)) 0 : Fin 50000) = ⟨t.val * 2000 + p.val, hr⟩ :=
    Fin.ext (by show win4_5.index t (0 : Fin 2) * 2000 + 1 * p.val = t.val * 2000 + p.val; omega)
  have h1 : ((((cfg4.win 5).blk t).view.emb (ix2 p q)) 1 : Fin 256) = q :=
    Fin.ext (by show win4_5.index t (1 : Fin 2) * 256 + 1 * q.val = q.val; omega)
  exact (congrArg (fun r : Fin 50000 => h2At4 V c r _) h0).trans (congrArg (fun j : Fin 256 => h2At4 V c _ j) h1)

/-- What a point writes back of the table is its tile of the perceptron's table. -/
theorem flushed4_5_eq (c : Dev nD) (t : Fin cfg4.N) :
    (dat4 V c).flushed 5 t = ((cfg4.win 5).blk t).view.read (Elt Ideal) (h2Arr4 V c) := by
  have hN : cfg4.N = 25 := N_4
  show (cfg4.win 5).cut (grid4.coords t) ((dat4 V c).after 5 t) = _
  rw [after4_5]
  funext y
  obtain ⟨p, q, rfl⟩ : ∃ (p : Fin 2000) (q : Fin 256), y = ix2 p q := ⟨y 0, y 1, eq_ix2 y⟩
  have hr : t.val * 2000 + p.val < 50000 := by have := t.isLt; have := p.isLt; omega
  exact ((outsAt4_inv V c t.val t.isLt (by have := t.isLt; omega)).1 p q hr).trans (h2Arr4_blk_apply V c t p q hr).symm

theorem mem_blk4_5 (t : Fin cfg4.N) (i : S50000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v84_0).slice (win4_5.rect t)).set ↔ _
  rw [View.set_slice_whole, Rect.mem_set_unit]
  exact Iff.rfl

/-- Row r of the table is written back by point r / 2000. -/
theorem cover4_5_arr (i : S50000x256.Idx) :
    ∃ t : Fin cfg4.N, (cfg4.win 5).flush t = true ∧ i ∈ ((cfg4.win 5).blk t).view.set := by
  have hN : cfg4.N = 25 := N_4
  have hi0 : (i 0).val < 50000 := (i 0).isLt
  have hi1 : (i 1).val < 256 := (i 1).isLt
  have ht : (i 0).val / 2000 < cfg4.N := by omega
  refine ⟨⟨(i 0).val / 2000, ht⟩, flush4_5 _, ?_⟩
  rw [mem_blk4_5]
  have e := idx_facts4 ⟨(i 0).val / 2000, ht⟩
  have e10 : win4_5.index ⟨(i 0).val / 2000, ht⟩ (0 : Fin 2) = (i 0).val / 2000 := e.2.2.2.2.2.2.2.2.2.2.1
  have e11 : win4_5.index ⟨(i 0).val / 2000, ht⟩ (1 : Fin 2) = 0 := e.2.2.2.2.2.2.2.2.2.2.2.1
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e10]; omega
  | ⟨1, _⟩ =>
    show win4_5.index ⟨(i 0).val / 2000, ht⟩ (1 : Fin 2) * 256 ≤ (i 1).val
      ∧ (i 1).val < win4_5.index ⟨(i 0).val / 2000, ht⟩ (1 : Fin 2) * 256 + 256
    rw [e11]; omega

theorem arrAt4_5 (c : Dev nD) : (dat4 V c).arrAt 5 cfg4.N = h2Arr4 V c :=
  (dat4 V c).arrAt_eq_of_cover 5 (h2Arr4 V c) (fun t _ => flushed4_5_eq V c t) cover4_5_arr

attribute [local irreducible] colSumAt4 colSumSqAt4 in
/-- The column sums' block at a point, read at column q. -/
theorem sumArr4_blk_apply (c : Dev nD) (t : Fin cfg4.N) (q : Fin 256) :
    (((cfg4.win 6).blk t).view.read (Elt Ideal) (sumArr4 V c) : Vec Ideal S1x256 .f32) (ix2 (0 : Fin 1) q)
      = colSumAt4 V c q := by
  have e := idx_facts4 t
  rw [View.read_apply]
  show colSumAt4 V c ((((cfg4.win 6).blk t).view.emb (ix2 (0 : Fin 1) q)) 1) = _
  have h1 : ((((cfg4.win 6).blk t).view.emb (ix2 (0 : Fin 1) q)) 1 : Fin 256) = q :=
    Fin.ext (by show win4_6.index t (1 : Fin 2) * 256 + 1 * q.val = q.val; omega)
  exact congrArg (colSumAt4 V c) h1

/-- The one write-back of the column sums, after the last point, writes the sums over all rows. -/
theorem flushed4_6_eq (c : Dev nD) (t : Fin cfg4.N) (hf : (cfg4.win 6).flush t = true) :
    (dat4 V c).flushed 6 t = ((cfg4.win 6).blk t).view.read (Elt Ideal) (sumArr4 V c) := by
  have hN : cfg4.N = 25 := N_4
  have h24 : t.val = 24 := by have := (flush4_6 t).mp hf; have := t.isLt; omega
  show (cfg4.win 6).cut (grid4.coords t) ((dat4 V c).after 6 t) = _
  rw [after4_6]
  funext y
  obtain ⟨u, q, rfl⟩ : ∃ (u : Fin 1) (q : Fin 256), y = ix2 u q := ⟨y 0, y 1, eq_ix2 y⟩
  obtain rfl : u = 0 := Subsingleton.elim _ _
  refine Eq.trans ?_ (sumArr4_blk_apply V c t q).symm
  refine ((outsAt4_inv V c t.val t.isLt (by omega)).2.1 q).trans ?_
  exact runSum_at_last4 _ t.val _ h24

theorem mem_blk4_6 (t : Fin cfg4.N) (i : S1x256.Idx) :
    i ∈ ((cfg4.win 6).blk t).view.set ↔ ∀ a : Fin 2, win4_6.index t a * S1x256.size a ≤ (i a).val
      ∧ (i a).val < win4_6.index t a * S1x256.size a + S1x256.size a := by
  show i ∈ ((View.whole main_v84_1).slice (win4_6.rect t)).set ↔ _
  rw [View.set_slice_whole, Rect.mem_set_unit]
  exact Iff.rfl

/-- The last point's block is the whole row vector. -/
theorem cover4_6_arr (i : S1x256.Idx) :
    ∃ t : Fin cfg4.N, (cfg4.win 6).flush t = true ∧ i ∈ ((cfg4.win 6).blk t).view.set := by
  have hN : cfg4.N = 25 := N_4
  have hi0 : (i 0).val < 1 := (i 0).isLt
  have hi1 : (i 1).val < 256 := (i 1).isLt
  have ht : 24 < cfg4.N := by omega
  refine ⟨⟨24, ht⟩, (flush4_6 _).mpr rfl, ?_⟩
  rw [mem_blk4_6]
  have e := idx_facts4 ⟨24, ht⟩
  intro a
  match a with
  | ⟨0, _⟩ =>
    show win4_6.index ⟨24, ht⟩ (0 : Fin 2) * 1 ≤ (i 0).val ∧ (i 0).val < win4_6.index ⟨24, ht⟩ (0 : Fin 2) * 1 + 1
    omega
  | ⟨1, _⟩ =>
    show win4_6.index ⟨24, ht⟩ (1 : Fin 2) * 256 ≤ (i 1).val ∧ (i 1).val < win4_6.index ⟨24, ht⟩ (1 : Fin 2) * 256 + 256
    omega

theorem arrAt4_6 (c : Dev nD) : (dat4 V c).arrAt 6 cfg4.N = sumArr4 V c :=
  (dat4 V c).arrAt_eq_of_cover 6 (sumArr4 V c) (fun t hf => flushed4_6_eq V c t hf) cover4_6_arr

attribute [local irreducible] colSumAt4 colSumSqAt4 in
/-- The column sums of squares' block at a point, read at column q. -/
theorem sumsqArr4_blk_apply (c : Dev nD) (t : Fin cfg4.N) (q : Fin 256) :
    (((cfg4.win 7).blk t).view.read (Elt Ideal) (sumsqArr4 V c) : Vec Ideal S1x256 .f32) (ix2 (0 : Fin 1) q)
      = colSumSqAt4 V c q := by
  have e := idx_facts4 t
  rw [View.read_apply]
  show colSumSqAt4 V c ((((cfg4.win 7).blk t).view.emb (ix2 (0 : Fin 1) q)) 1) = _
  have h1 : ((((cfg4.win 7).blk t).view.emb (ix2 (0 : Fin 1) q)) 1 : Fin 256) = q :=
    Fin.ext (by show win4_7.index t (1 : Fin 2) * 256 + 1 * q.val = q.val; omega)
  exact congrArg (colSumSqAt4 V c) h1

/-- The one write-back of the column sums of squares, after the last point, writes the sums over all rows. -/
theorem flushed4_7_eq (c : Dev nD) (t : Fin cfg4.N) (hf : (cfg4.win 7).flush t = true) :
    (dat4 V c).flushed 7 t = ((cfg4.win 7).blk t).view.read (Elt Ideal) (sumsqArr4 V c) := by
  have hN : cfg4.N = 25 := N_4
  have h24 : t.val = 24 := by have := (flush4_7 t).mp hf; have := t.isLt; omega
  show (cfg4.win 7).cut (grid4.coords t) ((dat4 V c).after 7 t) = _
  rw [after4_7]
  funext y
  obtain ⟨u, q, rfl⟩ : ∃ (u : Fin 1) (q : Fin 256), y = ix2 u q := ⟨y 0, y 1, eq_ix2 y⟩
  obtain rfl : u = 0 := Subsingleton.elim _ _
  refine Eq.trans ?_ (sumsqArr4_blk_apply V c t q).symm
  refine ((outsAt4_inv V c t.val t.isLt (by omega)).2.2 q).trans ?_
  exact runSum_at_last4 _ t.val _ h24

theorem mem_blk4_7 (t : Fin cfg4.N) (i : S1x256.Idx) :
    i ∈ ((cfg4.win 7).blk t).view.set ↔ ∀ a : Fin 2, win4_7.index t a * S1x256.size a ≤ (i a).val
      ∧ (i a).val < win4_7.index t a * S1x256.size a + S1x256.size a := by
  show i ∈ ((View.whole main_v84_2).slice (win4_7.rect t)).set ↔ _
  rw [View.set_slice_whole, Rect.mem_set_unit]
  exact Iff.rfl

/-- The last point's block is the whole row vector. -/
theorem cover4_7_arr (i : S1x256.Idx) :
    ∃ t : Fin cfg4.N, (cfg4.win 7).flush t = true ∧ i ∈ ((cfg4.win 7).blk t).view.set := by
  have hN : cfg4.N = 25 := N_4
  have hi0 : (i 0).val < 1 := (i 0).isLt
  have hi1 : (i 1).val < 256 := (i 1).isLt
  have ht : 24 < cfg4.N := by omega
  refine ⟨⟨24, ht⟩, (flush4_7 _).mpr rfl, ?_⟩
  rw [mem_blk4_7]
  have e := idx_facts4 ⟨24, ht⟩
  intro a
  match a with
  | ⟨0, _⟩ =>
    show win4_7.index ⟨24, ht⟩ (0 : Fin 2) * 1 ≤ (i 0).val ∧ (i 0).val < win4_7.index ⟨24, ht⟩ (0 : Fin 2) * 1 + 1
    omega
  | ⟨1, _⟩ =>
    show win4_7.index ⟨24, ht⟩ (1 : Fin 2) * 256 ≤ (i 1).val ∧ (i 1).val < win4_7.index ⟨24, ht⟩ (1 : Fin 2) * 256 + 256
    omega

theorem arrAt4_7 (c : Dev nD) : (dat4 V c).arrAt 7 cfg4.N = sumsqArr4 V c :=
  (dat4 V c).arrAt_eq_of_cover 7 (sumsqArr4 V c) (fun t hf => flushed4_7_eq V c t hf) cover4_7_arr

/-! ## The three arrays after the region, entry by entry -/

/-- The table after the region: the two-layer perceptron of the rows of the features. -/
theorem stage1_4_h (c : Dev nD) (r : Fin 50000) (j : Fin 256) :
    ((dat4 V c).arrAt 5 cfg4.N : S50000x256.Idx → EReal) (ix2 r j)
      = GineSpec.h2 (fun r a => V c (Pipeline.arrRef spec4 0) (ix2 r a)) (fun a c' => V c (Pipeline.arrRef spec4 1) (ix2 a c'))
          (fun c' => V c (Pipeline.arrRef spec4 2) (ix2 (0 : Fin 1) c')) (fun c' j' => V c (Pipeline.arrRef spec4 3) (ix2 c' j'))
          (fun j' => V c (Pipeline.arrRef spec4 4) (ix2 (0 : Fin 1) j')) r j := by
  rw [arrAt4_5]
  rfl

/-- The first row vector after the region: the column sums of that table. -/
theorem stage1_4_sum (c : Dev nD) (j : Fin 256) :
    ((dat4 V c).arrAt 6 cfg4.N : S1x256.Idx → EReal) (ix2 (0 : Fin 1) j)
      = ∑ r : Fin 50000, GineSpec.h2 (fun r a => V c (Pipeline.arrRef spec4 0) (ix2 r a)) (fun a c' => V c (Pipeline.arrRef spec4 1) (ix2 a c'))
          (fun c' => V c (Pipeline.arrRef spec4 2) (ix2 (0 : Fin 1) c')) (fun c' j' => V c (Pipeline.arrRef spec4 3) (ix2 c' j'))
          (fun j' => V c (Pipeline.arrRef spec4 4) (ix2 (0 : Fin 1) j')) r j := by
  rw [arrAt4_6]
  rfl

/-- The second row vector after the region: the column sums of the squares of that table. -/
theorem stage1_4_sumsq (c : Dev nD) (j : Fin 256) :
    ((dat4 V c).arrAt 7 cfg4.N : S1x256.Idx → EReal) (ix2 (0 : Fin 1) j)
      = ∑ r : Fin 50000, GineSpec.h2 (fun r a => V c (Pipeline.arrRef spec4 0) (ix2 r a)) (fun a c' => V c (Pipeline.arrRef spec4 1) (ix2 a c'))
          (fun c' => V c (Pipeline.arrRef spec4 2) (ix2 (0 : Fin 1) c')) (fun c' j' => V c (Pipeline.arrRef spec4 3) (ix2 c' j'))
          (fun j' => V c (Pipeline.arrRef spec4 4) (ix2 (0 : Fin 1) j')) r j
        * GineSpec.h2 (fun r a => V c (Pipeline.arrRef spec4 0) (ix2 r a)) (fun a c' => V c (Pipeline.arrRef spec4 1) (ix2 a c'))
          (fun c' => V c (Pipeline.arrRef spec4 2) (ix2 (0 : Fin 1) c')) (fun c' j' => V c (Pipeline.arrRef spec4 3) (ix2 c' j'))
          (fun j' => V c (Pipeline.arrRef spec4 4) (ix2 (0 : Fin 1) j')) r j := by
  rw [arrAt4_7]
  rfl

end Cert.KernelIdeal.RegionValue

end
-- ==== Proof.Region5.lean ====
import proofs.«164030_j60206851555878_1_alg».proof.Proof.Gen.KernelIdeal.Frame
import proofs.«164030_j60206851555878_1_alg».proof.Proof.GineSpec
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen

/-- The normalisation tile at row p, column q: scale · (value − centre) · spread + shift, the four
    row vectors read at column q. -/
theorem bn_tile_apply5 (x : Vec Ideal S2000x256 .f32) (g mu s b : Vec Ideal S1x256 .f32) (p : Fin 2000) (q : Fin 256) :
    k5_pay1 (F := Ideal) x g mu s b (ix2 p q)
      = GineSpec.affine (g (ix2 (0 : Fin 1) q)) (x (ix2 p q)) (mu (ix2 (0 : Fin 1) q)) (s (ix2 (0 : Fin 1) q)) (b (ix2 (0 : Fin 1) q)) := by
  unfold k5_pay1 GineSpec.affine
  simp only [shapeCast_self]
  show (broadcastTo S2000x256 g broadcasts_S1x256_S2000x256 (ix2 p q) * (x (ix2 p q) - broadcastTo S2000x256 mu broadcasts_S1x256_S2000x256 (ix2 p q))) * broadcastTo S2000x256 s broadcasts_S1x256_S2000x256 (ix2 p q) + broadcastTo S2000x256 b broadcasts_S1x256_S2000x256 (ix2 p q) = _
  rw [broadcastTo_1b_ab_apply, broadcastTo_1b_ab_apply, broadcastTo_1b_ab_apply, broadcastTo_1b_ab_apply]

variable (V : (c : Dev nD) → (b : Ref sig .tc) → Buf (Elt Ideal) ((c : Thread nD τ).loc b))

theorem hz2_5 : (![0, 0] : Fin 2 → Nat) = fun _ => 0 := funext fun a => by fin_cases a <;> rfl

/-- Entry (r, j) of the normalised table, from the five arrays the region finds. -/
def bnAt5 (c : Dev nD) (r : Fin 50000) (j : Fin 256) : EReal :=
  GineSpec.affine (V c (Pipeline.arrRef spec5 3) (ix2 (0 : Fin 1) j)) (V c (Pipeline.arrRef spec5 0) (ix2 r j))
    (V c (Pipeline.arrRef spec5 1) (ix2 (0 : Fin 1) j)) (V c (Pipeline.arrRef spec5 2) (ix2 (0 : Fin 1) j))
    (V c (Pipeline.arrRef spec5 4) (ix2 (0 : Fin 1) j))

/-- The normalised table as contents of the output array. -/
def bnArr5 (c : Dev nD) : Buf (Elt Ideal) ((cfg5.win 5).arr.view.loc (c.tc : Thread nD τ)) :=
  fun i => bnAt5 V c (i 0) (i 1)

/-- The block indices of the six windows at every point: the two tables move one tile of rows per
    point, the four row vectors stay. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row r of the table lies in tile r / 2000. -/
theorem tile_row_lt5 (t : Fin cfg5.N) (p : Fin 2000) : t.val * 2000 + p.val < 50000 := by
  have hN : cfg5.N = 25 := N_5
  have := t.isLt; have := p.isLt; omega

/-- The table's tile at a point, read at (p, q): the array at row 2000 · t + p. -/
theorem iblk5_0_apply (c : Dev nD) (t : Fin cfg5.N) (p : Fin 2000) (q : Fin 256) :
    (iblk5 V c 0 t : Vec Ideal S2000x256 .f32) (ix2 p q)
      = V c (Pipeline.arrRef spec5 0) (ix2 (⟨t.val * 2000 + p.val, tile_row_lt5 t p⟩ : Fin 50000) q) := by
  obtain ⟨e0, e1, -⟩ := idx_facts5 t
  unfold iblk5
  rw [View.read_apply]
  show V c (Pipeline.arrRef spec5 0) (((cfg5.win 0).blk t).view.emb (ix2 p q)) = _
  refine congrArg (V c (Pipeline.arrRef spec5 0)) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 256 + 1 * q.val = q.val; rw [e1]; omega

/-- A row vector's block is the whole vector at every point. -/
theorem iblk5_1_apply (c : Dev nD) (t : Fin cfg5.N) (q : Fin 256) :
    (iblk5 V c 1 t : Vec Ideal S1x256 .f32) (ix2 (0 : Fin 1) q) = V c (Pipeline.arrRef spec5 1) (ix2 (0 : Fin 1) q) := by
  have e := idx_facts5 t
  unfold iblk5
  rw [View.read_apply]
  show V c (Pipeline.arrRef spec5 1) (((cfg5.win 1).blk t).view.emb (ix2 (0 : Fin 1) q)) = _
  refine congrArg (V c (Pipeline.arrRef spec5 1)) (funext fun a => Fin.ext ?_)
  match a with
  | ⟨0, _⟩ => show win5_1.index t (0 : Fin 2) * 1 + 1 * 0 = 0; omega
  | ⟨1, _⟩ => show win5_1.index t (1 : Fin 2) * 256 + 1 * q.val = q.val; omega

theorem iblk5_2_apply (c : Dev nD) (t : Fin cfg5.N) (q : Fin 256) :
    (iblk5 V c 2 t : Vec Ideal S1x256 .f32) (ix2 (0 : Fin 1) q) = V c (Pipeline.arrRef spec5 2) (ix2 (0 : Fin 1) q) := by
  have e := idx_facts5 t
  unfold iblk5
  rw [View.read_apply]
  show V c (Pipeline.arrRef spec5 2) (((cfg5.win 2).blk t).view.emb (ix2 (0 : Fin 1) q)) = _
  refine congrArg (V c (Pipeline.arrRef spec5 2)) (funext fun a => Fin.ext ?_)
  match a with
  | ⟨0, _⟩ => show win5_2.index t (0 : Fin 2) * 1 + 1 * 0 = 0; omega
  | ⟨1, _⟩ => show win5_2.index t (1 : Fin 2) * 256 + 1 * q.val = q.val; omega

theorem iblk5_3_apply (c : Dev nD) (t : Fin cfg5.N) (q : Fin 256) :
    (iblk5 V c 3 t : Vec Ideal S1x256 .f32) (ix2 (0 : Fin 1) q) = V c (Pipeline.arrRef spec5 3) (ix2 (0 : Fin 1) q) := by
  have e := idx_facts5 t
  unfold iblk5
  rw [View.read_apply]
  show V c (Pipeline.arrRef spec5 3) (((cfg5.win 3).blk t).view.emb (ix2 (0 : Fin 1) q)) = _
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 256 + 1 * q.val = q.val; omega

theorem iblk5_4_apply (c : Dev nD) (t : Fin cfg5.N) (q : Fin 256) :
    (iblk5 V c 4 t : Vec Ideal S1x256 .f32) (ix2 (0 : Fin 1) q) = V c (Pipeline.arrRef spec5 4) (ix2 (0 : Fin 1) q) := by
  have e := idx_facts5 t
  unfold iblk5
  rw [View.read_apply]
  show V c (Pipeline.arrRef spec5 4) (((cfg5.win 4).blk t).view.emb (ix2 (0 : Fin 1) q)) = _
  refine congrArg (V c (Pipeline.arrRef spec5 4)) (funext fun a => Fin.ext ?_)
  match a with
  | ⟨0, _⟩ => show win5_4.index t (0 : Fin 2) * 1 + 1 * 0 = 0; omega
  | ⟨1, _⟩ => show win5_4.index t (1 : Fin 2) * 256 + 1 * q.val = q.val; omega

/-- The normalised table's tile at a point, read at (p, q): the table at row 2000 · t + p. -/
theorem bnArr5_blk_apply (c : Dev nD) (t : Fin cfg5.N) (p : Fin 2000) (q : Fin 256) :
    (((cfg5.win 5).blk t).view.read (Elt Ideal) (bnArr5 V c) : Vec Ideal S2000x256 .f32) (ix2 p q)
      = bnAt5 V c (⟨t.val * 2000 + p.val, tile_row_lt5 t p⟩ : Fin 50000) q := by
  have e := idx_facts5 t
  rw [View.read_apply]
  show bnAt5 V c ((((cfg5.win 5).blk t).view.emb (ix2 p q)) 0) ((((cfg5.win 5).blk t).view.emb (ix2 p q)) 1) = _
  have h0 : ((((cfg5.win 5).blk t).view.emb (ix2 p q)) 0 : Fin 50000) = ⟨t.val * 2000 + p.val, tile_row_lt5 t p⟩ :=
    Fin.ext (by show win5_5.index t (0 : Fin 2) * 2000 + 1 * p.val = t.val * 2000 + p.val; omega)
  have h1 : ((((cfg5.win 5).blk t).view.emb (ix2 p q)) 1 : Fin 256) = q :=
    Fin.ext (by show win5_5.index t (1 : Fin 2) * 256 + 1 * q.val = q.val; omega)
  exact (congrArg (fun r : Fin 50000 => bnAt5 V c r _) h0).trans (congrArg (fun j : Fin 256 => bnAt5 V c _ j) h1)

/-- What a point writes back is its tile of the normalised table. -/
theorem flushed5_eq (c : Dev nD) (t : Fin cfg5.N) :
    (dat5 V c).flushed 5 t = ((cfg5.win 5).blk t).view.read (Elt Ideal) (bnArr5 V c) := by
  show (cfg5.win 5).cut (grid5.coords t) ((dat5 V c).after 5 t) = _
  rw [after5_5]
  unfold out5_5
  rw [View.canon_unit_zero hz2_5]
  simp only [View.ld_unit_zero (S := S2000x256) hz2_5, View.ld_unit_zero (S := S1x256) hz2_5]
  funext y
  obtain ⟨p, q, rfl⟩ : ∃ (p : Fin 2000) (q : Fin 256), y = ix2 p q := ⟨y 0, y 1, eq_ix2 y⟩
  refine (bn_tile_apply5 (iblk5 V c 0 t) (iblk5 V c 3 t) (iblk5 V c 1 t) (iblk5 V c 2 t) (iblk5 V c 4 t) p q).trans ?_
  refine Eq.trans ?_ (bnArr5_blk_apply V c t p q).symm
  unfold bnAt5
  rw [iblk5_0_apply V c t p q, iblk5_1_apply V c t q, iblk5_2_apply V c t q, iblk5_3_apply V c t q, iblk5_4_apply V c t q]

/-- An index of the output array is in a point's block iff each coordinate is in the block's range. -/
theorem mem_blk5_5 (t : Fin cfg5.N) (i : S50000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole main_v96).slice (win5_5.rect t)).set ↔ _
  rw [View.set_slice_whole, Rect.mem_set_unit]
  exact Iff.rfl

/-- Row r of the output is written back by point r / 2000. -/
theorem cover5_5_arr (i : S50000x256.Idx) :
    ∃ t : Fin cfg5.N, (cfg5.win 5).flush t = true ∧ i ∈ ((cfg5.win 5).blk t).view.set := by
  have hN : cfg5.N = 25 := N_5
  have hi0 : (i 0).val < 50000 := (i 0).isLt
  have hi1 : (i 1).val < 256 := (i 1).isLt
  have ht : (i 0).val / 2000 < cfg5.N := by omega
  refine ⟨⟨(i 0).val / 2000, ht⟩, flush5_5 _, ?_⟩
  rw [mem_blk5_5]
  have e := idx_facts5 ⟨(i 0).val / 2000, ht⟩
  have e10 : win5_5.index ⟨(i 0).val / 2000, ht⟩ (0 : Fin 2) = (i 0).val / 2000 := e.2.2.2.2.2.2.2.2.2.2.1
  have e11 : win5_5.index ⟨(i 0).val / 2000, ht⟩ (1 : Fin 2) = 0 := e.2.2.2.2.2.2.2.2.2.2.2
  intro a
  match a with
  | ⟨0, _⟩ =>
    show win5_5.index ⟨(i 0).val / 2000, ht⟩ (0 : Fin 2) * 2000 ≤ (i 0).val
      ∧ (i 0).val < win5_5.index ⟨(i 0).val / 2000, ht⟩ (0 : Fin 2) * 2000 + 2000
    rw [e10]; omega
  | ⟨1, _⟩ =>
    show win5_5.index ⟨(i 0).val / 2000, ht⟩ (1 : Fin 2) * 256 ≤ (i 1).val
      ∧ (i 1).val < win5_5.index ⟨(i 0).val / 2000, ht⟩ (1 : Fin 2) * 256 + 256
    rw [e11]; omega

/-- The output array after the region is the normalised table. -/
theorem arrAt5_5 (c : Dev nD) : (dat5 V c).arrAt 5 cfg5.N = bnArr5 V c :=
  (dat5 V c).arrAt_eq_of_cover 5 (bnArr5 V c) (fun t _ => flushed5_eq V c t) cover5_5_arr

/-- Entry (r, j) of the output array after the region: scale · (value − centre) · spread + shift of
    the five arrays the region finds (window 0 the table, 1 the centres, 2 the spreads, 3 the scales,
    4 the shifts). -/
theorem bn_5 (c : Dev nD) (r : Fin 50000) (j : Fin 256) :
    ((dat5 V c).arrAt 5 cfg5.N : S50000x256.Idx → EReal) (ix2 r j)
      = GineSpec.affine (V c (Pipeline.arrRef spec5 3) (ix2 (0 : Fin 1) j)) (V c (Pipeline.arrRef spec5 0) (ix2 r j))
          (V c (Pipeline.arrRef spec5 1) (ix2 (0 : Fin 1) j)) (V c (Pipeline.arrRef spec5 2) (ix2 (0 : Fin 1) j))
          (V c (Pipeline.arrRef spec5 4) (ix2 (0 : Fin 1) j)) := by
  rw [arrAt5_5]
  rfl

end Cert.KernelIdeal.RegionValue

end
-- ==== Proof.KResults.lean ====
import proofs.«164030_j60206851555878_1_alg».proof.Proof.KLayers
import proofs.«164030_j60206851555878_1_alg».proof.Proof.Region0
import proofs.«164030_j60206851555878_1_alg».proof.Proof.Region1
import proofs.«164030_j60206851555878_1_alg».proof.Proof.Region2
import proofs.«164030_j60206851555878_1_alg».proof.Proof.Region3
import proofs.«164030_j60206851555878_1_alg».proof.Proof.Region4
import proofs.«164030_j60206851555878_1_alg».proof.Proof.Region5

/-! The two results of the tiled program, from finite float arguments: the pools of the reference's
    three layers applied to the arguments. -/

set_option maxRecDepth 16384
set_option maxHeartbeats 1000000

noncomputable section

open Idealize.ShloMosaic Idealize.SL.Sem GineSpec
open Cert.ReferenceIdeal (ReadLayer.bnR ReadLayer.h2R160 ReadLayer.h2R288 ReadGlue.aggCore160 ReadGlue.aggCore288)
open Cert.KernelIdeal (KValue.srcIdx KValue.dstIdx KValue.pool0 KValue.pool1)

theorem Cert.Bridge.results
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    AllReal (m ((c.tc : Thread Cert.KernelIdeal.nD Cert.KernelIdeal.τ).loc Cert.KernelIdeal.main_arg0)) →
    AllReal (m ((c.tc : Thread Cert.KernelIdeal.nD Cert.KernelIdeal.τ).loc Cert.KernelIdeal.main_arg1)) →
    AllReal (m ((c.tc : Thread Cert.KernelIdeal.nD Cert.KernelIdeal.τ).loc Cert.KernelIdeal.main_arg5)) →
    AllReal (m ((c.tc : Thread Cert.KernelIdeal.nD Cert.KernelIdeal.τ).loc Cert.KernelIdeal.main_arg6)) →
    AllReal (m ((c.tc : Thread Cert.KernelIdeal.nD Cert.KernelIdeal.τ).loc Cert.KernelIdeal.main_arg7)) →
    AllReal (m ((c.tc : Thread Cert.KernelIdeal.nD Cert.KernelIdeal.τ).loc Cert.KernelIdeal.main_arg8)) →
    AllReal (m ((c.tc : Thread Cert.KernelIdeal.nD Cert.KernelIdeal.τ).loc Cert.KernelIdeal.main_arg9)) →
    AllReal (m ((c.tc : Thread Cert.KernelIdeal.nD Cert.KernelIdeal.τ).loc Cert.KernelIdeal.main_arg10)) →
    AllReal (m ((c.tc : Thread Cert.KernelIdeal.nD Cert.KernelIdeal.τ).loc Cert.KernelIdeal.main_arg11)) →
    AllReal (m ((c.tc : Thread Cert.KernelIdeal.nD Cert.KernelIdeal.τ).loc Cert.KernelIdeal.main_arg12)) →
    AllReal (m ((c.tc : Thread Cert.KernelIdeal.nD Cert.KernelIdeal.τ).loc Cert.KernelIdeal.main_arg13)) →
    AllReal (m ((c.tc : Thread Cert.KernelIdeal.nD Cert.KernelIdeal.τ).loc Cert.KernelIdeal.main_arg14)) →
    AllReal (m ((c.tc : Thread Cert.KernelIdeal.nD Cert.KernelIdeal.τ).loc Cert.KernelIdeal.main_arg15)) →
    AllReal (m ((c.tc : Thread Cert.KernelIdeal.nD Cert.KernelIdeal.τ).loc Cert.KernelIdeal.main_arg16)) →
    AllReal (m ((c.tc : Thread Cert.KernelIdeal.nD Cert.KernelIdeal.τ).loc Cert.KernelIdeal.main_arg17)) →
    AllReal (m ((c.tc : Thread Cert.KernelIdeal.nD Cert.KernelIdeal.τ).loc Cert.KernelIdeal.main_arg18)) →
    AllReal (m ((c.tc : Thread Cert.KernelIdeal.nD Cert.KernelIdeal.τ).loc Cert.KernelIdeal.main_arg19)) →
    AllReal (m ((c.tc : Thread Cert.KernelIdeal.nD Cert.KernelIdeal.τ).loc Cert.KernelIdeal.main_arg20)) →
    AllReal (m ((c.tc : Thread Cert.KernelIdeal.nD Cert.KernelIdeal.τ).loc Cert.KernelIdeal.main_arg21)) →
    AllReal (m ((c.tc : Thread Cert.KernelIdeal.nD Cert.KernelIdeal.τ).loc Cert.KernelIdeal.main_arg22)) →
    Cert.KernelIdeal.Gen.W19 m ρ c (Proc.devRef .tc Cert.KernelIdeal.main_v116) = KValue.pool0 (F := Ideal) (ReadLayer.bnR (ReadLayer.h2R288 (ReadGlue.aggCore288 (ReadLayer.bnR (ReadLayer.h2R288 (ReadGlue.aggCore288 (ReadLayer.bnR (ReadLayer.h2R160 (ReadGlue.aggCore160 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (KValue.srcIdx (F := Ideal) (m ((c.tc : Thread Cert.KernelIdeal.nD Cert.KernelIdeal.τ).loc Cert.KernelIdeal.main_arg2))) (KValue.dstIdx (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg1)) (KValue.srcIdx (F := Ideal) (m ((c.tc : Thread Cert.KernelIdeal.nD Cert.KernelIdeal.τ).loc Cert.KernelIdeal.main_arg2))) (KValue.dstIdx (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg1)) (KValue.srcIdx (F := Ideal) (m ((c.tc : Thread Cert.KernelIdeal.nD Cert.KernelIdeal.τ).loc Cert.KernelIdeal.main_arg2))) (KValue.dstIdx (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (m ((c.tc : Thread Cert.KernelIdeal.nD Cert.KernelIdeal.τ).loc Cert.KernelIdeal.main_arg3))
    ∧ Cert.KernelIdeal.Gen.W19 m ρ c (Proc.devRef .tc Cert.KernelIdeal.main_v136) = KValue.pool1 (F := Ideal) (ReadLayer.bnR (ReadLayer.h2R288 (ReadGlue.aggCore288 (ReadLayer.bnR (ReadLayer.h2R288 (ReadGlue.aggCore288 (ReadLayer.bnR (ReadLayer.h2R160 (ReadGlue.aggCore160 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (KValue.srcIdx (F := Ideal) (m ((c.tc : Thread Cert.KernelIdeal.nD Cert.KernelIdeal.τ).loc Cert.KernelIdeal.main_arg2))) (KValue.dstIdx (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg1)) (KValue.srcIdx (F := Ideal) (m ((c.tc : Thread Cert.KernelIdeal.nD Cert.KernelIdeal.τ).loc Cert.KernelIdeal.main_arg2))) (KValue.dstIdx (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg1)) (KValue.srcIdx (F := Ideal) (m ((c.tc : Thread Cert.KernelIdeal.nD Cert.KernelIdeal.τ).loc Cert.KernelIdeal.main_arg2))) (KValue.dstIdx (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (m ((c.tc : Thread Cert.KernelIdeal.nD Cert.KernelIdeal.τ).loc Cert.KernelIdeal.main_arg4)) := by
  intro f0 f1 f5 f6 f7 f8 f9 f10 f11 f12 f13 f14 f15 f16 f17 f18 f19 f20 f21 f22
  exact Cert.KernelIdeal.KLayers.results_of m ρ c ⟨Cert.KernelIdeal.RegionValue.stage1_0_h _ c, Cert.KernelIdeal.RegionValue.stage1_0_sum _ c, Cert.KernelIdeal.RegionValue.stage1_0_sumsq _ c⟩ (Cert.KernelIdeal.RegionValue.bn_1 _ c) ⟨Cert.KernelIdeal.RegionValue.stage1_2_h _ c, Cert.KernelIdeal.RegionValue.stage1_2_sum _ c, Cert.KernelIdeal.RegionValue.stage1_2_sumsq _ c⟩ (Cert.KernelIdeal.RegionValue.bn_3 _ c) ⟨Cert.KernelIdeal.RegionValue.stage1_4_h _ c, Cert.KernelIdeal.RegionValue.stage1_4_sum _ c, Cert.KernelIdeal.RegionValue.stage1_4_sumsq _ c⟩ (Cert.KernelIdeal.RegionValue.bn_5 _ c)
    ⟨f0, f1, f5, f6, f7, f8, f9, f10, f11, f12, f13, f14, f15, f16, f17, f18, f19, f20, f21, f22⟩

end
-- ==== Proof.RefBase.lean ====
/- Lists of operations: a property over a concatenation, the buffers' contents after two lines in a row,
   and the buffers a line leaves alone. -/
import Idealize.ShloMosaic.Lib.StableHlo.Run

namespace Cert.ReferenceIdeal.RefValue

open Idealize.ShloMosaic Idealize.ShloMosaic.StableHlo

variable {T : Topo} {sg : RefSig} {Val : EltTy → Type}

/-- A property of every element of two lists holds of every element of their concatenation. -/
theorem forall_append' {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

/-- The contents after two lines in a row: the second line's after the first's. -/
theorem after_append' : ∀ (l₁ l₂ : List (HloOp T sg Val)) (V : Valuation T sg Val), after (l₁ ++ l₂) V = after l₂ (after l₁ V)
  | [], _, _ => rfl
  | op :: l₁, l₂, V => by rw [List.cons_append, after_cons, after_cons, after_append' l₁ l₂]

/-- An operation whose one written buffer is in a list writes inside the list. -/
theorem writes_sub' {W : List (Ref sg .tc)} {y : Ref sg .tc} {op : HloOp T sg Val} (h : op.writes = {Proc.devRef .tc y}) (hy : y ∈ W) :
    op.writes ⊆ (W.map (Proc.devRef (τ := T) .tc)).toFinset := by
  rw [h, Finset.singleton_subset_iff, List.mem_toFinset]
  exact List.mem_map.mpr ⟨y, hy, rfl⟩

end Cert.ReferenceIdeal.RefValue
-- ==== Proof.RefOps.lean ====
/- The reference program as lists of host operations: the four windows of its entry function, in order,
   each call replaced at its site by the callee's operations over that call's buffers; the entry function is the
   straight line of their concatenation. -/
import proofs.«164030_j60206851555878_1_alg».proof.Proof.Gen.ReferenceIdeal
import proofs.«164030_j60206851555878_1_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Window 0 of the entry function: 87 operations, in order. -/
abbrev ops0 : List (HloOp τ sig (Elt F)) :=
  [ StableHlo.unary main_arg2 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg2 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000,
    StableHlo.nullary main_c (constantI S_ 32 0#32),
    StableHlo.unary main_c main_v4 (broadcastInDim S200000 ![] bcast_S_S200000 : (⟨S_, .i32⟩ : BufTy).Contents (Elt F) → (⟨S200000, .i32⟩ : BufTy).Contents (Elt F)),
    StableHlo.binary main_v1 main_v4 main_v5 (cmpi .slt : (⟨S200000, .i32⟩ : BufTy).Contents (Elt F) → (⟨S200000, .i32⟩ : BufTy).Contents (Elt F) → (⟨S200000, .i1⟩ : BufTy).Contents (Elt F)),
    StableHlo.nullary main_c_0 (constantI S_ 32 50000#32),
    StableHlo.unary main_c_0 main_v6 (broadcastInDim S200000 ![] bcast_S_S200000 : (⟨S_, .i32⟩ : BufTy).Contents (Elt F) → (⟨S200000, .i32⟩ : BufTy).Contents (Elt F)),
    StableHlo.binary main_v1 main_v6 main_v7 (addi : (⟨S200000, .i32⟩ : BufTy).Contents (Elt F) → (⟨S200000, .i32⟩ : BufTy).Contents (Elt F) → (⟨S200000, .i32⟩ : BufTy).Contents (Elt F)),
    StableHlo.ternary main_v5 main_v7 main_v1 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v8 main_v9 (broadcastInDim S200000x1 ![0] bcast_S200000_S200000x1_0 : (⟨S200000, .i32⟩ : BufTy).Contents (Elt F) → (⟨S200000x1, .i32⟩ : BufTy).Contents (Elt F)),
    StableHlo.binary main_arg0 main_v9 main_v10 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.binary main_v10 main_arg1 main_v11 ((fun a b => concatenate S200000x160 1 [⟨S200000x128, a⟩, ⟨S200000x32, b⟩] concatenates_S200000x128_S200000x32_S200000x160_d1) : (⟨S200000x128, .f32⟩ : BufTy).Contents (Elt F) → (⟨S200000x32, .f32⟩ : BufTy).Contents (Elt F) → (⟨S200000x160, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S200000x160, .f32⟩) (broadcastInDim S200000x160 ![] bcast_S_S200000x160),
    StableHlo.TRef.binary (.of main_v11 : StableHlo.TRef sig ⟨S200000x160, .f32⟩) (.of main_call0_v0 : StableHlo.TRef sig ⟨S200000x160, .f32⟩) (.of main_v12 : StableHlo.TRef sig ⟨S200000x160, .f32⟩) maximumf,
    StableHlo.nullary main_cst (constant S_ .f32 0x00000000#32),
    StableHlo.unary main_cst main_v13 (broadcastInDim S50000x160 ![] bcast_S_S50000x160 : (⟨S_, .f32⟩ : BufTy).Contents (Elt F) → (⟨S50000x160, .f32⟩ : BufTy).Contents (Elt F)),
    StableHlo.unary main_v3 main_v14 (broadcastInDim S200000x1 ![0] bcast_S200000_S200000x1_0 : (⟨S200000, .i32⟩ : BufTy).Contents (Elt F) → (⟨S200000x1, .i32⟩ : BufTy).Contents (Elt F)),
    StableHlo.ternary main_v13 main_v14 main_v12 main_v15 ((fun x i u => Host.scatterAdd scatter_S50000x160_S200000x1_S200000x160_1_0_0_1 x i u) : (⟨S50000x160, .f32⟩ : BufTy).Contents (Elt F) → (⟨S200000x1, .i32⟩ : BufTy).Contents (Elt F) → (⟨S200000x160, .f32⟩ : BufTy).Contents (Elt F) → (⟨S50000x160, .f32⟩ : BufTy).Contents (Elt F)),
    StableHlo.nullary main_cst_1 (constant S_ .f32 0x3F800000#32),
    StableHlo.unary main_cst_1 main_v16 (broadcastInDim S50000x128 ![] bcast_S_S50000x128 : (⟨S_, .f32⟩ : BufTy).Contents (Elt F) → (⟨S50000x128, .f32⟩ : BufTy).Contents (Elt F)),
    StableHlo.binary main_v16 main_arg0 main_v17 (mulf : (⟨S50000x128, .f32⟩ : BufTy).Contents (Elt F) → (⟨S50000x128, .f32⟩ : BufTy).Contents (Elt F) → (⟨S50000x128, .f32⟩ : BufTy).Contents (Elt F)),
    StableHlo.nullary main_c_2 (constantI S_ 32 0#32),
    StableHlo.unary main_c_2 main_v18 (broadcastInDim S1 ![] bcast_S_S1 : (⟨S_, .i32⟩ : BufTy).Contents (Elt F) → (⟨S1, .i32⟩ : BufTy).Contents (Elt F)),
    StableHlo.ternary main_v15 main_v18 main_v17 main_v19 ((fun x i u => Host.scatter scatter_S50000x160_S1_S50000x128_01_n_1_0 FloatOps.addf x i u) : (⟨S50000x160, .f32⟩ : BufTy).Contents (Elt F) → (⟨S1, .i32⟩ : BufTy).Contents (Elt F) → (⟨S50000x128, .f32⟩ : BufTy).Contents (Elt F) → (⟨S50000x160, .f32⟩ : BufTy).Contents (Elt F)),
    StableHlo.binary main_v19 main_arg5 main_v20 ((fun l r => Host.dotGeneral dot_S50000x160_S160x256_S50000x256_1_0_0_1_n_n none l r) : (⟨S50000x160, .f32⟩ : BufTy).Contents (Elt F) → (⟨S160x256, .f32⟩ : BufTy).Contents (Elt F) → (⟨S50000x256, .f32⟩ : BufTy).Contents (Elt F)),
    StableHlo.unary main_arg6 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v20 main_v22 main_v23 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v23 : StableHlo.TRef sig ⟨S50000x256, .f32⟩) (.of main_call1_v0 : StableHlo.TRef sig ⟨S50000x256, .f32⟩) (.of main_v24 : StableHlo.TRef sig ⟨S50000x256, .f32⟩) maximumf,
    StableHlo.binary main_v24 main_arg7 main_v25 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v25 main_v27 main_v28 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v28 : StableHlo.TRef sig ⟨S50000x256, .f32⟩) (.of main_call2_v0 : StableHlo.TRef sig ⟨S50000x256, .f32⟩) (.of main_v29 : StableHlo.TRef sig ⟨S50000x256, .f32⟩) maximumf,
    StableHlo.nullary main_cst_3 (constant S_ .f32 0x00000000#32),
    StableHlo.binary main_v29 main_cst_3 main_v30 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_4 (constant S_ .f32 0x47435000#32),
    StableHlo.unary main_cst_4 main_v31 (broadcastInDim S256 ![] bcast_S_S256 : (⟨S_, .f32⟩ : BufTy).Contents (Elt F) → (⟨S256, .f32⟩ : BufTy).Contents (Elt F)),
    StableHlo.binary main_v30 main_v31 main_v32 (Host.divf : (⟨S256, .f32⟩ : BufTy).Contents (Elt F) → (⟨S256, .f32⟩ : BufTy).Contents (Elt F) → (⟨S256, .f32⟩ : BufTy).Contents (Elt F)),
    StableHlo.nullary main_c_5 (constantI S_ 32 0#32),
    StableHlo.TRef.nullary (.of main_call3_cst : StableHlo.TRef sig ⟨S_, .f32⟩) (constant S_ .f32 0x00000000#32),
    StableHlo.TRef.binary (.of main_v29 : StableHlo.TRef sig ⟨S50000x256, .f32⟩) (.of main_call3_cst : StableHlo.TRef sig ⟨S_, .f32⟩) (.of main_call3_v0 : StableHlo.TRef sig ⟨S256, .f32⟩) (fun x v => Host.reduceAdd x v reducesTo_S50000x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S50000x256, .f32⟩) (broadcastInDim S50000x256 ![0, 1] bcast_S1x256_S50000x256_0_1),
    StableHlo.TRef.binary (.of main_v29 : StableHlo.TRef sig ⟨S50000x256, .f32⟩) (.of main_call3_v4 : StableHlo.TRef sig ⟨S50000x256, .f32⟩) (.of main_call3_v5 : StableHlo.TRef sig ⟨S50000x256, .f32⟩) subf,
    StableHlo.TRef.binary (.of main_call3_v5 : StableHlo.TRef sig ⟨S50000x256, .f32⟩) (.of main_call3_v5 : StableHlo.TRef sig ⟨S50000x256, .f32⟩) (.of main_call3_v6 : StableHlo.TRef sig ⟨S50000x256, .f32⟩) mulf,
    StableHlo.TRef.unary (.of main_c_5 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x256, .f32⟩) (.of main_call3_cst_2 : StableHlo.TRef sig ⟨S_, .f32⟩) (.of main_call3_v9 : StableHlo.TRef sig ⟨S256, .f32⟩) (fun x v => Host.reduceAdd x v reducesTo_S50000x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v33 : StableHlo.TRef sig ⟨S256, .f32⟩) (fun p a b => select (broadcastInDim S256 ![] bcast_S_S256 p) a b),
    StableHlo.unary main_v32 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v35 main_v36 (subf : (⟨S50000x256, .f32⟩ : BufTy).Contents (Elt F) → (⟨S50000x256, .f32⟩ : BufTy).Contents (Elt F) → (⟨S50000x256, .f32⟩ : BufTy).Contents (Elt F)),
    StableHlo.unary main_arg9 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v36 main_v39 (mulf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x3727C5AC#32),
    StableHlo.unary main_cst_6 main_v40 (broadcastInDim S256 ![] bcast_S_S256 : (⟨S_, .f32⟩ : BufTy).Contents (Elt F) → (⟨S256, .f32⟩ : BufTy).Contents (Elt F)),
    StableHlo.binary main_v33 main_v40 main_v41 (addf : (⟨S256, .f32⟩ : BufTy).Contents (Elt F) → (⟨S256, .f32⟩ : BufTy).Contents (Elt F) → (⟨S256, .f32⟩ : BufTy).Contents (Elt F)),
    StableHlo.unary main_v41 main_v42 (Host.rsqrt : (⟨S256, .f32⟩ : BufTy).Contents (Elt F) → (⟨S256, .f32⟩ : BufTy).Contents (Elt F)),
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v44 main_v45 (mulf : (⟨S50000x256, .f32⟩ : BufTy).Contents (Elt F) → (⟨S50000x256, .f32⟩ : BufTy).Contents (Elt F) → (⟨S50000x256, .f32⟩ : BufTy).Contents (Elt F)),
    StableHlo.unary main_arg10 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v47 main_v48 (addf : (⟨S50000x256, .f32⟩ : BufTy).Contents (Elt F) → (⟨S50000x256, .f32⟩ : BufTy).Contents (Elt F) → (⟨S50000x256, .f32⟩ : BufTy).Contents (Elt F)),
    StableHlo.nullary main_c_7 (constantI S_ 32 0#32),
    StableHlo.unary main_c_7 main_v49 (broadcastInDim S200000 ![] bcast_S_S200000 : (⟨S_, .i32⟩ : BufTy).Contents (Elt F) → (⟨S200000, .i32⟩ : BufTy).Contents (Elt F)) ]

theorem ops0_sub : (ops0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window is that straight line: the callees' definitions unfolded at their calls, sequencing reassociated. -/
theorem main_part0_eq (c : Dev nD) : main_part0 (F := F) c = seq ops0 := by
  simp only [main_part0, fn_relu.body, fn_relu_0.body, fn_var.body, fn_where.body, seq, bind_assoc, pure_bind, bind_pure_unit]

/-- Window 1 of the entry function: 87 operations, in order. -/
abbrev ops1 : List (HloOp τ sig (Elt F)) :=
  [ StableHlo.binary main_v1 main_v49 main_v50 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 50000#32),
    StableHlo.unary main_c_8 main_v51 (broadcastInDim S200000 ![] bcast_S_S200000 : (⟨S_, .i32⟩ : BufTy).Contents (Elt F) → (⟨S200000, .i32⟩ : BufTy).Contents (Elt F)),
    StableHlo.binary main_v1 main_v51 main_v52 (addi : (⟨S200000, .i32⟩ : BufTy).Contents (Elt F) → (⟨S200000, .i32⟩ : BufTy).Contents (Elt F) → (⟨S200000, .i32⟩ : BufTy).Contents (Elt F)),
    StableHlo.ternary main_v50 main_v52 main_v1 main_v53 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v53 main_v54 (broadcastInDim S200000x1 ![0] bcast_S200000_S200000x1_0 : (⟨S200000, .i32⟩ : BufTy).Contents (Elt F) → (⟨S200000x1, .i32⟩ : BufTy).Contents (Elt F)),
    StableHlo.binary main_v48 main_v54 main_v55 ((fun x i => Host.gather gather_S50000x256_S200000x1_S200000x256_1_0_n_n_0_1_1256 x i) : (⟨S50000x256, .f32⟩ : BufTy).Contents (Elt F) → (⟨S200000x1, .i32⟩ : BufTy).Contents (Elt F) → (⟨S200000x256, .f32⟩ : BufTy).Contents (Elt F)),
    StableHlo.binary main_v55 main_arg1 main_v56 ((fun a b => concatenate S200000x288 1 [⟨S200000x256, a⟩, ⟨S200000x32, b⟩] concatenates_S200000x256_S200000x32_S200000x288_d1) : (⟨S200000x256, .f32⟩ : BufTy).Contents (Elt F) → (⟨S200000x32, .f32⟩ : BufTy).Contents (Elt F) → (⟨S200000x288, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S200000x288, .f32⟩) (broadcastInDim S200000x288 ![] bcast_S_S200000x288),
    StableHlo.TRef.binary (.of main_v56 : StableHlo.TRef sig ⟨S200000x288, .f32⟩) (.of main_call4_v0 : StableHlo.TRef sig ⟨S200000x288, .f32⟩) (.of main_v57 : StableHlo.TRef sig ⟨S200000x288, .f32⟩) maximumf,
    StableHlo.nullary main_cst_9 (constant S_ .f32 0x00000000#32),
    StableHlo.unary main_cst_9 main_v58 (broadcastInDim S50000x288 ![] bcast_S_S50000x288 : (⟨S_, .f32⟩ : BufTy).Contents (Elt F) → (⟨S50000x288, .f32⟩ : BufTy).Contents (Elt F)),
    StableHlo.unary main_v3 main_v59 (broadcastInDim S200000x1 ![0] bcast_S200000_S200000x1_0 : (⟨S200000, .i32⟩ : BufTy).Contents (Elt F) → (⟨S200000x1, .i32⟩ : BufTy).Contents (Elt F)),
    StableHlo.ternary main_v58 main_v59 main_v57 main_v60 ((fun x i u => Host.scatterAdd scatter_S50000x288_S200000x1_S200000x288_1_0_0_1 x i u) : (⟨S50000x288, .f32⟩ : BufTy).Contents (Elt F) → (⟨S200000x1, .i32⟩ : BufTy).Contents (Elt F) → (⟨S200000x288, .f32⟩ : BufTy).Contents (Elt F) → (⟨S50000x288, .f32⟩ : BufTy).Contents (Elt F)),
    StableHlo.nullary main_cst_10 (constant S_ .f32 0x3F800000#32),
    StableHlo.unary main_cst_10 main_v61 (broadcastInDim S50000x256 ![] bcast_S_S50000x256 : (⟨S_, .f32⟩ : BufTy).Contents (Elt F) → (⟨S50000x256, .f32⟩ : BufTy).Contents (Elt F)),
    StableHlo.binary main_v61 main_v48 main_v62 (mulf : (⟨S50000x256, .f32⟩ : BufTy).Contents (Elt F) → (⟨S50000x256, .f32⟩ : BufTy).Contents (Elt F) → (⟨S50000x256, .f32⟩ : BufTy).Contents (Elt F)),
    StableHlo.nullary main_c_11 (constantI S_ 32 0#32),
    StableHlo.unary main_c_11 main_v63 (broadcastInDim S1 ![] bcast_S_S1 : (⟨S_, .i32⟩ : BufTy).Contents (Elt F) → (⟨S1, .i32⟩ : BufTy).Contents (Elt F)),
    StableHlo.ternary main_v60 main_v63 main_v62 main_v64 ((fun x i u => Host.scatter scatter_S50000x288_S1_S50000x256_01_n_1_0 FloatOps.addf x i u) : (⟨S50000x288, .f32⟩ : BufTy).Contents (Elt F) → (⟨S1, .i32⟩ : BufTy).Contents (Elt F) → (⟨S50000x256, .f32⟩ : BufTy).Contents (Elt F) → (⟨S50000x288, .f32⟩ : BufTy).Contents (Elt F)),
    StableHlo.binary main_v64 main_arg11 main_v65 ((fun l r => Host.dotGeneral dot_S50000x288_S288x256_S50000x256_1_0_0_1_n_n none l r) : (⟨S50000x288, .f32⟩ : BufTy).Contents (Elt F) → (⟨S288x256, .f32⟩ : BufTy).Contents (Elt F) → (⟨S50000x256, .f32⟩ : BufTy).Contents (Elt F)),
    StableHlo.unary main_arg12 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S50000x256 ![0, 1] bcast_S1x256_S50000x256_0_1 : (⟨S1x256, .f32⟩ : BufTy).Contents (Elt F) → (⟨S50000x256, .f32⟩ : BufTy).Contents (Elt F)),
    StableHlo.binary main_v65 main_v67 main_v68 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x256, .f32⟩) (broadcastInDim S50000x256 ![] bcast_S_S50000x256),
    StableHlo.TRef.binary (.of main_v68 : StableHlo.TRef sig ⟨S50000x256, .f32⟩) (.of main_call5_v0 : StableHlo.TRef sig ⟨S50000x256, .f32⟩) (.of main_v69 : StableHlo.TRef sig ⟨S50000x256, .f32⟩) maximumf,
    StableHlo.binary main_v69 main_arg13 main_v70 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg14 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v72 main_v73 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x256, .f32⟩) (broadcastInDim S50000x256 ![] bcast_S_S50000x256),
    StableHlo.TRef.binary (.of main_v73 : StableHlo.TRef sig ⟨S50000x256, .f32⟩) (.of main_call6_v0 : StableHlo.TRef sig ⟨S50000x256, .f32⟩) (.of main_v74 : StableHlo.TRef sig ⟨S50000x256, .f32⟩) maximumf,
    StableHlo.nullary main_cst_12 (constant S_ .f32 0x00000000#32),
    StableHlo.binary main_v74 main_cst_12 main_v75 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v76 (broadcastInDim S256 ![] bcast_S_S256 : (⟨S_, .f32⟩ : BufTy).Contents (Elt F) → (⟨S256, .f32⟩ : BufTy).Contents (Elt F)),
    StableHlo.binary main_v75 main_v76 main_v77 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary (.of main_call7_cst : StableHlo.TRef sig ⟨S_, .f32⟩) (constant S_ .f32 0x00000000#32),
    StableHlo.TRef.binary (.of main_v74 : StableHlo.TRef sig ⟨S50000x256, .f32⟩) (.of main_call7_cst : StableHlo.TRef sig ⟨S_, .f32⟩) (.of main_call7_v0 : StableHlo.TRef sig ⟨S256, .f32⟩) (fun x v => Host.reduceAdd x v reducesTo_S50000x256_S256_d0 h_S_),
    StableHlo.TRef.unary (.of main_call7_v0 : StableHlo.TRef sig ⟨S256, .f32⟩) (.of main_call7_v1 : StableHlo.TRef sig ⟨S1x256, .f32⟩) (broadcastInDim S1x256 ![1] bcast_S256_S1x256_1),
    StableHlo.TRef.nullary (.of main_call7_cst_0 : StableHlo.TRef sig ⟨S_, .f32⟩) (constant S_ .f32 0x47435000#32),
    StableHlo.TRef.unary (.of main_call7_cst_0 : StableHlo.TRef sig ⟨S_, .f32⟩) (.of main_call7_v2 : StableHlo.TRef sig ⟨S1x256, .f32⟩) (broadcastInDim S1x256 ![] bcast_S_S1x256),
    StableHlo.TRef.binary (.of main_call7_v1 : StableHlo.TRef sig ⟨S1x256, .f32⟩) (.of main_call7_v2 : StableHlo.TRef sig ⟨S1x256, .f32⟩) (.of main_call7_v3 : StableHlo.TRef sig ⟨S1x256, .f32⟩) Host.divf,
    StableHlo.TRef.unary (.of main_call7_v3 : StableHlo.TRef sig ⟨S1x256, .f32⟩) (.of main_call7_v4 : StableHlo.TRef sig ⟨S50000x256, .f32⟩) (broadcastInDim S50000x256 ![0, 1] bcast_S1x256_S50000x256_0_1),
    StableHlo.TRef.binary (.of main_v74 : StableHlo.TRef sig ⟨S50000x256, .f32⟩) (.of main_call7_v4 : StableHlo.TRef sig ⟨S50000x256, .f32⟩) (.of main_call7_v5 : StableHlo.TRef sig ⟨S50000x256, .f32⟩) subf,
    StableHlo.TRef.binary (.of main_call7_v5 : StableHlo.TRef sig ⟨S50000x256, .f32⟩) (.of main_call7_v5 : StableHlo.TRef sig ⟨S50000x256, .f32⟩) (.of main_call7_v6 : StableHlo.TRef sig ⟨S50000x256, .f32⟩) mulf,
    StableHlo.TRef.unary (.of main_c_14 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47435000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S50000x256, .f32⟩) (.of main_call7_cst_2 : StableHlo.TRef sig ⟨S_, .f32⟩) (.of main_call7_v9 : StableHlo.TRef sig ⟨S256, .f32⟩) (fun x v => Host.reduceAdd x v reducesTo_S50000x256_S256_d0 h_S_),
    StableHlo.TRef.unary (.of main_call7_v8 : StableHlo.TRef sig ⟨S_, .f32⟩) (.of main_call7_v10 : StableHlo.TRef sig ⟨S256, .f32⟩) (broadcastInDim S256 ![] bcast_S_S256),
    StableHlo.TRef.binary (.of main_call7_v9 : StableHlo.TRef sig ⟨S256, .f32⟩) (.of main_call7_v10 : StableHlo.TRef sig ⟨S256, .f32⟩) (.of main_call7_v11 : StableHlo.TRef sig ⟨S256, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S256, .f32⟩) (broadcastInDim S256 ![] bcast_S_S256),
    StableHlo.TRef.ternary (.of main_call7_v12 : StableHlo.TRef sig ⟨S_, .i1⟩) (.of main_call7_v11 : StableHlo.TRef sig ⟨S256, .f32⟩) (.of main_call7_call0_v1 : StableHlo.TRef sig ⟨S256, .f32⟩) (.of main_v78 : StableHlo.TRef sig ⟨S256, .f32⟩) (fun p a b => select (broadcastInDim S256 ![] bcast_S_S256 p) a b),
    StableHlo.unary main_v77 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S50000x256 ![0, 1] bcast_S1x256_S50000x256_0_1 : (⟨S1x256, .f32⟩ : BufTy).Contents (Elt F) → (⟨S50000x256, .f32⟩ : BufTy).Contents (Elt F)),
    StableHlo.binary main_v74 main_v80 main_v81 (subf : (⟨S50000x256, .f32⟩ : BufTy).Contents (Elt F) → (⟨S50000x256, .f32⟩ : BufTy).Contents (Elt F) → (⟨S50000x256, .f32⟩ : BufTy).Contents (Elt F)),
    StableHlo.unary main_arg15 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v81 main_v84 (mulf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v85 (broadcastInDim S256 ![] bcast_S_S256 : (⟨S_, .f32⟩ : BufTy).Contents (Elt F) → (⟨S256, .f32⟩ : BufTy).Contents (Elt F)),
    StableHlo.binary main_v78 main_v85 main_v86 (addf : (⟨S256, .f32⟩ : BufTy).Contents (Elt F) → (⟨S256, .f32⟩ : BufTy).Contents (Elt F) → (⟨S256, .f32⟩ : BufTy).Contents (Elt F)),
    StableHlo.unary main_v86 main_v87 (Host.rsqrt : (⟨S256, .f32⟩ : BufTy).Contents (Elt F) → (⟨S256, .f32⟩ : BufTy).Contents (Elt F)),
    StableHlo.unary main_v87 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S50000x256 ![0, 1] bcast_S1x256_S50000x256_0_1 : (⟨S1x256, .f32⟩ : BufTy).Contents (Elt F) → (⟨S50000x256, .f32⟩ : BufTy).Contents (Elt F)),
    StableHlo.binary main_v84 main_v89 main_v90 (mulf : (⟨S50000x256, .f32⟩ : BufTy).Contents (Elt F) → (⟨S50000x256, .f32⟩ : BufTy).Contents (Elt F) → (⟨S50000x256, .f32⟩ : BufTy).Contents (Elt F)),
    StableHlo.unary main_arg16 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S50000x256 ![0, 1] bcast_S1x256_S50000x256_0_1 : (⟨S1x256, .f32⟩ : BufTy).Contents (Elt F) → (⟨S50000x256, .f32⟩ : BufTy).Contents (Elt F)),
    StableHlo.binary main_v90 main_v92 main_v93 (addf : (⟨S50000x256, .f32⟩ : BufTy).Contents (Elt F) → (⟨S50000x256, .f32⟩ : BufTy).Contents (Elt F) → (⟨S50000x256, .f32⟩ : BufTy).Contents (Elt F)),
    StableHlo.nullary main_c_16 (constantI S_ 32 0#32),
    StableHlo.unary main_c_16 main_v94 (broadcastInDim S200000 ![] bcast_S_S200000 : (⟨S_, .i32⟩ : BufTy).Contents (Elt F) → (⟨S200000, .i32⟩ : BufTy).Contents (Elt F)),
    StableHlo.binary main_v1 main_v94 main_v95 (cmpi .slt : (⟨S200000, .i32⟩ : BufTy).Contents (Elt F) → (⟨S200000, .i32⟩ : BufTy).Contents (Elt F) → (⟨S200000, .i1⟩ : BufTy).Contents (Elt F)),
    StableHlo.nullary main_c_17 (constantI S_ 32 50000#32),
    StableHlo.unary main_c_17 main_v96 (broadcastInDim S200000 ![] bcast_S_S200000 : (⟨S_, .i32⟩ : BufTy).Contents (Elt F) → (⟨S200000, .i32⟩ : BufTy).Contents (Elt F)),
    StableHlo.binary main_v1 main_v96 main_v97 (addi : (⟨S200000, .i32⟩ : BufTy).Contents (Elt F) → (⟨S200000, .i32⟩ : BufTy).Contents (Elt F) → (⟨S200000, .i32⟩ : BufTy).Contents (Elt F)),
    StableHlo.ternary main_v95 main_v97 main_v1 main_v98 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v98 main_v99 (broadcastInDim S200000x1 ![0] bcast_S200000_S200000x1_0 : (⟨S200000, .i32⟩ : BufTy).Contents (Elt F) → (⟨S200000x1, .i32⟩ : BufTy).Contents (Elt F)) ]

theorem ops1_sub : (ops1 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window is that straight line: the callees' definitions unfolded at their calls, sequencing reassociated. -/
theorem main_part1_eq (c : Dev nD) : main_part1 (F := F) c = seq ops1 := by
  simp only [main_part1, fn_relu_1.body, fn_relu_0.body, fn_var.body, fn_where.body, seq, bind_assoc, pure_bind, bind_pure_unit]

/-- Window 2 of the entry function: 87 operations, in order. -/
abbrev ops2 : List (HloOp τ sig (Elt F)) :=
  [ StableHlo.binary main_v93 main_v99 main_v100 ((fun x i => Host.gather gather_S50000x256_S200000x1_S200000x256_1_0_n_n_0_1_1256 x i) : (⟨S50000x256, .f32⟩ : BufTy).Contents (Elt F) → (⟨S200000x1, .i32⟩ : BufTy).Contents (Elt F) → (⟨S200000x256, .f32⟩ : BufTy).Contents (Elt F)),
    StableHlo.binary main_v100 main_arg1 main_v101 ((fun a b => concatenate S200000x288 1 [⟨S200000x256, a⟩, ⟨S200000x32, b⟩] concatenates_S200000x256_S200000x32_S200000x288_d1) : (⟨S200000x256, .f32⟩ : BufTy).Contents (Elt F) → (⟨S200000x32, .f32⟩ : BufTy).Contents (Elt F) → (⟨S200000x288, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S200000x288, .f32⟩) (broadcastInDim S200000x288 ![] bcast_S_S200000x288),
    StableHlo.TRef.binary (.of main_v101 : StableHlo.TRef sig ⟨S200000x288, .f32⟩) (.of main_call8_v0 : StableHlo.TRef sig ⟨S200000x288, .f32⟩) (.of main_v102 : StableHlo.TRef sig ⟨S200000x288, .f32⟩) maximumf,
    StableHlo.nullary main_cst_18 (constant S_ .f32 0x00000000#32),
    StableHlo.unary main_cst_18 main_v103 (broadcastInDim S50000x288 ![] bcast_S_S50000x288 : (⟨S_, .f32⟩ : BufTy).Contents (Elt F) → (⟨S50000x288, .f32⟩ : BufTy).Contents (Elt F)),
    StableHlo.unary main_v3 main_v104 (broadcastInDim S200000x1 ![0] bcast_S200000_S200000x1_0 : (⟨S200000, .i32⟩ : BufTy).Contents (Elt F) → (⟨S200000x1, .i32⟩ : BufTy).Contents (Elt F)),
    StableHlo.ternary main_v103 main_v104 main_v102 main_v105 ((fun x i u => Host.scatterAdd scatter_S50000x288_S200000x1_S200000x288_1_0_0_1 x i u) : (⟨S50000x288, .f32⟩ : BufTy).Contents (Elt F) → (⟨S200000x1, .i32⟩ : BufTy).Contents (Elt F) → (⟨S200000x288, .f32⟩ : BufTy).Contents (Elt F) → (⟨S50000x288, .f32⟩ : BufTy).Contents (Elt F)),
    StableHlo.nullary main_cst_19 (constant S_ .f32 0x3F800000#32),
    StableHlo.unary main_cst_19 main_v106 (broadcastInDim S50000x256 ![] bcast_S_S50000x256 : (⟨S_, .f32⟩ : BufTy).Contents (Elt F) → (⟨S50000x256, .f32⟩ : BufTy).Contents (Elt F)),
    StableHlo.binary main_v106 main_v93 main_v107 (mulf : (⟨S50000x256, .f32⟩ : BufTy).Contents (Elt F) → (⟨S50000x256, .f32⟩ : BufTy).Contents (Elt F) → (⟨S50000x256, .f32⟩ : BufTy).Contents (Elt F)),
    StableHlo.nullary main_c_20 (constantI S_ 32 0#32),
    StableHlo.unary main_c_20 main_v108 (broadcastInDim S1 ![] bcast_S_S1 : (⟨S_, .i32⟩ : BufTy).Contents (Elt F) → (⟨S1, .i32⟩ : BufTy).Contents (Elt F)),
    StableHlo.ternary main_v105 main_v108 main_v107 main_v109 ((fun x i u => Host.scatter scatter_S50000x288_S1_S50000x256_01_n_1_0 FloatOps.addf x i u) : (⟨S50000x288, .f32⟩ : BufTy).Contents (Elt F) → (⟨S1, .i32⟩ : BufTy).Contents (Elt F) → (⟨S50000x256, .f32⟩ : BufTy).Contents (Elt F) → (⟨S50000x288, .f32⟩ : BufTy).Contents (Elt F)),
    StableHlo.binary main_v109 main_arg17 main_v110 ((fun l r => Host.dotGeneral dot_S50000x288_S288x256_S50000x256_1_0_0_1_n_n none l r) : (⟨S50000x288, .f32⟩ : BufTy).Contents (Elt F) → (⟨S288x256, .f32⟩ : BufTy).Contents (Elt F) → (⟨S50000x256, .f32⟩ : BufTy).Contents (Elt F)),
    StableHlo.unary main_arg18 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v110 main_v112 main_v113 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x256, .f32⟩) (broadcastInDim S50000x256 ![] bcast_S_S50000x256),
    StableHlo.TRef.binary (.of main_v113 : StableHlo.TRef sig ⟨S50000x256, .f32⟩) (.of main_call9_v0 : StableHlo.TRef sig ⟨S50000x256, .f32⟩) (.of main_v114 : StableHlo.TRef sig ⟨S50000x256, .f32⟩) maximumf,
    StableHlo.binary main_v114 main_arg19 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg20 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v115 main_v117 main_v118 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S50000x256, .f32⟩) (broadcastInDim S50000x256 ![] bcast_S_S50000x256),
    StableHlo.TRef.binary (.of main_v118 : StableHlo.TRef sig ⟨S50000x256, .f32⟩) (.of main_call10_v0 : StableHlo.TRef sig ⟨S50000x256, .f32⟩) (.of main_v119 : StableHlo.TRef sig ⟨S50000x256, .f32⟩) maximumf,
    StableHlo.nullary main_cst_21 (constant S_ .f32 0x00000000#32),
    StableHlo.binary main_v119 main_cst_21 main_v120 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_22 (constant S_ .f32 0x47435000#32),
    StableHlo.unary main_cst_22 main_v121 (broadcastInDim S256 ![] bcast_S_S256 : (⟨S_, .f32⟩ : BufTy).Contents (Elt F) → (⟨S256, .f32⟩ : BufTy).Contents (Elt F)),
    StableHlo.binary main_v120 main_v121 main_v122 (Host.divf : (⟨S256, .f32⟩ : BufTy).Contents (Elt F) → (⟨S256, .f32⟩ : BufTy).Contents (Elt F) → (⟨S256, .f32⟩ : BufTy).Contents (Elt F)),
    StableHlo.nullary main_c_23 (constantI S_ 32 0#32),
    StableHlo.TRef.nullary (.of main_call11_cst : StableHlo.TRef sig ⟨S_, .f32⟩) (constant S_ .f32 0x00000000#32),
    StableHlo.TRef.binary (.of main_v119 : StableHlo.TRef sig ⟨S50000x256, .f32⟩) (.of main_call11_cst : StableHlo.TRef sig ⟨S_, .f32⟩) (.of main_call11_v0 : StableHlo.TRef sig ⟨S256, .f32⟩) (fun x v => Host.reduceAdd x v reducesTo_S50000x256_S256_d0 h_S_),
    StableHlo.TRef.unary (.of main_call11_v0 : StableHlo.TRef sig ⟨S256, .f32⟩) (.of main_call11_v1 : StableHlo.TRef sig ⟨S1x256, .f32⟩) (broadcastInDim S1x256 ![1] bcast_S256_S1x256_1),
    StableHlo.TRef.nullary (.of main_call11_cst_0 : StableHlo.TRef sig ⟨S_, .f32⟩) (constant S_ .f32 0x47435000#32),
    StableHlo.TRef.unary (.of main_call11_cst_0 : StableHlo.TRef sig ⟨S_, .f32⟩) (.of main_call11_v2 : StableHlo.TRef sig ⟨S1x256, .f32⟩) (broadcastInDim S1x256 ![] bcast_S_S1x256),
    StableHlo.TRef.binary (.of main_call11_v1 : StableHlo.TRef sig ⟨S1x256, .f32⟩) (.of main_call11_v2 : StableHlo.TRef sig ⟨S1x256, .f32⟩) (.of main_call11_v3 : StableHlo.TRef sig ⟨S1x256, .f32⟩) Host.divf,
    StableHlo.TRef.unary (.of main_call11_v3 : StableHlo.TRef sig ⟨S1x256, .f32⟩) (.of main_call11_v4 : StableHlo.TRef sig ⟨S50000x256, .f32⟩) (broadcastInDim S50000x256 ![0, 1] bcast_S1x256_S50000x256_0_1),
    StableHlo.TRef.binary (.of main_v119 : StableHlo.TRef sig ⟨S50000x256, .f32⟩) (.of main_call11_v4 : StableHlo.TRef sig ⟨S50000x256, .f32⟩) (.of main_call11_v5 : StableHlo.TRef sig ⟨S50000x256, .f32⟩) subf,
    StableHlo.TRef.binary (.of main_call11_v5 : StableHlo.TRef sig ⟨S50000x256, .f32⟩) (.of main_call11_v5 : StableHlo.TRef sig ⟨S50000x256, .f32⟩) (.of main_call11_v6 : StableHlo.TRef sig ⟨S50000x256, .f32⟩) mulf,
    StableHlo.TRef.unary (.of main_c_23 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x47435000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S50000x256, .f32⟩) (.of main_call11_cst_2 : StableHlo.TRef sig ⟨S_, .f32⟩) (.of main_call11_v9 : StableHlo.TRef sig ⟨S256, .f32⟩) (fun x v => Host.reduceAdd x v reducesTo_S50000x256_S256_d0 h_S_),
    StableHlo.TRef.unary (.of main_call11_v8 : StableHlo.TRef sig ⟨S_, .f32⟩) (.of main_call11_v10 : StableHlo.TRef sig ⟨S256, .f32⟩) (broadcastInDim S256 ![] bcast_S_S256),
    StableHlo.TRef.binary (.of main_call11_v9 : StableHlo.TRef sig ⟨S256, .f32⟩) (.of main_call11_v10 : StableHlo.TRef sig ⟨S256, .f32⟩) (.of main_call11_v11 : StableHlo.TRef sig ⟨S256, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S256, .f32⟩) (broadcastInDim S256 ![] bcast_S_S256),
    StableHlo.TRef.ternary (.of main_call11_v12 : StableHlo.TRef sig ⟨S_, .i1⟩) (.of main_call11_v11 : StableHlo.TRef sig ⟨S256, .f32⟩) (.of main_call11_call0_v1 : StableHlo.TRef sig ⟨S256, .f32⟩) (.of main_v123 : StableHlo.TRef sig ⟨S256, .f32⟩) (fun p a b => select (broadcastInDim S256 ![] bcast_S_S256 p) a b),
    StableHlo.unary main_v122 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v119 main_v125 main_v126 (subf : (⟨S50000x256, .f32⟩ : BufTy).Contents (Elt F) → (⟨S50000x256, .f32⟩ : BufTy).Contents (Elt F) → (⟨S50000x256, .f32⟩ : BufTy).Contents (Elt F)),
    StableHlo.unary main_arg21 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S50000x256 ![0, 1] bcast_S1x256_S50000x256_0_1 : (⟨S1x256, .f32⟩ : BufTy).Contents (Elt F) → (⟨S50000x256, .f32⟩ : BufTy).Contents (Elt F)),
    StableHlo.binary main_v128 main_v126 main_v129 (mulf : (⟨S50000x256, .f32⟩ : BufTy).Contents (Elt F) → (⟨S50000x256, .f32⟩ : BufTy).Contents (Elt F) → (⟨S50000x256, .f32⟩ : BufTy).Contents (Elt F)),
    StableHlo.nullary main_cst_24 (constant S_ .f32 0x3727C5AC#32),
    StableHlo.unary main_cst_24 main_v130 (broadcastInDim S256 ![] bcast_S_S256 : (⟨S_, .f32⟩ : BufTy).Contents (Elt F) → (⟨S256, .f32⟩ : BufTy).Contents (Elt F)),
    StableHlo.binary main_v123 main_v130 main_v131 (addf : (⟨S256, .f32⟩ : BufTy).Contents (Elt F) → (⟨S256, .f32⟩ : BufTy).Contents (Elt F) → (⟨S256, .f32⟩ : BufTy).Contents (Elt F)),
    StableHlo.unary main_v131 main_v132 (Host.rsqrt : (⟨S256, .f32⟩ : BufTy).Contents (Elt F) → (⟨S256, .f32⟩ : BufTy).Contents (Elt F)),
    StableHlo.unary main_v132 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v129 main_v134 main_v135 (mulf : (⟨S50000x256, .f32⟩ : BufTy).Contents (Elt F) → (⟨S50000x256, .f32⟩ : BufTy).Contents (Elt F) → (⟨S50000x256, .f32⟩ : BufTy).Contents (Elt F)),
    StableHlo.unary main_arg22 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S50000x256 ![0, 1] bcast_S1x256_S50000x256_0_1 : (⟨S1x256, .f32⟩ : BufTy).Contents (Elt F) → (⟨S50000x256, .f32⟩ : BufTy).Contents (Elt F)),
    StableHlo.binary main_v135 main_v137 main_v138 (addf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x3F800000#32),
    StableHlo.unary main_cst_25 main_v139 (broadcastInDim S50000 ![] bcast_S_S50000 : (⟨S_, .f32⟩ : BufTy).Contents (Elt F) → (⟨S50000, .f32⟩ : BufTy).Contents (Elt F)),
    StableHlo.nullary main_cst_26 (constant S_ .f32 0x00000000#32),
    StableHlo.unary main_cst_26 main_v140 (broadcastInDim S10000 ![] bcast_S_S10000 : (⟨S_, .f32⟩ : BufTy).Contents (Elt F) → (⟨S10000, .f32⟩ : BufTy).Contents (Elt F)),
    StableHlo.unary main_arg3 main_v141 (broadcastInDim S50000x1 ![0] bcast_S50000_S50000x1_0 : (⟨S50000, .i32⟩ : BufTy).Contents (Elt F) → (⟨S50000x1, .i32⟩ : BufTy).Contents (Elt F)),
    StableHlo.ternary main_v140 main_v141 main_v139 main_v142 ((fun x i u => Host.scatterAdd scatter_S10000_S50000x1_S50000_n_0_0_1 x i u) : (⟨S10000, .f32⟩ : BufTy).Contents (Elt F) → (⟨S50000x1, .i32⟩ : BufTy).Contents (Elt F) → (⟨S50000, .f32⟩ : BufTy).Contents (Elt F) → (⟨S10000, .f32⟩ : BufTy).Contents (Elt F)),
    StableHlo.nullary main_cst_27 (constant S_ .f32 0x3F800000#32),
    StableHlo.unary main_cst_27 main_v143 (broadcastInDim S10000 ![] bcast_S_S10000 : (⟨S_, .f32⟩ : BufTy).Contents (Elt F) → (⟨S10000, .f32⟩ : BufTy).Contents (Elt F)),
    StableHlo.binary main_v142 main_v143 main_v144 (maximumf : (⟨S10000, .f32⟩ : BufTy).Contents (Elt F) → (⟨S10000, .f32⟩ : BufTy).Contents (Elt F) → (⟨S10000, .f32⟩ : BufTy).Contents (Elt F)),
    StableHlo.unary main_v144 main_v145 (Host.rsqrt : (⟨S10000, .f32⟩ : BufTy).Contents (Elt F) → (⟨S10000, .f32⟩ : BufTy).Contents (Elt F)),
    StableHlo.nullary main_c_28 (constantI S_ 32 0#32),
    StableHlo.unary main_c_28 main_v146 (broadcastInDim S50000 ![] bcast_S_S50000 : (⟨S_, .i32⟩ : BufTy).Contents (Elt F) → (⟨S50000, .i32⟩ : BufTy).Contents (Elt F)),
    StableHlo.binary main_arg3 main_v146 main_v147 (cmpi .slt : (⟨S50000, .i32⟩ : BufTy).Contents (Elt F) → (⟨S50000, .i32⟩ : BufTy).Contents (Elt F) → (⟨S50000, .i1⟩ : BufTy).Contents (Elt F)),
    StableHlo.nullary main_c_29 (constantI S_ 32 10000#32) ]

theorem ops2_sub : (ops2 : List (HloOp τ sig (Elt F))).Forall fun op => op.bufs ⊆ tcRefs τ sig :=
  ⟨StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window is that straight line: the callees' definitions unfolded at their calls, sequencing reassociated. -/
theorem main_part2_eq (c : Dev nD) : main_part2 (F := F) c = seq ops2 := by
  simp only [main_part2, fn_relu_1.body, fn_relu_0.body, fn_var.body, fn_where.body, seq, bind_assoc, pure_bind, bind_pure_unit]

/-- Window 3 of the entry function: 38 operations, in order. -/
abbrev ops3 : List (HloOp τ sig (Elt F)) :=
  [ StableHlo.unary main_c_29 main_v148 (broadcastInDim S50000 ![] bcast_S_S50000 : (⟨S_, .i32⟩ : BufTy).Contents (Elt F) → (⟨S50000, .i32⟩ : BufTy).Contents (Elt F)),
    StableHlo.binary main_arg3 main_v148 main_v149 (addi : (⟨S50000, .i32⟩ : BufTy).Contents (Elt F) → (⟨S50000, .i32⟩ : BufTy).Contents (Elt F) → (⟨S50000, .i32⟩ : BufTy).Contents (Elt F)),
    StableHlo.ternary main_v147 main_v149 main_arg3 main_v150 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v150 main_v151 (broadcastInDim S50000x1 ![0] bcast_S50000_S50000x1_0 : (⟨S50000, .i32⟩ : BufTy).Contents (Elt F) → (⟨S50000x1, .i32⟩ : BufTy).Contents (Elt F)),
    StableHlo.binary main_v145 main_v151 main_v152 ((fun x i => Host.gather gather_S10000_S50000x1_S50000_n_0_n_n_0_1_1 x i) : (⟨S10000, .f32⟩ : BufTy).Contents (Elt F) → (⟨S50000x1, .i32⟩ : BufTy).Contents (Elt F) → (⟨S50000, .f32⟩ : BufTy).Contents (Elt F)),
    StableHlo.unary main_v152 main_v153 (broadcastInDim S50000x1 ![0] bcast_S50000_S50000x1_0 : (⟨S50000, .f32⟩ : BufTy).Contents (Elt F) → (⟨S50000x1, .f32⟩ : BufTy).Contents (Elt F)),
    StableHlo.unary main_v153 main_v154 (broadcastInDim S50000x256 ![0, 1] bcast_S50000x1_S50000x256_0_1 : (⟨S50000x1, .f32⟩ : BufTy).Contents (Elt F) → (⟨S50000x256, .f32⟩ : BufTy).Contents (Elt F)),
    StableHlo.binary main_v138 main_v154 main_v155 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.unary main_cst_30 main_v156 (broadcastInDim S10000x256 ![] bcast_S_S10000x256 : (⟨S_, .f32⟩ : BufTy).Contents (Elt F) → (⟨S10000x256, .f32⟩ : BufTy).Contents (Elt F)),
    StableHlo.unary main_arg3 main_v157 (broadcastInDim S50000x1 ![0] bcast_S50000_S50000x1_0 : (⟨S50000, .i32⟩ : BufTy).Contents (Elt F) → (⟨S50000x1, .i32⟩ : BufTy).Contents (Elt F)),
    StableHlo.ternary main_v156 main_v157 main_v155 main_v158 ((fun x i u => Host.scatterAdd scatter_S10000x256_S50000x1_S50000x256_1_0_0_1 x i u) : (⟨S10000x256, .f32⟩ : BufTy).Contents (Elt F) → (⟨S50000x1, .i32⟩ : BufTy).Contents (Elt F) → (⟨S50000x256, .f32⟩ : BufTy).Contents (Elt F) → (⟨S10000x256, .f32⟩ : BufTy).Contents (Elt F)),
    StableHlo.nullary main_cst_31 (constant S_ .f32 0x3F800000#32),
    StableHlo.unary main_cst_31 main_v159 (broadcastInDim S50000 ![] bcast_S_S50000 : (⟨S_, .f32⟩ : BufTy).Contents (Elt F) → (⟨S50000, .f32⟩ : BufTy).Contents (Elt F)),
    StableHlo.nullary main_cst_32 (constant S_ .f32 0x00000000#32),
    StableHlo.unary main_cst_32 main_v160 (broadcastInDim S2000 ![] bcast_S_S2000 : (⟨S_, .f32⟩ : BufTy).Contents (Elt F) → (⟨S2000, .f32⟩ : BufTy).Contents (Elt F)),
    StableHlo.unary main_arg4 main_v161 (broadcastInDim S50000x1 ![0] bcast_S50000_S50000x1_0 : (⟨S50000, .i32⟩ : BufTy).Contents (Elt F) → (⟨S50000x1, .i32⟩ : BufTy).Contents (Elt F)),
    StableHlo.ternary main_v160 main_v161 main_v159 main_v162 ((fun x i u => Host.scatterAdd scatter_S2000_S50000x1_S50000_n_0_0_1 x i u) : (⟨S2000, .f32⟩ : BufTy).Contents (Elt F) → (⟨S50000x1, .i32⟩ : BufTy).Contents (Elt F) → (⟨S50000, .f32⟩ : BufTy).Contents (Elt F) → (⟨S2000, .f32⟩ : BufTy).Contents (Elt F)),
    StableHlo.nullary main_cst_33 (constant S_ .f32 0x3F800000#32),
    StableHlo.unary main_cst_33 main_v163 (broadcastInDim S2000 ![] bcast_S_S2000 : (⟨S_, .f32⟩ : BufTy).Contents (Elt F) → (⟨S2000, .f32⟩ : BufTy).Contents (Elt F)),
    StableHlo.binary main_v162 main_v163 main_v164 (maximumf : (⟨S2000, .f32⟩ : BufTy).Contents (Elt F) → (⟨S2000, .f32⟩ : BufTy).Contents (Elt F) → (⟨S2000, .f32⟩ : BufTy).Contents (Elt F)),
    StableHlo.unary main_v164 main_v165 (Host.rsqrt : (⟨S2000, .f32⟩ : BufTy).Contents (Elt F) → (⟨S2000, .f32⟩ : BufTy).Contents (Elt F)),
    StableHlo.nullary main_c_34 (constantI S_ 32 0#32),
    StableHlo.unary main_c_34 main_v166 (broadcastInDim S50000 ![] bcast_S_S50000 : (⟨S_, .i32⟩ : BufTy).Contents (Elt F) → (⟨S50000, .i32⟩ : BufTy).Contents (Elt F)),
    StableHlo.binary main_arg4 main_v166 main_v167 (cmpi .slt : (⟨S50000, .i32⟩ : BufTy).Contents (Elt F) → (⟨S50000, .i32⟩ : BufTy).Contents (Elt F) → (⟨S50000, .i1⟩ : BufTy).Contents (Elt F)),
    StableHlo.nullary main_c_35 (constantI S_ 32 2000#32),
    StableHlo.unary main_c_35 main_v168 (broadcastInDim S50000 ![] bcast_S_S50000 : (⟨S_, .i32⟩ : BufTy).Contents (Elt F) → (⟨S50000, .i32⟩ : BufTy).Contents (Elt F)),
    StableHlo.binary main_arg4 main_v168 main_v169 (addi : (⟨S50000, .i32⟩ : BufTy).Contents (Elt F) → (⟨S50000, .i32⟩ : BufTy).Contents (Elt F) → (⟨S50000, .i32⟩ : BufTy).Contents (Elt F)),
    StableHlo.ternary main_v167 main_v169 main_arg4 main_v170 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v170 main_v171 (broadcastInDim S50000x1 ![0] bcast_S50000_S50000x1_0 : (⟨S50000, .i32⟩ : BufTy).Contents (Elt F) → (⟨S50000x1, .i32⟩ : BufTy).Contents (Elt F)),
    StableHlo.binary main_v165 main_v171 main_v172 ((fun x i => Host.gather gather_S2000_S50000x1_S50000_n_0_n_n_0_1_1 x i) : (⟨S2000, .f32⟩ : BufTy).Contents (Elt F) → (⟨S50000x1, .i32⟩ : BufTy).Contents (Elt F) → (⟨S50000, .f32⟩ : BufTy).Contents (Elt F)),
    StableHlo.unary main_v172 main_v173 (broadcastInDim S50000x1 ![0] bcast_S50000_S50000x1_0 : (⟨S50000, .f32⟩ : BufTy).Contents (Elt F) → (⟨S50000x1, .f32⟩ : BufTy).Contents (Elt F)),
    StableHlo.unary main_v173 main_v174 (broadcastInDim S50000x256 ![0, 1] bcast_S50000x1_S50000x256_0_1 : (⟨S50000x1, .f32⟩ : BufTy).Contents (Elt F) → (⟨S50000x256, .f32⟩ : BufTy).Contents (Elt F)),
    StableHlo.binary main_v138 main_v174 main_v175 (mulf : (⟨S50000x256, .f32⟩ : BufTy).Contents (Elt F) → (⟨S50000x256, .f32⟩ : BufTy).Contents (Elt F) → (⟨S50000x256, .f32⟩ : BufTy).Contents (Elt F)),
    StableHlo.nullary main_cst_36 (constant S_ .f32 0x00000000#32),
    StableHlo.unary main_cst_36 main_v176 (broadcastInDim S2000x256 ![] bcast_S_S2000x256 : (⟨S_, .f32⟩ : BufTy).Contents (Elt F) → (⟨S2000x256, .f32⟩ : BufTy).Contents (Elt F)),
    StableHlo.unary main_arg4 main_v177 (broadcastInDim S50000x1 ![0] bcast_S50000_S50000x1_0 : (⟨S50000, .i32⟩ : BufTy).Contents (Elt F) → (⟨S50000x1, .i32⟩ : BufTy).Contents (Elt F)),
    StableHlo.ternary main_v176 main_v177 main_v175 main_v178 ((fun x i u => Host.scatterAdd scatter_S2000x256_S50000x1_S50000x256_1_0_0_1 x i u) : (⟨S2000x256, .f32⟩ : BufTy).Contents (Elt F) → (⟨S50000x1, .i32⟩ : BufTy).Contents (Elt F) → (⟨S50000x256, .f32⟩ : BufTy).Contents (Elt F) → (⟨S2000x256, .f32⟩ : BufTy).Contents (Elt F)) ]

theorem ops3_sub : (ops3 : List (HloOp τ sig (Elt F))).Forall fun op => op.bufs ⊆ tcRefs τ sig :=
  ⟨StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window is that straight line: the callees' definitions unfolded at their calls, sequencing reassociated. -/
theorem main_part3_eq (c : Dev nD) : main_part3 (F := F) c = seq ops3 := by
  simp only [main_part3, seq, bind_assoc, pure_bind, bind_pure_unit]

/-- The entry function's operations, in order. -/
abbrev ops : List (HloOp τ sig (Elt F)) := ops0 ++ (ops1 ++ (ops2 ++ ops3))

theorem main_eq (c : Dev nD) : main (F := F) c = seq ops := by
  unfold main
  rw [seq_append, seq_append, seq_append, ← main_part0_eq c, ← main_part1_eq c, ← main_part2_eq c, ← main_part3_eq c]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append' ops0_sub (forall_append' ops1_sub (forall_append' ops2_sub ops3_sub))

theorem ops_fresh : ∀ op ∈ (ops : List (HloOp τ sig (Elt F))), op.fresh = ∅ :=
  List.forall_iff_forall_mem.1 (forall_append' ops0_fresh (forall_append' ops1_fresh (forall_append' ops2_fresh ops3_fresh)))

end Cert.ReferenceIdeal.RefValue

end
-- ==== Proof.RefTerms.lean ====
/- The pure functions the reference program computes, named: each a composition of the functions of its
   operations, in the program's order, over the contents of the arrays it reads. -/
import proofs.«164030_j60206851555878_1_alg».proof.Proof.Gen.ReferenceIdeal

noncomputable section

namespace Cert.ReferenceIdeal.RefValue

open Cert.ReferenceIdeal Cert.ReferenceIdeal.Gen Idealize.ShloMosaic

variable {F : FTy → Type} [FloatOps F]

/-- Row 0 of the edge-index table, as a vector: the source node of each edge. -/
def row0 (ei : (⟨S2x200000, .i32⟩ : BufTy).Contents (Elt F)) : (⟨S200000, .i32⟩ : BufTy).Contents (Elt F) :=
  shapeCast S200000 (extractStridedSlice S1x200000 ![0, 0] ei slices_S2x200000_S1x200000_0_0) shapeCasts_S1x200000_S200000

/-- Row 1 of the edge-index table, as a vector: the destination node of each edge. -/
def row1 (ei : (⟨S2x200000, .i32⟩ : BufTy).Contents (Elt F)) : (⟨S200000, .i32⟩ : BufTy).Contents (Elt F) :=
  shapeCast S200000 (extractStridedSlice S1x200000 ![1, 0] ei slices_S2x200000_S1x200000_1_0) shapeCasts_S1x200000_S200000

/-- A vector of node indices as a column of gather indices: a negative index wrapped by adding the node count 50000. -/
def srcIdxOf (r : (⟨S200000, .i32⟩ : BufTy).Contents (Elt F)) : (⟨S200000x1, .i32⟩ : BufTy).Contents (Elt F) :=
  broadcastInDim S200000x1 ![0] bcast_S200000_S200000x1_0 (select (cmpi .slt r (broadcastInDim S200000 ![] bcast_S_S200000 (constantI S_ 32 0#32 : (⟨S_, .i32⟩ : BufTy).Contents (Elt F)))) (addi r (broadcastInDim S200000 ![] bcast_S_S200000 (constantI S_ 32 50000#32 : (⟨S_, .i32⟩ : BufTy).Contents (Elt F)))) r)

/-- A vector of node indices as a column of scatter indices. -/
def dstIdxOf (r : (⟨S200000, .i32⟩ : BufTy).Contents (Elt F)) : (⟨S200000x1, .i32⟩ : BufTy).Contents (Elt F) :=
  broadcastInDim S200000x1 ![0] bcast_S200000_S200000x1_0 r

/-- The gather indices of the edges' source nodes. -/
def srcIdx (ei : (⟨S2x200000, .i32⟩ : BufTy).Contents (Elt F)) : (⟨S200000x1, .i32⟩ : BufTy).Contents (Elt F) := srcIdxOf (row0 ei)

/-- The scatter indices of the edges' destination nodes. -/
def dstIdx (ei : (⟨S2x200000, .i32⟩ : BufTy).Contents (Elt F)) : (⟨S200000x1, .i32⟩ : BufTy).Contents (Elt F) := dstIdxOf (row1 ei)

/-- Layer 0's aggregate over given index columns: the rows of the node features gathered at the sources, the edge attributes appended, the positive part, summed into the destination rows of a zero table, then the node features added into the first 128 columns. -/
def aggR0 (x : (⟨S50000x128, .f32⟩ : BufTy).Contents (Elt F)) (ea : (⟨S200000x32, .f32⟩ : BufTy).Contents (Elt F)) (si : (⟨S200000x1, .i32⟩ : BufTy).Contents (Elt F)) (di : (⟨S200000x1, .i32⟩ : BufTy).Contents (Elt F)) : (⟨S50000x160, .f32⟩ : BufTy).Contents (Elt F) :=
  Host.scatter scatter_S50000x160_S1_S50000x128_01_n_1_0 FloatOps.addf (Host.scatterAdd scatter_S50000x160_S200000x1_S200000x160_1_0_0_1 (broadcastInDim S50000x160 ![] bcast_S_S50000x160 (constant S_ .f32 0x00000000#32 : (⟨S_, .f32⟩ : BufTy).Contents (Elt F))) di (maximumf (concatenate S200000x160 1 [⟨S200000x128, (Host.gather gather_S50000x128_S200000x1_S200000x128_1_0_n_n_0_1_1128 x si)⟩, ⟨S200000x32, ea⟩] concatenates_S200000x128_S200000x32_S200000x160_d1) (broadcastInDim S200000x160 ![] bcast_S_S200000x160 (constant S_ .f32 0x00000000#32 : (⟨S_, .f32⟩ : BufTy).Contents (Elt F))))) (broadcastInDim S1 ![] bcast_S_S1 (constantI S_ 32 0#32 : (⟨S_, .i32⟩ : BufTy).Contents (Elt F))) (mulf (broadcastInDim S50000x128 ![] bcast_S_S50000x128 (constant S_ .f32 0x3F800000#32 : (⟨S_, .f32⟩ : BufTy).Contents (Elt F))) x)

/-- Layer 0's aggregate. -/
def agg0 (x : (⟨S50000x128, .f32⟩ : BufTy).Contents (Elt F)) (ea : (⟨S200000x32, .f32⟩ : BufTy).Contents (Elt F)) (ei : (⟨S2x200000, .i32⟩ : BufTy).Contents (Elt F)) : (⟨S50000x160, .f32⟩ : BufTy).Contents (Elt F) := aggR0 x ea (srcIdx ei) (dstIdx ei)

/-- Layer 0's two affine maps, each followed by the positive part. -/
def h2R0 (agg : (⟨S50000x160, .f32⟩ : BufTy).Contents (Elt F)) (w1 : (⟨S160x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F)) : (⟨S50000x256, .f32⟩ : BufTy).Contents (Elt F) :=
  maximumf (addf (Host.dotGeneral dot_S50000x256_S256x256_S50000x256_1_0_0_1_n_n none (maximumf (addf (Host.dotGeneral dot_S50000x160_S160x256_S50000x256_1_0_0_1_n_n none agg w1) (broadcastInDim S50000x256 ![0, 1] bcast_S1x256_S50000x256_0_1 (broadcastInDim S1x256 ![1] bcast_S256_S1x256_1 b1))) (broadcastInDim S50000x256 ![] bcast_S_S50000x256 (constant S_ .f32 0x00000000#32 : (⟨S_, .f32⟩ : BufTy).Contents (Elt F)))) w2) (broadcastInDim S50000x256 ![0, 1] bcast_S1x256_S50000x256_0_1 (broadcastInDim S1x256 ![1] bcast_S256_S1x256_1 b2))) (broadcastInDim S50000x256 ![] bcast_S_S50000x256 (constant S_ .f32 0x00000000#32 : (⟨S_, .f32⟩ : BufTy).Contents (Elt F)))

/-- The column means over the 50000 rows. -/
def meanR (h2 : (⟨S50000x256, .f32⟩ : BufTy).Contents (Elt F)) : (⟨S256, .f32⟩ : BufTy).Contents (Elt F) :=
  Host.divf (Host.reduceAdd h2 (constant S_ .f32 0x00000000#32 : (⟨S_, .f32⟩ : BufTy).Contents (Elt F)) reducesTo_S50000x256_S256_d0 h_S_) (broadcastInDim S256 ![] bcast_S_S256 (constant S_ .f32 0x47435000#32 : (⟨S_, .f32⟩ : BufTy).Contents (Elt F)))

/-- The variance's divisor: 50000 less the correction 0, as a float. -/
def cntR : (⟨S_, .f32⟩ : BufTy).Contents (Elt F) :=
  subf (constant S_ .f32 0x47435000#32 : (⟨S_, .f32⟩ : BufTy).Contents (Elt F)) (sitofp .f32 (constantI S_ 32 0#32 : (⟨S_, .i32⟩ : BufTy).Contents (Elt F)))

/-- The table less its column means (the means computed as inside the variance: the column sums broadcast to one row, then divided). -/
def ctrR (h2 : (⟨S50000x256, .f32⟩ : BufTy).Contents (Elt F)) : (⟨S50000x256, .f32⟩ : BufTy).Contents (Elt F) :=
  subf h2 (broadcastInDim S50000x256 ![0, 1] bcast_S1x256_S50000x256_0_1 (Host.divf (broadcastInDim S1x256 ![1] bcast_S256_S1x256_1 (Host.reduceAdd h2 (constant S_ .f32 0x00000000#32 : (⟨S_, .f32⟩ : BufTy).Contents (Elt F)) reducesTo_S50000x256_S256_d0 h_S_)) (broadcastInDim S1x256 ![] bcast_S_S1x256 (constant S_ .f32 0x47435000#32 : (⟨S_, .f32⟩ : BufTy).Contents (Elt F)))))

/-- The column variances: the column sums of the squared centred table over the divisor, selected against a not-a-number word by the test that the divisor is positive. -/
def varR (h2 : (⟨S50000x256, .f32⟩ : BufTy).Contents (Elt F)) : (⟨S256, .f32⟩ : BufTy).Contents (Elt F) :=
  select (broadcastInDim S256 ![] bcast_S_S256 (cmpf .ogt cntR (constant S_ .f32 0x00000000#32 : (⟨S_, .f32⟩ : BufTy).Contents (Elt F)))) (Host.divf (Host.reduceAdd (mulf (ctrR h2) (ctrR h2)) (constant S_ .f32 0x00000000#32 : (⟨S_, .f32⟩ : BufTy).Contents (Elt F)) reducesTo_S50000x256_S256_d0 h_S_) (broadcastInDim S256 ![] bcast_S_S256 cntR)) (broadcastInDim S256 ![] bcast_S_S256 (id (constant S_ .f32 0x7FC00000#32 : (⟨S_, .f32⟩ : BufTy).Contents (Elt F))))

/-- The batch normalisation: scale times the table less its column means, times the reciprocal square root of the column variances plus 1e-5, plus the shift. -/
def bnR (h2 : (⟨S50000x256, .f32⟩ : BufTy).Contents (Elt F)) (g : (⟨S256, .f32⟩ : BufTy).Contents (Elt F)) (beta : (⟨S256, .f32⟩ : BufTy).Contents (Elt F)) : (⟨S50000x256, .f32⟩ : BufTy).Contents (Elt F) :=
  addf (mulf (mulf (broadcastInDim S50000x256 ![0, 1] bcast_S1x256_S50000x256_0_1 (broadcastInDim S1x256 ![1] bcast_S256_S1x256_1 g)) (subf h2 (broadcastInDim S50000x256 ![0, 1] bcast_S1x256_S50000x256_0_1 (broadcastInDim S1x256 ![1] bcast_S256_S1x256_1 (meanR h2))))) (broadcastInDim S50000x256 ![0, 1] bcast_S1x256_S50000x256_0_1 (broadcastInDim S1x256 ![1] bcast_S256_S1x256_1 (Host.rsqrt (addf (varR h2) (broadcastInDim S256 ![] bcast_S_S256 (constant S_ .f32 0x3727C5AC#32 : (⟨S_, .f32⟩ : BufTy).Contents (Elt F)))))))) (broadcastInDim S50000x256 ![0, 1] bcast_S1x256_S50000x256_0_1 (broadcastInDim S1x256 ![1] bcast_S256_S1x256_1 beta))

/-- Layer 0 from its aggregate. -/
def mid0 (agg : (⟨S50000x160, .f32⟩ : BufTy).Contents (Elt F)) (w1 : (⟨S160x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F)) (g : (⟨S256, .f32⟩ : BufTy).Contents (Elt F)) (beta : (⟨S256, .f32⟩ : BufTy).Contents (Elt F)) : (⟨S50000x256, .f32⟩ : BufTy).Contents (Elt F) := bnR (h2R0 agg w1 b1 w2 b2) g beta

/-- Layers 1 and 2's aggregate over given index columns, as layer 0's at width 256. -/
def aggR1 (h : (⟨S50000x256, .f32⟩ : BufTy).Contents (Elt F)) (ea : (⟨S200000x32, .f32⟩ : BufTy).Contents (Elt F)) (si : (⟨S200000x1, .i32⟩ : BufTy).Contents (Elt F)) (di : (⟨S200000x1, .i32⟩ : BufTy).Contents (Elt F)) : (⟨S50000x288, .f32⟩ : BufTy).Contents (Elt F) :=
  Host.scatter scatter_S50000x288_S1_S50000x256_01_n_1_0 FloatOps.addf (Host.scatterAdd scatter_S50000x288_S200000x1_S200000x288_1_0_0_1 (broadcastInDim S50000x288 ![] bcast_S_S50000x288 (constant S_ .f32 0x00000000#32 : (⟨S_, .f32⟩ : BufTy).Contents (Elt F))) di (maximumf (concatenate S200000x288 1 [⟨S200000x256, (Host.gather gather_S50000x256_S200000x1_S200000x256_1_0_n_n_0_1_1256 h si)⟩, ⟨S200000x32, ea⟩] concatenates_S200000x256_S200000x32_S200000x288_d1) (broadcastInDim S200000x288 ![] bcast_S_S200000x288 (constant S_ .f32 0x00000000#32 : (⟨S_, .f32⟩ : BufTy).Contents (Elt F))))) (broadcastInDim S1 ![] bcast_S_S1 (constantI S_ 32 0#32 : (⟨S_, .i32⟩ : BufTy).Contents (Elt F))) (mulf (broadcastInDim S50000x256 ![] bcast_S_S50000x256 (constant S_ .f32 0x3F800000#32 : (⟨S_, .f32⟩ : BufTy).Contents (Elt F))) h)

/-- Layers 1 and 2's aggregate. -/
def agg1 (h : (⟨S50000x256, .f32⟩ : BufTy).Contents (Elt F)) (ea : (⟨S200000x32, .f32⟩ : BufTy).Contents (Elt F)) (ei : (⟨S2x200000, .i32⟩ : BufTy).Contents (Elt F)) : (⟨S50000x288, .f32⟩ : BufTy).Contents (Elt F) := aggR1 h ea (srcIdx ei) (dstIdx ei)

/-- Layers 1 and 2's two affine maps, each followed by the positive part. -/
def h2R1 (agg : (⟨S50000x288, .f32⟩ : BufTy).Contents (Elt F)) (w1 : (⟨S288x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F)) : (⟨S50000x256, .f32⟩ : BufTy).Contents (Elt F) :=
  maximumf (addf (Host.dotGeneral dot_S50000x256_S256x256_S50000x256_1_0_0_1_n_n none (maximumf (addf (Host.dotGeneral dot_S50000x288_S288x256_S50000x256_1_0_0_1_n_n none agg w1) (broadcastInDim S50000x256 ![0, 1] bcast_S1x256_S50000x256_0_1 (broadcastInDim S1x256 ![1] bcast_S256_S1x256_1 b1))) (broadcastInDim S50000x256 ![] bcast_S_S50000x256 (constant S_ .f32 0x00000000#32 : (⟨S_, .f32⟩ : BufTy).Contents (Elt F)))) w2) (broadcastInDim S50000x256 ![0, 1] bcast_S1x256_S50000x256_0_1 (broadcastInDim S1x256 ![1] bcast_S256_S1x256_1 b2))) (broadcastInDim S50000x256 ![] bcast_S_S50000x256 (constant S_ .f32 0x00000000#32 : (⟨S_, .f32⟩ : BufTy).Contents (Elt F)))

/-- Layers 1 and 2 from their aggregate. -/
def mid1 (agg : (⟨S50000x288, .f32⟩ : BufTy).Contents (Elt F)) (w1 : (⟨S288x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F)) (g : (⟨S256, .f32⟩ : BufTy).Contents (Elt F)) (beta : (⟨S256, .f32⟩ : BufTy).Contents (Elt F)) : (⟨S50000x256, .f32⟩ : BufTy).Contents (Elt F) := bnR (h2R1 agg w1 b1 w2 b2) g beta

/-- Per node, the reciprocal square root of the size (at least 1) of its segment among 10000. -/
def poolW0 (fb : (⟨S50000, .i32⟩ : BufTy).Contents (Elt F)) : (⟨S50000, .f32⟩ : BufTy).Contents (Elt F) :=
  Host.gather gather_S10000_S50000x1_S50000_n_0_n_n_0_1_1 (Host.rsqrt (maximumf (Host.scatterAdd scatter_S10000_S50000x1_S50000_n_0_0_1 (broadcastInDim S10000 ![] bcast_S_S10000 (constant S_ .f32 0x00000000#32 : (⟨S_, .f32⟩ : BufTy).Contents (Elt F))) (broadcastInDim S50000x1 ![0] bcast_S50000_S50000x1_0 fb) (broadcastInDim S50000 ![] bcast_S_S50000 (constant S_ .f32 0x3F800000#32 : (⟨S_, .f32⟩ : BufTy).Contents (Elt F)))) (broadcastInDim S10000 ![] bcast_S_S10000 (constant S_ .f32 0x3F800000#32 : (⟨S_, .f32⟩ : BufTy).Contents (Elt F))))) (broadcastInDim S50000x1 ![0] bcast_S50000_S50000x1_0 (select (cmpi .slt fb (broadcastInDim S50000 ![] bcast_S_S50000 (constantI S_ 32 0#32 : (⟨S_, .i32⟩ : BufTy).Contents (Elt F)))) (addi fb (broadcastInDim S50000 ![] bcast_S_S50000 (constantI S_ 32 10000#32 : (⟨S_, .i32⟩ : BufTy).Contents (Elt F)))) fb))

/-- The first pooled result: the rows scaled by their segment's weight, summed per segment. -/
def pool0 (h : (⟨S50000x256, .f32⟩ : BufTy).Contents (Elt F)) (fb : (⟨S50000, .i32⟩ : BufTy).Contents (Elt F)) : (⟨S10000x256, .f32⟩ : BufTy).Contents (Elt F) :=
  Host.scatterAdd scatter_S10000x256_S50000x1_S50000x256_1_0_0_1 (broadcastInDim S10000x256 ![] bcast_S_S10000x256 (constant S_ .f32 0x00000000#32 : (⟨S_, .f32⟩ : BufTy).Contents (Elt F))) (broadcastInDim S50000x1 ![0] bcast_S50000_S50000x1_0 fb) (mulf h (broadcastInDim S50000x256 ![0, 1] bcast_S50000x1_S50000x256_0_1 (broadcastInDim S50000x1 ![0] bcast_S50000_S50000x1_0 (poolW0 fb))))

/-- Per node, the reciprocal square root of the size (at least 1) of its segment among 2000. -/
def poolW1 (gb : (⟨S50000, .i32⟩ : BufTy).Contents (Elt F)) : (⟨S50000, .f32⟩ : BufTy).Contents (Elt F) :=
  Host.gather gather_S2000_S50000x1_S50000_n_0_n_n_0_1_1 (Host.rsqrt (maximumf (Host.scatterAdd scatter_S2000_S50000x1_S50000_n_0_0_1 (broadcastInDim S2000 ![] bcast_S_S2000 (constant S_ .f32 0x00000000#32 : (⟨S_, .f32⟩ : BufTy).Contents (Elt F))) (broadcastInDim S50000x1 ![0] bcast_S50000_S50000x1_0 gb) (broadcastInDim S50000 ![] bcast_S_S50000 (constant S_ .f32 0x3F800000#32 : (⟨S_, .f32⟩ : BufTy).Contents (Elt F)))) (broadcastInDim S2000 ![] bcast_S_S2000 (constant S_ .f32 0x3F800000#32 : (⟨S_, .f32⟩ : BufTy).Contents (Elt F))))) (broadcastInDim S50000x1 ![0] bcast_S50000_S50000x1_0 (select (cmpi .slt gb (broadcastInDim S50000 ![] bcast_S_S50000 (constantI S_ 32 0#32 : (⟨S_, .i32⟩ : BufTy).Contents (Elt F)))) (addi gb (broadcastInDim S50000 ![] bcast_S_S50000 (constantI S_ 32 2000#32 : (⟨S_, .i32⟩ : BufTy).Contents (Elt F)))) gb))

/-- The second pooled result. -/
def pool1 (h : (⟨S50000x256, .f32⟩ : BufTy).Contents (Elt F)) (gb : (⟨S50000, .i32⟩ : BufTy).Contents (Elt F)) : (⟨S2000x256, .f32⟩ : BufTy).Contents (Elt F) :=
  Host.scatterAdd scatter_S2000x256_S50000x1_S50000x256_1_0_0_1 (broadcastInDim S2000x256 ![] bcast_S_S2000x256 (constant S_ .f32 0x00000000#32 : (⟨S_, .f32⟩ : BufTy).Contents (Elt F))) (broadcastInDim S50000x1 ![0] bcast_S50000_S50000x1_0 gb) (mulf h (broadcastInDim S50000x256 ![0, 1] bcast_S50000x1_S50000x256_0_1 (broadcastInDim S50000x1 ![0] bcast_S50000_S50000x1_0 (poolW1 gb))))

/-- The node features after the three layers. -/
def h3R (x : (⟨S50000x128, .f32⟩ : BufTy).Contents (Elt F)) (ea : (⟨S200000x32, .f32⟩ : BufTy).Contents (Elt F)) (ei : (⟨S2x200000, .i32⟩ : BufTy).Contents (Elt F)) (fb : (⟨S50000, .i32⟩ : BufTy).Contents (Elt F)) (gb : (⟨S50000, .i32⟩ : BufTy).Contents (Elt F)) (w1_0 : (⟨S160x256, .f32⟩ : BufTy).Contents (Elt F)) (b1_0 : (⟨S256, .f32⟩ : BufTy).Contents (Elt F)) (w2_0 : (⟨S256x256, .f32⟩ : BufTy).Contents (Elt F)) (b2_0 : (⟨S256, .f32⟩ : BufTy).Contents (Elt F)) (g_0 : (⟨S256, .f32⟩ : BufTy).Contents (Elt F)) (beta_0 : (⟨S256, .f32⟩ : BufTy).Contents (Elt F)) (w1_1 : (⟨S288x256, .f32⟩ : BufTy).Contents (Elt F)) (b1_1 : (⟨S256, .f32⟩ : BufTy).Contents (Elt F)) (w2_1 : (⟨S256x256, .f32⟩ : BufTy).Contents (Elt F)) (b2_1 : (⟨S256, .f32⟩ : BufTy).Contents (Elt F)) (g_1 : (⟨S256, .f32⟩ : BufTy).Contents (Elt F)) (beta_1 : (⟨S256, .f32⟩ : BufTy).Contents (Elt F)) (w1_2 : (⟨S288x256, .f32⟩ : BufTy).Contents (Elt F)) (b1_2 : (⟨S256, .f32⟩ : BufTy).Contents (Elt F)) (w2_2 : (⟨S256x256, .f32⟩ : BufTy).Contents (Elt F)) (b2_2 : (⟨S256, .f32⟩ : BufTy).Contents (Elt F)) (g_2 : (⟨S256, .f32⟩ : BufTy).Contents (Elt F)) (beta_2 : (⟨S256, .f32⟩ : BufTy).Contents (Elt F)) : (⟨S50000x256, .f32⟩ : BufTy).Contents (Elt F) :=
  mid1 (agg1 (mid1 (agg1 (mid0 (agg0 x ea ei) w1_0 b1_0 w2_0 b2_0 g_0 beta_0) ea ei) w1_1 b1_1 w2_1 b2_1 g_1 beta_1) ea ei) w1_2 b1_2 w2_2 b2_2 g_2 beta_2

/-- The program's first result as a function of its 23 arguments. -/
def out0 (x : (⟨S50000x128, .f32⟩ : BufTy).Contents (Elt F)) (ea : (⟨S200000x32, .f32⟩ : BufTy).Contents (Elt F)) (ei : (⟨S2x200000, .i32⟩ : BufTy).Contents (Elt F)) (fb : (⟨S50000, .i32⟩ : BufTy).Contents (Elt F)) (gb : (⟨S50000, .i32⟩ : BufTy).Contents (Elt F)) (w1_0 : (⟨S160x256, .f32⟩ : BufTy).Contents (Elt F)) (b1_0 : (⟨S256, .f32⟩ : BufTy).Contents (Elt F)) (w2_0 : (⟨S256x256, .f32⟩ : BufTy).Contents (Elt F)) (b2_0 : (⟨S256, .f32⟩ : BufTy).Contents (Elt F)) (g_0 : (⟨S256, .f32⟩ : BufTy).Contents (Elt F)) (beta_0 : (⟨S256, .f32⟩ : BufTy).Contents (Elt F)) (w1_1 : (⟨S288x256, .f32⟩ : BufTy).Contents (Elt F)) (b1_1 : (⟨S256, .f32⟩ : BufTy).Contents (Elt F)) (w2_1 : (⟨S256x256, .f32⟩ : BufTy).Contents (Elt F)) (b2_1 : (⟨S256, .f32⟩ : BufTy).Contents (Elt F)) (g_1 : (⟨S256, .f32⟩ : BufTy).Contents (Elt F)) (beta_1 : (⟨S256, .f32⟩ : BufTy).Contents (Elt F)) (w1_2 : (⟨S288x256, .f32⟩ : BufTy).Contents (Elt F)) (b1_2 : (⟨S256, .f32⟩ : BufTy).Contents (Elt F)) (w2_2 : (⟨S256x256, .f32⟩ : BufTy).Contents (Elt F)) (b2_2 : (⟨S256, .f32⟩ : BufTy).Contents (Elt F)) (g_2 : (⟨S256, .f32⟩ : BufTy).Contents (Elt F)) (beta_2 : (⟨S256, .f32⟩ : BufTy).Contents (Elt F)) : (⟨S10000x256, .f32⟩ : BufTy).Contents (Elt F) :=
  pool0 (mid1 (agg1 (mid1 (agg1 (mid0 (agg0 x ea ei) w1_0 b1_0 w2_0 b2_0 g_0 beta_0) ea ei) w1_1 b1_1 w2_1 b2_1 g_1 beta_1) ea ei) w1_2 b1_2 w2_2 b2_2 g_2 beta_2) fb

/-- The program's second result as a function of its 23 arguments. -/
def out1 (x : (⟨S50000x128, .f32⟩ : BufTy).Contents (Elt F)) (ea : (⟨S200000x32, .f32⟩ : BufTy).Contents (Elt F)) (ei : (⟨S2x200000, .i32⟩ : BufTy).Contents (Elt F)) (fb : (⟨S50000, .i32⟩ : BufTy).Contents (Elt F)) (gb : (⟨S50000, .i32⟩ : BufTy).Contents (Elt F)) (w1_0 : (⟨S160x256, .f32⟩ : BufTy).Contents (Elt F)) (b1_0 : (⟨S256, .f32⟩ : BufTy).Contents (Elt F)) (w2_0 : (⟨S256x256, .f32⟩ : BufTy).Contents (Elt F)) (b2_0 : (⟨S256, .f32⟩ : BufTy).Contents (Elt F)) (g_0 : (⟨S256, .f32⟩ : BufTy).Contents (Elt F)) (beta_0 : (⟨S256, .f32⟩ : BufTy).Contents (Elt F)) (w1_1 : (⟨S288x256, .f32⟩ : BufTy).Contents (Elt F)) (b1_1 : (⟨S256, .f32⟩ : BufTy).Contents (Elt F)) (w2_1 : (⟨S256x256, .f32⟩ : BufTy).Contents (Elt F)) (b2_1 : (⟨S256, .f32⟩ : BufTy).Contents (Elt F)) (g_1 : (⟨S256, .f32⟩ : BufTy).Contents (Elt F)) (beta_1 : (⟨S256, .f32⟩ : BufTy).Contents (Elt F)) (w1_2 : (⟨S288x256, .f32⟩ : BufTy).Contents (Elt F)) (b1_2 : (⟨S256, .f32⟩ : BufTy).Contents (Elt F)) (w2_2 : (⟨S256x256, .f32⟩ : BufTy).Contents (Elt F)) (b2_2 : (⟨S256, .f32⟩ : BufTy).Contents (Elt F)) (g_2 : (⟨S256, .f32⟩ : BufTy).Contents (Elt F)) (beta_2 : (⟨S256, .f32⟩ : BufTy).Contents (Elt F)) : (⟨S2000x256, .f32⟩ : BufTy).Contents (Elt F) :=
  pool1 (mid1 (agg1 (mid1 (agg1 (mid0 (agg0 x ea ei) w1_0 b1_0 w2_0 b2_0 g_0 beta_0) ea ei) w1_1 b1_1 w2_1 b2_1 g_1 beta_1) ea ei) w1_2 b1_2 w2_2 b2_2 g_2 beta_2) gb

end Cert.ReferenceIdeal.RefValue

end
-- ==== Proof.RefSeg0.lean ====
/- Consecutive segments of the reference program's operations: for each, the list, the buffers it writes, that every
   other buffer keeps its contents, and the contents of its result buffer as a named function of the contents before. -/
import proofs.«164030_j60206851555878_1_alg».proof.Proof.RefBase
import proofs.«164030_j60206851555878_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatter Host.scatterAdd Host.reduceAdd concatenate

/-- The 27 operations of the aggregate of layer 0, in order. -/
def segA0 : List (HloOp τ sig (Elt F)) :=
  [ StableHlo.unary main_arg2 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg2 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000,
    StableHlo.nullary main_c (constantI S_ 32 0#32),
    StableHlo.unary main_c main_v4 (broadcastInDim S200000 ![] bcast_S_S200000 : (⟨S_, .i32⟩ : BufTy).Contents (Elt F) → (⟨S200000, .i32⟩ : BufTy).Contents (Elt F)),
    StableHlo.binary main_v1 main_v4 main_v5 (cmpi .slt : (⟨S200000, .i32⟩ : BufTy).Contents (Elt F) → (⟨S200000, .i32⟩ : BufTy).Contents (Elt F) → (⟨S200000, .i1⟩ : BufTy).Contents (Elt F)),
    StableHlo.nullary main_c_0 (constantI S_ 32 50000#32),
    StableHlo.unary main_c_0 main_v6 (broadcastInDim S200000 ![] bcast_S_S200000 : (⟨S_, .i32⟩ : BufTy).Contents (Elt F) → (⟨S200000, .i32⟩ : BufTy).Contents (Elt F)),
    StableHlo.binary main_v1 main_v6 main_v7 (addi : (⟨S200000, .i32⟩ : BufTy).Contents (Elt F) → (⟨S200000, .i32⟩ : BufTy).Contents (Elt F) → (⟨S200000, .i32⟩ : BufTy).Contents (Elt F)),
    StableHlo.ternary main_v5 main_v7 main_v1 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v8 main_v9 (broadcastInDim S200000x1 ![0] bcast_S200000_S200000x1_0 : (⟨S200000, .i32⟩ : BufTy).Contents (Elt F) → (⟨S200000x1, .i32⟩ : BufTy).Contents (Elt F)),
    StableHlo.binary main_arg0 main_v9 main_v10 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.binary main_v10 main_arg1 main_v11 ((fun a b => concatenate S200000x160 1 [⟨S200000x128, a⟩, ⟨S200000x32, b⟩] concatenates_S200000x128_S200000x32_S200000x160_d1) : (⟨S200000x128, .f32⟩ : BufTy).Contents (Elt F) → (⟨S200000x32, .f32⟩ : BufTy).Contents (Elt F) → (⟨S200000x160, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S200000x160, .f32⟩) (broadcastInDim S200000x160 ![] bcast_S_S200000x160),
    StableHlo.TRef.binary (.of main_v11 : StableHlo.TRef sig ⟨S200000x160, .f32⟩) (.of main_call0_v0 : StableHlo.TRef sig ⟨S200000x160, .f32⟩) (.of main_v12 : StableHlo.TRef sig ⟨S200000x160, .f32⟩) maximumf,
    StableHlo.nullary main_cst (constant S_ .f32 0x00000000#32),
    StableHlo.unary main_cst main_v13 (broadcastInDim S50000x160 ![] bcast_S_S50000x160 : (⟨S_, .f32⟩ : BufTy).Contents (Elt F) → (⟨S50000x160, .f32⟩ : BufTy).Contents (Elt F)),
    StableHlo.unary main_v3 main_v14 (broadcastInDim S200000x1 ![0] bcast_S200000_S200000x1_0 : (⟨S200000, .i32⟩ : BufTy).Contents (Elt F) → (⟨S200000x1, .i32⟩ : BufTy).Contents (Elt F)),
    StableHlo.ternary main_v13 main_v14 main_v12 main_v15 ((fun x i u => Host.scatterAdd scatter_S50000x160_S200000x1_S200000x160_1_0_0_1 x i u) : (⟨S50000x160, .f32⟩ : BufTy).Contents (Elt F) → (⟨S200000x1, .i32⟩ : BufTy).Contents (Elt F) → (⟨S200000x160, .f32⟩ : BufTy).Contents (Elt F) → (⟨S50000x160, .f32⟩ : BufTy).Contents (Elt F)),
    StableHlo.nullary main_cst_1 (constant S_ .f32 0x3F800000#32),
    StableHlo.unary main_cst_1 main_v16 (broadcastInDim S50000x128 ![] bcast_S_S50000x128 : (⟨S_, .f32⟩ : BufTy).Contents (Elt F) → (⟨S50000x128, .f32⟩ : BufTy).Contents (Elt F)),
    StableHlo.binary main_v16 main_arg0 main_v17 (mulf : (⟨S50000x128, .f32⟩ : BufTy).Contents (Elt F) → (⟨S50000x128, .f32⟩ : BufTy).Contents (Elt F) → (⟨S50000x128, .f32⟩ : BufTy).Contents (Elt F)),
    StableHlo.nullary main_c_2 (constantI S_ 32 0#32),
    StableHlo.unary main_c_2 main_v18 (broadcastInDim S1 ![] bcast_S_S1 : (⟨S_, .i32⟩ : BufTy).Contents (Elt F) → (⟨S1, .i32⟩ : BufTy).Contents (Elt F)),
    StableHlo.ternary main_v15 main_v18 main_v17 main_v19 ((fun x i u => Host.scatter scatter_S50000x160_S1_S50000x128_01_n_1_0 FloatOps.addf x i u) : (⟨S50000x160, .f32⟩ : BufTy).Contents (Elt F) → (⟨S1, .i32⟩ : BufTy).Contents (Elt F) → (⟨S50000x128, .f32⟩ : BufTy).Contents (Elt F) → (⟨S50000x160, .f32⟩ : BufTy).Contents (Elt F)) ]

/-- The buffers they write. -/
def wrA0 : List (Ref sig .tc) :=
  [main_v0, main_v1, main_v2, main_v3, main_c, main_v4, main_v5, main_c_0, main_v6, main_v7, main_v8, main_v9, main_v10, main_v11, main_call0_cst, main_call0_v0, main_v12, main_cst, main_v13, main_v14, main_v15, main_cst_1, main_v16, main_v17, main_c_2, main_v18, main_v19]

theorem segA0_writes : (segA0 : List (HloOp τ sig (Elt F))).Forall fun op => op.writes ⊆ ((wrA0).map (Proc.devRef (τ := τ) .tc)).toFinset := by
  unfold segA0
  exact ⟨writes_sub' (y := main_v0) rfl (by decide),
    writes_sub' (y := main_v1) rfl (by decide),
    writes_sub' (y := main_v2) rfl (by decide),
    writes_sub' (y := main_v3) rfl (by decide),
    writes_sub' (y := main_c) rfl (by decide),
    writes_sub' (y := main_v4) rfl (by decide),
    writes_sub' (y := main_v5) rfl (by decide),
    writes_sub' (y := main_c_0) rfl (by decide),
    writes_sub' (y := main_v6) rfl (by decide),
    writes_sub' (y := main_v7) rfl (by decide),
    writes_sub' (y := main_v8) rfl (by decide),
    writes_sub' (y := main_v9) rfl (by decide),
    writes_sub' (y := main_v10) rfl (by decide),
    writes_sub' (y := main_v11) rfl (by decide),
    writes_sub' (y := main_call0_cst) rfl (by decide),
    writes_sub' (y := main_call0_v0) rfl (by decide),
    writes_sub' (y := main_v12) rfl (by decide),
    writes_sub' (y := main_cst) rfl (by decide),
    writes_sub' (y := main_v13) rfl (by decide),
    writes_sub' (y := main_v14) rfl (by decide),
    writes_sub' (y := main_v15) rfl (by decide),
    writes_sub' (y := main_cst_1) rfl (by decide),
    writes_sub' (y := main_v16) rfl (by decide),
    writes_sub' (y := main_v17) rfl (by decide),
    writes_sub' (y := main_c_2) rfl (by decide),
    writes_sub' (y := main_v18) rfl (by decide),
    writes_sub' (y := main_v19) rfl (by decide)⟩

/-- A buffer outside that list keeps its contents. -/
theorem segA0_frame (V : Valuation τ sig (Elt F)) {r : Ref sig .tc} (hr : r ∉ wrA0) :
    after segA0 V (no_index (Proc.devRef .tc r)) = V (Proc.devRef .tc r) :=
  after_of_writes_sub segA0 V segA0_writes hr

set_option maxRecDepth 8192 in
set_option maxHeartbeats 1600000 in
theorem segA0_v1 (V : Valuation τ sig (Elt F)) :
    after segA0 V (Proc.devRef .tc main_v1) = row0 (V (Proc.devRef .tc main_arg2)) := by
  unfold segA0
  after_results_simp
  rfl

set_option maxRecDepth 8192 in
set_option maxHeartbeats 1600000 in
theorem segA0_v3 (V : Valuation τ sig (Elt F)) :
    after segA0 V (Proc.devRef .tc main_v3) = row1 (V (Proc.devRef .tc main_arg2)) := by
  unfold segA0
  after_results_simp
  rfl

set_option maxRecDepth 8192 in
set_option maxHeartbeats 1600000 in
theorem segA0_v19 (V : Valuation τ sig (Elt F)) :
    after segA0 V (Proc.devRef .tc main_v19) = agg0 (V (Proc.devRef .tc main_arg0)) (V (Proc.devRef .tc main_arg1)) (V (Proc.devRef .tc main_arg2)) := by
  unfold segA0
  after_results_simp
  rfl

/-- The 14 operations of the two affine maps and positive parts of layer 0, in order. -/
def segH0 : List (HloOp τ sig (Elt F)) :=
  [ StableHlo.binary main_v19 main_arg5 main_v20 ((fun l r => Host.dotGeneral dot_S50000x160_S160x256_S50000x256_1_0_0_1_n_n none l r) : (⟨S50000x160, .f32⟩ : BufTy).Contents (Elt F) → (⟨S160x256, .f32⟩ : BufTy).Contents (Elt F) → (⟨S50000x256, .f32⟩ : BufTy).Contents (Elt F)),
    StableHlo.unary main_arg6 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v20 main_v22 main_v23 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v23 : StableHlo.TRef sig ⟨S50000x256, .f32⟩) (.of main_call1_v0 : StableHlo.TRef sig ⟨S50000x256, .f32⟩) (.of main_v24 : StableHlo.TRef sig ⟨S50000x256, .f32⟩) maximumf,
    StableHlo.binary main_v24 main_arg7 main_v25 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v25 main_v27 main_v28 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v28 : StableHlo.TRef sig ⟨S50000x256, .f32⟩) (.of main_call2_v0 : StableHlo.TRef sig ⟨S50000x256, .f32⟩) (.of main_v29 : StableHlo.TRef sig ⟨S50000x256, .f32⟩) maximumf ]

/-- The buffers they write. -/
def wrH0 : List (Ref sig .tc) :=
  [main_v20, main_v21, main_v22, main_v23, main_call1_cst, main_call1_v0, main_v24, main_v25, main_v26, main_v27, main_v28, main_call2_cst, main_call2_v0, main_v29]

theorem segH0_writes : (segH0 : List (HloOp τ sig (Elt F))).Forall fun op => op.writes ⊆ ((wrH0).map (Proc.devRef (τ := τ) .tc)).toFinset := by
  unfold segH0
  exact ⟨writes_sub' (y := main_v20) rfl (by decide),
    writes_sub' (y := main_v21) rfl (by decide),
    writes_sub' (y := main_v22) rfl (by decide),
    writes_sub' (y := main_v23) rfl (by decide),
    writes_sub' (y := main_call1_cst) rfl (by decide),
    writes_sub' (y := main_call1_v0) rfl (by decide),
    writes_sub' (y := main_v24) rfl (by decide),
    writes_sub' (y := main_v25) rfl (by decide),
    writes_sub' (y := main_v26) rfl (by decide),
    writes_sub' (y := main_v27) rfl (by decide),
    writes_sub' (y := main_v28) rfl (by decide),
    writes_sub' (y := main_call2_cst) rfl (by decide),
    writes_sub' (y := main_call2_v0) rfl (by decide),
    writes_sub' (y := main_v29) rfl (by decide)⟩

/-- A buffer outside that list keeps its contents. -/
theorem segH0_frame (V : Valuation τ sig (Elt F)) {r : Ref sig .tc} (hr : r ∉ wrH0) :
    after segH0 V (no_index (Proc.devRef .tc r)) = V (Proc.devRef .tc r) :=
  after_of_writes_sub segH0 V segH0_writes hr

set_option maxRecDepth 8192 in
set_option maxHeartbeats 1600000 in
theorem segH0_v29 (V : Valuation τ sig (Elt F)) :
    after segH0 V (Proc.devRef .tc main_v29) = h2R0 (V (Proc.devRef .tc main_v19)) (V (Proc.devRef .tc main_arg5)) (V (Proc.devRef .tc main_arg6)) (V (Proc.devRef .tc main_arg7)) (V (Proc.devRef .tc main_arg8)) := by
  unfold segH0
  after_results_simp
  rfl

/-- The 44 operations of the batch normalisation of layer 0, in order. -/
def segB0 : List (HloOp τ sig (Elt F)) :=
  [ StableHlo.nullary main_cst_3 (constant S_ .f32 0x00000000#32),
    StableHlo.binary main_v29 main_cst_3 main_v30 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_4 (constant S_ .f32 0x47435000#32),
    StableHlo.unary main_cst_4 main_v31 (broadcastInDim S256 ![] bcast_S_S256 : (⟨S_, .f32⟩ : BufTy).Contents (Elt F) → (⟨S256, .f32⟩ : BufTy).Contents (Elt F)),
    StableHlo.binary main_v30 main_v31 main_v32 (Host.divf : (⟨S256, .f32⟩ : BufTy).Contents (Elt F) → (⟨S256, .f32⟩ : BufTy).Contents (Elt F) → (⟨S256, .f32⟩ : BufTy).Contents (Elt F)),
    StableHlo.nullary main_c_5 (constantI S_ 32 0#32),
    StableHlo.TRef.nullary (.of main_call3_cst : StableHlo.TRef sig ⟨S_, .f32⟩) (constant S_ .f32 0x00000000#32),
    StableHlo.TRef.binary (.of main_v29 : StableHlo.TRef sig ⟨S50000x256, .f32⟩) (.of main_call3_cst : StableHlo.TRef sig ⟨S_, .f32⟩) (.of main_call3_v0 : StableHlo.TRef sig ⟨S256, .f32⟩) (fun x v => Host.reduceAdd x v reducesTo_S50000x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S50000x256, .f32⟩) (broadcastInDim S50000x256 ![0, 1] bcast_S1x256_S50000x256_0_1),
    StableHlo.TRef.binary (.of main_v29 : StableHlo.TRef sig ⟨S50000x256, .f32⟩) (.of main_call3_v4 : StableHlo.TRef sig ⟨S50000x256, .f32⟩) (.of main_call3_v5 : StableHlo.TRef sig ⟨S50000x256, .f32⟩) subf,
    StableHlo.TRef.binary (.of main_call3_v5 : StableHlo.TRef sig ⟨S50000x256, .f32⟩) (.of main_call3_v5 : StableHlo.TRef sig ⟨S50000x256, .f32⟩) (.of main_call3_v6 : StableHlo.TRef sig ⟨S50000x256, .f32⟩) mulf,
    StableHlo.TRef.unary (.of main_c_5 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x256, .f32⟩) (.of main_call3_cst_2 : StableHlo.TRef sig ⟨S_, .f32⟩) (.of main_call3_v9 : StableHlo.TRef sig ⟨S256, .f32⟩) (fun x v => Host.reduceAdd x v reducesTo_S50000x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v33 : StableHlo.TRef sig ⟨S256, .f32⟩) (fun p a b => select (broadcastInDim S256 ![] bcast_S_S256 p) a b),
    StableHlo.unary main_v32 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v35 main_v36 (subf : (⟨S50000x256, .f32⟩ : BufTy).Contents (Elt F) → (⟨S50000x256, .f32⟩ : BufTy).Contents (Elt F) → (⟨S50000x256, .f32⟩ : BufTy).Contents (Elt F)),
    StableHlo.unary main_arg9 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v36 main_v39 (mulf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x3727C5AC#32),
    StableHlo.unary main_cst_6 main_v40 (broadcastInDim S256 ![] bcast_S_S256 : (⟨S_, .f32⟩ : BufTy).Contents (Elt F) → (⟨S256, .f32⟩ : BufTy).Contents (Elt F)),
    StableHlo.binary main_v33 main_v40 main_v41 (addf : (⟨S256, .f32⟩ : BufTy).Contents (Elt F) → (⟨S256, .f32⟩ : BufTy).Contents (Elt F) → (⟨S256, .f32⟩ : BufTy).Contents (Elt F)),
    StableHlo.unary main_v41 main_v42 (Host.rsqrt : (⟨S256, .f32⟩ : BufTy).Contents (Elt F) → (⟨S256, .f32⟩ : BufTy).Contents (Elt F)),
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v44 main_v45 (mulf : (⟨S50000x256, .f32⟩ : BufTy).Contents (Elt F) → (⟨S50000x256, .f32⟩ : BufTy).Contents (Elt F) → (⟨S50000x256, .f32⟩ : BufTy).Contents (Elt F)),
    StableHlo.unary main_arg10 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v47 main_v48 (addf : (⟨S50000x256, .f32⟩ : BufTy).Contents (Elt F) → (⟨S50000x256, .f32⟩ : BufTy).Contents (Elt F) → (⟨S50000x256, .f32⟩ : BufTy).Contents (Elt F)) ]

/-- The buffers they write. -/
def wrB0 : List (Ref sig .tc) :=
  [main_cst_3, main_v30, main_cst_4, main_v31, main_v32, main_c_5, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v33, main_v34, main_v35, main_v36, main_v37, main_v38, main_v39, main_cst_6, main_v40, main_v41, main_v42, main_v43, main_v44, main_v45, main_v46, main_v47, main_v48]

theorem segB0_writes : (segB0 : List (HloOp τ sig (Elt F))).Forall fun op => op.writes ⊆ ((wrB0).map (Proc.devRef (τ := τ) .tc)).toFinset := by
  unfold segB0
  exact ⟨writes_sub' (y := main_cst_3) rfl (by decide),
    writes_sub' (y := main_v30) rfl (by decide),
    writes_sub' (y := main_cst_4) rfl (by decide),
    writes_sub' (y := main_v31) rfl (by decide),
    writes_sub' (y := main_v32) rfl (by decide),
    writes_sub' (y := main_c_5) rfl (by decide),
    writes_sub' (y := main_call3_cst) rfl (by decide),
    writes_sub' (y := main_call3_v0) rfl (by decide),
    writes_sub' (y := main_call3_v1) rfl (by decide),
    writes_sub' (y := main_call3_cst_0) rfl (by decide),
    writes_sub' (y := main_call3_v2) rfl (by decide),
    writes_sub' (y := main_call3_v3) rfl (by decide),
    writes_sub' (y := main_call3_v4) rfl (by decide),
    writes_sub' (y := main_call3_v5) rfl (by decide),
    writes_sub' (y := main_call3_v6) rfl (by decide),
    writes_sub' (y := main_call3_v7) rfl (by decide),
    writes_sub' (y := main_call3_cst_1) rfl (by decide),
    writes_sub' (y := main_call3_v8) rfl (by decide),
    writes_sub' (y := main_call3_cst_2) rfl (by decide),
    writes_sub' (y := main_call3_v9) rfl (by decide),
    writes_sub' (y := main_call3_v10) rfl (by decide),
    writes_sub' (y := main_call3_v11) rfl (by decide),
    writes_sub' (y := main_call3_cst_3) rfl (by decide),
    writes_sub' (y := main_call3_v12) rfl (by decide),
    writes_sub' (y := main_call3_cst_4) rfl (by decide),
    writes_sub' (y := main_call3_call0_v0) rfl (by decide),
    writes_sub' (y := main_call3_call0_v1) rfl (by decide),
    writes_sub' (y := main_v33) rfl (by decide),
    writes_sub' (y := main_v34) rfl (by decide),
    writes_sub' (y := main_v35) rfl (by decide),
    writes_sub' (y := main_v36) rfl (by decide),
    writes_sub' (y := main_v37) rfl (by decide),
    writes_sub' (y := main_v38) rfl (by decide),
    writes_sub' (y := main_v39) rfl (by decide),
    writes_sub' (y := main_cst_6) rfl (by decide),
    writes_sub' (y := main_v40) rfl (by decide),
    writes_sub' (y := main_v41) rfl (by decide),
    writes_sub' (y := main_v42) rfl (by decide),
    writes_sub' (y := main_v43) rfl (by decide),
    writes_sub' (y := main_v44) rfl (by decide),
    writes_sub' (y := main_v45) rfl (by decide),
    writes_sub' (y := main_v46) rfl (by decide),
    writes_sub' (y := main_v47) rfl (by decide),
    writes_sub' (y := main_v48) rfl (by decide)⟩

/-- A buffer outside that list keeps its contents. -/
theorem segB0_frame (V : Valuation τ sig (Elt F)) {r : Ref sig .tc} (hr : r ∉ wrB0) :
    after segB0 V (no_index (Proc.devRef .tc r)) = V (Proc.devRef .tc r) :=
  after_of_writes_sub segB0 V segB0_writes hr

set_option maxRecDepth 8192 in
set_option maxHeartbeats 1600000 in
theorem segB0_v48 (V : Valuation τ sig (Elt F)) :
    after segB0 V (Proc.devRef .tc main_v48) = bnR (V (Proc.devRef .tc main_v29)) (V (Proc.devRef .tc main_arg9)) (V (Proc.devRef .tc main_arg10)) := by
  unfold segB0
  after_results_simp
  rfl

end Cert.ReferenceIdeal.RefValue

end
-- ==== Proof.RefSeg1.lean ====
/- Consecutive segments of the reference program's operations: for each, the list, the buffers it writes, that every
   other buffer keeps its contents, and the contents of its result buffer as a named function of the contents before. -/
import proofs.«164030_j60206851555878_1_alg».proof.Proof.RefBase
import proofs.«164030_j60206851555878_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatter Host.scatterAdd Host.reduceAdd concatenate

/-- The 23 operations of the aggregate of layer 1, in order. -/
def segA1 : List (HloOp τ sig (Elt F)) :=
  [ StableHlo.nullary main_c_7 (constantI S_ 32 0#32),
    StableHlo.unary main_c_7 main_v49 (broadcastInDim S200000 ![] bcast_S_S200000 : (⟨S_, .i32⟩ : BufTy).Contents (Elt F) → (⟨S200000, .i32⟩ : BufTy).Contents (Elt F)),
    StableHlo.binary main_v1 main_v49 main_v50 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 50000#32),
    StableHlo.unary main_c_8 main_v51 (broadcastInDim S200000 ![] bcast_S_S200000 : (⟨S_, .i32⟩ : BufTy).Contents (Elt F) → (⟨S200000, .i32⟩ : BufTy).Contents (Elt F)),
    StableHlo.binary main_v1 main_v51 main_v52 (addi : (⟨S200000, .i32⟩ : BufTy).Contents (Elt F) → (⟨S200000, .i32⟩ : BufTy).Contents (Elt F) → (⟨S200000, .i32⟩ : BufTy).Contents (Elt F)),
    StableHlo.ternary main_v50 main_v52 main_v1 main_v53 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v53 main_v54 (broadcastInDim S200000x1 ![0] bcast_S200000_S200000x1_0 : (⟨S200000, .i32⟩ : BufTy).Contents (Elt F) → (⟨S200000x1, .i32⟩ : BufTy).Contents (Elt F)),
    StableHlo.binary main_v48 main_v54 main_v55 ((fun x i => Host.gather gather_S50000x256_S200000x1_S200000x256_1_0_n_n_0_1_1256 x i) : (⟨S50000x256, .f32⟩ : BufTy).Contents (Elt F) → (⟨S200000x1, .i32⟩ : BufTy).Contents (Elt F) → (⟨S200000x256, .f32⟩ : BufTy).Contents (Elt F)),
    StableHlo.binary main_v55 main_arg1 main_v56 ((fun a b => concatenate S200000x288 1 [⟨S200000x256, a⟩, ⟨S200000x32, b⟩] concatenates_S200000x256_S200000x32_S200000x288_d1) : (⟨S200000x256, .f32⟩ : BufTy).Contents (Elt F) → (⟨S200000x32, .f32⟩ : BufTy).Contents (Elt F) → (⟨S200000x288, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S200000x288, .f32⟩) (broadcastInDim S200000x288 ![] bcast_S_S200000x288),
    StableHlo.TRef.binary (.of main_v56 : StableHlo.TRef sig ⟨S200000x288, .f32⟩) (.of main_call4_v0 : StableHlo.TRef sig ⟨S200000x288, .f32⟩) (.of main_v57 : StableHlo.TRef sig ⟨S200000x288, .f32⟩) maximumf,
    StableHlo.nullary main_cst_9 (constant S_ .f32 0x00000000#32),
    StableHlo.unary main_cst_9 main_v58 (broadcastInDim S50000x288 ![] bcast_S_S50000x288 : (⟨S_, .f32⟩ : BufTy).Contents (Elt F) → (⟨S50000x288, .f32⟩ : BufTy).Contents (Elt F)),
    StableHlo.unary main_v3 main_v59 (broadcastInDim S200000x1 ![0] bcast_S200000_S200000x1_0 : (⟨S200000, .i32⟩ : BufTy).Contents (Elt F) → (⟨S200000x1, .i32⟩ : BufTy).Contents (Elt F)),
    StableHlo.ternary main_v58 main_v59 main_v57 main_v60 ((fun x i u => Host.scatterAdd scatter_S50000x288_S200000x1_S200000x288_1_0_0_1 x i u) : (⟨S50000x288, .f32⟩ : BufTy).Contents (Elt F) → (⟨S200000x1, .i32⟩ : BufTy).Contents (Elt F) → (⟨S200000x288, .f32⟩ : BufTy).Contents (Elt F) → (⟨S50000x288, .f32⟩ : BufTy).Contents (Elt F)),
    StableHlo.nullary main_cst_10 (constant S_ .f32 0x3F800000#32),
    StableHlo.unary main_cst_10 main_v61 (broadcastInDim S50000x256 ![] bcast_S_S50000x256 : (⟨S_, .f32⟩ : BufTy).Contents (Elt F) → (⟨S50000x256, .f32⟩ : BufTy).Contents (Elt F)),
    StableHlo.binary main_v61 main_v48 main_v62 (mulf : (⟨S50000x256, .f32⟩ : BufTy).Contents (Elt F) → (⟨S50000x256, .f32⟩ : BufTy).Contents (Elt F) → (⟨S50000x256, .f32⟩ : BufTy).Contents (Elt F)),
    StableHlo.nullary main_c_11 (constantI S_ 32 0#32),
    StableHlo.unary main_c_11 main_v63 (broadcastInDim S1 ![] bcast_S_S1 : (⟨S_, .i32⟩ : BufTy).Contents (Elt F) → (⟨S1, .i32⟩ : BufTy).Contents (Elt F)),
    StableHlo.ternary main_v60 main_v63 main_v62 main_v64 ((fun x i u => Host.scatter scatter_S50000x288_S1_S50000x256_01_n_1_0 FloatOps.addf x i u) : (⟨S50000x288, .f32⟩ : BufTy).Contents (Elt F) → (⟨S1, .i32⟩ : BufTy).Contents (Elt F) → (⟨S50000x256, .f32⟩ : BufTy).Contents (Elt F) → (⟨S50000x288, .f32⟩ : BufTy).Contents (Elt F)) ]

/-- The buffers they write. -/
def wrA1 : List (Ref sig .tc) :=
  [main_c_7, main_v49, main_v50, main_c_8, main_v51, main_v52, main_v53, main_v54, main_v55, main_v56, main_call4_cst, main_call4_v0, main_v57, main_cst_9, main_v58, main_v59, main_v60, main_cst_10, main_v61, main_v62, main_c_11, main_v63, main_v64]

theorem segA1_writes : (segA1 : List (HloOp τ sig (Elt F))).Forall fun op => op.writes ⊆ ((wrA1).map (Proc.devRef (τ := τ) .tc)).toFinset := by
  unfold segA1
  exact ⟨writes_sub' (y := main_c_7) rfl (by decide),
    writes_sub' (y := main_v49) rfl (by decide),
    writes_sub' (y := main_v50) rfl (by decide),
    writes_sub' (y := main_c_8) rfl (by decide),
    writes_sub' (y := main_v51) rfl (by decide),
    writes_sub' (y := main_v52) rfl (by decide),
    writes_sub' (y := main_v53) rfl (by decide),
    writes_sub' (y := main_v54) rfl (by decide),
    writes_sub' (y := main_v55) rfl (by decide),
    writes_sub' (y := main_v56) rfl (by decide),
    writes_sub' (y := main_call4_cst) rfl (by decide),
    writes_sub' (y := main_call4_v0) rfl (by decide),
    writes_sub' (y := main_v57) rfl (by decide),
    writes_sub' (y := main_cst_9) rfl (by decide),
    writes_sub' (y := main_v58) rfl (by decide),
    writes_sub' (y := main_v59) rfl (by decide),
    writes_sub' (y := main_v60) rfl (by decide),
    writes_sub' (y := main_cst_10) rfl (by decide),
    writes_sub' (y := main_v61) rfl (by decide),
    writes_sub' (y := main_v62) rfl (by decide),
    writes_sub' (y := main_c_11) rfl (by decide),
    writes_sub' (y := main_v63) rfl (by decide),
    writes_sub' (y := main_v64) rfl (by decide)⟩

/-- A buffer outside that list keeps its contents. -/
theorem segA1_frame (V : Valuation τ sig (Elt F)) {r : Ref sig .tc} (hr : r ∉ wrA1) :
    after segA1 V (no_index (Proc.devRef .tc r)) = V (Proc.devRef .tc r) :=
  after_of_writes_sub segA1 V segA1_writes hr

set_option maxRecDepth 8192 in
set_option maxHeartbeats 1600000 in
theorem segA1_v64 (V : Valuation τ sig (Elt F)) :
    after segA1 V (Proc.devRef .tc main_v64) = aggR1 (V (Proc.devRef .tc main_v48)) (V (Proc.devRef .tc main_arg1)) (srcIdxOf (V (Proc.devRef .tc main_v1))) (dstIdxOf (V (Proc.devRef .tc main_v3))) := by
  unfold segA1
  after_results_simp
  rfl

/-- The 14 operations of the two affine maps and positive parts of layer 1, in order. -/
def segH1 : List (HloOp τ sig (Elt F)) :=
  [ StableHlo.binary main_v64 main_arg11 main_v65 ((fun l r => Host.dotGeneral dot_S50000x288_S288x256_S50000x256_1_0_0_1_n_n none l r) : (⟨S50000x288, .f32⟩ : BufTy).Contents (Elt F) → (⟨S288x256, .f32⟩ : BufTy).Contents (Elt F) → (⟨S50000x256, .f32⟩ : BufTy).Contents (Elt F)),
    StableHlo.unary main_arg12 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S50000x256 ![0, 1] bcast_S1x256_S50000x256_0_1 : (⟨S1x256, .f32⟩ : BufTy).Contents (Elt F) → (⟨S50000x256, .f32⟩ : BufTy).Contents (Elt F)),
    StableHlo.binary main_v65 main_v67 main_v68 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x256, .f32⟩) (broadcastInDim S50000x256 ![] bcast_S_S50000x256),
    StableHlo.TRef.binary (.of main_v68 : StableHlo.TRef sig ⟨S50000x256, .f32⟩) (.of main_call5_v0 : StableHlo.TRef sig ⟨S50000x256, .f32⟩) (.of main_v69 : StableHlo.TRef sig ⟨S50000x256, .f32⟩) maximumf,
    StableHlo.binary main_v69 main_arg13 main_v70 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg14 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v72 main_v73 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x256, .f32⟩) (broadcastInDim S50000x256 ![] bcast_S_S50000x256),
    StableHlo.TRef.binary (.of main_v73 : StableHlo.TRef sig ⟨S50000x256, .f32⟩) (.of main_call6_v0 : StableHlo.TRef sig ⟨S50000x256, .f32⟩) (.of main_v74 : StableHlo.TRef sig ⟨S50000x256, .f32⟩) maximumf ]

/-- The buffers they write. -/
def wrH1 : List (Ref sig .tc) :=
  [main_v65, main_v66, main_v67, main_v68, main_call5_cst, main_call5_v0, main_v69, main_v70, main_v71, main_v72, main_v73, main_call6_cst, main_call6_v0, main_v74]

theorem segH1_writes : (segH1 : List (HloOp τ sig (Elt F))).Forall fun op => op.writes ⊆ ((wrH1).map (Proc.devRef (τ := τ) .tc)).toFinset := by
  unfold segH1
  exact ⟨writes_sub' (y := main_v65) rfl (by decide),
    writes_sub' (y := main_v66) rfl (by decide),
    writes_sub' (y := main_v67) rfl (by decide),
    writes_sub' (y := main_v68) rfl (by decide),
    writes_sub' (y := main_call5_cst) rfl (by decide),
    writes_sub' (y := main_call5_v0) rfl (by decide),
    writes_sub' (y := main_v69) rfl (by decide),
    writes_sub' (y := main_v70) rfl (by decide),
    writes_sub' (y := main_v71) rfl (by decide),
    writes_sub' (y := main_v72) rfl (by decide),
    writes_sub' (y := main_v73) rfl (by decide),
    writes_sub' (y := main_call6_cst) rfl (by decide),
    writes_sub' (y := main_call6_v0) rfl (by decide),
    writes_sub' (y := main_v74) rfl (by decide)⟩

/-- A buffer outside that list keeps its contents. -/
theorem segH1_frame (V : Valuation τ sig (Elt F)) {r : Ref sig .tc} (hr : r ∉ wrH1) :
    after segH1 V (no_index (Proc.devRef .tc r)) = V (Proc.devRef .tc r) :=
  after_of_writes_sub segH1 V segH1_writes hr

set_option maxRecDepth 8192 in
set_option maxHeartbeats 1600000 in
theorem segH1_v74 (V : Valuation τ sig (Elt F)) :
    after segH1 V (Proc.devRef .tc main_v74) = h2R1 (V (Proc.devRef .tc main_v64)) (V (Proc.devRef .tc main_arg11)) (V (Proc.devRef .tc main_arg12)) (V (Proc.devRef .tc main_arg13)) (V (Proc.devRef .tc main_arg14)) := by
  unfold segH1
  after_results_simp
  rfl

/-- The 44 operations of the batch normalisation of layer 1, in order. -/
def segB1 : List (HloOp τ sig (Elt F)) :=
  [ StableHlo.nullary main_cst_12 (constant S_ .f32 0x00000000#32),
    StableHlo.binary main_v74 main_cst_12 main_v75 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v76 (broadcastInDim S256 ![] bcast_S_S256 : (⟨S_, .f32⟩ : BufTy).Contents (Elt F) → (⟨S256, .f32⟩ : BufTy).Contents (Elt F)),
    StableHlo.binary main_v75 main_v76 main_v77 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary (.of main_call7_cst : StableHlo.TRef sig ⟨S_, .f32⟩) (constant S_ .f32 0x00000000#32),
    StableHlo.TRef.binary (.of main_v74 : StableHlo.TRef sig ⟨S50000x256, .f32⟩) (.of main_call7_cst : StableHlo.TRef sig ⟨S_, .f32⟩) (.of main_call7_v0 : StableHlo.TRef sig ⟨S256, .f32⟩) (fun x v => Host.reduceAdd x v reducesTo_S50000x256_S256_d0 h_S_),
    StableHlo.TRef.unary (.of main_call7_v0 : StableHlo.TRef sig ⟨S256, .f32⟩) (.of main_call7_v1 : StableHlo.TRef sig ⟨S1x256, .f32⟩) (broadcastInDim S1x256 ![1] bcast_S256_S1x256_1),
    StableHlo.TRef.nullary (.of main_call7_cst_0 : StableHlo.TRef sig ⟨S_, .f32⟩) (constant S_ .f32 0x47435000#32),
    StableHlo.TRef.unary (.of main_call7_cst_0 : StableHlo.TRef sig ⟨S_, .f32⟩) (.of main_call7_v2 : StableHlo.TRef sig ⟨S1x256, .f32⟩) (broadcastInDim S1x256 ![] bcast_S_S1x256),
    StableHlo.TRef.binary (.of main_call7_v1 : StableHlo.TRef sig ⟨S1x256, .f32⟩) (.of main_call7_v2 : StableHlo.TRef sig ⟨S1x256, .f32⟩) (.of main_call7_v3 : StableHlo.TRef sig ⟨S1x256, .f32⟩) Host.divf,
    StableHlo.TRef.unary (.of main_call7_v3 : StableHlo.TRef sig ⟨S1x256, .f32⟩) (.of main_call7_v4 : StableHlo.TRef sig ⟨S50000x256, .f32⟩) (broadcastInDim S50000x256 ![0, 1] bcast_S1x256_S50000x256_0_1),
    StableHlo.TRef.binary (.of main_v74 : StableHlo.TRef sig ⟨S50000x256, .f32⟩) (.of main_call7_v4 : StableHlo.TRef sig ⟨S50000x256, .f32⟩) (.of main_call7_v5 : StableHlo.TRef sig ⟨S50000x256, .f32⟩) subf,
    StableHlo.TRef.binary (.of main_call7_v5 : StableHlo.TRef sig ⟨S50000x256, .f32⟩) (.of main_call7_v5 : StableHlo.TRef sig ⟨S50000x256, .f32⟩) (.of main_call7_v6 : StableHlo.TRef sig ⟨S50000x256, .f32⟩) mulf,
    StableHlo.TRef.unary (.of main_c_14 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47435000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S50000x256, .f32⟩) (.of main_call7_cst_2 : StableHlo.TRef sig ⟨S_, .f32⟩) (.of main_call7_v9 : StableHlo.TRef sig ⟨S256, .f32⟩) (fun x v => Host.reduceAdd x v reducesTo_S50000x256_S256_d0 h_S_),
    StableHlo.TRef.unary (.of main_call7_v8 : StableHlo.TRef sig ⟨S_, .f32⟩) (.of main_call7_v10 : StableHlo.TRef sig ⟨S256, .f32⟩) (broadcastInDim S256 ![] bcast_S_S256),
    StableHlo.TRef.binary (.of main_call7_v9 : StableHlo.TRef sig ⟨S256, .f32⟩) (.of main_call7_v10 : StableHlo.TRef sig ⟨S256, .f32⟩) (.of main_call7_v11 : StableHlo.TRef sig ⟨S256, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S256, .f32⟩) (broadcastInDim S256 ![] bcast_S_S256),
    StableHlo.TRef.ternary (.of main_call7_v12 : StableHlo.TRef sig ⟨S_, .i1⟩) (.of main_call7_v11 : StableHlo.TRef sig ⟨S256, .f32⟩) (.of main_call7_call0_v1 : StableHlo.TRef sig ⟨S256, .f32⟩) (.of main_v78 : StableHlo.TRef sig ⟨S256, .f32⟩) (fun p a b => select (broadcastInDim S256 ![] bcast_S_S256 p) a b),
    StableHlo.unary main_v77 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S50000x256 ![0, 1] bcast_S1x256_S50000x256_0_1 : (⟨S1x256, .f32⟩ : BufTy).Contents (Elt F) → (⟨S50000x256, .f32⟩ : BufTy).Contents (Elt F)),
    StableHlo.binary main_v74 main_v80 main_v81 (subf : (⟨S50000x256, .f32⟩ : BufTy).Contents (Elt F) → (⟨S50000x256, .f32⟩ : BufTy).Contents (Elt F) → (⟨S50000x256, .f32⟩ : BufTy).Contents (Elt F)),
    StableHlo.unary main_arg15 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v81 main_v84 (mulf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v85 (broadcastInDim S256 ![] bcast_S_S256 : (⟨S_, .f32⟩ : BufTy).Contents (Elt F) → (⟨S256, .f32⟩ : BufTy).Contents (Elt F)),
    StableHlo.binary main_v78 main_v85 main_v86 (addf : (⟨S256, .f32⟩ : BufTy).Contents (Elt F) → (⟨S256, .f32⟩ : BufTy).Contents (Elt F) → (⟨S256, .f32⟩ : BufTy).Contents (Elt F)),
    StableHlo.unary main_v86 main_v87 (Host.rsqrt : (⟨S256, .f32⟩ : BufTy).Contents (Elt F) → (⟨S256, .f32⟩ : BufTy).Contents (Elt F)),
    StableHlo.unary main_v87 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S50000x256 ![0, 1] bcast_S1x256_S50000x256_0_1 : (⟨S1x256, .f32⟩ : BufTy).Contents (Elt F) → (⟨S50000x256, .f32⟩ : BufTy).Contents (Elt F)),
    StableHlo.binary main_v84 main_v89 main_v90 (mulf : (⟨S50000x256, .f32⟩ : BufTy).Contents (Elt F) → (⟨S50000x256, .f32⟩ : BufTy).Contents (Elt F) → (⟨S50000x256, .f32⟩ : BufTy).Contents (Elt F)),
    StableHlo.unary main_arg16 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S50000x256 ![0, 1] bcast_S1x256_S50000x256_0_1 : (⟨S1x256, .f32⟩ : BufTy).Contents (Elt F) → (⟨S50000x256, .f32⟩ : BufTy).Contents (Elt F)),
    StableHlo.binary main_v90 main_v92 main_v93 (addf : (⟨S50000x256, .f32⟩ : BufTy).Contents (Elt F) → (⟨S50000x256, .f32⟩ : BufTy).Contents (Elt F) → (⟨S50000x256, .f32⟩ : BufTy).Contents (Elt F)) ]

/-- The buffers they write. -/
def wrB1 : List (Ref sig .tc) :=
  [main_cst_12, main_v75, main_cst_13, main_v76, main_v77, main_c_14, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v78, main_v79, main_v80, main_v81, main_v82, main_v83, main_v84, main_cst_15, main_v85, main_v86, main_v87, main_v88, main_v89, main_v90, main_v91, main_v92, main_v93]

theorem segB1_writes : (segB1 : List (HloOp τ sig (Elt F))).Forall fun op => op.writes ⊆ ((wrB1).map (Proc.devRef (τ := τ) .tc)).toFinset := by
  unfold segB1
  exact ⟨writes_sub' (y := main_cst_12) rfl (by decide),
    writes_sub' (y := main_v75) rfl (by decide),
    writes_sub' (y := main_cst_13) rfl (by decide),
    writes_sub' (y := main_v76) rfl (by decide),
    writes_sub' (y := main_v77) rfl (by decide),
    writes_sub' (y := main_c_14) rfl (by decide),
    writes_sub' (y := main_call7_cst) rfl (by decide),
    writes_sub' (y := main_call7_v0) rfl (by decide),
    writes_sub' (y := main_call7_v1) rfl (by decide),
    writes_sub' (y := main_call7_cst_0) rfl (by decide),
    writes_sub' (y := main_call7_v2) rfl (by decide),
    writes_sub' (y := main_call7_v3) rfl (by decide),
    writes_sub' (y := main_call7_v4) rfl (by decide),
    writes_sub' (y := main_call7_v5) rfl (by decide),
    writes_sub' (y := main_call7_v6) rfl (by decide),
    writes_sub' (y := main_call7_v7) rfl (by decide),
    writes_sub' (y := main_call7_cst_1) rfl (by decide),
    writes_sub' (y := main_call7_v8) rfl (by decide),
    writes_sub' (y := main_call7_cst_2) rfl (by decide),
    writes_sub' (y := main_call7_v9) rfl (by decide),
    writes_sub' (y := main_call7_v10) rfl (by decide),
    writes_sub' (y := main_call7_v11) rfl (by decide),
    writes_sub' (y := main_call7_cst_3) rfl (by decide),
    writes_sub' (y := main_call7_v12) rfl (by decide),
    writes_sub' (y := main_call7_cst_4) rfl (by decide),
    writes_sub' (y := main_call7_call0_v0) rfl (by decide),
    writes_sub' (y := main_call7_call0_v1) rfl (by decide),
    writes_sub' (y := main_v78) rfl (by decide),
    writes_sub' (y := main_v79) rfl (by decide),
    writes_sub' (y := main_v80) rfl (by decide),
    writes_sub' (y := main_v81) rfl (by decide),
    writes_sub' (y := main_v82) rfl (by decide),
    writes_sub' (y := main_v83) rfl (by decide),
    writes_sub' (y := main_v84) rfl (by decide),
    writes_sub' (y := main_cst_15) rfl (by decide),
    writes_sub' (y := main_v85) rfl (by decide),
    writes_sub' (y := main_v86) rfl (by decide),
    writes_sub' (y := main_v87) rfl (by decide),
    writes_sub' (y := main_v88) rfl (by decide),
    writes_sub' (y := main_v89) rfl (by decide),
    writes_sub' (y := main_v90) rfl (by decide),
    writes_sub' (y := main_v91) rfl (by decide),
    writes_sub' (y := main_v92) rfl (by decide),
    writes_sub' (y := main_v93) rfl (by decide)⟩

/-- A buffer outside that list keeps its contents. -/
theorem segB1_frame (V : Valuation τ sig (Elt F)) {r : Ref sig .tc} (hr : r ∉ wrB1) :
    after segB1 V (no_index (Proc.devRef .tc r)) = V (Proc.devRef .tc r) :=
  after_of_writes_sub segB1 V segB1_writes hr

set_option maxRecDepth 8192 in
set_option maxHeartbeats 1600000 in
theorem segB1_v93 (V : Valuation τ sig (Elt F)) :
    after segB1 V (Proc.devRef .tc main_v93) = bnR (V (Proc.devRef .tc main_v74)) (V (Proc.devRef .tc main_arg15)) (V (Proc.devRef .tc main_arg16)) := by
  unfold segB1
  after_results_simp
  rfl

end Cert.ReferenceIdeal.RefValue

end
-- ==== Proof.RefSeg2.lean ====
/- Consecutive segments of the reference program's operations: for each, the list, the buffers it writes, that every
   other buffer keeps its contents, and the contents of its result buffer as a named function of the contents before. -/
import proofs.«164030_j60206851555878_1_alg».proof.Proof.RefBase
import proofs.«164030_j60206851555878_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatter Host.scatterAdd Host.reduceAdd concatenate

/-- The 23 operations of the aggregate of layer 2, in order. -/
def segA2 : List (HloOp τ sig (Elt F)) :=
  [ StableHlo.nullary main_c_16 (constantI S_ 32 0#32),
    StableHlo.unary main_c_16 main_v94 (broadcastInDim S200000 ![] bcast_S_S200000 : (⟨S_, .i32⟩ : BufTy).Contents (Elt F) → (⟨S200000, .i32⟩ : BufTy).Contents (Elt F)),
    StableHlo.binary main_v1 main_v94 main_v95 (cmpi .slt : (⟨S200000, .i32⟩ : BufTy).Contents (Elt F) → (⟨S200000, .i32⟩ : BufTy).Contents (Elt F) → (⟨S200000, .i1⟩ : BufTy).Contents (Elt F)),
    StableHlo.nullary main_c_17 (constantI S_ 32 50000#32),
    StableHlo.unary main_c_17 main_v96 (broadcastInDim S200000 ![] bcast_S_S200000 : (⟨S_, .i32⟩ : BufTy).Contents (Elt F) → (⟨S200000, .i32⟩ : BufTy).Contents (Elt F)),
    StableHlo.binary main_v1 main_v96 main_v97 (addi : (⟨S200000, .i32⟩ : BufTy).Contents (Elt F) → (⟨S200000, .i32⟩ : BufTy).Contents (Elt F) → (⟨S200000, .i32⟩ : BufTy).Contents (Elt F)),
    StableHlo.ternary main_v95 main_v97 main_v1 main_v98 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v98 main_v99 (broadcastInDim S200000x1 ![0] bcast_S200000_S200000x1_0 : (⟨S200000, .i32⟩ : BufTy).Contents (Elt F) → (⟨S200000x1, .i32⟩ : BufTy).Contents (Elt F)),
    StableHlo.binary main_v93 main_v99 main_v100 ((fun x i => Host.gather gather_S50000x256_S200000x1_S200000x256_1_0_n_n_0_1_1256 x i) : (⟨S50000x256, .f32⟩ : BufTy).Contents (Elt F) → (⟨S200000x1, .i32⟩ : BufTy).Contents (Elt F) → (⟨S200000x256, .f32⟩ : BufTy).Contents (Elt F)),
    StableHlo.binary main_v100 main_arg1 main_v101 ((fun a b => concatenate S200000x288 1 [⟨S200000x256, a⟩, ⟨S200000x32, b⟩] concatenates_S200000x256_S200000x32_S200000x288_d1) : (⟨S200000x256, .f32⟩ : BufTy).Contents (Elt F) → (⟨S200000x32, .f32⟩ : BufTy).Contents (Elt F) → (⟨S200000x288, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S200000x288, .f32⟩) (broadcastInDim S200000x288 ![] bcast_S_S200000x288),
    StableHlo.TRef.binary (.of main_v101 : StableHlo.TRef sig ⟨S200000x288, .f32⟩) (.of main_call8_v0 : StableHlo.TRef sig ⟨S200000x288, .f32⟩) (.of main_v102 : StableHlo.TRef sig ⟨S200000x288, .f32⟩) maximumf,
    StableHlo.nullary main_cst_18 (constant S_ .f32 0x00000000#32),
    StableHlo.unary main_cst_18 main_v103 (broadcastInDim S50000x288 ![] bcast_S_S50000x288 : (⟨S_, .f32⟩ : BufTy).Contents (Elt F) → (⟨S50000x288, .f32⟩ : BufTy).Contents (Elt F)),
    StableHlo.unary main_v3 main_v104 (broadcastInDim S200000x1 ![0] bcast_S200000_S200000x1_0 : (⟨S200000, .i32⟩ : BufTy).Contents (Elt F) → (⟨S200000x1, .i32⟩ : BufTy).Contents (Elt F)),
    StableHlo.ternary main_v103 main_v104 main_v102 main_v105 ((fun x i u => Host.scatterAdd scatter_S50000x288_S200000x1_S200000x288_1_0_0_1 x i u) : (⟨S50000x288, .f32⟩ : BufTy).Contents (Elt F) → (⟨S200000x1, .i32⟩ : BufTy).Contents (Elt F) → (⟨S200000x288, .f32⟩ : BufTy).Contents (Elt F) → (⟨S50000x288, .f32⟩ : BufTy).Contents (Elt F)),
    StableHlo.nullary main_cst_19 (constant S_ .f32 0x3F800000#32),
    StableHlo.unary main_cst_19 main_v106 (broadcastInDim S50000x256 ![] bcast_S_S50000x256 : (⟨S_, .f32⟩ : BufTy).Contents (Elt F) → (⟨S50000x256, .f32⟩ : BufTy).Contents (Elt F)),
    StableHlo.binary main_v106 main_v93 main_v107 (mulf : (⟨S50000x256, .f32⟩ : BufTy).Contents (Elt F) → (⟨S50000x256, .f32⟩ : BufTy).Contents (Elt F) → (⟨S50000x256, .f32⟩ : BufTy).Contents (Elt F)),
    StableHlo.nullary main_c_20 (constantI S_ 32 0#32),
    StableHlo.unary main_c_20 main_v108 (broadcastInDim S1 ![] bcast_S_S1 : (⟨S_, .i32⟩ : BufTy).Contents (Elt F) → (⟨S1, .i32⟩ : BufTy).Contents (Elt F)),
    StableHlo.ternary main_v105 main_v108 main_v107 main_v109 ((fun x i u => Host.scatter scatter_S50000x288_S1_S50000x256_01_n_1_0 FloatOps.addf x i u) : (⟨S50000x288, .f32⟩ : BufTy).Contents (Elt F) → (⟨S1, .i32⟩ : BufTy).Contents (Elt F) → (⟨S50000x256, .f32⟩ : BufTy).Contents (Elt F) → (⟨S50000x288, .f32⟩ : BufTy).Contents (Elt F)) ]

/-- The buffers they write. -/
def wrA2 : List (Ref sig .tc) :=
  [main_c_16, main_v94, main_v95, main_c_17, main_v96, main_v97, main_v98, main_v99, main_v100, main_v101, main_call8_cst, main_call8_v0, main_v102, main_cst_18, main_v103, main_v104, main_v105, main_cst_19, main_v106, main_v107, main_c_20, main_v108, main_v109]

theorem segA2_writes : (segA2 : List (HloOp τ sig (Elt F))).Forall fun op => op.writes ⊆ ((wrA2).map (Proc.devRef (τ := τ) .tc)).toFinset := by
  unfold segA2
  exact ⟨writes_sub' (y := main_c_16) rfl (by decide),
    writes_sub' (y := main_v94) rfl (by decide),
    writes_sub' (y := main_v95) rfl (by decide),
    writes_sub' (y := main_c_17) rfl (by decide),
    writes_sub' (y := main_v96) rfl (by decide),
    writes_sub' (y := main_v97) rfl (by decide),
    writes_sub' (y := main_v98) rfl (by decide),
    writes_sub' (y := main_v99) rfl (by decide),
    writes_sub' (y := main_v100) rfl (by decide),
    writes_sub' (y := main_v101) rfl (by decide),
    writes_sub' (y := main_call8_cst) rfl (by decide),
    writes_sub' (y := main_call8_v0) rfl (by decide),
    writes_sub' (y := main_v102) rfl (by decide),
    writes_sub' (y := main_cst_18) rfl (by decide),
    writes_sub' (y := main_v103) rfl (by decide),
    writes_sub' (y := main_v104) rfl (by decide),
    writes_sub' (y := main_v105) rfl (by decide),
    writes_sub' (y := main_cst_19) rfl (by decide),
    writes_sub' (y := main_v106) rfl (by decide),
    writes_sub' (y := main_v107) rfl (by decide),
    writes_sub' (y := main_c_20) rfl (by decide),
    writes_sub' (y := main_v108) rfl (by decide),
    writes_sub' (y := main_v109) rfl (by decide)⟩

/-- A buffer outside that list keeps its contents. -/
theorem segA2_frame (V : Valuation τ sig (Elt F)) {r : Ref sig .tc} (hr : r ∉ wrA2) :
    after segA2 V (no_index (Proc.devRef .tc r)) = V (Proc.devRef .tc r) :=
  after_of_writes_sub segA2 V segA2_writes hr

set_option maxRecDepth 8192 in
set_option maxHeartbeats 1600000 in
theorem segA2_v109 (V : Valuation τ sig (Elt F)) :
    after segA2 V (Proc.devRef .tc main_v109) = aggR1 (V (Proc.devRef .tc main_v93)) (V (Proc.devRef .tc main_arg1)) (srcIdxOf (V (Proc.devRef .tc main_v1))) (dstIdxOf (V (Proc.devRef .tc main_v3))) := by
  unfold segA2
  after_results_simp
  rfl

/-- The 14 operations of the two affine maps and positive parts of layer 2, in order. -/
def segH2 : List (HloOp τ sig (Elt F)) :=
  [ StableHlo.binary main_v109 main_arg17 main_v110 ((fun l r => Host.dotGeneral dot_S50000x288_S288x256_S50000x256_1_0_0_1_n_n none l r) : (⟨S50000x288, .f32⟩ : BufTy).Contents (Elt F) → (⟨S288x256, .f32⟩ : BufTy).Contents (Elt F) → (⟨S50000x256, .f32⟩ : BufTy).Contents (Elt F)),
    StableHlo.unary main_arg18 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v110 main_v112 main_v113 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x256, .f32⟩) (broadcastInDim S50000x256 ![] bcast_S_S50000x256),
    StableHlo.TRef.binary (.of main_v113 : StableHlo.TRef sig ⟨S50000x256, .f32⟩) (.of main_call9_v0 : StableHlo.TRef sig ⟨S50000x256, .f32⟩) (.of main_v114 : StableHlo.TRef sig ⟨S50000x256, .f32⟩) maximumf,
    StableHlo.binary main_v114 main_arg19 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg20 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v115 main_v117 main_v118 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S50000x256, .f32⟩) (broadcastInDim S50000x256 ![] bcast_S_S50000x256),
    StableHlo.TRef.binary (.of main_v118 : StableHlo.TRef sig ⟨S50000x256, .f32⟩) (.of main_call10_v0 : StableHlo.TRef sig ⟨S50000x256, .f32⟩) (.of main_v119 : StableHlo.TRef sig ⟨S50000x256, .f32⟩) maximumf ]

/-- The buffers they write. -/
def wrH2 : List (Ref sig .tc) :=
  [main_v110, main_v111, main_v112, main_v113, main_call9_cst, main_call9_v0, main_v114, main_v115, main_v116, main_v117, main_v118, main_call10_cst, main_call10_v0, main_v119]

theorem segH2_writes : (segH2 : List (HloOp τ sig (Elt F))).Forall fun op => op.writes ⊆ ((wrH2).map (Proc.devRef (τ := τ) .tc)).toFinset := by
  unfold segH2
  exact ⟨writes_sub' (y := main_v110) rfl (by decide),
    writes_sub' (y := main_v111) rfl (by decide),
    writes_sub' (y := main_v112) rfl (by decide),
    writes_sub' (y := main_v113) rfl (by decide),
    writes_sub' (y := main_call9_cst) rfl (by decide),
    writes_sub' (y := main_call9_v0) rfl (by decide),
    writes_sub' (y := main_v114) rfl (by decide),
    writes_sub' (y := main_v115) rfl (by decide),
    writes_sub' (y := main_v116) rfl (by decide),
    writes_sub' (y := main_v117) rfl (by decide),
    writes_sub' (y := main_v118) rfl (by decide),
    writes_sub' (y := main_call10_cst) rfl (by decide),
    writes_sub' (y := main_call10_v0) rfl (by decide),
    writes_sub' (y := main_v119) rfl (by decide)⟩

/-- A buffer outside that list keeps its contents. -/
theorem segH2_frame (V : Valuation τ sig (Elt F)) {r : Ref sig .tc} (hr : r ∉ wrH2) :
    after segH2 V (no_index (Proc.devRef .tc r)) = V (Proc.devRef .tc r) :=
  after_of_writes_sub segH2 V segH2_writes hr

set_option maxRecDepth 8192 in
set_option maxHeartbeats 1600000 in
theorem segH2_v119 (V : Valuation τ sig (Elt F)) :
    after segH2 V (Proc.devRef .tc main_v119) = h2R1 (V (Proc.devRef .tc main_v109)) (V (Proc.devRef .tc main_arg17)) (V (Proc.devRef .tc main_arg18)) (V (Proc.devRef .tc main_arg19)) (V (Proc.devRef .tc main_arg20)) := by
  unfold segH2
  after_results_simp
  rfl

/-- The 44 operations of the batch normalisation of layer 2, in order. -/
def segB2 : List (HloOp τ sig (Elt F)) :=
  [ StableHlo.nullary main_cst_21 (constant S_ .f32 0x00000000#32),
    StableHlo.binary main_v119 main_cst_21 main_v120 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_22 (constant S_ .f32 0x47435000#32),
    StableHlo.unary main_cst_22 main_v121 (broadcastInDim S256 ![] bcast_S_S256 : (⟨S_, .f32⟩ : BufTy).Contents (Elt F) → (⟨S256, .f32⟩ : BufTy).Contents (Elt F)),
    StableHlo.binary main_v120 main_v121 main_v122 (Host.divf : (⟨S256, .f32⟩ : BufTy).Contents (Elt F) → (⟨S256, .f32⟩ : BufTy).Contents (Elt F) → (⟨S256, .f32⟩ : BufTy).Contents (Elt F)),
    StableHlo.nullary main_c_23 (constantI S_ 32 0#32),
    StableHlo.TRef.nullary (.of main_call11_cst : StableHlo.TRef sig ⟨S_, .f32⟩) (constant S_ .f32 0x00000000#32),
    StableHlo.TRef.binary (.of main_v119 : StableHlo.TRef sig ⟨S50000x256, .f32⟩) (.of main_call11_cst : StableHlo.TRef sig ⟨S_, .f32⟩) (.of main_call11_v0 : StableHlo.TRef sig ⟨S256, .f32⟩) (fun x v => Host.reduceAdd x v reducesTo_S50000x256_S256_d0 h_S_),
    StableHlo.TRef.unary (.of main_call11_v0 : StableHlo.TRef sig ⟨S256, .f32⟩) (.of main_call11_v1 : StableHlo.TRef sig ⟨S1x256, .f32⟩) (broadcastInDim S1x256 ![1] bcast_S256_S1x256_1),
    StableHlo.TRef.nullary (.of main_call11_cst_0 : StableHlo.TRef sig ⟨S_, .f32⟩) (constant S_ .f32 0x47435000#32),
    StableHlo.TRef.unary (.of main_call11_cst_0 : StableHlo.TRef sig ⟨S_, .f32⟩) (.of main_call11_v2 : StableHlo.TRef sig ⟨S1x256, .f32⟩) (broadcastInDim S1x256 ![] bcast_S_S1x256),
    StableHlo.TRef.binary (.of main_call11_v1 : StableHlo.TRef sig ⟨S1x256, .f32⟩) (.of main_call11_v2 : StableHlo.TRef sig ⟨S1x256, .f32⟩) (.of main_call11_v3 : StableHlo.TRef sig ⟨S1x256, .f32⟩) Host.divf,
    StableHlo.TRef.unary (.of main_call11_v3 : StableHlo.TRef sig ⟨S1x256, .f32⟩) (.of main_call11_v4 : StableHlo.TRef sig ⟨S50000x256, .f32⟩) (broadcastInDim S50000x256 ![0, 1] bcast_S1x256_S50000x256_0_1),
    StableHlo.TRef.binary (.of main_v119 : StableHlo.TRef sig ⟨S50000x256, .f32⟩) (.of main_call11_v4 : StableHlo.TRef sig ⟨S50000x256, .f32⟩) (.of main_call11_v5 : StableHlo.TRef sig ⟨S50000x256, .f32⟩) subf,
    StableHlo.TRef.binary (.of main_call11_v5 : StableHlo.TRef sig ⟨S50000x256, .f32⟩) (.of main_call11_v5 : StableHlo.TRef sig ⟨S50000x256, .f32⟩) (.of main_call11_v6 : StableHlo.TRef sig ⟨S50000x256, .f32⟩) mulf,
    StableHlo.TRef.unary (.of main_c_23 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x47435000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S50000x256, .f32⟩) (.of main_call11_cst_2 : StableHlo.TRef sig ⟨S_, .f32⟩) (.of main_call11_v9 : StableHlo.TRef sig ⟨S256, .f32⟩) (fun x v => Host.reduceAdd x v reducesTo_S50000x256_S256_d0 h_S_),
    StableHlo.TRef.unary (.of main_call11_v8 : StableHlo.TRef sig ⟨S_, .f32⟩) (.of main_call11_v10 : StableHlo.TRef sig ⟨S256, .f32⟩) (broadcastInDim S256 ![] bcast_S_S256),
    StableHlo.TRef.binary (.of main_call11_v9 : StableHlo.TRef sig ⟨S256, .f32⟩) (.of main_call11_v10 : StableHlo.TRef sig ⟨S256, .f32⟩) (.of main_call11_v11 : StableHlo.TRef sig ⟨S256, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S256, .f32⟩) (broadcastInDim S256 ![] bcast_S_S256),
    StableHlo.TRef.ternary (.of main_call11_v12 : StableHlo.TRef sig ⟨S_, .i1⟩) (.of main_call11_v11 : StableHlo.TRef sig ⟨S256, .f32⟩) (.of main_call11_call0_v1 : StableHlo.TRef sig ⟨S256, .f32⟩) (.of main_v123 : StableHlo.TRef sig ⟨S256, .f32⟩) (fun p a b => select (broadcastInDim S256 ![] bcast_S_S256 p) a b),
    StableHlo.unary main_v122 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v119 main_v125 main_v126 (subf : (⟨S50000x256, .f32⟩ : BufTy).Contents (Elt F) → (⟨S50000x256, .f32⟩ : BufTy).Contents (Elt F) → (⟨S50000x256, .f32⟩ : BufTy).Contents (Elt F)),
    StableHlo.unary main_arg21 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S50000x256 ![0, 1] bcast_S1x256_S50000x256_0_1 : (⟨S1x256, .f32⟩ : BufTy).Contents (Elt F) → (⟨S50000x256, .f32⟩ : BufTy).Contents (Elt F)),
    StableHlo.binary main_v128 main_v126 main_v129 (mulf : (⟨S50000x256, .f32⟩ : BufTy).Contents (Elt F) → (⟨S50000x256, .f32⟩ : BufTy).Contents (Elt F) → (⟨S50000x256, .f32⟩ : BufTy).Contents (Elt F)),
    StableHlo.nullary main_cst_24 (constant S_ .f32 0x3727C5AC#32),
    StableHlo.unary main_cst_24 main_v130 (broadcastInDim S256 ![] bcast_S_S256 : (⟨S_, .f32⟩ : BufTy).Contents (Elt F) → (⟨S256, .f32⟩ : BufTy).Contents (Elt F)),
    StableHlo.binary main_v123 main_v130 main_v131 (addf : (⟨S256, .f32⟩ : BufTy).Contents (Elt F) → (⟨S256, .f32⟩ : BufTy).Contents (Elt F) → (⟨S256, .f32⟩ : BufTy).Contents (Elt F)),
    StableHlo.unary main_v131 main_v132 (Host.rsqrt : (⟨S256, .f32⟩ : BufTy).Contents (Elt F) → (⟨S256, .f32⟩ : BufTy).Contents (Elt F)),
    StableHlo.unary main_v132 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v129 main_v134 main_v135 (mulf : (⟨S50000x256, .f32⟩ : BufTy).Contents (Elt F) → (⟨S50000x256, .f32⟩ : BufTy).Contents (Elt F) → (⟨S50000x256, .f32⟩ : BufTy).Contents (Elt F)),
    StableHlo.unary main_arg22 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S50000x256 ![0, 1] bcast_S1x256_S50000x256_0_1 : (⟨S1x256, .f32⟩ : BufTy).Contents (Elt F) → (⟨S50000x256, .f32⟩ : BufTy).Contents (Elt F)),
    StableHlo.binary main_v135 main_v137 main_v138 (addf : (⟨S50000x256, .f32⟩ : BufTy).Contents (Elt F) → (⟨S50000x256, .f32⟩ : BufTy).Contents (Elt F) → (⟨S50000x256, .f32⟩ : BufTy).Contents (Elt F)) ]

/-- The buffers they write. -/
def wrB2 : List (Ref sig .tc) :=
  [main_cst_21, main_v120, main_cst_22, main_v121, main_v122, main_c_23, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v123, main_v124, main_v125, main_v126, main_v127, main_v128, main_v129, main_cst_24, main_v130, main_v131, main_v132, main_v133, main_v134, main_v135, main_v136, main_v137, main_v138]

theorem segB2_writes : (segB2 : List (HloOp τ sig (Elt F))).Forall fun op => op.writes ⊆ ((wrB2).map (Proc.devRef (τ := τ) .tc)).toFinset := by
  unfold segB2
  exact ⟨writes_sub' (y := main_cst_21) rfl (by decide),
    writes_sub' (y := main_v120) rfl (by decide),
    writes_sub' (y := main_cst_22) rfl (by decide),
    writes_sub' (y := main_v121) rfl (by decide),
    writes_sub' (y := main_v122) rfl (by decide),
    writes_sub' (y := main_c_23) rfl (by decide),
    writes_sub' (y := main_call11_cst) rfl (by decide),
    writes_sub' (y := main_call11_v0) rfl (by decide),
    writes_sub' (y := main_call11_v1) rfl (by decide),
    writes_sub' (y := main_call11_cst_0) rfl (by decide),
    writes_sub' (y := main_call11_v2) rfl (by decide),
    writes_sub' (y := main_call11_v3) rfl (by decide),
    writes_sub' (y := main_call11_v4) rfl (by decide),
    writes_sub' (y := main_call11_v5) rfl (by decide),
    writes_sub' (y := main_call11_v6) rfl (by decide),
    writes_sub' (y := main_call11_v7) rfl (by decide),
    writes_sub' (y := main_call11_cst_1) rfl (by decide),
    writes_sub' (y := main_call11_v8) rfl (by decide),
    writes_sub' (y := main_call11_cst_2) rfl (by decide),
    writes_sub' (y := main_call11_v9) rfl (by decide),
    writes_sub' (y := main_call11_v10) rfl (by decide),
    writes_sub' (y := main_call11_v11) rfl (by decide),
    writes_sub' (y := main_call11_cst_3) rfl (by decide),
    writes_sub' (y := main_call11_v12) rfl (by decide),
    writes_sub' (y := main_call11_cst_4) rfl (by decide),
    writes_sub' (y := main_call11_call0_v0) rfl (by decide),
    writes_sub' (y := main_call11_call0_v1) rfl (by decide),
    writes_sub' (y := main_v123) rfl (by decide),
    writes_sub' (y := main_v124) rfl (by decide),
    writes_sub' (y := main_v125) rfl (by decide),
    writes_sub' (y := main_v126) rfl (by decide),
    writes_sub' (y := main_v127) rfl (by decide),
    writes_sub' (y := main_v128) rfl (by decide),
    writes_sub' (y := main_v129) rfl (by decide),
    writes_sub' (y := main_cst_24) rfl (by decide),
    writes_sub' (y := main_v130) rfl (by decide),
    writes_sub' (y := main_v131) rfl (by decide),
    writes_sub' (y := main_v132) rfl (by decide),
    writes_sub' (y := main_v133) rfl (by decide),
    writes_sub' (y := main_v134) rfl (by decide),
    writes_sub' (y := main_v135) rfl (by decide),
    writes_sub' (y := main_v136) rfl (by decide),
    writes_sub' (y := main_v137) rfl (by decide),
    writes_sub' (y := main_v138) rfl (by decide)⟩

/-- A buffer outside that list keeps its contents. -/
theorem segB2_frame (V : Valuation τ sig (Elt F)) {r : Ref sig .tc} (hr : r ∉ wrB2) :
    after segB2 V (no_index (Proc.devRef .tc r)) = V (Proc.devRef .tc r) :=
  after_of_writes_sub segB2 V segB2_writes hr

set_option maxRecDepth 8192 in
set_option maxHeartbeats 1600000 in
theorem segB2_v138 (V : Valuation τ sig (Elt F)) :
    after segB2 V (Proc.devRef .tc main_v138) = bnR (V (Proc.devRef .tc main_v119)) (V (Proc.devRef .tc main_arg21)) (V (Proc.devRef .tc main_arg22)) := by
  unfold segB2
  after_results_simp
  rfl

end Cert.ReferenceIdeal.RefValue

end
-- ==== Proof.RefSegP.lean ====
/- Consecutive segments of the reference program's operations: for each, the list, the buffers it writes, that every
   other buffer keeps its contents, and the contents of its result buffer as a named function of the contents before. -/
import proofs.«164030_j60206851555878_1_alg».proof.Proof.RefBase
import proofs.«164030_j60206851555878_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatter Host.scatterAdd Host.reduceAdd concatenate

/-- The 26 operations of the pooled result 0, in order. -/
def segP0 : List (HloOp τ sig (Elt F)) :=
  [ StableHlo.nullary main_cst_25 (constant S_ .f32 0x3F800000#32),
    StableHlo.unary main_cst_25 main_v139 (broadcastInDim S50000 ![] bcast_S_S50000 : (⟨S_, .f32⟩ : BufTy).Contents (Elt F) → (⟨S50000, .f32⟩ : BufTy).Contents (Elt F)),
    StableHlo.nullary main_cst_26 (constant S_ .f32 0x00000000#32),
    StableHlo.unary main_cst_26 main_v140 (broadcastInDim S10000 ![] bcast_S_S10000 : (⟨S_, .f32⟩ : BufTy).Contents (Elt F) → (⟨S10000, .f32⟩ : BufTy).Contents (Elt F)),
    StableHlo.unary main_arg3 main_v141 (broadcastInDim S50000x1 ![0] bcast_S50000_S50000x1_0 : (⟨S50000, .i32⟩ : BufTy).Contents (Elt F) → (⟨S50000x1, .i32⟩ : BufTy).Contents (Elt F)),
    StableHlo.ternary main_v140 main_v141 main_v139 main_v142 ((fun x i u => Host.scatterAdd scatter_S10000_S50000x1_S50000_n_0_0_1 x i u) : (⟨S10000, .f32⟩ : BufTy).Contents (Elt F) → (⟨S50000x1, .i32⟩ : BufTy).Contents (Elt F) → (⟨S50000, .f32⟩ : BufTy).Contents (Elt F) → (⟨S10000, .f32⟩ : BufTy).Contents (Elt F)),
    StableHlo.nullary main_cst_27 (constant S_ .f32 0x3F800000#32),
    StableHlo.unary main_cst_27 main_v143 (broadcastInDim S10000 ![] bcast_S_S10000 : (⟨S_, .f32⟩ : BufTy).Contents (Elt F) → (⟨S10000, .f32⟩ : BufTy).Contents (Elt F)),
    StableHlo.binary main_v142 main_v143 main_v144 (maximumf : (⟨S10000, .f32⟩ : BufTy).Contents (Elt F) → (⟨S10000, .f32⟩ : BufTy).Contents (Elt F) → (⟨S10000, .f32⟩ : BufTy).Contents (Elt F)),
    StableHlo.unary main_v144 main_v145 (Host.rsqrt : (⟨S10000, .f32⟩ : BufTy).Contents (Elt F) → (⟨S10000, .f32⟩ : BufTy).Contents (Elt F)),
    StableHlo.nullary main_c_28 (constantI S_ 32 0#32),
    StableHlo.unary main_c_28 main_v146 (broadcastInDim S50000 ![] bcast_S_S50000 : (⟨S_, .i32⟩ : BufTy).Contents (Elt F) → (⟨S50000, .i32⟩ : BufTy).Contents (Elt F)),
    StableHlo.binary main_arg3 main_v146 main_v147 (cmpi .slt : (⟨S50000, .i32⟩ : BufTy).Contents (Elt F) → (⟨S50000, .i32⟩ : BufTy).Contents (Elt F) → (⟨S50000, .i1⟩ : BufTy).Contents (Elt F)),
    StableHlo.nullary main_c_29 (constantI S_ 32 10000#32),
    StableHlo.unary main_c_29 main_v148 (broadcastInDim S50000 ![] bcast_S_S50000 : (⟨S_, .i32⟩ : BufTy).Contents (Elt F) → (⟨S50000, .i32⟩ : BufTy).Contents (Elt F)),
    StableHlo.binary main_arg3 main_v148 main_v149 (addi : (⟨S50000, .i32⟩ : BufTy).Contents (Elt F) → (⟨S50000, .i32⟩ : BufTy).Contents (Elt F) → (⟨S50000, .i32⟩ : BufTy).Contents (Elt F)),
    StableHlo.ternary main_v147 main_v149 main_arg3 main_v150 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v150 main_v151 (broadcastInDim S50000x1 ![0] bcast_S50000_S50000x1_0 : (⟨S50000, .i32⟩ : BufTy).Contents (Elt F) → (⟨S50000x1, .i32⟩ : BufTy).Contents (Elt F)),
    StableHlo.binary main_v145 main_v151 main_v152 ((fun x i => Host.gather gather_S10000_S50000x1_S50000_n_0_n_n_0_1_1 x i) : (⟨S10000, .f32⟩ : BufTy).Contents (Elt F) → (⟨S50000x1, .i32⟩ : BufTy).Contents (Elt F) → (⟨S50000, .f32⟩ : BufTy).Contents (Elt F)),
    StableHlo.unary main_v152 main_v153 (broadcastInDim S50000x1 ![0] bcast_S50000_S50000x1_0 : (⟨S50000, .f32⟩ : BufTy).Contents (Elt F) → (⟨S50000x1, .f32⟩ : BufTy).Contents (Elt F)),
    StableHlo.unary main_v153 main_v154 (broadcastInDim S50000x256 ![0, 1] bcast_S50000x1_S50000x256_0_1 : (⟨S50000x1, .f32⟩ : BufTy).Contents (Elt F) → (⟨S50000x256, .f32⟩ : BufTy).Contents (Elt F)),
    StableHlo.binary main_v138 main_v154 main_v155 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.unary main_cst_30 main_v156 (broadcastInDim S10000x256 ![] bcast_S_S10000x256 : (⟨S_, .f32⟩ : BufTy).Contents (Elt F) → (⟨S10000x256, .f32⟩ : BufTy).Contents (Elt F)),
    StableHlo.unary main_arg3 main_v157 (broadcastInDim S50000x1 ![0] bcast_S50000_S50000x1_0 : (⟨S50000, .i32⟩ : BufTy).Contents (Elt F) → (⟨S50000x1, .i32⟩ : BufTy).Contents (Elt F)),
    StableHlo.ternary main_v156 main_v157 main_v155 main_v158 ((fun x i u => Host.scatterAdd scatter_S10000x256_S50000x1_S50000x256_1_0_0_1 x i u) : (⟨S10000x256, .f32⟩ : BufTy).Contents (Elt F) → (⟨S50000x1, .i32⟩ : BufTy).Contents (Elt F) → (⟨S50000x256, .f32⟩ : BufTy).Contents (Elt F) → (⟨S10000x256, .f32⟩ : BufTy).Contents (Elt F)) ]

/-- The buffers they write. -/
def wrP0 : List (Ref sig .tc) :=
  [main_cst_25, main_v139, main_cst_26, main_v140, main_v141, main_v142, main_cst_27, main_v143, main_v144, main_v145, main_c_28, main_v146, main_v147, main_c_29, main_v148, main_v149, main_v150, main_v151, main_v152, main_v153, main_v154, main_v155, main_cst_30, main_v156, main_v157, main_v158]

theorem segP0_writes : (segP0 : List (HloOp τ sig (Elt F))).Forall fun op => op.writes ⊆ ((wrP0).map (Proc.devRef (τ := τ) .tc)).toFinset := by
  unfold segP0
  exact ⟨writes_sub' (y := main_cst_25) rfl (by decide),
    writes_sub' (y := main_v139) rfl (by decide),
    writes_sub' (y := main_cst_26) rfl (by decide),
    writes_sub' (y := main_v140) rfl (by decide),
    writes_sub' (y := main_v141) rfl (by decide),
    writes_sub' (y := main_v142) rfl (by decide),
    writes_sub' (y := main_cst_27) rfl (by decide),
    writes_sub' (y := main_v143) rfl (by decide),
    writes_sub' (y := main_v144) rfl (by decide),
    writes_sub' (y := main_v145) rfl (by decide),
    writes_sub' (y := main_c_28) rfl (by decide),
    writes_sub' (y := main_v146) rfl (by decide),
    writes_sub' (y := main_v147) rfl (by decide),
    writes_sub' (y := main_c_29) rfl (by decide),
    writes_sub' (y := main_v148) rfl (by decide),
    writes_sub' (y := main_v149) rfl (by decide),
    writes_sub' (y := main_v150) rfl (by decide),
    writes_sub' (y := main_v151) rfl (by decide),
    writes_sub' (y := main_v152) rfl (by decide),
    writes_sub' (y := main_v153) rfl (by decide),
    writes_sub' (y := main_v154) rfl (by decide),
    writes_sub' (y := main_v155) rfl (by decide),
    writes_sub' (y := main_cst_30) rfl (by decide),
    writes_sub' (y := main_v156) rfl (by decide),
    writes_sub' (y := main_v157) rfl (by decide),
    writes_sub' (y := main_v158) rfl (by decide)⟩

/-- A buffer outside that list keeps its contents. -/
theorem segP0_frame (V : Valuation τ sig (Elt F)) {r : Ref sig .tc} (hr : r ∉ wrP0) :
    after segP0 V (no_index (Proc.devRef .tc r)) = V (Proc.devRef .tc r) :=
  after_of_writes_sub segP0 V segP0_writes hr

set_option maxRecDepth 8192 in
set_option maxHeartbeats 1600000 in
theorem segP0_v158 (V : Valuation τ sig (Elt F)) :
    after segP0 V (Proc.devRef .tc main_v158) = pool0 (V (Proc.devRef .tc main_v138)) (V (Proc.devRef .tc main_arg3)) := by
  unfold segP0
  after_results_simp
  rfl

/-- The 26 operations of the pooled result 1, in order. -/
def segP1 : List (HloOp τ sig (Elt F)) :=
  [ StableHlo.nullary main_cst_31 (constant S_ .f32 0x3F800000#32),
    StableHlo.unary main_cst_31 main_v159 (broadcastInDim S50000 ![] bcast_S_S50000 : (⟨S_, .f32⟩ : BufTy).Contents (Elt F) → (⟨S50000, .f32⟩ : BufTy).Contents (Elt F)),
    StableHlo.nullary main_cst_32 (constant S_ .f32 0x00000000#32),
    StableHlo.unary main_cst_32 main_v160 (broadcastInDim S2000 ![] bcast_S_S2000 : (⟨S_, .f32⟩ : BufTy).Contents (Elt F) → (⟨S2000, .f32⟩ : BufTy).Contents (Elt F)),
    StableHlo.unary main_arg4 main_v161 (broadcastInDim S50000x1 ![0] bcast_S50000_S50000x1_0 : (⟨S50000, .i32⟩ : BufTy).Contents (Elt F) → (⟨S50000x1, .i32⟩ : BufTy).Contents (Elt F)),
    StableHlo.ternary main_v160 main_v161 main_v159 main_v162 ((fun x i u => Host.scatterAdd scatter_S2000_S50000x1_S50000_n_0_0_1 x i u) : (⟨S2000, .f32⟩ : BufTy).Contents (Elt F) → (⟨S50000x1, .i32⟩ : BufTy).Contents (Elt F) → (⟨S50000, .f32⟩ : BufTy).Contents (Elt F) → (⟨S2000, .f32⟩ : BufTy).Contents (Elt F)),
    StableHlo.nullary main_cst_33 (constant S_ .f32 0x3F800000#32),
    StableHlo.unary main_cst_33 main_v163 (broadcastInDim S2000 ![] bcast_S_S2000 : (⟨S_, .f32⟩ : BufTy).Contents (Elt F) → (⟨S2000, .f32⟩ : BufTy).Contents (Elt F)),
    StableHlo.binary main_v162 main_v163 main_v164 (maximumf : (⟨S2000, .f32⟩ : BufTy).Contents (Elt F) → (⟨S2000, .f32⟩ : BufTy).Contents (Elt F) → (⟨S2000, .f32⟩ : BufTy).Contents (Elt F)),
    StableHlo.unary main_v164 main_v165 (Host.rsqrt : (⟨S2000, .f32⟩ : BufTy).Contents (Elt F) → (⟨S2000, .f32⟩ : BufTy).Contents (Elt F)),
    StableHlo.nullary main_c_34 (constantI S_ 32 0#32),
    StableHlo.unary main_c_34 main_v166 (broadcastInDim S50000 ![] bcast_S_S50000 : (⟨S_, .i32⟩ : BufTy).Contents (Elt F) → (⟨S50000, .i32⟩ : BufTy).Contents (Elt F)),
    StableHlo.binary main_arg4 main_v166 main_v167 (cmpi .slt : (⟨S50000, .i32⟩ : BufTy).Contents (Elt F) → (⟨S50000, .i32⟩ : BufTy).Contents (Elt F) → (⟨S50000, .i1⟩ : BufTy).Contents (Elt F)),
    StableHlo.nullary main_c_35 (constantI S_ 32 2000#32),
    StableHlo.unary main_c_35 main_v168 (broadcastInDim S50000 ![] bcast_S_S50000 : (⟨S_, .i32⟩ : BufTy).Contents (Elt F) → (⟨S50000, .i32⟩ : BufTy).Contents (Elt F)),
    StableHlo.binary main_arg4 main_v168 main_v169 (addi : (⟨S50000, .i32⟩ : BufTy).Contents (Elt F) → (⟨S50000, .i32⟩ : BufTy).Contents (Elt F) → (⟨S50000, .i32⟩ : BufTy).Contents (Elt F)),
    StableHlo.ternary main_v167 main_v169 main_arg4 main_v170 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v170 main_v171 (broadcastInDim S50000x1 ![0] bcast_S50000_S50000x1_0 : (⟨S50000, .i32⟩ : BufTy).Contents (Elt F) → (⟨S50000x1, .i32⟩ : BufTy).Contents (Elt F)),
    StableHlo.binary main_v165 main_v171 main_v172 ((fun x i => Host.gather gather_S2000_S50000x1_S50000_n_0_n_n_0_1_1 x i) : (⟨S2000, .f32⟩ : BufTy).Contents (Elt F) → (⟨S50000x1, .i32⟩ : BufTy).Contents (Elt F) → (⟨S50000, .f32⟩ : BufTy).Contents (Elt F)),
    StableHlo.unary main_v172 main_v173 (broadcastInDim S50000x1 ![0] bcast_S50000_S50000x1_0 : (⟨S50000, .f32⟩ : BufTy).Contents (Elt F) → (⟨S50000x1, .f32⟩ : BufTy).Contents (Elt F)),
    StableHlo.unary main_v173 main_v174 (broadcastInDim S50000x256 ![0, 1] bcast_S50000x1_S50000x256_0_1 : (⟨S50000x1, .f32⟩ : BufTy).Contents (Elt F) → (⟨S50000x256, .f32⟩ : BufTy).Contents (Elt F)),
    StableHlo.binary main_v138 main_v174 main_v175 (mulf : (⟨S50000x256, .f32⟩ : BufTy).Contents (Elt F) → (⟨S50000x256, .f32⟩ : BufTy).Contents (Elt F) → (⟨S50000x256, .f32⟩ : BufTy).Contents (Elt F)),
    StableHlo.nullary main_cst_36 (constant S_ .f32 0x00000000#32),
    StableHlo.unary main_cst_36 main_v176 (broadcastInDim S2000x256 ![] bcast_S_S2000x256 : (⟨S_, .f32⟩ : BufTy).Contents (Elt F) → (⟨S2000x256, .f32⟩ : BufTy).Contents (Elt F)),
    StableHlo.unary main_arg4 main_v177 (broadcastInDim S50000x1 ![0] bcast_S50000_S50000x1_0 : (⟨S50000, .i32⟩ : BufTy).Contents (Elt F) → (⟨S50000x1, .i32⟩ : BufTy).Contents (Elt F)),
    StableHlo.ternary main_v176 main_v177 main_v175 main_v178 ((fun x i u => Host.scatterAdd scatter_S2000x256_S50000x1_S50000x256_1_0_0_1 x i u) : (⟨S2000x256, .f32⟩ : BufTy).Contents (Elt F) → (⟨S50000x1, .i32⟩ : BufTy).Contents (Elt F) → (⟨S50000x256, .f32⟩ : BufTy).Contents (Elt F) → (⟨S2000x256, .f32⟩ : BufTy).Contents (Elt F)) ]

/-- The buffers they write. -/
def wrP1 : List (Ref sig .tc) :=
  [main_cst_31, main_v159, main_cst_32, main_v160, main_v161, main_v162, main_cst_33, main_v163, main_v164, main_v165, main_c_34, main_v166, main_v167, main_c_35, main_v168, main_v169, main_v170, main_v171, main_v172, main_v173, main_v174, main_v175, main_cst_36, main_v176, main_v177, main_v178]

theorem segP1_writes : (segP1 : List (HloOp τ sig (Elt F))).Forall fun op => op.writes ⊆ ((wrP1).map (Proc.devRef (τ := τ) .tc)).toFinset := by
  unfold segP1
  exact ⟨writes_sub' (y := main_cst_31) rfl (by decide),
    writes_sub' (y := main_v159) rfl (by decide),
    writes_sub' (y := main_cst_32) rfl (by decide),
    writes_sub' (y := main_v160) rfl (by decide),
    writes_sub' (y := main_v161) rfl (by decide),
    writes_sub' (y := main_v162) rfl (by decide),
    writes_sub' (y := main_cst_33) rfl (by decide),
    writes_sub' (y := main_v163) rfl (by decide),
    writes_sub' (y := main_v164) rfl (by decide),
    writes_sub' (y := main_v165) rfl (by decide),
    writes_sub' (y := main_c_34) rfl (by decide),
    writes_sub' (y := main_v166) rfl (by decide),
    writes_sub' (y := main_v167) rfl (by decide),
    writes_sub' (y := main_c_35) rfl (by decide),
    writes_sub' (y := main_v168) rfl (by decide),
    writes_sub' (y := main_v169) rfl (by decide),
    writes_sub' (y := main_v170) rfl (by decide),
    writes_sub' (y := main_v171) rfl (by decide),
    writes_sub' (y := main_v172) rfl (by decide),
    writes_sub' (y := main_v173) rfl (by decide),
    writes_sub' (y := main_v174) rfl (by decide),
    writes_sub' (y := main_v175) rfl (by decide),
    writes_sub' (y := main_cst_36) rfl (by decide),
    writes_sub' (y := main_v176) rfl (by decide),
    writes_sub' (y := main_v177) rfl (by decide),
    writes_sub' (y := main_v178) rfl (by decide)⟩

/-- A buffer outside that list keeps its contents. -/
theorem segP1_frame (V : Valuation τ sig (Elt F)) {r : Ref sig .tc} (hr : r ∉ wrP1) :
    after segP1 V (no_index (Proc.devRef .tc r)) = V (Proc.devRef .tc r) :=
  after_of_writes_sub segP1 V segP1_writes hr

set_option maxRecDepth 8192 in
set_option maxHeartbeats 1600000 in
theorem segP1_v178 (V : Valuation τ sig (Elt F)) :
    after segP1 V (Proc.devRef .tc main_v178) = pool1 (V (Proc.devRef .tc main_v138)) (V (Proc.devRef .tc main_arg4)) := by
  unfold segP1
  after_results_simp
  rfl

end Cert.ReferenceIdeal.RefValue

end
-- ==== Proof.RefRun.lean ====
/- The reference program's run: its operations are the segments in a row, so the contents of each result buffer
   after them are the segments' named functions composed, and every argument buffer keeps its contents; hence, from any
   memory with zero counters, every weakly fair execution ends with both results at those functions of the arguments. -/
import proofs.«164030_j60206851555878_1_alg».proof.Proof.RefOps
import proofs.«164030_j60206851555878_1_alg».proof.Proof.RefSeg0
import proofs.«164030_j60206851555878_1_alg».proof.Proof.RefSeg1
import proofs.«164030_j60206851555878_1_alg».proof.Proof.RefSeg2
import proofs.«164030_j60206851555878_1_alg».proof.Proof.RefSegP

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The windows in a row are the segments in a row: the same operations, cut at other places. -/
theorem ops_eq_segs : (ops : List (HloOp τ sig (Elt F))) = segA0 ++ (segH0 ++ (segB0 ++ (segA1 ++ (segH1 ++ (segB1 ++ (segA2 ++ (segH2 ++ (segB2 ++ (segP0 ++ (segP1)))))))))) := rfl

/-- A buffer no segment writes keeps its contents over the whole program. -/
theorem ops_frame (V : Valuation τ sig (Elt F)) {r : Ref sig .tc}
    (hA0 : r ∉ wrA0) (hH0 : r ∉ wrH0) (hB0 : r ∉ wrB0) (hA1 : r ∉ wrA1) (hH1 : r ∉ wrH1) (hB1 : r ∉ wrB1) (hA2 : r ∉ wrA2) (hH2 : r ∉ wrH2) (hB2 : r ∉ wrB2) (hP0 : r ∉ wrP0) (hP1 : r ∉ wrP1) :
    after ops V (Proc.devRef .tc r) = V (Proc.devRef .tc r) := by
  rw [ops_eq_segs]
  simp only [after_append']
  rw [segP1_frame _ hP1, segP0_frame _ hP0, segB2_frame _ hB2, segH2_frame _ hH2, segA2_frame _ hA2, segB1_frame _ hB1, segH1_frame _ hH1, segA1_frame _ hA1, segB0_frame _ hB0, segH0_frame _ hH0, segA0_frame _ hA0]

/-! The segments' results once more, each at its result buffer. -/
theorem segA0_v1' (V : Valuation τ sig (Elt F)) :
    after segA0 V (no_index (Proc.devRef .tc main_v1)) = row0 (V (Proc.devRef .tc main_arg2)) := segA0_v1 V
theorem segA0_v3' (V : Valuation τ sig (Elt F)) :
    after segA0 V (no_index (Proc.devRef .tc main_v3)) = row1 (V (Proc.devRef .tc main_arg2)) := segA0_v3 V
theorem segA0_v19' (V : Valuation τ sig (Elt F)) :
    after segA0 V (no_index (Proc.devRef .tc main_v19)) = agg0 (V (Proc.devRef .tc main_arg0)) (V (Proc.devRef .tc main_arg1)) (V (Proc.devRef .tc main_arg2)) := segA0_v19 V
theorem segH0_v29' (V : Valuation τ sig (Elt F)) :
    after segH0 V (no_index (Proc.devRef .tc main_v29)) = h2R0 (V (Proc.devRef .tc main_v19)) (V (Proc.devRef .tc main_arg5)) (V (Proc.devRef .tc main_arg6)) (V (Proc.devRef .tc main_arg7)) (V (Proc.devRef .tc main_arg8)) := segH0_v29 V
theorem segB0_v48' (V : Valuation τ sig (Elt F)) :
    after segB0 V (no_index (Proc.devRef .tc main_v48)) = bnR (V (Proc.devRef .tc main_v29)) (V (Proc.devRef .tc main_arg9)) (V (Proc.devRef .tc main_arg10)) := segB0_v48 V
theorem segA1_v64' (V : Valuation τ sig (Elt F)) :
    after segA1 V (no_index (Proc.devRef .tc main_v64)) = aggR1 (V (Proc.devRef .tc main_v48)) (V (Proc.devRef .tc main_arg1)) (srcIdxOf (V (Proc.devRef .tc main_v1))) (dstIdxOf (V (Proc.devRef .tc main_v3))) := segA1_v64 V
theorem segH1_v74' (V : Valuation τ sig (Elt F)) :
    after segH1 V (no_index (Proc.devRef .tc main_v74)) = h2R1 (V (Proc.devRef .tc main_v64)) (V (Proc.devRef .tc main_arg11)) (V (Proc.devRef .tc main_arg12)) (V (Proc.devRef .tc main_arg13)) (V (Proc.devRef .tc main_arg14)) := segH1_v74 V
theorem segB1_v93' (V : Valuation τ sig (Elt F)) :
    after segB1 V (no_index (Proc.devRef .tc main_v93)) = bnR (V (Proc.devRef .tc main_v74)) (V (Proc.devRef .tc main_arg15)) (V (Proc.devRef .tc main_arg16)) := segB1_v93 V
theorem segA2_v109' (V : Valuation τ sig (Elt F)) :
    after segA2 V (no_index (Proc.devRef .tc main_v109)) = aggR1 (V (Proc.devRef .tc main_v93)) (V (Proc.devRef .tc main_arg1)) (srcIdxOf (V (Proc.devRef .tc main_v1))) (dstIdxOf (V (Proc.devRef .tc main_v3))) := segA2_v109 V
theorem segH2_v119' (V : Valuation τ sig (Elt F)) :
    after segH2 V (no_index (Proc.devRef .tc main_v119)) = h2R1 (V (Proc.devRef .tc main_v109)) (V (Proc.devRef .tc main_arg17)) (V (Proc.devRef .tc main_arg18)) (V (Proc.devRef .tc main_arg19)) (V (Proc.devRef .tc main_arg20)) := segH2_v119 V
theorem segB2_v138' (V : Valuation τ sig (Elt F)) :
    after segB2 V (no_index (Proc.devRef .tc main_v138)) = bnR (V (Proc.devRef .tc main_v119)) (V (Proc.devRef .tc main_arg21)) (V (Proc.devRef .tc main_arg22)) := segB2_v138 V
theorem segP0_v158' (V : Valuation τ sig (Elt F)) :
    after segP0 V (no_index (Proc.devRef .tc main_v158)) = pool0 (V (Proc.devRef .tc main_v138)) (V (Proc.devRef .tc main_arg3)) := segP0_v158 V
theorem segP1_v178' (V : Valuation τ sig (Elt F)) :
    after segP1 V (no_index (Proc.devRef .tc main_v178)) = pool1 (V (Proc.devRef .tc main_v138)) (V (Proc.devRef .tc main_arg4)) := segP1_v178 V

set_option maxRecDepth 8192 in
/-- The first result after the program: the named function of the arguments' contents before it. -/
theorem out0_eq (V : Valuation τ sig (Elt F)) :
    after ops V (Proc.devRef .tc main_v158) = out0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [ops_eq_segs]
  simp (disch := decide) only [after_append', segA0_v1', segA0_v3', segA0_v19', segH0_v29', segB0_v48', segA1_v64', segH1_v74', segB1_v93', segA2_v109', segH2_v119', segB2_v138', segP0_v158', segP1_v178',
    segA0_frame, segH0_frame, segB0_frame, segA1_frame, segH1_frame, segB1_frame, segA2_frame, segH2_frame, segB2_frame, segP0_frame, segP1_frame]
  rfl

set_option maxRecDepth 8192 in
/-- The second result after the program: the named function of the arguments' contents before it. -/
theorem out1_eq (V : Valuation τ sig (Elt F)) :
    after ops V (Proc.devRef .tc main_v178) = out1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [ops_eq_segs]
  simp (disch := decide) only [after_append', segA0_v1', segA0_v3', segA0_v19', segH0_v29', segB0_v48', segA1_v64', segH1_v74', segB1_v93', segA2_v109', segH2_v119', segB2_v138', segP0_v158', segP1_v178',
    segA0_frame, segH0_frame, segB0_frame, segA1_frame, segH1_frame, segB1_frame, segA2_frame, segH2_frame, segB2_frame, segP0_frame, segP1_frame]
  rfl

/-- On every device, for any float values, from any memory with zero counters: every weakly fair execution of the
    program terminates with each result at its named function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v158) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v178) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v158).trans (out0_eq _), (h c main_v178).trans (out1_eq _),
      (h c main_arg0).trans (ops_frame _ (by decide) (by decide) (by decide) (by decide) (by decide) (by decide) (by decide) (by decide) (by decide) (by decide) (by decide)),
      (h c main_arg1).trans (ops_frame _ (by decide) (by decide) (by decide) (by decide) (by decide) (by decide) (by decide) (by decide) (by decide) (by decide) (by decide)),
      (h c main_arg2).trans (ops_frame _ (by decide) (by decide) (by decide) (by decide) (by decide) (by decide) (by decide) (by decide) (by decide) (by decide) (by decide)),
      (h c main_arg3).trans (ops_frame _ (by decide) (by decide) (by decide) (by decide) (by decide) (by decide) (by decide) (by decide) (by decide) (by decide) (by decide)),
      (h c main_arg4).trans (ops_frame _ (by decide) (by decide) (by decide) (by decide) (by decide) (by decide) (by decide) (by decide) (by decide) (by decide) (by decide)),
      (h c main_arg5).trans (ops_frame _ (by decide) (by decide) (by decide) (by decide) (by decide) (by decide) (by decide) (by decide) (by decide) (by decide) (by decide)),
      (h c main_arg6).trans (ops_frame _ (by decide) (by decide) (by decide) (by decide) (by decide) (by decide) (by decide) (by decide) (by decide) (by decide) (by decide)),
      (h c main_arg7).trans (ops_frame _ (by decide) (by decide) (by decide) (by decide) (by decide) (by decide) (by decide) (by decide) (by decide) (by decide) (by decide)),
      (h c main_arg8).trans (ops_frame _ (by decide) (by decide) (by decide) (by decide) (by decide) (by decide) (by decide) (by decide) (by decide) (by decide) (by decide)),
      (h c main_arg9).trans (ops_frame _ (by decide) (by decide) (by decide) (by decide) (by decide) (by decide) (by decide) (by decide) (by decide) (by decide) (by decide)),
      (h c main_arg10).trans (ops_frame _ (by decide) (by decide) (by decide) (by decide) (by decide) (by decide) (by decide) (by decide) (by decide) (by decide) (by decide)),
      (h c main_arg11).trans (ops_frame _ (by decide) (by decide) (by decide) (by decide) (by decide) (by decide) (by decide) (by decide) (by decide) (by decide) (by decide)),
      (h c main_arg12).trans (ops_frame _ (by decide) (by decide) (by decide) (by decide) (by decide) (by decide) (by decide) (by decide) (by decide) (by decide) (by decide)),
      (h c main_arg13).trans (ops_frame _ (by decide) (by decide) (by decide) (by decide) (by decide) (by decide) (by decide) (by decide) (by decide) (by decide) (by decide)),
      (h c main_arg14).trans (ops_frame _ (by decide) (by decide) (by decide) (by decide) (by decide) (by decide) (by decide) (by decide) (by decide) (by decide) (by decide)),
      (h c main_arg15).trans (ops_frame _ (by decide) (by decide) (by decide) (by decide) (by decide) (by decide) (by decide) (by decide) (by decide) (by decide) (by decide)),
      (h c main_arg16).trans (ops_frame _ (by decide) (by decide) (by decide) (by decide) (by decide) (by decide) (by decide) (by decide) (by decide) (by decide) (by decide)),
      (h c main_arg17).trans (ops_frame _ (by decide) (by decide) (by decide) (by decide) (by decide) (by decide) (by decide) (by decide) (by decide) (by decide) (by decide)),
      (h c main_arg18).trans (ops_frame _ (by decide) (by decide) (by decide) (by decide) (by decide) (by decide) (by decide) (by decide) (by decide) (by decide) (by decide)),
      (h c main_arg19).trans (ops_frame _ (by decide) (by decide) (by decide) (by decide) (by decide) (by decide) (by decide) (by decide) (by decide) (by decide) (by decide)),
      (h c main_arg20).trans (ops_frame _ (by decide) (by decide) (by decide) (by decide) (by decide) (by decide) (by decide) (by decide) (by decide) (by decide) (by decide)),
      (h c main_arg21).trans (ops_frame _ (by decide) (by decide) (by decide) (by decide) (by decide) (by decide) (by decide) (by decide) (by decide) (by decide) (by decide)),
      (h c main_arg22).trans (ops_frame _ (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

/-- The same run, of the arguments only. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => (h c).2.2) (run m ρ)

end Cert.ReferenceIdeal.RefValue

end
-- ==== Proof.Join.lean ====
/-
  The two programs' shared pieces are the same functions: the index columns, the aggregation, the two pools;
  and the reference's dense part and normalisation are the ones read entry by entry.
-/
import proofs.«164030_j60206851555878_1_alg».proof.Proof.RefTerms
import proofs.«164030_j60206851555878_1_alg».proof.Proof.RefLayer
import proofs.«164030_j60206851555878_1_alg».proof.Proof.RefGlue
import proofs.«164030_j60206851555878_1_alg».proof.Proof.KFoldDefs

noncomputable section

namespace Cert.Bridge

open Idealize.ShloMosaic
open Cert.ReferenceIdeal (RefValue.h2R0 RefValue.h2R1 RefValue.bnR RefValue.aggR0 RefValue.aggR1 RefValue.srcIdx
  RefValue.dstIdx RefValue.pool0 RefValue.pool1 ReadLayer.h2R160 ReadLayer.h2R288 ReadLayer.bnR ReadGlue.aggCore160
  ReadGlue.aggCore288)
open Cert.KernelIdeal (KValue.srcIdx KValue.dstIdx KValue.pool0 KValue.pool1 KValue.agg0 KValue.agg1)

variable [Cert.KernelIdeal.Facts₀] [Cert.ReferenceIdeal.Facts₀]

theorem h2R0_eq (agg : FVec Ideal Cert.ReferenceIdeal.S50000x160 .f32) (w1 : FVec Ideal Cert.ReferenceIdeal.S160x256 .f32)
    (b1 : FVec Ideal Cert.ReferenceIdeal.S256 .f32) (w2 : FVec Ideal Cert.ReferenceIdeal.S256x256 .f32)
    (b2 : FVec Ideal Cert.ReferenceIdeal.S256 .f32) :
    RefValue.h2R0 (F := Ideal) agg w1 b1 w2 b2 = ReadLayer.h2R160 agg w1 b1 w2 b2 := rfl

theorem h2R1_eq (agg : FVec Ideal Cert.ReferenceIdeal.S50000x288 .f32) (w1 : FVec Ideal Cert.ReferenceIdeal.S288x256 .f32)
    (b1 : FVec Ideal Cert.ReferenceIdeal.S256 .f32) (w2 : FVec Ideal Cert.ReferenceIdeal.S256x256 .f32)
    (b2 : FVec Ideal Cert.ReferenceIdeal.S256 .f32) :
    RefValue.h2R1 (F := Ideal) agg w1 b1 w2 b2 = ReadLayer.h2R288 agg w1 b1 w2 b2 := rfl

theorem bnR_eq (h : FVec Ideal Cert.ReferenceIdeal.S50000x256 .f32) (g beta : FVec Ideal Cert.ReferenceIdeal.S256 .f32) :
    RefValue.bnR (F := Ideal) h g beta = ReadLayer.bnR h g beta := rfl

theorem aggR0_eq (x : FVec Ideal Cert.ReferenceIdeal.S50000x128 .f32) (ea : FVec Ideal Cert.ReferenceIdeal.S200000x32 .f32)
    (si di : IVec Cert.ReferenceIdeal.S200000x1 32) :
    RefValue.aggR0 (F := Ideal) x ea si di = ReadGlue.aggCore160 x ea si di := rfl

theorem aggR1_eq (h : FVec Ideal Cert.ReferenceIdeal.S50000x256 .f32) (ea : FVec Ideal Cert.ReferenceIdeal.S200000x32 .f32)
    (si di : IVec Cert.ReferenceIdeal.S200000x1 32) :
    RefValue.aggR1 (F := Ideal) h ea si di = ReadGlue.aggCore288 h ea si di := rfl

theorem srcIdx_eq (ei : IVec Cert.ReferenceIdeal.S2x200000 32) :
    KValue.srcIdx (F := Ideal) ei = RefValue.srcIdx (F := Ideal) ei := rfl

theorem dstIdx_eq (ei : IVec Cert.ReferenceIdeal.S2x200000 32) :
    KValue.dstIdx (F := Ideal) ei = RefValue.dstIdx (F := Ideal) ei := rfl

theorem agg0_eq (x : FVec Ideal Cert.ReferenceIdeal.S50000x128 .f32) (ea : FVec Ideal Cert.ReferenceIdeal.S200000x32 .f32)
    (ei : IVec Cert.ReferenceIdeal.S2x200000 32) :
    KValue.agg0 (F := Ideal) x ea ei = ReadGlue.aggCore160 x ea (KValue.srcIdx (F := Ideal) ei) (KValue.dstIdx (F := Ideal) ei) := rfl

theorem agg1_eq (h : FVec Ideal Cert.ReferenceIdeal.S50000x256 .f32) (ea : FVec Ideal Cert.ReferenceIdeal.S200000x32 .f32)
    (ei : IVec Cert.ReferenceIdeal.S2x200000 32) :
    KValue.agg1 (F := Ideal) h ea ei = ReadGlue.aggCore288 h ea (KValue.srcIdx (F := Ideal) ei) (KValue.dstIdx (F := Ideal) ei) := rfl

theorem pool0_eq (h : FVec Ideal Cert.ReferenceIdeal.S50000x256 .f32) (fb : IVec Cert.ReferenceIdeal.S50000 32) :
    KValue.pool0 (F := Ideal) h fb = RefValue.pool0 (F := Ideal) h fb := rfl

theorem pool1_eq (h : FVec Ideal Cert.ReferenceIdeal.S50000x256 .f32) (gb : IVec Cert.ReferenceIdeal.S50000 32) :
    KValue.pool1 (F := Ideal) h gb = RefValue.pool1 (F := Ideal) h gb := rfl

end Cert.Bridge

end
-- ==== Proof.PreFinite.lean ====
/-
  The precondition read back. It is the conjunction, over the twenty float inputs, of "every entry's
  absolute value is below plus infinity"; an extended real whose absolute value is below plus infinity
  is a real number. So under the precondition every float input is an array of real numbers.
-/
import proofs.«164030_j60206851555878_1_alg».proof.Pre_finite_inputs
import proofs.«164030_j60206851555878_1_alg».proof.Proof.LibArrayFinite
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Decode

open Idealize.ShloMosaic Idealize.ShloMosaic.ValueIdx GineSpec Cert.Pre_finite_inputs

instance : Subsingleton S_.Idx := ⟨fun a b => funext fun d => d.elim0⟩

/-- The all-ones exponent word with zero mantissa denotes plus infinity. -/
theorem ofBits_inf : Ideal.ofBits .f32 0x7F800000#32 = ⊤ := by
  simp [Ideal.ofBits, Ideal.ieee]

/-- An extended real whose absolute value is below plus infinity is a real. -/
theorem isReal_of_abs_lt (x : EReal)
    (h : FloatOps.cmpf (F := Ideal) .olt (FloatOps.hostAbsf x) (FloatOps.ofBits (F := Ideal) .f32 0x7F800000#32) = 1#1) :
    IsReal x := by
  rw [Ideal.cmpf_def, Ideal.hostAbsf_def, Ideal.absf_def, Ideal.ofBits_def, ofBits_inf] at h
  induction x using EReal.rec with
  | bot => simp [Ideal.cmp] at h
  | top => simp [Ideal.cmp] at h
  | coe r => exact ⟨r, rfl⟩

/-- One conjunct of the precondition: all entries of an array are below plus infinity in absolute value. -/
theorem allReal_of_all {s : Shape} {axes : List (Fin s.rank)} (x : FVec Ideal s .f32) (dims : Fin S_.rank → Fin s.rank)
    (hb : S_.BroadcastsInDim s dims) (hr : s.ReducesTo axes S_) (hu : 0 < S_.numel)
    (e : Host.reduce IntOp.andi (cmpf .olt (Host.absf x) (broadcastInDim s dims hb (constant S_ .f32 0x7F800000#32)))
      (constantI S_ 1 1#1) hr hu ix0 = 1#1) : AllReal x := fun i =>
  isReal_of_abs_lt (x i) (Host.reduce_andi_all _ _ hr hu ix0 e i)

/-- Under the precondition every float input is finite. -/
theorem decode [Facts] (a0 : FVec Ideal S50000x128 .f32) (a1 : FVec Ideal S200000x32 .f32) (a2 : IVec S2x200000 32) (a3 : IVec S50000 32) (a4 : IVec S50000 32) (a5 : FVec Ideal S160x256 .f32) (a6 : FVec Ideal S256 .f32) (a7 : FVec Ideal S256x256 .f32) (a8 : FVec Ideal S256 .f32) (a9 : FVec Ideal S256 .f32) (a10 : FVec Ideal S256 .f32) (a11 : FVec Ideal S288x256 .f32) (a12 : FVec Ideal S256 .f32) (a13 : FVec Ideal S256x256 .f32) (a14 : FVec Ideal S256 .f32) (a15 : FVec Ideal S256 .f32) (a16 : FVec Ideal S256 .f32) (a17 : FVec Ideal S288x256 .f32) (a18 : FVec Ideal S256 .f32) (a19 : FVec Ideal S256x256 .f32) (a20 : FVec Ideal S256 .f32) (a21 : FVec Ideal S256 .f32) (a22 : FVec Ideal S256 .f32)
    (h : fn (F := Ideal) a0 a1 a2 a3 a4 a5 a6 a7 a8 a9 a10 a11 a12 a13 a14 a15 a16 a17 a18 a19 a20 a21 a22 = fun _ => 1#1) :
    AllReal a0 ∧ AllReal a1 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  have h0 := congrFun h ix0
  dsimp only [fn, fn_part1, fn_part2, fn_part3, fn_part4, fn_part5, andi] at h0
  simp only [IntOp.andi_eq_one, and_assoc] at h0
  obtain ⟨h0, h1, h5, h6, h7, h8, h9, h10, h11, h12, h13, h14, h15, h16, h17, h18, h19, h20, h21, h22⟩ := h0
  exact ⟨allReal_of_all _ _ _ _ _ h0, allReal_of_all _ _ _ _ _ h1, allReal_of_all _ _ _ _ _ h5, allReal_of_all _ _ _ _ _ h6, allReal_of_all _ _ _ _ _ h7, allReal_of_all _ _ _ _ _ h8, allReal_of_all _ _ _ _ _ h9, allReal_of_all _ _ _ _ _ h10, allReal_of_all _ _ _ _ _ h11, allReal_of_all _ _ _ _ _ h12, allReal_of_all _ _ _ _ _ h13, allReal_of_all _ _ _ _ _ h14, allReal_of_all _ _ _ _ _ h15, allReal_of_all _ _ _ _ _ h16, allReal_of_all _ _ _ _ _ h17, allReal_of_all _ _ _ _ _ h18, allReal_of_all _ _ _ _ _ h19, allReal_of_all _ _ _ _ _ h20, allReal_of_all _ _ _ _ _ h21, allReal_of_all _ _ _ _ _ h22⟩

end Cert.Pre_finite_inputs.Decode

end
-- ==== Proof.lean ====
/-
  A three-layer edge-conditioned graph network followed by two square-root-normalised sum pools, computed by a
  tiled program and by a plain array program; the claim is that at the extended reals both end with the same
  two pooled tables, from equal finite inputs.

  One layer takes node features h (50000 rows). For every edge it gathers the source node's row, appends the
  edge's 32 features and rectifies; the rows are summed into their destination nodes and h itself is added
  into the leading columns: the aggregated features A. The dense part is H = relu (relu (A W1 + b1) W2 + b2),
  a table of 50000 by 256 nonnegative entries. The layer's output is, entry by entry,
      g_j (H_rj − mu_j) (v_j + eps)^(-1/2) + beta_j
  with mu_j the mean of column j of H and v_j its spread.

  The array program computes H by two whole matrix products, mu_j = (∑_r H_rj) / 50000, and the spread as the
  mean of the squared deviations, v_j = (∑_r (H_rj − mu_j)²) / 50000 (behind a guard "50000 − 0 > 0", which
  holds). The tiled program walks 25 tiles of 2000 rows: each tile's rows of H are the same sums over the
  contracted axis, and two accumulators, zeroed at the first tile, collect ∑_r H_rj and ∑_r H_rj²; the host
  then forms mu_j = (∑ H) / 50000 and v_j = (∑ H²) / 50000 − mu_j², and a second pass over the tiles applies the
  affine map. Sums over the extended reals may be regrouped freely, so the accumulated sums are the whole
  column sums. The two spreads agree because (∑ (h − mu)²) / n = (∑ h²) / n − mu² for real numbers h with
  mu = (∑ h) / n; on the extended reals this needs every H_rj finite, which holds when A, the weights and the
  biases are finite. The spread is then a nonnegative real, v_j + eps a positive real, and the output finite —
  which is what the next layer's aggregation needs, since gathering, concatenating, rectifying and adding
  finitely many finite entries keeps entries finite. The precondition says every float input is finite.
  The aggregation and the two pools are the same array operations in both programs, applied to equal tables.

  The three frames: the tiled programs' are the generated ones; the array program's is its run, read back
  operation by operation, with the results dropped. The idealisation rewrote nothing, so its claim is trivial.
-/
import proofs.«164030_j60206851555878_1_alg».proof.Defs
import proofs.«164030_j60206851555878_1_alg».proof.Proof.Gen.Kernel
import proofs.«164030_j60206851555878_1_alg».proof.Proof.Gen.Kernel.Frame
import proofs.«164030_j60206851555878_1_alg».proof.Proof.Gen.KernelIdeal
import proofs.«164030_j60206851555878_1_alg».proof.Proof.Gen.KernelIdeal.Frame
import proofs.«164030_j60206851555878_1_alg».proof.Proof.Gen.ReferenceIdeal
import proofs.«164030_j60206851555878_1_alg».proof.Proof.Gen.Pre_finite_inputs
import proofs.«164030_j60206851555878_1_alg».proof.Proof.KRun
import proofs.«164030_j60206851555878_1_alg».proof.Proof.KResults
import proofs.«164030_j60206851555878_1_alg».proof.Proof.RefRun
import proofs.«164030_j60206851555878_1_alg».proof.Proof.Join
import proofs.«164030_j60206851555878_1_alg».proof.Proof.PreFinite

noncomputable section

namespace Cert.Proof

open Idealize.ShloMosaic Idealize.SL.Sem GineSpec

/-- The word-level tiled program terminates without a fault and leaves its arguments as launched. -/
theorem frame_k : Cert.frame_Kernel := fun m ρ _ => Cert.Kernel.Gen.frame m ρ

/-- So does the tiled program read at the extended reals. -/
theorem frame_ki : Cert.frame_KernelIdeal := fun m ρ _ => Cert.KernelIdeal.Gen.frame m ρ

/-- So does the array program: its run, with the two results dropped. -/
theorem frame_ri : Cert.frame_ReferenceIdeal := fun m ρ _ => Cert.ReferenceIdeal.RefValue.frame (F := Ideal) m ρ

/-- The idealisation rewrote no operation. -/
theorem preserves : Cert.preserves_Kernel_KernelIdeal := trivial

/-- From memories that agree on the arguments, finite by the precondition, the tiled program's two results are
    the two pools of the third layer's output, each layer's output being the array program's by the equality
    of the two spreads on finite tables; the array program's results are the same pools of the same tables. -/
theorem algebraic : Cert.algebraic_KernelIdeal_ReferenceIdeal := by
  intro m ρ m' ρ' hpre hagree
  refine ⟨fun c => Cert.KernelIdeal.Gen.W19 m ρ c (Proc.devRef .tc Cert.KernelIdeal.main_v116),
    fun c => Cert.KernelIdeal.Gen.W19 m ρ c (Proc.devRef .tc Cert.KernelIdeal.main_v136),
    Cert.KernelIdeal.KValue.run_vals (F := Ideal) m ρ, ?_⟩
  refine (θ_run Cert.ReferenceIdeal.defs _ _).mono (fun r h c => ?_) (Cert.ReferenceIdeal.RefValue.run (F := Ideal) m' ρ')
  obtain ⟨e0, e1, e2, e3, e4, e5, e6, e7, e8, e9, e10, e11, e12, e13, e14, e15, e16, e17, e18, e19, e20, e21, e22⟩ := hagree c
  obtain ⟨f0, f1, f5, f6, f7, f8, f9, f10, f11, f12, f13, f14, f15, f16, f17, f18, f19, f20, f21, f22⟩ :=
    Cert.Pre_finite_inputs.Decode.decode _ _ _ _ _ _ _ _ _ _ _ _ _ _ _ _ _ _ _ _ _ _ _ (hpre c)
  obtain ⟨r0, r1⟩ := Cert.Bridge.results m ρ c f0 f1 f5 f6 f7 f8 f9 f10 f11 f12 f13 f14 f15 f16 f17 f18 f19 f20 f21 f22
  refine ⟨(h c).1.trans ?_, (h c).2.1.trans ?_, (h c).2.2⟩
  · rw [e0, e1, e2, e3, e4, e5, e6, e7, e8, e9, e10, e11, e12, e13, e14, e15, e16, e17, e18, e19, e20, e21, e22]
    exact Eq.trans rfl r0.symm
  · rw [e0, e1, e2, e3, e4, e5, e6, e7, e8, e9, e10, e11, e12, e13, e14, e15, e16, e17, e18, e19, e20, e21, e22]
    exact Eq.trans rfl r1.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
